-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x768 : Shape := ⟨2, ![16384, 768]⟩
abbrev S16384x512 : Shape := ⟨2, ![16384, 512]⟩
abbrev S16384x640 : Shape := ⟨2, ![16384, 640]⟩
abbrev S512x1024 : Shape := ⟨2, ![512, 1024]⟩
abbrev S512 : Shape := ⟨1, ![512]⟩
abbrev S512x768 : Shape := ⟨2, ![512, 768]⟩
abbrev S512x512 : Shape := ⟨2, ![512, 512]⟩
abbrev S512x640 : Shape := ⟨2, ![512, 640]⟩
abbrev S16384x4 : Shape := ⟨2, ![16384, 4]⟩
abbrev S256x512 : Shape := ⟨2, ![256, 512]⟩
abbrev S256 : Shape := ⟨1, ![256]⟩
abbrev S256x1028 : Shape := ⟨2, ![256, 1028]⟩
abbrev S1x256 : Shape := ⟨2, ![1, 256]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x640 : S_.BroadcastsInDim S16384x640 (![] : Fin 0 → Fin S16384x640.rank)
  reducesTo_S16384x640_S_d0_1 : S16384x640.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S512x512 : S_.BroadcastsInDim S512x512 (![] : Fin 0 → Fin S512x512.rank)
  reducesTo_S512x512_S_d0_1 : S512x512.ReducesTo [0, 1] S_
  bcast_S_S512x640 : S_.BroadcastsInDim S512x640 (![] : Fin 0 → Fin S512x640.rank)
  reducesTo_S512x640_S_d0_1 : S512x640.ReducesTo [0, 1] S_
  bcast_S_S16384x4 : S_.BroadcastsInDim S16384x4 (![] : Fin 0 → Fin S16384x4.rank)
  reducesTo_S16384x4_S_d0_1 : S16384x4.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x1028 : S_.BroadcastsInDim S256x1028 (![] : Fin 0 → Fin S256x1028.rank)
  reducesTo_S256x1028_S_d0_1 : S256x1028.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S1 .f32) (main_v118 : IVec S_ 1) (main_v119 : FVec F S1x256 .f32) : IVec S_ 1 :=
  let main_cst_46 : FVec F S_ .f32 := constant S_ .f32 0x7F800000#32
  let main_v120 : FVec F S1x256 .f32 := broadcastInDim S1x256 ![] bcast_S_S1x256 main_cst_46
  let main_v121 : IVec S1x256 1 := cmpf .olt main_v119 main_v120
  let main_c_47 : IVec S_ 1 := constantI S_ 1 1#1
  let main_v122 : IVec S_ 1 := (fun x v => Host.reduce IntOp.andi x v reducesTo_S1x256_S_d0_1 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg21 : FVec F S256 .f32) (main_arg22 : FVec F S256x1028 .f32) (main_arg23 : FVec F S256 .f32) (main_arg24 : FVec F S1x256 .f32) (main_arg25 : FVec F S1 .f32) (main_v98 : IVec S_ 1) (main_v101 : IVec S256x512 1) (main_c_39 : IVec S_ 1) : IVec S_ 1 :=
  let main_v102 : IVec S_ 1 := (fun x v => Host.reduce IntOp.andi x v reducesTo_S256x512_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x1028 .f32 := Host.absf main_arg22
  let main_cst_42 : FVec F S_ .f32 := constant S_ .f32 0x7F800000#32
  let main_v110 : FVec F S256x1028 .f32 := broadcastInDim S256x1028 ![] bcast_S_S256x1028 main_cst_42
  let main_v111 : IVec S256x1028 1 := cmpf .olt main_v109 main_v110
  let main_c_43 : IVec S_ 1 := constantI S_ 1 1#1
  let main_v112 : IVec S_ 1 := (fun x v => Host.reduce IntOp.andi x v reducesTo_S256x1028_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S1x256 .f32 := Host.absf main_arg24
  fn_part7 (F := F) main_arg25 main_v118 main_v119

def fn_part5 {F : FTy → Type} [FloatOps F] (main_arg18 : FVec F S256x512 .f32) (main_arg19 : FVec F S256 .f32) (main_arg20 : FVec F S256x512 .f32) (main_arg21 : FVec F S256 .f32) (main_arg22 : FVec F S256x1028 .f32) (main_arg23 : FVec F S256 .f32) (main_arg24 : FVec F S1x256 .f32) (main_arg25 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x512 .f32 := Host.absf main_arg18
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x512 .f32 := Host.absf main_arg20
  let main_cst_38 : FVec F S_ .f32 := constant S_ .f32 0x7F800000#32
  let main_v100 : FVec F S256x512 .f32 := broadcastInDim S256x512 ![] bcast_S_S256x512 main_cst_38
  let main_v101 : IVec S256x512 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S512 .f32) (main_arg15 : FVec F S512 .f32) (main_arg16 : FVec F S256x512 .f32) (main_arg17 : FVec F S256 .f32) (main_arg18 : FVec F S256x512 .f32) (main_arg19 : FVec F S256 .f32) (main_arg20 : FVec F S256x512 .f32) (main_arg21 : FVec F S256 .f32) (main_arg22 : FVec F S256x1028 .f32) (main_arg23 : FVec F S256 .f32) (main_arg24 : FVec F S1x256 .f32) (main_arg25 : FVec F S1 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S256x512 .f32 := Host.absf main_arg16
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S512 .f32) (main_arg12 : FVec F S16384x4 .f32) (main_arg13 : FVec F S16384x4 .f32) (main_arg14 : FVec F S512 .f32) (main_arg15 : FVec F S512 .f32) (main_arg16 : FVec F S256x512 .f32) (main_arg17 : FVec F S256 .f32) (main_arg18 : FVec F S256x512 .f32) (main_arg19 : FVec F S256 .f32) (main_arg20 : FVec F S256x512 .f32) (main_arg21 : FVec F S256 .f32) (main_arg22 : FVec F S256x1028 .f32) (main_arg23 : FVec F S256 .f32) (main_arg24 : FVec F S1x256 .f32) (main_arg25 : FVec F S1 .f32) (main_v48 : IVec S_ 1) (main_v49 : FVec F S512x640 .f32) (main_v50 : FVec F S512x640 .f32) : IVec S_ 1 :=
  let main_v51 : IVec S512x640 1 := cmpf .olt main_v49 main_v50
  let main_c_19 : IVec S_ 1 := constantI S_ 1 1#1
  let main_v52 : IVec S_ 1 := (fun x v => Host.reduce IntOp.andi x v reducesTo_S512x640_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S16384x4 .f32 := Host.absf main_arg12
  let main_cst_22 : FVec F S_ .f32 := constant S_ .f32 0x7F800000#32
  let main_v60 : FVec F S16384x4 .f32 := broadcastInDim S16384x4 ![] bcast_S_S16384x4 main_cst_22
  let main_v61 : IVec S16384x4 1 := cmpf .olt main_v59 main_v60
  let main_c_23 : IVec S_ 1 := constantI S_ 1 1#1
  let main_v62 : IVec S_ 1 := (fun x v => Host.reduce IntOp.andi x v reducesTo_S16384x4_S_d0_1 h_S_) main_v61 main_c_23
  let main_v63 : IVec S_ 1 := andi main_v58 main_v62
  let main_v64 : FVec F S16384x4 .f32 := Host.absf main_arg13
  let main_cst_24 : FVec F S_ .f32 := constant S_ .f32 0x7F800000#32
  let main_v65 : FVec F S16384x4 .f32 := broadcastInDim S16384x4 ![] bcast_S_S16384x4 main_cst_24
  let main_v66 : IVec S16384x4 1 := cmpf .olt main_v64 main_v65
  let main_c_25 : IVec S_ 1 := constantI S_ 1 1#1
  let main_v67 : IVec S_ 1 := (fun x v => Host.reduce IntOp.andi x v reducesTo_S16384x4_S_d0_1 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S512 .f32) (main_arg8 : FVec F S512x512 .f32) (main_arg9 : FVec F S512 .f32) (main_arg10 : FVec F S512x640 .f32) (main_arg11 : FVec F S512 .f32) (main_arg12 : FVec F S16384x4 .f32) (main_arg13 : FVec F S16384x4 .f32) (main_arg14 : FVec F S512 .f32) (main_arg15 : FVec F S512 .f32) (main_arg16 : FVec F S256x512 .f32) (main_arg17 : FVec F S256 .f32) (main_arg18 : FVec F S256x512 .f32) (main_arg19 : FVec F S256 .f32) (main_arg20 : FVec F S256x512 .f32) (main_arg21 : FVec F S256 .f32) (main_arg22 : FVec F S256x1028 .f32) (main_arg23 : FVec F S256 .f32) (main_arg24 : FVec F S1x256 .f32) (main_arg25 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x640 .f32 := Host.absf main_arg10
  let main_cst_18 : FVec F S_ .f32 := constant S_ .f32 0x7F800000#32
  let main_v50 : FVec F S512x640 .f32 := broadcastInDim S512x640 ![] bcast_S_S512x640 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S512x1024 .f32) (main_arg5 : FVec F S512 .f32) (main_arg6 : FVec F S512x768 .f32) (main_arg7 : FVec F S512 .f32) (main_arg8 : FVec F S512x512 .f32) (main_arg9 : FVec F S512 .f32) (main_arg10 : FVec F S512x640 .f32) (main_arg11 : FVec F S512 .f32) (main_arg12 : FVec F S16384x4 .f32) (main_arg13 : FVec F S16384x4 .f32) (main_arg14 : FVec F S512 .f32) (main_arg15 : FVec F S512 .f32) (main_arg16 : FVec F S256x512 .f32) (main_arg17 : FVec F S256 .f32) (main_arg18 : FVec F S256x512 .f32) (main_arg19 : FVec F S256 .f32) (main_arg20 : FVec F S256x512 .f32) (main_arg21 : FVec F S256 .f32) (main_arg22 : FVec F S256x1028 .f32) (main_arg23 : FVec F S256 .f32) (main_arg24 : FVec F S1x256 .f32) (main_arg25 : FVec F S1 .f32) (main_v13 : IVec S_ 1) (main_v16 : IVec S16384x640 1) : IVec S_ 1 :=
  let main_c_5 : IVec S_ 1 := constantI S_ 1 1#1
  let main_v17 : IVec S_ 1 := (fun x v => Host.reduce IntOp.andi x v reducesTo_S16384x640_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x768 .f32 := Host.absf main_arg6
  let main_cst_10 : FVec F S_ .f32 := constant S_ .f32 0x7F800000#32
  let main_v30 : FVec F S512x768 .f32 := broadcastInDim S512x768 ![] bcast_S_S512x768 main_cst_10
  let main_v31 : IVec S512x768 1 := cmpf .olt main_v29 main_v30
  let main_c_11 : IVec S_ 1 := constantI S_ 1 1#1
  let main_v32 : IVec S_ 1 := (fun x v => Host.reduce IntOp.andi x v reducesTo_S512x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16384x1024 .f32) (main_arg1 : FVec F S16384x768 .f32) (main_arg2 : FVec F S16384x512 .f32) (main_arg3 : FVec F S16384x640 .f32) (main_arg4 : FVec F S512x1024 .f32) (main_arg5 : FVec F S512 .f32) (main_arg6 : FVec F S512x768 .f32) (main_arg7 : FVec F S512 .f32) (main_arg8 : FVec F S512x512 .f32) (main_arg9 : FVec F S512 .f32) (main_arg10 : FVec F S512x640 .f32) (main_arg11 : FVec F S512 .f32) (main_arg12 : FVec F S16384x4 .f32) (main_arg13 : FVec F S16384x4 .f32) (main_arg14 : FVec F S512 .f32) (main_arg15 : FVec F S512 .f32) (main_arg16 : FVec F S256x512 .f32) (main_arg17 : FVec F S256 .f32) (main_arg18 : FVec F S256x512 .f32) (main_arg19 : FVec F S256 .f32) (main_arg20 : FVec F S256x512 .f32) (main_arg21 : FVec F S256 .f32) (main_arg22 : FVec F S256x1028 .f32) (main_arg23 : FVec F S256 .f32) (main_arg24 : FVec F S1x256 .f32) (main_arg25 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x640 .f32 := Host.absf main_arg3
  let main_cst_4 : FVec F S_ .f32 := constant S_ .f32 0x7F800000#32
  let main_v15 : FVec F S16384x640 .f32 := broadcastInDim S16384x640 ![] bcast_S_S16384x640 main_cst_4
  let main_v16 : IVec S16384x640 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384x1024 : Shape := ⟨2, ![16384, 1024]⟩
abbrev S16384x768 : Shape := ⟨2, ![16384, 768]⟩
abbrev S16384x512 : Shape := ⟨2, ![16384, 512]⟩
abbrev S16384x640 : Shape := ⟨2, ![16384, 640]⟩
abbrev S512x1024 : Shape := ⟨2, ![512, 1024]⟩
abbrev S512 : Shape := ⟨1, ![512]⟩
abbrev S512x768 : Shape := ⟨2, ![512, 768]⟩
abbrev S512x512 : Shape := ⟨2, ![512, 512]⟩
abbrev S512x640 : Shape := ⟨2, ![512, 640]⟩
abbrev S16384x4 : Shape := ⟨2, ![16384, 4]⟩
abbrev S256x512 : Shape := ⟨2, ![256, 512]⟩
abbrev S256 : Shape := ⟨1, ![256]⟩
abbrev S256x1028 : Shape := ⟨2, ![256, 1028]⟩
abbrev S1x256 : Shape := ⟨2, ![1, 256]⟩
abbrev S1 : Shape := ⟨1, ![1]⟩
abbrev S1024x512 : Shape := ⟨2, ![1024, 512]⟩
abbrev S768x512 : Shape := ⟨2, ![768, 512]⟩
abbrev S640x512 : Shape := ⟨2, ![640, 512]⟩
abbrev S512x256 : Shape := ⟨2, ![512, 256]⟩
abbrev S1028x256 : Shape := ⟨2, ![1028, 256]⟩
abbrev S256x256 : Shape := ⟨2, ![256, 256]⟩
abbrev S4x256 : Shape := ⟨2, ![4, 256]⟩
abbrev S256x1 : Shape := ⟨2, ![256, 1]⟩
abbrev S16384x1 : Shape := ⟨2, ![16384, 1]⟩
abbrev S512x4 : Shape := ⟨2, ![512, 4]⟩
abbrev S512x1 : Shape := ⟨2, ![512, 1]⟩
abbrev S1x512 : Shape := ⟨2, ![1, 512]⟩
abbrev S1x1 : Shape := ⟨2, ![1, 1]⟩

abbrev nBuf : Space → Nat
  | .hbm => 51
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x512, .f32⟩
  | .hbm, ⟨3, _⟩ => ⟨S16384x640, .f32⟩
  | .hbm, ⟨4, _⟩ => ⟨S512x1024, .f32⟩
  | .hbm, ⟨5, _⟩ => ⟨S512, .f32⟩
  | .hbm, ⟨6, _⟩ => ⟨S512x768, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x640, .f32⟩
  | .hbm, ⟨11, _⟩ => ⟨S512, .f32⟩
  | .hbm, ⟨12, _⟩ => ⟨S16384x4, .f32⟩
  | .hbm, ⟨13, _⟩ => ⟨S16384x4, .f32⟩
  | .hbm, ⟨14, _⟩ => ⟨S512, .f32⟩
  | .hbm, ⟨15, _⟩ => ⟨S512, .f32⟩
  | .hbm, ⟨16, _⟩ => ⟨S256x512, .f32⟩
  | .hbm, ⟨17, _⟩ => ⟨S256, .f32⟩
  | .hbm, ⟨18, _⟩ => ⟨S256x512, .f32⟩
  | .hbm, ⟨19, _⟩ => ⟨S256, .f32⟩
  | .hbm, ⟨20, _⟩ => ⟨S256x512, .f32⟩
  | .hbm, ⟨21, _⟩ => ⟨S256, .f32⟩
  | .hbm, ⟨22, _⟩ => ⟨S256x1028, .f32⟩
  | .hbm, ⟨23, _⟩ => ⟨S256, .f32⟩
  | .hbm, ⟨24, _⟩ => ⟨S1x256, .f32⟩
  | .hbm, ⟨25, _⟩ => ⟨S1, .f32⟩
  | .hbm, ⟨26, _⟩ => ⟨S1024x512, .f32⟩
  | .hbm, ⟨27, _⟩ => ⟨S1024x512, .bf16⟩
  | .hbm, ⟨28, _⟩ => ⟨S768x512, .f32⟩
  | .hbm, ⟨29, _⟩ => ⟨S768x512, .bf16⟩
  | .hbm, ⟨30, _⟩ => ⟨S512x512, .f32⟩
  | .hbm, ⟨31, _⟩ => ⟨S512x512, .bf16⟩
  | .hbm, ⟨32, _⟩ => ⟨S640x512, .f32⟩
  | .hbm, ⟨33, _⟩ => ⟨S640x512, .bf16⟩
  | .hbm, ⟨34, _⟩ => ⟨S512x256, .f32⟩
  | .hbm, ⟨35, _⟩ => ⟨S512x256, .bf16⟩
  | .hbm, ⟨36, _⟩ => ⟨S512x256, .f32⟩
  | .hbm, ⟨37, _⟩ => ⟨S512x256, .bf16⟩
  | .hbm, ⟨38, _⟩ => ⟨S1028x256, .f32⟩
  | .hbm, ⟨39, _⟩ => ⟨S256x256, .f32⟩
  | .hbm, ⟨40, _⟩ => ⟨S256x256, .bf16⟩
  | .hbm, ⟨41, _⟩ => ⟨S256x256, .f32⟩
  | .hbm, ⟨42, _⟩ => ⟨S256x256, .bf16⟩
  | .hbm, ⟨43, _⟩ => ⟨S256x256, .f32⟩
  | .hbm, ⟨44, _⟩ => ⟨S256x256, .bf16⟩
  | .hbm, ⟨45, _⟩ => ⟨S256x256, .f32⟩
  | .hbm, ⟨46, _⟩ => ⟨S256x256, .bf16⟩
  | .hbm, ⟨47, _⟩ => ⟨S4x256, .f32⟩
  | .hbm, ⟨48, _⟩ => ⟨S256x1, .f32⟩
  | .hbm, ⟨49, _⟩ => ⟨S256x1, .bf16⟩
  | .hbm, ⟨50, _⟩ => ⟨S16384x1, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S512x640, .f32⟩
  | .local _ .vmem, ⟨7, _⟩ => ⟨S512x640, .f32⟩
  | .local _ .vmem, ⟨8, _⟩ => ⟨S1024x512, .bf16⟩
  | .local _ .vmem, ⟨9, _⟩ => ⟨S768x512, .bf16⟩
  | .local _ .vmem, ⟨10, _⟩ => ⟨S512x512, .bf16⟩
  | .local _ .vmem, ⟨11, _⟩ => ⟨S640x512, .bf16⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512x4, .f32⟩
  | .local _ .vmem, ⟨17, _⟩ => ⟨S512x4, .f32⟩
  | .local _ .vmem, ⟨18, _⟩ => ⟨S512x4, .f32⟩
  | .local _ .vmem, ⟨19, _⟩ => ⟨S512x4, .f32⟩
  | .local _ .vmem, ⟨20, _⟩ => ⟨S512, .f32⟩
  | .local _ .vmem, ⟨21, _⟩ => ⟨S512, .f32⟩
  | .local _ .vmem, ⟨22, _⟩ => ⟨S512x256, .bf16⟩
  | .local _ .vmem, ⟨23, _⟩ => ⟨S256, .f32⟩
  | .local _ .vmem, ⟨24, _⟩ => ⟨S512x256, .bf16⟩
  | .local _ .vmem, ⟨25, _⟩ => ⟨S256, .f32⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S4x256, .f32⟩
  | .local _ .vmem, ⟨31, _⟩ => ⟨S256, .f32⟩
  | .local _ .vmem, ⟨32, _⟩ => ⟨S256x1, .bf16⟩
  | .local _ .vmem, ⟨33, _⟩ => ⟨S1, .f32⟩
  | .local _ .vmem, ⟨34, _⟩ => ⟨S512x1, .f32⟩
  | .local _ .vmem, ⟨35, _⟩ => ⟨S512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg28_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem28_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256x1 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S512x1 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  transposes_S512x1024_S1024x512_1_0 : S512x1024.Transposes [1, 0] S1024x512
  bitsLt_bf16_f32 : FTy.bits .bf16 < FTy.bits .f32
  transposes_S512x768_S768x512_1_0 : S512x768.Transposes [1, 0] S768x512
  transposes_S512x512_S512x512_1_0 : S512x512.Transposes [1, 0] S512x512
  transposes_S512x640_S640x512_1_0 : S512x640.Transposes [1, 0] S640x512
  transposes_S256x512_S512x256_1_0 : S256x512.Transposes [1, 0] S512x256
  transposes_S256x1028_S1028x256_1_0 : S256x1028.Transposes [1, 0] S1028x256
  slices_S1028x256_S256x256_0_0 : S1028x256.Slices ![0, 0] S256x256
  slices_S1028x256_S256x256_256_0 : S1028x256.Slices ![256, 0] S256x256
  slices_S1028x256_S256x256_512_0 : S1028x256.Slices ![512, 0] S256x256
  slices_S1028x256_S256x256_768_0 : S1028x256.Slices ![768, 0] S256x256
  slices_S1028x256_S4x256_1024_0 : S1028x256.Slices ![1024, 0] S4x256
  transposes_S1x256_S256x1_1_0 : S1x256.Transposes [1, 0] S256x1
  inb_S512_S512_0 : ∀ a, (![0] : Fin 1 → Nat) a + S512.size a ≤ S512.size a
  h_S512 : 0 < S512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  shapeCasts_S256_S1x256 : S256.ShapeCasts S1x256
  broadcasts_S1x256_S512x256 : S1x256.Broadcasts S512x256
  inb_S512x768_S512x768_0_0 : ∀ a, (![0, 0] : Fin 2 → Nat) a + S512x768.size a ≤ S512x768.size a
  h_S512x768 : 0 < S512x768.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x640_S512x640_0_0 : ∀ a, (![0, 0] : Fin 2 → Nat) a + S512x640.size a ≤ S512x640.size a
  h_S512x640 : 0 < S512x640.numel
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S512x4_S512x4_0_0 : ∀ a, (![0, 0] : Fin 2 → Nat) a + S512x4.size a ≤ S512x4.size a
  h_S512x4 : 0 < S512x4.numel
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  reduces_S512x256_S512 : S512x256.Reduces [1] S512
  broadcasts_S512x1_S512x256 : S512x1.Broadcasts S512x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  slices_S4x256_o0_0_S1x256 : S4x256.Slices ![0, 0] S1x256
  slices_S4x256_o1_0_S1x256 : S4x256.Slices ![1, 0] S1x256
  slices_S4x256_o2_0_S1x256 : S4x256.Slices ![2, 0] S1x256
  slices_S4x256_o3_0_S1x256 : S4x256.Slices ![3, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  dot_S512x768_S768x512_S512x512_1_0_0_1_n_n_wf : DotDims.WF S512x768 S768x512 S512x512 [1] [0] [0] [1] [] []
  dot_S512x512_S512x512_S512x512_1_0_0_1_n_n_wf : DotDims.WF S512x512 S512x512 S512x512 [1] [0] [0] [1] [] []
  dot_S512x640_S640x512_S512x512_1_0_0_1_n_n_wf : DotDims.WF S512x640 S640x512 S512x512 [1] [0] [0] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S16384x768.size a
  hwx0_1 : ∀ i : grid0.Coords, EltTy.bits .f32 = 32 ∨ (Rect.block (s := S16384x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S16384x640.size a
  hwx0_3 : ∀ i : grid0.Coords, EltTy.bits .f32 = 32 ∨ (Rect.block (s := S16384x640) S512x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .bf16 = 32 ∨ (Rect.block (s := S768x512) S768x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S640x512.size a ≤ S640x512.size a
  hwx0_7 : ∀ i : grid0.Coords, EltTy.bits .bf16 = 32 ∨ (Rect.block (s := S640x512) S640x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x4.size a ≤ S16384x4.size a
  hwx0_12 : ∀ i : grid0.Coords, EltTy.bits .f32 = 32 ∨ (Rect.block (s := S16384x4) S512x4.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x4.size a ≤ S16384x4.size a
  hwx0_13 : ∀ i : grid0.Coords, EltTy.bits .f32 = 32 ∨ (Rect.block (s := S16384x4) S512x4.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S512x256.size a
  hwx0_16 : ∀ i : grid0.Coords, EltTy.bits .bf16 = 32 ∨ (Rect.block (s := S512x256) S512x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x256.size a ≤ S512x256.size a
  hwx0_18 : ∀ i : grid0.Coords, EltTy.bits .bf16 = 32 ∨ (Rect.block (s := S512x256) S512x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x256.size a ≤ S256x256.size a
  hwx0_20 : ∀ i : grid0.Coords, EltTy.bits .bf16 = 32 ∨ (Rect.block (s := S256x256) S256x256.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x256.size a ≤ S256x256.size a
  hwx0_22 : ∀ i : grid0.Coords, EltTy.bits .bf16 = 32 ∨ (Rect.block (s := S256x256) S256x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .bf16 = 32 ∨ (Rect.block (s := S256x256) S256x256.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S4x256.size a ≤ S4x256.size a
  hwx0_24 : ∀ i : grid0.Coords, EltTy.bits .f32 = 32 ∨ (Rect.block (s := S4x256) S4x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256.size a ≤ S256.size a
  hwx0_25 : ∀ i : grid0.Coords, EltTy.bits .f32 = 32 ∨ (Rect.block (s := S256) S256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S256x1.size a ≤ S256x1.size a
  hwx0_26 : ∀ i : grid0.Coords, EltTy.bits .bf16 = 32 ∨ (Rect.block (s := S256x1) S256x1.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1.size a ≤ S1.size a
  hwx0_27 : ∀ i : grid0.Coords, EltTy.bits .f32 = 32 ∨ (Rect.block (s := S1) S1.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S512x1.size a ≤ S16384x1.size a
  hwx0_28 : ∀ i : grid0.Coords, EltTy.bits .f32 = 32 ∨ (Rect.block (s := S16384x1) S512x1.size (cc0_transform_28 i) (hinb0_28 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x640_S640x512_S512x512_1_0_0_1_n_n : DotDims S512x640 S640x512 S512x512 where
  lhsContracting := [1]
  rhsContracting := [0]
  lhsNonContracting := [0]
  rhsNonContracting := [1]
  lhsBatch := []
  rhsBatch := []
  wf := dot_S512x640_S640x512_S512x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S640x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x4.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x4.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S512x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S512x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg21) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v14) S256x256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v18) S256x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v20) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v21) S4x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg23) S256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v23) S256x1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg25) S1.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v24) S512x1.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x768 : Shape := ⟨2, ![16384, 768]⟩
abbrev S16384x512 : Shape := ⟨2, ![16384, 512]⟩
abbrev S16384x640 : Shape := ⟨2, ![16384, 640]⟩
abbrev S512x1024 : Shape := ⟨2, ![512, 1024]⟩
abbrev S512 : Shape := ⟨1, ![512]⟩
abbrev S512x768 : Shape := ⟨2, ![512, 768]⟩
abbrev S512x512 : Shape := ⟨2, ![512, 512]⟩
abbrev S512x640 : Shape := ⟨2, ![512, 640]⟩
abbrev S16384x4 : Shape := ⟨2, ![16384, 4]⟩
abbrev S256x512 : Shape := ⟨2, ![256, 512]⟩
abbrev S256 : Shape := ⟨1, ![256]⟩
abbrev S256x1028 : Shape := ⟨2, ![256, 1028]⟩
abbrev S1x256 : Shape := ⟨2, ![1, 256]⟩
abbrev S1 : Shape := ⟨1, ![1]⟩
abbrev S1024x512 : Shape := ⟨2, ![1024, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S768x512 : Shape := ⟨2, ![768, 512]⟩
abbrev S640x512 : Shape := ⟨2, ![640, 512]⟩
abbrev S16384x1x512 : Shape := ⟨3, ![16384, 1, 512]⟩
abbrev S16384x4x512 : Shape := ⟨3, ![16384, 4, 512]⟩
abbrev S16384x4x256 : Shape := ⟨3, ![16384, 4, 256]⟩
abbrev S1x1x256 : Shape := ⟨3, ![1, 1, 256]⟩
abbrev S16384x4x4 : Shape := ⟨3, ![16384, 4, 4]⟩
abbrev S16384x1x4 : Shape := ⟨3, ![16384, 1, 4]⟩
abbrev S16384x4x1 : Shape := ⟨3, ![16384, 4, 1]⟩
abbrev S16384x1028 : Shape := ⟨2, ![16384, 1028]⟩
abbrev S1028x256 : Shape := ⟨2, ![1028, 256]⟩
abbrev S16384x256 : Shape := ⟨2, ![16384, 256]⟩
abbrev S256x1 : Shape := ⟨2, ![256, 1]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S16384x1024, .f32⟩
  | 1 => ⟨S16384x768, .f32⟩
  | 2 => ⟨S16384x512, .f32⟩
  | 3 => ⟨S16384x640, .f32⟩
  | 4 => ⟨S512x1024, .f32⟩
  | 5 => ⟨S512, .f32⟩
  | 6 => ⟨S512x768, .f32⟩
  | 7 => ⟨S512, .f32⟩
  | 8 => ⟨S512x512, .f32⟩
  | 9 => ⟨S512, .f32⟩
  | 10 => ⟨S512x640, .f32⟩
  | 11 => ⟨S512, .f32⟩
  | 12 => ⟨S16384x4, .f32⟩
  | 13 => ⟨S16384x4, .f32⟩
  | 14 => ⟨S512, .f32⟩
  | 15 => ⟨S512, .f32⟩
  | 16 => ⟨S256x512, .f32⟩
  | 17 => ⟨S256, .f32⟩
  | 18 => ⟨S256x512, .f32⟩
  | 19 => ⟨S256, .f32⟩
  | 20 => ⟨S256x512, .f32⟩
  | 21 => ⟨S256, .f32⟩
  | 22 => ⟨S256x1028, .f32⟩
  | 23 => ⟨S256, .f32⟩
  | 24 => ⟨S1x256, .f32⟩
  | 25 => ⟨S1, .f32⟩
  | 26 => ⟨S1024x512, .f32⟩
  | 27 => ⟨S16384x512, .f32⟩
  | 28 => ⟨S1x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S16384x512, .f32⟩
  | 44 => ⟨S16384x512, .f32⟩
  | 45 => ⟨S16384x512, .f32⟩
  | 46 => ⟨S_, .f32⟩
  | 47 => ⟨S16384, .f32⟩
  | 48 => ⟨S16384x1, .f32⟩
  | 49 => ⟨S_, .f32⟩
  | 50 => ⟨S16384x1, .f32⟩
  | 51 => ⟨S16384x1, .f32⟩
  | 52 => ⟨S16384x512, .f32⟩
  | 53 => ⟨S16384x512, .f32⟩
  | 54 => ⟨S_, .f32⟩
  | 55 => ⟨S16384x1, .f32⟩
  | 56 => ⟨S16384x1, .f32⟩
  | 57 => ⟨S16384x1, .f32⟩
  | 58 => ⟨S16384x512, .f32⟩
  | 59 => ⟨S16384x512, .f32⟩
  | 60 => ⟨S1x512, .f32⟩
  | 61 => ⟨S16384x512, .f32⟩
  | 62 => ⟨S16384x512, .f32⟩
  | 63 => ⟨S1x512, .f32⟩
  | 64 => ⟨S16384x512, .f32⟩
  | 65 => ⟨S16384x512, .f32⟩
  | 66 => ⟨S768x512, .f32⟩
  | 67 => ⟨S16384x512, .f32⟩
  | 68 => ⟨S1x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x512, .f32⟩
  | 84 => ⟨S16384x512, .f32⟩
  | 85 => ⟨S16384x512, .f32⟩
  | 86 => ⟨S_, .f32⟩
  | 87 => ⟨S16384, .f32⟩
  | 88 => ⟨S16384x1, .f32⟩
  | 89 => ⟨S_, .f32⟩
  | 90 => ⟨S16384x1, .f32⟩
  | 91 => ⟨S16384x1, .f32⟩
  | 92 => ⟨S16384x512, .f32⟩
  | 93 => ⟨S16384x512, .f32⟩
  | 94 => ⟨S_, .f32⟩
  | 95 => ⟨S16384x1, .f32⟩
  | 96 => ⟨S16384x1, .f32⟩
  | 97 => ⟨S16384x1, .f32⟩
  | 98 => ⟨S16384x512, .f32⟩
  | 99 => ⟨S16384x512, .f32⟩
  | 100 => ⟨S1x512, .f32⟩
  | 101 => ⟨S16384x512, .f32⟩
  | 102 => ⟨S16384x512, .f32⟩
  | 103 => ⟨S1x512, .f32⟩
  | 104 => ⟨S16384x512, .f32⟩
  | 105 => ⟨S16384x512, .f32⟩
  | 106 => ⟨S512x512, .f32⟩
  | 107 => ⟨S16384x512, .f32⟩
  | 108 => ⟨S1x512, .f32⟩
  | 109 => ⟨S16384x512, .f32⟩
  | 110 => ⟨S16384x512, .f32⟩
  | 111 => ⟨S_, .f32⟩
  | 112 => ⟨S16384x512, .f32⟩
  | 113 => ⟨S16384x512, .f32⟩
  | 114 => ⟨S_, .f32⟩
  | 115 => ⟨S16384x512, .f32⟩
  | 116 => ⟨S16384x512, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S16384x512, .f32⟩
  | 124 => ⟨S16384x512, .f32⟩
  | 125 => ⟨S16384x512, .f32⟩
  | 126 => ⟨S_, .f32⟩
  | 127 => ⟨S16384, .f32⟩
  | _ => ⟨S16384x1024, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x512, .f32⟩
  | 5 => ⟨S16384x512, .f32⟩
  | 6 => ⟨S_, .f32⟩
  | 7 => ⟨S16384x1, .f32⟩
  | 8 => ⟨S16384x1, .f32⟩
  | 9 => ⟨S16384x1, .f32⟩
  | 10 => ⟨S16384x512, .f32⟩
  | 11 => ⟨S16384x512, .f32⟩
  | 12 => ⟨S1x512, .f32⟩
  | 13 => ⟨S16384x512, .f32⟩
  | 14 => ⟨S16384x512, .f32⟩
  | 15 => ⟨S1x512, .f32⟩
  | 16 => ⟨S16384x512, .f32⟩
  | 17 => ⟨S16384x512, .f32⟩
  | 18 => ⟨S640x512, .f32⟩
  | 19 => ⟨S16384x512, .f32⟩
  | 20 => ⟨S1x512, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x512, .f32⟩
  | 36 => ⟨S16384x512, .f32⟩
  | 37 => ⟨S16384x512, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S16384x512, .f32⟩
  | 45 => ⟨S16384x512, .f32⟩
  | 46 => ⟨S_, .f32⟩
  | 47 => ⟨S16384x1, .f32⟩
  | 48 => ⟨S16384x1, .f32⟩
  | 49 => ⟨S16384x1, .f32⟩
  | 50 => ⟨S16384x512, .f32⟩
  | 51 => ⟨S16384x512, .f32⟩
  | 52 => ⟨S1x512, .f32⟩
  | 53 => ⟨S16384x512, .f32⟩
  | 54 => ⟨S16384x512, .f32⟩
  | 55 => ⟨S1x512, .f32⟩
  | 56 => ⟨S16384x512, .f32⟩
  | 57 => ⟨S16384x512, .f32⟩
  | 58 => ⟨S16384x1x512, .f32⟩
  | 59 => ⟨S16384x1x512, .f32⟩
  | 60 => ⟨S16384x1x512, .f32⟩
  | 61 => ⟨S16384x1x512, .f32⟩
  | 62 => ⟨S16384x4x512, .f32⟩
  | 63 => ⟨S16384x4x256, .f32⟩
  | 64 => ⟨S1x1x256, .f32⟩
  | 65 => ⟨S16384x4x256, .f32⟩
  | 66 => ⟨S16384x4x256, .f32⟩
  | 67 => ⟨S16384x4x256, .f32⟩
  | 68 => ⟨S1x1x256, .f32⟩
  | 69 => ⟨S16384x4x256, .f32⟩
  | 70 => ⟨S16384x4x256, .f32⟩
  | 71 => ⟨S16384x4x4, .f32⟩
  | 72 => ⟨S16384x1x4, .f32⟩
  | 73 => ⟨S16384x4x1, .f32⟩
  | 74 => ⟨S16384x4x4, .f32⟩
  | 75 => ⟨S16384x4x4, .f32⟩
  | 76 => ⟨S16384x4x4, .f32⟩
  | 77 => ⟨S_, .f32⟩
  | 78 => ⟨S16384x4x4, .f32⟩
  | 79 => ⟨S16384x4x4, .f32⟩
  | 80 => ⟨S16384x4x4, .f32⟩
  | 81 => ⟨S_, .f32⟩
  | 82 => ⟨S16384x4, .f32⟩
  | 83 => ⟨S_, .f32⟩
  | 84 => ⟨S16384x4, .f32⟩
  | 85 => ⟨S16384x4, .f32⟩
  | 86 => ⟨S16384x4x1, .f32⟩
  | 87 => ⟨S16384x4x4, .f32⟩
  | 88 => ⟨S16384x4x4, .f32⟩
  | 89 => ⟨S16384x4x4, .f32⟩
  | 90 => ⟨S_, .f32⟩
  | 91 => ⟨S16384x4, .f32⟩
  | 92 => ⟨S16384x4x1, .f32⟩
  | 93 => ⟨S16384x4x4, .f32⟩
  | 94 => ⟨S16384x4x4, .f32⟩
  | 95 => ⟨S16384x4x256, .f32⟩
  | 96 => ⟨S16384x1024, .f32⟩
  | 97 => ⟨S16384x1028, .f32⟩
  | 98 => ⟨S1028x256, .f32⟩
  | 99 => ⟨S16384x256, .f32⟩
  | 100 => ⟨S1x256, .f32⟩
  | 101 => ⟨S16384x256, .f32⟩
  | 102 => ⟨S16384x256, .f32⟩
  | 103 => ⟨S256x1, .f32⟩
  | 104 => ⟨S16384x1, .f32⟩
  | 105 => ⟨S1x1, .f32⟩
  | 106 => ⟨S16384x1, .f32⟩
  | 107 => ⟨S16384x1, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S_, .f32⟩
  | 114 => ⟨S16384x1, .f32⟩
  | 115 => ⟨S16384x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call0_cst : Ref sig .tc := ⟨.hbm, 31, rfl⟩
abbrev main_call0_v0 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_cst_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_3 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call2_cst : Ref sig .tc := ⟨.hbm, 71, rfl⟩
abbrev main_call2_v0 : Ref sig .tc := ⟨.hbm, 72, rfl⟩
abbrev main_v36 : Ref sig .tc := ⟨.hbm, 73, rfl⟩
abbrev main_call3_cst : Ref sig .tc := ⟨.hbm, 74, rfl⟩
abbrev main_call3_v0 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩
abbrev main_v39 : Ref sig .tc := ⟨.hbm, 79, rfl⟩
abbrev main_cst_5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_6 : Ref sig .tc := ⟨.hbm, 86, rfl⟩
abbrev main_v45 : Ref sig .tc := ⟨.hbm, 87, rfl⟩
abbrev main_v46 : Ref sig .tc := ⟨.hbm, 88, rfl⟩
abbrev main_cst_7 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_8 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_call4_cst : Ref sig .tc := ⟨.hbm, 111, rfl⟩
abbrev main_call4_v0 : Ref sig .tc := ⟨.hbm, 112, rfl⟩
abbrev main_v67 : Ref sig .tc := ⟨.hbm, 113, rfl⟩
abbrev main_call5_cst : Ref sig .tc := ⟨.hbm, 114, rfl⟩
abbrev main_call5_v0 : Ref sig .tc := ⟨.hbm, 115, rfl⟩
abbrev main_v68 : Ref sig .tc := ⟨.hbm, 116, rfl⟩
abbrev main_cst_9 : Ref sig .tc := ⟨.hbm, 117, rfl⟩
abbrev main_v69 : Ref sig .tc := ⟨.hbm, 118, rfl⟩
abbrev main_v70 : Ref sig .tc := ⟨.hbm, 119, rfl⟩
abbrev main_cst_10 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_11 : Ref sig .tc := ⟨.hbm, 126, rfl⟩
abbrev main_v76 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_13 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_call6_cst : Ref sig .tc := ⟨.hbm, 151, rfl⟩
abbrev main_call6_v0 : Ref sig .tc := ⟨.hbm, 152, rfl⟩
abbrev main_v98 : Ref sig .tc := ⟨.hbm, 153, rfl⟩
abbrev main_call7_cst : Ref sig .tc := ⟨.hbm, 154, rfl⟩
abbrev main_call7_v0 : Ref sig .tc := ⟨.hbm, 155, rfl⟩
abbrev main_v99 : Ref sig .tc := ⟨.hbm, 156, rfl⟩
abbrev main_cst_14 : Ref sig .tc := ⟨.hbm, 157, rfl⟩
abbrev main_v100 : Ref sig .tc := ⟨.hbm, 158, rfl⟩
abbrev main_v101 : Ref sig .tc := ⟨.hbm, 159, rfl⟩
abbrev main_cst_15 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_16 : Ref sig .tc := ⟨.hbm, 166, rfl⟩
abbrev main_v107 : Ref sig .tc := ⟨.hbm, 167, rfl⟩
abbrev main_v108 : Ref sig .tc := ⟨.hbm, 168, rfl⟩
abbrev main_cst_17 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_18 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_19 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_20 : Ref sig .tc := ⟨.hbm, 209, rfl⟩
abbrev main_v146 : Ref sig .tc := ⟨.hbm, 210, rfl⟩
abbrev main_cst_21 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_cst_22 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_23 : Ref sig .tc := ⟨.hbm, 238, rfl⟩
abbrev main_v172 : Ref sig .tc := ⟨.hbm, 239, rfl⟩
abbrev main_v173 : Ref sig .tc := ⟨.hbm, 240, rfl⟩
abbrev main_cst_24 : Ref sig .tc := ⟨.hbm, 241, rfl⟩
abbrev main_v174 : Ref sig .tc := ⟨.hbm, 242, rfl⟩
abbrev main_v175 : Ref sig .tc := ⟨.hbm, 243, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  transposes_S512x768_S768x512_1_0 : S512x768.Transposes [1, 0] S768x512
  transposes_S512x512_S512x512_1_0 : S512x512.Transposes [1, 0] S512x512
  transposes_S512x640_S640x512_1_0 : S512x640.Transposes [1, 0] S640x512
  bcast_S16384x512_S16384x1x512_0_2 : S16384x512.BroadcastsInDim S16384x1x512 (![0, 2] : Fin 2 → Fin S16384x1x512.rank)
  concatenates_S16384x1x512_S16384x1x512_S16384x1x512_S16384x1x512_S16384x4x512_d1 : Shape.Concatenates [S16384x1x512, S16384x1x512, S16384x1x512, S16384x1x512] S16384x4x512 1
  bcast_S256_S1x1x256_2 : S256.BroadcastsInDim S1x1x256 (![2] : Fin 1 → Fin S1x1x256.rank)
  bcast_S1x1x256_S16384x4x256_0_1_2 : S1x1x256.BroadcastsInDim S16384x4x256 (![0, 1, 2] : Fin 3 → Fin S16384x4x256.rank)
  bcast_S16384x4_S16384x1x4_0_2 : S16384x4.BroadcastsInDim S16384x1x4 (![0, 2] : Fin 2 → Fin S16384x1x4.rank)
  bcast_S16384x4_S16384x4x1_0_1 : S16384x4.BroadcastsInDim S16384x4x1 (![0, 1] : Fin 2 → Fin S16384x4x1.rank)
  bcast_S16384x1x4_S16384x4x4_0_1_2 : S16384x1x4.BroadcastsInDim S16384x4x4 (![0, 1, 2] : Fin 3 → Fin S16384x4x4.rank)
  bcast_S16384x4x1_S16384x4x4_0_1_2 : S16384x4x1.BroadcastsInDim S16384x4x4 (![0, 1, 2] : Fin 3 → Fin S16384x4x4.rank)
  bcast_S_S16384x4x4 : S_.BroadcastsInDim S16384x4x4 (![] : Fin 0 → Fin S16384x4x4.rank)
  reducesTo_S16384x4x4_S16384x4_d2 : S16384x4x4.ReducesTo [2] S16384x4
  bcast_S_S16384x4 : S_.BroadcastsInDim S16384x4 (![] : Fin 0 → Fin S16384x4.rank)
  shapeCasts_S16384x4x256_S16384x1024 : S16384x4x256.ShapeCasts S16384x1024
  concatenates_S16384x1024_S16384x4_S16384x1028_d1 : Shape.Concatenates [S16384x1024, S16384x4] S16384x1028 1
  transposes_S256x1028_S1028x256_1_0 : S256x1028.Transposes [1, 0] S1028x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x1024_S1024x512_S16384x512_1_0_0_1_n_n_wf : DotDims.WF S16384x1024 S1024x512 S16384x512 [1] [0] [0] [1] [] []
  dot_S16384x768_S768x512_S16384x512_1_0_0_1_n_n_wf : DotDims.WF S16384x768 S768x512 S16384x512 [1] [0] [0] [1] [] []
  dot_S16384x512_S512x512_S16384x512_1_0_0_1_n_n_wf : DotDims.WF S16384x512 S512x512 S16384x512 [1] [0] [0] [1] [] []
  dot_S16384x640_S640x512_S16384x512_1_0_0_1_n_n_wf : DotDims.WF S16384x640 S640x512 S16384x512 [1] [0] [0] [1] [] []
  dot_S16384x4x512_S256x512_S16384x4x256_2_1_01_0_n_n_wf : DotDims.WF S16384x4x512 S256x512 S16384x4x256 [2] [1] [0, 1] [0] [] []
  dot_S16384x4x256_S16384x4x256_S16384x4x4_2_2_1_1_0_0_wf : DotDims.WF S16384x4x256 S16384x4x256 S16384x4x4 [2] [2] [1] [1] [0] [0]
  dot_S16384x4x4_S16384x4x256_S16384x4x256_2_1_1_2_0_0_wf : DotDims.WF S16384x4x4 S16384x4x256 S16384x4x256 [2] [1] [1] [2] [0] [0]
  dot_S16384x1028_S1028x256_S16384x256_1_0_0_1_n_n_wf : DotDims.WF S16384x1028 S1028x256 S16384x256 [1] [0] [0] [1] [] []
  dot_S16384x256_S256x1_S16384x1_1_0_0_1_n_n_wf : DotDims.WF S16384x256 S256x1 S16384x1 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x640_S640x512_S16384x512_1_0_0_1_n_n : DotDims S16384x640 S640x512 S16384x512 where
  lhsContracting := [1]
  rhsContracting := [0]
  lhsNonContracting := [0]
  rhsNonContracting := [1]
  lhsBatch := []
  rhsBatch := []
  wf := dot_S16384x640_S640x512_S16384x512_1_0_0_1_n_n_wf
def dot_S16384x4x512_S256x512_S16384x4x256_2_1_01_0_n_n : DotDims S16384x4x512 S256x512 S16384x4x256 where
  lhsContracting := [2]
  rhsContracting := [1]
  lhsNonContracting := [0, 1]
  rhsNonContracting := [0]
  lhsBatch := []
  rhsBatch := []
  wf := dot_S16384x4x512_S256x512_S16384x4x256_2_1_01_0_n_n_wf
def dot_S16384x4x256_S16384x4x256_S16384x4x4_2_2_1_1_0_0 : DotDims S16384x4x256 S16384x4x256 S16384x4x4 where
  lhsContracting := [2]
  rhsContracting := [2]
  lhsNonContracting := [1]
  rhsNonContracting := [1]
  lhsBatch := [0]
  rhsBatch := [0]
  wf := dot_S16384x4x256_S16384x4x256_S16384x4x4_2_2_1_1_0_0_wf
def dot_S16384x4x4_S16384x4x256_S16384x4x256_2_1_1_2_0_0 : DotDims S16384x4x4 S16384x4x256 S16384x4x256 where
  lhsContracting := [2]
  rhsContracting := [1]
  lhsNonContracting := [1]
  rhsNonContracting := [2]
  lhsBatch := [0]
  rhsBatch := [0]
  wf := dot_S16384x4x4_S16384x4x256_S16384x4x256_2_1_1_2_0_0_wf
def dot_S16384x1028_S1028x256_S16384x256_1_0_0_1_n_n : DotDims S16384x1028 S1028x256 S16384x256 where
  lhsContracting := [1]
  rhsContracting := [0]
  lhsNonContracting := [0]
  rhsNonContracting := [1]
  lhsBatch := []
  rhsBatch := []
  wf := dot_S16384x1028_S1028x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.RefRun.lean ====
/-
  The reference program's run, evaluated stage by stage. Its list of host operations is cut into twenty consecutive
  segments, each ending at a buffer that later operations read (the four rectified dense layers and the four
  normalised hidden arrays, their stack, the queries, the values, the scores, their row maximum, the shifted
  exponentials, the softmax weights, the attended vectors, the joined vector, the wide layer, the last layer, the
  result). A segment reads only the argument arrays and the final buffers of earlier segments, so its final buffer is
  the corresponding stage function of the arguments as soon as those buffers are; a buffer no operation of a segment
  writes is carried across it unchanged. Chaining the twenty segments gives the result buffer after the whole list.
-/
import proofs.«156941_j27530740367911_2_alg».proof.Proof.RefRunP
import proofs.«156941_j27530740367911_2_alg».proof.Proof.RefReadP

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The contents after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- An operation that writes one of the listed references writes inside the list. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The segments -/

abbrev seg0 : List (HloOp τ sig (Elt F)) :=
  [ unary main_arg4 main_v0 ((transpose S1024x512 [1, 0] · transposes_S512x1024_S1024x512_1_0) : (⟨S512x1024, .f32⟩ : BufTy).Contents (Elt F) → (⟨S1024x512, .f32⟩ : BufTy).Contents (Elt F)),
    binary main_arg0 main_v0 main_v1 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg5 main_v2 (broadcastInDim S1x512 ![1] bcast_S512_S1x512_1 : (⟨S512, .f32⟩ : BufTy).Contents (Elt F) → (⟨S1x512, .f32⟩ : BufTy).Contents (Elt F)),
    unary main_v2 main_v3 (broadcastInDim S16384x512 ![0, 1] bcast_S1x512_S16384x512_0_1 : (⟨S1x512, .f32⟩ : BufTy).Contents (Elt F) → (⟨S16384x512, .f32⟩ : BufTy).Contents (Elt F)),
    binary main_v1 main_v3 main_v4 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v4) (TRef.of (T := ⟨S16384x512, .f32⟩) main_call0_v0) (TRef.of (T := ⟨S16384x512, .f32⟩) main_v5) maximumf,
    TRef.nullary (TRef.of (T := ⟨S_, .f32⟩) main_call1_cst) (constant S_ .f32 0x00000000#32),
    TRef.unary (TRef.of (T := ⟨S_, .f32⟩) main_call1_cst) (TRef.of (T := ⟨S16384x512, .f32⟩) main_call1_v0) (broadcastInDim S16384x512 ![] bcast_S_S16384x512),
    TRef.binary (TRef.of (T := ⟨S16384x512, .f32⟩) main_v5) (TRef.of (T := ⟨S16384x512, .f32⟩) main_call1_v0) (TRef.of (T := ⟨S16384x512, .f32⟩) main_v6) maximumf ]

abbrev W0 : List (Ref sig .tc) := [main_v0, main_v1, main_v2, main_v3, main_v4, main_call0_cst, main_call0_v0, main_v5, main_call1_cst, main_call1_v0, main_v6]

theorem hW0 : (seg0 (F := F)).Forall fun op => op.writes ⊆ ((W0).map (Proc.devRef (τ := τ) .tc)).toFinset :=
  ⟨wsub (y := main_v0) (by decide), wsub (y := main_v1) (by decide), wsub (y := main_v2) (by decide), wsub (y := main_v3) (by decide), wsub (y := main_v4) (by decide), wsub (y := main_call0_cst) (by decide), wsub (y := main_call0_v0) (by decide), wsub (y := main_v5) (by decide), wsub (y := main_call1_cst) (by decide), wsub (y := main_call1_v0) (by decide), wsub (y := main_v6) (by decide)⟩

/-- A reference segment 0 does not write keeps its contents across it. -/
theorem keep0 (V : Valuation τ sig (Elt F)) (r : Ref sig .tc) (hr : r ∉ W0) :
    after (seg0 (F := F)) V (Proc.devRef .tc r) = V (Proc.devRef .tc r) :=
  after_of_writes_sub _ V hW0 hr

abbrev seg1 : List (HloOp τ sig (Elt F)) :=
  [ nullary main_cst (constant S_ .f32 0x00000000#32),
    binary main_v6 main_cst main_v7 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44000000#32),
    unary main_cst_0 main_v9 (broadcastInDim S16384x1 ![] bcast_S_S16384x1 : (⟨S_, .f32⟩ : BufTy).Contents (Elt F) → (⟨S16384x1, .f32⟩ : BufTy).Contents (Elt F)),
    binary main_v8 main_v9 main_v10 (Host.divf : (⟨S16384x1, .f32⟩ : BufTy).Contents (Elt F) → (⟨S16384x1, .f32⟩ : BufTy).Contents (Elt F) → (⟨S16384x1, .f32⟩ : BufTy).Contents (Elt F)),
    unary main_v10 main_v11 (broadcastInDim S16384x512 ![0, 1] bcast_S16384x1_S16384x512_0_1 : (⟨S16384x1, .f32⟩ : BufTy).Contents (Elt F) → (⟨S16384x512, .f32⟩ : BufTy).Contents (Elt F)),
    binary main_v6 main_v11 main_v12 (subf : (⟨S16384x512, .f32⟩ : BufTy).Contents (Elt F) → (⟨S16384x512, .f32⟩ : BufTy).Contents (Elt F) → (⟨S16384x512, .f32⟩ : BufTy).Contents (Elt F)),
    binary main_v12 main_v12 main_v13 (mulf : (⟨S16384x512, .f32⟩ : BufTy).Contents (Elt F) → (⟨S16384x512, .f32⟩ : BufTy).Contents (Elt F) → (⟨S16384x512, .f32⟩ : BufTy).Contents (Elt F)),
    nullary main_cst_1 (constant S_ .f32 0x00000000#32),
    binary main_v13 main_cst_1 main_v14 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v14 main_v15 (broadcastInDim S16384x1 ![0] bcast_S16384_S16384x1_0 : (⟨S16384, .f32⟩ : BufTy).Contents (Elt F) → (⟨S16384x1, .f32⟩ : BufTy).Contents (Elt F)),
    nullary main_cst_2 (constant S_ .f32 0x44000000#32),
    unary main_cst_2 main_v16 (broadcastInDim S16384x1 ![] bcast_S_S16384x1 : (⟨S_, .f32⟩ : BufTy).Contents (Elt F) → (⟨S16384x1, .f32⟩ : BufTy).Contents (Elt F)),
    binary main_v15 main_v16 main_v17 (Host.divf : (⟨S16384x1, .f32⟩ : BufTy).Contents (Elt F) → (⟨S16384x1, .f32⟩ : BufTy).Contents (Elt F) → (⟨S16384x1, .f32⟩ : BufTy).Contents (Elt F)),
    unary main_v10 main_v18 (broadcastInDim S16384x512 ![0, 1] bcast_S16384x1_S16384x512_0_1 : (⟨S16384x1, .f32⟩ : BufTy).Contents (Elt F) → (⟨S16384x512, .f32⟩ : BufTy).Contents (Elt F)),
    binary main_v6 main_v18 main_v19 (subf : (⟨S16384x512, .f32⟩ : BufTy).Contents (Elt F) → (⟨S16384x512, .f32⟩ : BufTy).Contents (Elt F) → (⟨S16384x512, .f32⟩ : BufTy).Contents (Elt F)),
    nullary main_cst_3 (constant S_ .f32 0x3727C5AC#32),
    unary main_cst_3 main_v20 (broadcastInDim S16384x1 ![] bcast_S_S16384x1 : (⟨S_, .f32⟩ : BufTy).Contents (Elt F) → (⟨S16384x1, .f32⟩ : BufTy).Contents (Elt F)),
    binary main_v17 main_v20 main_v21 (addf : (⟨S16384x1, .f32⟩ : BufTy).Contents (Elt F) → (⟨S16384x1, .f32⟩ : BufTy).Contents (Elt F) → (⟨S16384x1, .f32⟩ : BufTy).Contents (Elt F)),
    unary main_v21 main_v22 (Host.rsqrt : (⟨S16384x1, .f32⟩ : BufTy).Contents (Elt F) → (⟨S16384x1, .f32⟩ : BufTy).Contents (Elt F)),
    unary main_v22 main_v23 (broadcastInDim S16384x512 ![0, 1] bcast_S16384x1_S16384x512_0_1 : (⟨S16384x1, .f32⟩ : BufTy).Contents (Elt F) → (⟨S16384x512, .f32⟩ : BufTy).Contents (Elt F)),
    binary main_v19 main_v23 main_v24 (mulf : (⟨S16384x512, .f32⟩ : BufTy).Contents (Elt F) → (⟨S16384x512, .f32⟩ : BufTy).Contents (Elt F) → (⟨S16384x512, .f32⟩ : BufTy).Contents (Elt F)),
    unary main_arg14 main_v25 (broadcastInDim S1x512 ![1] bcast_S512_S1x512_1 : (⟨S512, .f32⟩ : BufTy).Contents (Elt F) → (⟨S1x512, .f32⟩ : BufTy).Contents (Elt F)),
    unary main_v25 main_v26 (broadcastInDim S16384x512 ![0, 1] bcast_S1x512_S16384x512_0_1 : (⟨S1x512, .f32⟩ : BufTy).Contents (Elt F) → (⟨S16384x512, .f32⟩ : BufTy).Contents (Elt F)),
    binary main_v24 main_v26 main_v27 (mulf : (⟨S16384x512, .f32⟩ : BufTy).Contents (Elt F) → (⟨S16384x512, .f32⟩ : BufTy).Contents (Elt F) → (⟨S16384x512, .f32⟩ : BufTy).Contents (Elt F)),
    unary main_arg15 main_v28 (broadcastInDim S1x512 ![1] bcast_S512_S1x512_1 : (⟨S512, .f32⟩ : BufTy).Contents (Elt F) → (⟨S1x512, .f32⟩ : BufTy).Contents (Elt F)),
    unary main_v28 main_v29 (broadcastInDim S16384x512 ![0, 1] bcast_S1x512_S16384x512_0_1 : (⟨S1x512, .f32⟩ : BufTy).Contents (Elt F) → (⟨S16384x512, .f32⟩ : BufTy).Contents (Elt F)),
    binary main_v27 main_v29 main_v30 (addf : (⟨S16384x512, .f32⟩ : BufTy).Contents (Elt F) → (⟨S16384x512, .f32⟩ : BufTy).Contents (Elt F) → (⟨S16384x512, .f32⟩ : BufTy).Contents (Elt F)) ]

abbrev W1 : List (Ref sig .tc) := [main_cst, main_v7, main_v8, main_cst_0, main_v9, main_v10, main_v11, main_v12, main_v13, main_cst_1, main_v14, main_v15, main_cst_2, main_v16, main_v17, main_v18, main_v19, main_cst_3, main_v20, main_v21, main_v22, main_v23, main_v24, main_v25, main_v26, main_v27, main_v28, main_v29, main_v30]

theorem hW1 : (seg1 (F := F)).Forall fun op => op.writes ⊆ ((W1).map (Proc.devRef (τ := τ) .tc)).toFinset :=
  ⟨wsub (y := main_cst) (by decide), wsub (y := main_v7) (by decide), wsub (y := main_v8) (by decide), wsub (y := main_cst_0) (by decide), wsub (y := main_v9) (by decide), wsub (y := main_v10) (by decide), wsub (y := main_v11) (by decide), wsub (y := main_v12) (by decide), wsub (y := main_v13) (by decide), wsub (y := main_cst_1) (by decide), wsub (y := main_v14) (by decide), wsub (y := main_v15) (by decide), wsub (y := main_cst_2) (by decide), wsub (y := main_v16) (by decide), wsub (y := main_v17) (by decide), wsub (y := main_v18) (by decide), wsub (y := main_v19) (by decide), wsub (y := main_cst_3) (by decide), wsub (y := main_v20) (by decide), wsub (y := main_v21) (by decide), wsub (y := main_v22) (by decide), wsub (y := main_v23) (by decide), wsub (y := main_v24) (by decide), wsub (y := main_v25) (by decide), wsub (y := main_v26) (by decide), wsub (y := main_v27) (by decide), wsub (y := main_v28) (by decide), wsub (y := main_v29) (by decide), wsub (y := main_v30) (by decide)⟩

/-- A reference segment 1 does not write keeps its contents across it. -/
theorem keep1 (V : Valuation τ sig (Elt F)) (r : Ref sig .tc) (hr : r ∉ W1) :
    after (seg1 (F := F)) V (Proc.devRef .tc r) = V (Proc.devRef .tc r) :=
  after_of_writes_sub _ V hW1 hr

abbrev seg2 : List (HloOp τ sig (Elt F)) :=
  [ unary main_arg6 main_v31 ((transpose S768x512 [1, 0] · transposes_S512x768_S768x512_1_0) : (⟨S512x768, .f32⟩ : BufTy).Contents (Elt F) → (⟨S768x512, .f32⟩ : BufTy).Contents (Elt F)),
    binary main_arg1 main_v31 main_v32 ((fun l r => Host.dotGeneral dot_S16384x768_S768x512_S16384x512_1_0_0_1_n_n none l r) : (⟨S16384x768, .f32⟩ : BufTy).Contents (Elt F) → (⟨S768x512, .f32⟩ : BufTy).Contents (Elt F) → (⟨S16384x512, .f32⟩ : BufTy).Contents (Elt F)),
    unary main_arg7 main_v33 (broadcastInDim S1x512 ![1] bcast_S512_S1x512_1 : (⟨S512, .f32⟩ : BufTy).Contents (Elt F) → (⟨S1x512, .f32⟩ : BufTy).Contents (Elt F)),
    unary main_v33 main_v34 (broadcastInDim S16384x512 ![0, 1] bcast_S1x512_S16384x512_0_1 : (⟨S1x512, .f32⟩ : BufTy).Contents (Elt F) → (⟨S16384x512, .f32⟩ : BufTy).Contents (Elt F)),
    binary main_v32 main_v34 main_v35 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x512, .f32⟩) main_call2_v0) (broadcastInDim S16384x512 ![] bcast_S_S16384x512),
    TRef.binary (TRef.of (T := ⟨S16384x512, .f32⟩) main_v35) (TRef.of (T := ⟨S16384x512, .f32⟩) main_call2_v0) (TRef.of (T := ⟨S16384x512, .f32⟩) main_v36) maximumf,
    TRef.nullary (TRef.of (T := ⟨S_, .f32⟩) main_call3_cst) (constant S_ .f32 0x00000000#32),
    TRef.unary (TRef.of (T := ⟨S_, .f32⟩) main_call3_cst) (TRef.of (T := ⟨S16384x512, .f32⟩) main_call3_v0) (broadcastInDim S16384x512 ![] bcast_S_S16384x512),
    TRef.binary (TRef.of (T := ⟨S16384x512, .f32⟩) main_v36) (TRef.of (T := ⟨S16384x512, .f32⟩) main_call3_v0) (TRef.of (T := ⟨S16384x512, .f32⟩) main_v37) maximumf ]

abbrev W2 : List (Ref sig .tc) := [main_v31, main_v32, main_v33, main_v34, main_v35, main_call2_cst, main_call2_v0, main_v36, main_call3_cst, main_call3_v0, main_v37]

theorem hW2 : (seg2 (F := F)).Forall fun op => op.writes ⊆ ((W2).map (Proc.devRef (τ := τ) .tc)).toFinset :=
  ⟨wsub (y := main_v31) (by decide), wsub (y := main_v32) (by decide), wsub (y := main_v33) (by decide), wsub (y := main_v34) (by decide), wsub (y := main_v35) (by decide), wsub (y := main_call2_cst) (by decide), wsub (y := main_call2_v0) (by decide), wsub (y := main_v36) (by decide), wsub (y := main_call3_cst) (by decide), wsub (y := main_call3_v0) (by decide), wsub (y := main_v37) (by decide)⟩

/-- A reference segment 2 does not write keeps its contents across it. -/
theorem keep2 (V : Valuation τ sig (Elt F)) (r : Ref sig .tc) (hr : r ∉ W2) :
    after (seg2 (F := F)) V (Proc.devRef .tc r) = V (Proc.devRef .tc r) :=
  after_of_writes_sub _ V hW2 hr

abbrev seg3 : List (HloOp τ sig (Elt F)) :=
  [ nullary main_cst_4 (constant S_ .f32 0x00000000#32),
    binary main_v37 main_cst_4 main_v38 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v38 main_v39 (broadcastInDim S16384x1 ![0] bcast_S16384_S16384x1_0 : (⟨S16384, .f32⟩ : BufTy).Contents (Elt F) → (⟨S16384x1, .f32⟩ : BufTy).Contents (Elt F)),
    nullary main_cst_5 (constant S_ .f32 0x44000000#32),
    unary main_cst_5 main_v40 (broadcastInDim S16384x1 ![] bcast_S_S16384x1 : (⟨S_, .f32⟩ : BufTy).Contents (Elt F) → (⟨S16384x1, .f32⟩ : BufTy).Contents (Elt F)),
    binary main_v39 main_v40 main_v41 (Host.divf : (⟨S16384x1, .f32⟩ : BufTy).Contents (Elt F) → (⟨S16384x1, .f32⟩ : BufTy).Contents (Elt F) → (⟨S16384x1, .f32⟩ : BufTy).Contents (Elt F)),
    unary main_v41 main_v42 (broadcastInDim S16384x512 ![0, 1] bcast_S16384x1_S16384x512_0_1 : (⟨S16384x1, .f32⟩ : BufTy).Contents (Elt F) → (⟨S16384x512, .f32⟩ : BufTy).Contents (Elt F)),
    binary main_v37 main_v42 main_v43 (subf : (⟨S16384x512, .f32⟩ : BufTy).Contents (Elt F) → (⟨S16384x512, .f32⟩ : BufTy).Contents (Elt F) → (⟨S16384x512, .f32⟩ : BufTy).Contents (Elt F)),
    binary main_v43 main_v43 main_v44 (mulf : (⟨S16384x512, .f32⟩ : BufTy).Contents (Elt F) → (⟨S16384x512, .f32⟩ : BufTy).Contents (Elt F) → (⟨S16384x512, .f32⟩ : BufTy).Contents (Elt F)),
    nullary main_cst_6 (constant S_ .f32 0x00000000#32),
    binary main_v44 main_cst_6 main_v45 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v45 main_v46 (broadcastInDim S16384x1 ![0] bcast_S16384_S16384x1_0 : (⟨S16384, .f32⟩ : BufTy).Contents (Elt F) → (⟨S16384x1, .f32⟩ : BufTy).Contents (Elt F)),
    nullary main_cst_7 (constant S_ .f32 0x44000000#32),
    unary main_cst_7 main_v47 (broadcastInDim S16384x1 ![] bcast_S_S16384x1 : (⟨S_, .f32⟩ : BufTy).Contents (Elt F) → (⟨S16384x1, .f32⟩ : BufTy).Contents (Elt F)),
    binary main_v46 main_v47 main_v48 (Host.divf : (⟨S16384x1, .f32⟩ : BufTy).Contents (Elt F) → (⟨S16384x1, .f32⟩ : BufTy).Contents (Elt F) → (⟨S16384x1, .f32⟩ : BufTy).Contents (Elt F)),
    unary main_v41 main_v49 (broadcastInDim S16384x512 ![0, 1] bcast_S16384x1_S16384x512_0_1 : (⟨S16384x1, .f32⟩ : BufTy).Contents (Elt F) → (⟨S16384x512, .f32⟩ : BufTy).Contents (Elt F)),
    binary main_v37 main_v49 main_v50 (subf : (⟨S16384x512, .f32⟩ : BufTy).Contents (Elt F) → (⟨S16384x512, .f32⟩ : BufTy).Contents (Elt F) → (⟨S16384x512, .f32⟩ : BufTy).Contents (Elt F)),
    nullary main_cst_8 (constant S_ .f32 0x3727C5AC#32),
    unary main_cst_8 main_v51 (broadcastInDim S16384x1 ![] bcast_S_S16384x1 : (⟨S_, .f32⟩ : BufTy).Contents (Elt F) → (⟨S16384x1, .f32⟩ : BufTy).Contents (Elt F)),
    binary main_v48 main_v51 main_v52 (addf : (⟨S16384x1, .f32⟩ : BufTy).Contents (Elt F) → (⟨S16384x1, .f32⟩ : BufTy).Contents (Elt F) → (⟨S16384x1, .f32⟩ : BufTy).Contents (Elt F)),
    unary main_v52 main_v53 (Host.rsqrt : (⟨S16384x1, .f32⟩ : BufTy).Contents (Elt F) → (⟨S16384x1, .f32⟩ : BufTy).Contents (Elt F)),
    unary main_v53 main_v54 (broadcastInDim S16384x512 ![0, 1] bcast_S16384x1_S16384x512_0_1 : (⟨S16384x1, .f32⟩ : BufTy).Contents (Elt F) → (⟨S16384x512, .f32⟩ : BufTy).Contents (Elt F)),
    binary main_v50 main_v54 main_v55 (mulf : (⟨S16384x512, .f32⟩ : BufTy).Contents (Elt F) → (⟨S16384x512, .f32⟩ : BufTy).Contents (Elt F) → (⟨S16384x512, .f32⟩ : BufTy).Contents (Elt F)),
    unary main_arg14 main_v56 (broadcastInDim S1x512 ![1] bcast_S512_S1x512_1 : (⟨S512, .f32⟩ : BufTy).Contents (Elt F) → (⟨S1x512, .f32⟩ : BufTy).Contents (Elt F)),
    unary main_v56 main_v57 (broadcastInDim S16384x512 ![0, 1] bcast_S1x512_S16384x512_0_1 : (⟨S1x512, .f32⟩ : BufTy).Contents (Elt F) → (⟨S16384x512, .f32⟩ : BufTy).Contents (Elt F)),
    binary main_v55 main_v57 main_v58 (mulf : (⟨S16384x512, .f32⟩ : BufTy).Contents (Elt F) → (⟨S16384x512, .f32⟩ : BufTy).Contents (Elt F) → (⟨S16384x512, .f32⟩ : BufTy).Contents (Elt F)),
    unary main_arg15 main_v59 (broadcastInDim S1x512 ![1] bcast_S512_S1x512_1 : (⟨S512, .f32⟩ : BufTy).Contents (Elt F) → (⟨S1x512, .f32⟩ : BufTy).Contents (Elt F)),
    unary main_v59 main_v60 (broadcastInDim S16384x512 ![0, 1] bcast_S1x512_S16384x512_0_1 : (⟨S1x512, .f32⟩ : BufTy).Contents (Elt F) → (⟨S16384x512, .f32⟩ : BufTy).Contents (Elt F)),
    binary main_v58 main_v60 main_v61 (addf : (⟨S16384x512, .f32⟩ : BufTy).Contents (Elt F) → (⟨S16384x512, .f32⟩ : BufTy).Contents (Elt F) → (⟨S16384x512, .f32⟩ : BufTy).Contents (Elt F)) ]

abbrev W3 : List (Ref sig .tc) := [main_cst_4, main_v38, main_v39, main_cst_5, main_v40, main_v41, main_v42, main_v43, main_v44, main_cst_6, main_v45, main_v46, main_cst_7, main_v47, main_v48, main_v49, main_v50, main_cst_8, main_v51, main_v52, main_v53, main_v54, main_v55, main_v56, main_v57, main_v58, main_v59, main_v60, main_v61]

theorem hW3 : (seg3 (F := F)).Forall fun op => op.writes ⊆ ((W3).map (Proc.devRef (τ := τ) .tc)).toFinset :=
  ⟨wsub (y := main_cst_4) (by decide), wsub (y := main_v38) (by decide), wsub (y := main_v39) (by decide), wsub (y := main_cst_5) (by decide), wsub (y := main_v40) (by decide), wsub (y := main_v41) (by decide), wsub (y := main_v42) (by decide), wsub (y := main_v43) (by decide), wsub (y := main_v44) (by decide), wsub (y := main_cst_6) (by decide), wsub (y := main_v45) (by decide), wsub (y := main_v46) (by decide), wsub (y := main_cst_7) (by decide), wsub (y := main_v47) (by decide), wsub (y := main_v48) (by decide), wsub (y := main_v49) (by decide), wsub (y := main_v50) (by decide), wsub (y := main_cst_8) (by decide), wsub (y := main_v51) (by decide), wsub (y := main_v52) (by decide), wsub (y := main_v53) (by decide), wsub (y := main_v54) (by decide), wsub (y := main_v55) (by decide), wsub (y := main_v56) (by decide), wsub (y := main_v57) (by decide), wsub (y := main_v58) (by decide), wsub (y := main_v59) (by decide), wsub (y := main_v60) (by decide), wsub (y := main_v61) (by decide)⟩

/-- A reference segment 3 does not write keeps its contents across it. -/
theorem keep3 (V : Valuation τ sig (Elt F)) (r : Ref sig .tc) (hr : r ∉ W3) :
    after (seg3 (F := F)) V (Proc.devRef .tc r) = V (Proc.devRef .tc r) :=
  after_of_writes_sub _ V hW3 hr

abbrev seg4 : List (HloOp τ sig (Elt F)) :=
  [ unary main_arg8 main_v62 ((transpose S512x512 [1, 0] · transposes_S512x512_S512x512_1_0) : (⟨S512x512, .f32⟩ : BufTy).Contents (Elt F) → (⟨S512x512, .f32⟩ : BufTy).Contents (Elt F)),
    binary main_arg2 main_v62 main_v63 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    unary main_arg9 main_v64 (broadcastInDim S1x512 ![1] bcast_S512_S1x512_1 : (⟨S512, .f32⟩ : BufTy).Contents (Elt F) → (⟨S1x512, .f32⟩ : BufTy).Contents (Elt F)),
    unary main_v64 main_v65 (broadcastInDim S16384x512 ![0, 1] bcast_S1x512_S16384x512_0_1 : (⟨S1x512, .f32⟩ : BufTy).Contents (Elt F) → (⟨S16384x512, .f32⟩ : BufTy).Contents (Elt F)),
    binary main_v63 main_v65 main_v66 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x512, .f32⟩) main_call4_v0) (broadcastInDim S16384x512 ![] bcast_S_S16384x512),
    TRef.binary (TRef.of (T := ⟨S16384x512, .f32⟩) main_v66) (TRef.of (T := ⟨S16384x512, .f32⟩) main_call4_v0) (TRef.of (T := ⟨S16384x512, .f32⟩) main_v67) maximumf,
    TRef.nullary (TRef.of (T := ⟨S_, .f32⟩) main_call5_cst) (constant S_ .f32 0x00000000#32),
    TRef.unary (TRef.of (T := ⟨S_, .f32⟩) main_call5_cst) (TRef.of (T := ⟨S16384x512, .f32⟩) main_call5_v0) (broadcastInDim S16384x512 ![] bcast_S_S16384x512),
    TRef.binary (TRef.of (T := ⟨S16384x512, .f32⟩) main_v67) (TRef.of (T := ⟨S16384x512, .f32⟩) main_call5_v0) (TRef.of (T := ⟨S16384x512, .f32⟩) main_v68) maximumf ]

abbrev W4 : List (Ref sig .tc) := [main_v62, main_v63, main_v64, main_v65, main_v66, main_call4_cst, main_call4_v0, main_v67, main_call5_cst, main_call5_v0, main_v68]

theorem hW4 : (seg4 (F := F)).Forall fun op => op.writes ⊆ ((W4).map (Proc.devRef (τ := τ) .tc)).toFinset :=
  ⟨wsub (y := main_v62) (by decide), wsub (y := main_v63) (by decide), wsub (y := main_v64) (by decide), wsub (y := main_v65) (by decide), wsub (y := main_v66) (by decide), wsub (y := main_call4_cst) (by decide), wsub (y := main_call4_v0) (by decide), wsub (y := main_v67) (by decide), wsub (y := main_call5_cst) (by decide), wsub (y := main_call5_v0) (by decide), wsub (y := main_v68) (by decide)⟩

/-- A reference segment 4 does not write keeps its contents across it. -/
theorem keep4 (V : Valuation τ sig (Elt F)) (r : Ref sig .tc) (hr : r ∉ W4) :
    after (seg4 (F := F)) V (Proc.devRef .tc r) = V (Proc.devRef .tc r) :=
  after_of_writes_sub _ V hW4 hr

abbrev seg5 : List (HloOp τ sig (Elt F)) :=
  [ nullary main_cst_9 (constant S_ .f32 0x00000000#32),
    binary main_v68 main_cst_9 main_v69 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v69 main_v70 (broadcastInDim S16384x1 ![0] bcast_S16384_S16384x1_0 : (⟨S16384, .f32⟩ : BufTy).Contents (Elt F) → (⟨S16384x1, .f32⟩ : BufTy).Contents (Elt F)),
    nullary main_cst_10 (constant S_ .f32 0x44000000#32),
    unary main_cst_10 main_v71 (broadcastInDim S16384x1 ![] bcast_S_S16384x1 : (⟨S_, .f32⟩ : BufTy).Contents (Elt F) → (⟨S16384x1, .f32⟩ : BufTy).Contents (Elt F)),
    binary main_v70 main_v71 main_v72 (Host.divf : (⟨S16384x1, .f32⟩ : BufTy).Contents (Elt F) → (⟨S16384x1, .f32⟩ : BufTy).Contents (Elt F) → (⟨S16384x1, .f32⟩ : BufTy).Contents (Elt F)),
    unary main_v72 main_v73 (broadcastInDim S16384x512 ![0, 1] bcast_S16384x1_S16384x512_0_1 : (⟨S16384x1, .f32⟩ : BufTy).Contents (Elt F) → (⟨S16384x512, .f32⟩ : BufTy).Contents (Elt F)),
    binary main_v68 main_v73 main_v74 (subf : (⟨S16384x512, .f32⟩ : BufTy).Contents (Elt F) → (⟨S16384x512, .f32⟩ : BufTy).Contents (Elt F) → (⟨S16384x512, .f32⟩ : BufTy).Contents (Elt F)),
    binary main_v74 main_v74 main_v75 (mulf : (⟨S16384x512, .f32⟩ : BufTy).Contents (Elt F) → (⟨S16384x512, .f32⟩ : BufTy).Contents (Elt F) → (⟨S16384x512, .f32⟩ : BufTy).Contents (Elt F)),
    nullary main_cst_11 (constant S_ .f32 0x00000000#32),
    binary main_v75 main_cst_11 main_v76 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v76 main_v77 (broadcastInDim S16384x1 ![0] bcast_S16384_S16384x1_0 : (⟨S16384, .f32⟩ : BufTy).Contents (Elt F) → (⟨S16384x1, .f32⟩ : BufTy).Contents (Elt F)),
    nullary main_cst_12 (constant S_ .f32 0x44000000#32),
    unary main_cst_12 main_v78 (broadcastInDim S16384x1 ![] bcast_S_S16384x1 : (⟨S_, .f32⟩ : BufTy).Contents (Elt F) → (⟨S16384x1, .f32⟩ : BufTy).Contents (Elt F)),
    binary main_v77 main_v78 main_v79 (Host.divf : (⟨S16384x1, .f32⟩ : BufTy).Contents (Elt F) → (⟨S16384x1, .f32⟩ : BufTy).Contents (Elt F) → (⟨S16384x1, .f32⟩ : BufTy).Contents (Elt F)),
    unary main_v72 main_v80 (broadcastInDim S16384x512 ![0, 1] bcast_S16384x1_S16384x512_0_1 : (⟨S16384x1, .f32⟩ : BufTy).Contents (Elt F) → (⟨S16384x512, .f32⟩ : BufTy).Contents (Elt F)),
    binary main_v68 main_v80 main_v81 (subf : (⟨S16384x512, .f32⟩ : BufTy).Contents (Elt F) → (⟨S16384x512, .f32⟩ : BufTy).Contents (Elt F) → (⟨S16384x512, .f32⟩ : BufTy).Contents (Elt F)),
    nullary main_cst_13 (constant S_ .f32 0x3727C5AC#32),
    unary main_cst_13 main_v82 (broadcastInDim S16384x1 ![] bcast_S_S16384x1 : (⟨S_, .f32⟩ : BufTy).Contents (Elt F) → (⟨S16384x1, .f32⟩ : BufTy).Contents (Elt F)),
    binary main_v79 main_v82 main_v83 (addf : (⟨S16384x1, .f32⟩ : BufTy).Contents (Elt F) → (⟨S16384x1, .f32⟩ : BufTy).Contents (Elt F) → (⟨S16384x1, .f32⟩ : BufTy).Contents (Elt F)),
    unary main_v83 main_v84 (Host.rsqrt : (⟨S16384x1, .f32⟩ : BufTy).Contents (Elt F) → (⟨S16384x1, .f32⟩ : BufTy).Contents (Elt F)),
    unary main_v84 main_v85 (broadcastInDim S16384x512 ![0, 1] bcast_S16384x1_S16384x512_0_1 : (⟨S16384x1, .f32⟩ : BufTy).Contents (Elt F) → (⟨S16384x512, .f32⟩ : BufTy).Contents (Elt F)),
    binary main_v81 main_v85 main_v86 (mulf : (⟨S16384x512, .f32⟩ : BufTy).Contents (Elt F) → (⟨S16384x512, .f32⟩ : BufTy).Contents (Elt F) → (⟨S16384x512, .f32⟩ : BufTy).Contents (Elt F)),
    unary main_arg14 main_v87 (broadcastInDim S1x512 ![1] bcast_S512_S1x512_1 : (⟨S512, .f32⟩ : BufTy).Contents (Elt F) → (⟨S1x512, .f32⟩ : BufTy).Contents (Elt F)),
    unary main_v87 main_v88 (broadcastInDim S16384x512 ![0, 1] bcast_S1x512_S16384x512_0_1 : (⟨S1x512, .f32⟩ : BufTy).Contents (Elt F) → (⟨S16384x512, .f32⟩ : BufTy).Contents (Elt F)),
    binary main_v86 main_v88 main_v89 (mulf : (⟨S16384x512, .f32⟩ : BufTy).Contents (Elt F) → (⟨S16384x512, .f32⟩ : BufTy).Contents (Elt F) → (⟨S16384x512, .f32⟩ : BufTy).Contents (Elt F)),
    unary main_arg15 main_v90 (broadcastInDim S1x512 ![1] bcast_S512_S1x512_1 : (⟨S512, .f32⟩ : BufTy).Contents (Elt F) → (⟨S1x512, .f32⟩ : BufTy).Contents (Elt F)),
    unary main_v90 main_v91 (broadcastInDim S16384x512 ![0, 1] bcast_S1x512_S16384x512_0_1 : (⟨S1x512, .f32⟩ : BufTy).Contents (Elt F) → (⟨S16384x512, .f32⟩ : BufTy).Contents (Elt F)),
    binary main_v89 main_v91 main_v92 (addf : (⟨S16384x512, .f32⟩ : BufTy).Contents (Elt F) → (⟨S16384x512, .f32⟩ : BufTy).Contents (Elt F) → (⟨S16384x512, .f32⟩ : BufTy).Contents (Elt F)) ]

abbrev W5 : List (Ref sig .tc) := [main_cst_9, main_v69, main_v70, main_cst_10, main_v71, main_v72, main_v73, main_v74, main_v75, main_cst_11, main_v76, main_v77, main_cst_12, main_v78, main_v79, main_v80, main_v81, main_cst_13, main_v82, main_v83, main_v84, main_v85, main_v86, main_v87, main_v88, main_v89, main_v90, main_v91, main_v92]

theorem hW5 : (seg5 (F := F)).Forall fun op => op.writes ⊆ ((W5).map (Proc.devRef (τ := τ) .tc)).toFinset :=
  ⟨wsub (y := main_cst_9) (by decide), wsub (y := main_v69) (by decide), wsub (y := main_v70) (by decide), wsub (y := main_cst_10) (by decide), wsub (y := main_v71) (by decide), wsub (y := main_v72) (by decide), wsub (y := main_v73) (by decide), wsub (y := main_v74) (by decide), wsub (y := main_v75) (by decide), wsub (y := main_cst_11) (by decide), wsub (y := main_v76) (by decide), wsub (y := main_v77) (by decide), wsub (y := main_cst_12) (by decide), wsub (y := main_v78) (by decide), wsub (y := main_v79) (by decide), wsub (y := main_v80) (by decide), wsub (y := main_v81) (by decide), wsub (y := main_cst_13) (by decide), wsub (y := main_v82) (by decide), wsub (y := main_v83) (by decide), wsub (y := main_v84) (by decide), wsub (y := main_v85) (by decide), wsub (y := main_v86) (by decide), wsub (y := main_v87) (by decide), wsub (y := main_v88) (by decide), wsub (y := main_v89) (by decide), wsub (y := main_v90) (by decide), wsub (y := main_v91) (by decide), wsub (y := main_v92) (by decide)⟩

/-- A reference segment 5 does not write keeps its contents across it. -/
theorem keep5 (V : Valuation τ sig (Elt F)) (r : Ref sig .tc) (hr : r ∉ W5) :
    after (seg5 (F := F)) V (Proc.devRef .tc r) = V (Proc.devRef .tc r) :=
  after_of_writes_sub _ V hW5 hr

abbrev seg6 : List (HloOp τ sig (Elt F)) :=
  [ unary main_arg10 main_v93 ((transpose S640x512 [1, 0] · transposes_S512x640_S640x512_1_0) : (⟨S512x640, .f32⟩ : BufTy).Contents (Elt F) → (⟨S640x512, .f32⟩ : BufTy).Contents (Elt F)),
    binary main_arg3 main_v93 main_v94 ((fun l r => Host.dotGeneral dot_S16384x640_S640x512_S16384x512_1_0_0_1_n_n none l r) : (⟨S16384x640, .f32⟩ : BufTy).Contents (Elt F) → (⟨S640x512, .f32⟩ : BufTy).Contents (Elt F) → (⟨S16384x512, .f32⟩ : BufTy).Contents (Elt F)),
    unary main_arg11 main_v95 (broadcastInDim S1x512 ![1] bcast_S512_S1x512_1 : (⟨S512, .f32⟩ : BufTy).Contents (Elt F) → (⟨S1x512, .f32⟩ : BufTy).Contents (Elt F)),
    unary main_v95 main_v96 (broadcastInDim S16384x512 ![0, 1] bcast_S1x512_S16384x512_0_1 : (⟨S1x512, .f32⟩ : BufTy).Contents (Elt F) → (⟨S16384x512, .f32⟩ : BufTy).Contents (Elt F)),
    binary main_v94 main_v96 main_v97 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16384x512, .f32⟩) main_call6_v0) (broadcastInDim S16384x512 ![] bcast_S_S16384x512),
    TRef.binary (TRef.of (T := ⟨S16384x512, .f32⟩) main_v97) (TRef.of (T := ⟨S16384x512, .f32⟩) main_call6_v0) (TRef.of (T := ⟨S16384x512, .f32⟩) main_v98) maximumf,
    TRef.nullary (TRef.of (T := ⟨S_, .f32⟩) main_call7_cst) (constant S_ .f32 0x00000000#32),
    TRef.unary (TRef.of (T := ⟨S_, .f32⟩) main_call7_cst) (TRef.of (T := ⟨S16384x512, .f32⟩) main_call7_v0) (broadcastInDim S16384x512 ![] bcast_S_S16384x512),
    TRef.binary (TRef.of (T := ⟨S16384x512, .f32⟩) main_v98) (TRef.of (T := ⟨S16384x512, .f32⟩) main_call7_v0) (TRef.of (T := ⟨S16384x512, .f32⟩) main_v99) maximumf ]

abbrev W6 : List (Ref sig .tc) := [main_v93, main_v94, main_v95, main_v96, main_v97, main_call6_cst, main_call6_v0, main_v98, main_call7_cst, main_call7_v0, main_v99]

theorem hW6 : (seg6 (F := F)).Forall fun op => op.writes ⊆ ((W6).map (Proc.devRef (τ := τ) .tc)).toFinset :=
  ⟨wsub (y := main_v93) (by decide), wsub (y := main_v94) (by decide), wsub (y := main_v95) (by decide), wsub (y := main_v96) (by decide), wsub (y := main_v97) (by decide), wsub (y := main_call6_cst) (by decide), wsub (y := main_call6_v0) (by decide), wsub (y := main_v98) (by decide), wsub (y := main_call7_cst) (by decide), wsub (y := main_call7_v0) (by decide), wsub (y := main_v99) (by decide)⟩

/-- A reference segment 6 does not write keeps its contents across it. -/
theorem keep6 (V : Valuation τ sig (Elt F)) (r : Ref sig .tc) (hr : r ∉ W6) :
    after (seg6 (F := F)) V (Proc.devRef .tc r) = V (Proc.devRef .tc r) :=
  after_of_writes_sub _ V hW6 hr

abbrev seg7 : List (HloOp τ sig (Elt F)) :=
  [ nullary main_cst_14 (constant S_ .f32 0x00000000#32),
    binary main_v99 main_cst_14 main_v100 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v100 main_v101 (broadcastInDim S16384x1 ![0] bcast_S16384_S16384x1_0 : (⟨S16384, .f32⟩ : BufTy).Contents (Elt F) → (⟨S16384x1, .f32⟩ : BufTy).Contents (Elt F)),
    nullary main_cst_15 (constant S_ .f32 0x44000000#32),
    unary main_cst_15 main_v102 (broadcastInDim S16384x1 ![] bcast_S_S16384x1 : (⟨S_, .f32⟩ : BufTy).Contents (Elt F) → (⟨S16384x1, .f32⟩ : BufTy).Contents (Elt F)),
    binary main_v101 main_v102 main_v103 (Host.divf : (⟨S16384x1, .f32⟩ : BufTy).Contents (Elt F) → (⟨S16384x1, .f32⟩ : BufTy).Contents (Elt F) → (⟨S16384x1, .f32⟩ : BufTy).Contents (Elt F)),
    unary main_v103 main_v104 (broadcastInDim S16384x512 ![0, 1] bcast_S16384x1_S16384x512_0_1 : (⟨S16384x1, .f32⟩ : BufTy).Contents (Elt F) → (⟨S16384x512, .f32⟩ : BufTy).Contents (Elt F)),
    binary main_v99 main_v104 main_v105 (subf : (⟨S16384x512, .f32⟩ : BufTy).Contents (Elt F) → (⟨S16384x512, .f32⟩ : BufTy).Contents (Elt F) → (⟨S16384x512, .f32⟩ : BufTy).Contents (Elt F)),
    binary main_v105 main_v105 main_v106 (mulf : (⟨S16384x512, .f32⟩ : BufTy).Contents (Elt F) → (⟨S16384x512, .f32⟩ : BufTy).Contents (Elt F) → (⟨S16384x512, .f32⟩ : BufTy).Contents (Elt F)),
    nullary main_cst_16 (constant S_ .f32 0x00000000#32),
    binary main_v106 main_cst_16 main_v107 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v107 main_v108 (broadcastInDim S16384x1 ![0] bcast_S16384_S16384x1_0 : (⟨S16384, .f32⟩ : BufTy).Contents (Elt F) → (⟨S16384x1, .f32⟩ : BufTy).Contents (Elt F)),
    nullary main_cst_17 (constant S_ .f32 0x44000000#32),
    unary main_cst_17 main_v109 (broadcastInDim S16384x1 ![] bcast_S_S16384x1 : (⟨S_, .f32⟩ : BufTy).Contents (Elt F) → (⟨S16384x1, .f32⟩ : BufTy).Contents (Elt F)),
    binary main_v108 main_v109 main_v110 (Host.divf : (⟨S16384x1, .f32⟩ : BufTy).Contents (Elt F) → (⟨S16384x1, .f32⟩ : BufTy).Contents (Elt F) → (⟨S16384x1, .f32⟩ : BufTy).Contents (Elt F)),
    unary main_v103 main_v111 (broadcastInDim S16384x512 ![0, 1] bcast_S16384x1_S16384x512_0_1 : (⟨S16384x1, .f32⟩ : BufTy).Contents (Elt F) → (⟨S16384x512, .f32⟩ : BufTy).Contents (Elt F)),
    binary main_v99 main_v111 main_v112 (subf : (⟨S16384x512, .f32⟩ : BufTy).Contents (Elt F) → (⟨S16384x512, .f32⟩ : BufTy).Contents (Elt F) → (⟨S16384x512, .f32⟩ : BufTy).Contents (Elt F)),
    nullary main_cst_18 (constant S_ .f32 0x3727C5AC#32),
    unary main_cst_18 main_v113 (broadcastInDim S16384x1 ![] bcast_S_S16384x1 : (⟨S_, .f32⟩ : BufTy).Contents (Elt F) → (⟨S16384x1, .f32⟩ : BufTy).Contents (Elt F)),
    binary main_v110 main_v113 main_v114 (addf : (⟨S16384x1, .f32⟩ : BufTy).Contents (Elt F) → (⟨S16384x1, .f32⟩ : BufTy).Contents (Elt F) → (⟨S16384x1, .f32⟩ : BufTy).Contents (Elt F)),
    unary main_v114 main_v115 (Host.rsqrt : (⟨S16384x1, .f32⟩ : BufTy).Contents (Elt F) → (⟨S16384x1, .f32⟩ : BufTy).Contents (Elt F)),
    unary main_v115 main_v116 (broadcastInDim S16384x512 ![0, 1] bcast_S16384x1_S16384x512_0_1 : (⟨S16384x1, .f32⟩ : BufTy).Contents (Elt F) → (⟨S16384x512, .f32⟩ : BufTy).Contents (Elt F)),
    binary main_v112 main_v116 main_v117 (mulf : (⟨S16384x512, .f32⟩ : BufTy).Contents (Elt F) → (⟨S16384x512, .f32⟩ : BufTy).Contents (Elt F) → (⟨S16384x512, .f32⟩ : BufTy).Contents (Elt F)),
    unary main_arg14 main_v118 (broadcastInDim S1x512 ![1] bcast_S512_S1x512_1 : (⟨S512, .f32⟩ : BufTy).Contents (Elt F) → (⟨S1x512, .f32⟩ : BufTy).Contents (Elt F)),
    unary main_v118 main_v119 (broadcastInDim S16384x512 ![0, 1] bcast_S1x512_S16384x512_0_1 : (⟨S1x512, .f32⟩ : BufTy).Contents (Elt F) → (⟨S16384x512, .f32⟩ : BufTy).Contents (Elt F)),
    binary main_v117 main_v119 main_v120 (mulf : (⟨S16384x512, .f32⟩ : BufTy).Contents (Elt F) → (⟨S16384x512, .f32⟩ : BufTy).Contents (Elt F) → (⟨S16384x512, .f32⟩ : BufTy).Contents (Elt F)),
    unary main_arg15 main_v121 (broadcastInDim S1x512 ![1] bcast_S512_S1x512_1 : (⟨S512, .f32⟩ : BufTy).Contents (Elt F) → (⟨S1x512, .f32⟩ : BufTy).Contents (Elt F)),
    unary main_v121 main_v122 (broadcastInDim S16384x512 ![0, 1] bcast_S1x512_S16384x512_0_1 : (⟨S1x512, .f32⟩ : BufTy).Contents (Elt F) → (⟨S16384x512, .f32⟩ : BufTy).Contents (Elt F)),
    binary main_v120 main_v122 main_v123 (addf : (⟨S16384x512, .f32⟩ : BufTy).Contents (Elt F) → (⟨S16384x512, .f32⟩ : BufTy).Contents (Elt F) → (⟨S16384x512, .f32⟩ : BufTy).Contents (Elt F)) ]

abbrev W7 : List (Ref sig .tc) := [main_cst_14, main_v100, main_v101, main_cst_15, main_v102, main_v103, main_v104, main_v105, main_v106, main_cst_16, main_v107, main_v108, main_cst_17, main_v109, main_v110, main_v111, main_v112, main_cst_18, main_v113, main_v114, main_v115, main_v116, main_v117, main_v118, main_v119, main_v120, main_v121, main_v122, main_v123]

theorem hW7 : (seg7 (F := F)).Forall fun op => op.writes ⊆ ((W7).map (Proc.devRef (τ := τ) .tc)).toFinset :=
  ⟨wsub (y := main_cst_14) (by decide), wsub (y := main_v100) (by decide), wsub (y := main_v101) (by decide), wsub (y := main_cst_15) (by decide), wsub (y := main_v102) (by decide), wsub (y := main_v103) (by decide), wsub (y := main_v104) (by decide), wsub (y := main_v105) (by decide), wsub (y := main_v106) (by decide), wsub (y := main_cst_16) (by decide), wsub (y := main_v107) (by decide), wsub (y := main_v108) (by decide), wsub (y := main_cst_17) (by decide), wsub (y := main_v109) (by decide), wsub (y := main_v110) (by decide), wsub (y := main_v111) (by decide), wsub (y := main_v112) (by decide), wsub (y := main_cst_18) (by decide), wsub (y := main_v113) (by decide), wsub (y := main_v114) (by decide), wsub (y := main_v115) (by decide), wsub (y := main_v116) (by decide), wsub (y := main_v117) (by decide), wsub (y := main_v118) (by decide), wsub (y := main_v119) (by decide), wsub (y := main_v120) (by decide), wsub (y := main_v121) (by decide), wsub (y := main_v122) (by decide), wsub (y := main_v123) (by decide)⟩

/-- A reference segment 7 does not write keeps its contents across it. -/
theorem keep7 (V : Valuation τ sig (Elt F)) (r : Ref sig .tc) (hr : r ∉ W7) :
    after (seg7 (F := F)) V (Proc.devRef .tc r) = V (Proc.devRef .tc r) :=
  after_of_writes_sub _ V hW7 hr

abbrev seg8 : List (HloOp τ sig (Elt F)) :=
  [ unary main_v30 main_v124 (broadcastInDim S16384x1x512 ![0, 2] bcast_S16384x512_S16384x1x512_0_2 : (⟨S16384x512, .f32⟩ : BufTy).Contents (Elt F) → (⟨S16384x1x512, .f32⟩ : BufTy).Contents (Elt F)),
    unary main_v61 main_v125 (broadcastInDim S16384x1x512 ![0, 2] bcast_S16384x512_S16384x1x512_0_2 : (⟨S16384x512, .f32⟩ : BufTy).Contents (Elt F) → (⟨S16384x1x512, .f32⟩ : BufTy).Contents (Elt F)),
    unary main_v92 main_v126 (broadcastInDim S16384x1x512 ![0, 2] bcast_S16384x512_S16384x1x512_0_2 : (⟨S16384x512, .f32⟩ : BufTy).Contents (Elt F) → (⟨S16384x1x512, .f32⟩ : BufTy).Contents (Elt F)),
    unary main_v123 main_v127 (broadcastInDim S16384x1x512 ![0, 2] bcast_S16384x512_S16384x1x512_0_2 : (⟨S16384x512, .f32⟩ : BufTy).Contents (Elt F) → (⟨S16384x1x512, .f32⟩ : BufTy).Contents (Elt F)),
    nary ![main_v124, main_v125, main_v126, main_v127] main_v128 (fun u => concatenate S16384x4x512 1 [⟨S16384x1x512, u 0⟩, ⟨S16384x1x512, u 1⟩, ⟨S16384x1x512, u 2⟩, ⟨S16384x1x512, u 3⟩] concatenates_S16384x1x512_S16384x1x512_S16384x1x512_S16384x1x512_S16384x4x512_d1) ]

abbrev W8 : List (Ref sig .tc) := [main_v124, main_v125, main_v126, main_v127, main_v128]

theorem hW8 : (seg8 (F := F)).Forall fun op => op.writes ⊆ ((W8).map (Proc.devRef (τ := τ) .tc)).toFinset :=
  ⟨wsub (y := main_v124) (by decide), wsub (y := main_v125) (by decide), wsub (y := main_v126) (by decide), wsub (y := main_v127) (by decide), wsub (y := main_v128) (by decide)⟩

/-- A reference segment 8 does not write keeps its contents across it. -/
theorem keep8 (V : Valuation τ sig (Elt F)) (r : Ref sig .tc) (hr : r ∉ W8) :
    after (seg8 (F := F)) V (Proc.devRef .tc r) = V (Proc.devRef .tc r) :=
  after_of_writes_sub _ V hW8 hr

abbrev seg9 : List (HloOp τ sig (Elt F)) :=
  [ binary main_v128 main_arg16 main_v129 ((fun l r => Host.dotGeneral dot_S16384x4x512_S256x512_S16384x4x256_2_1_01_0_n_n none l r) : (⟨S16384x4x512, .f32⟩ : BufTy).Contents (Elt F) → (⟨S256x512, .f32⟩ : BufTy).Contents (Elt F) → (⟨S16384x4x256, .f32⟩ : BufTy).Contents (Elt F)),
    unary main_arg17 main_v130 (broadcastInDim S1x1x256 ![2] bcast_S256_S1x1x256_2 : (⟨S256, .f32⟩ : BufTy).Contents (Elt F) → (⟨S1x1x256, .f32⟩ : BufTy).Contents (Elt F)),
    unary main_v130 main_v131 (broadcastInDim S16384x4x256 ![0, 1, 2] bcast_S1x1x256_S16384x4x256_0_1_2 : (⟨S1x1x256, .f32⟩ : BufTy).Contents (Elt F) → (⟨S16384x4x256, .f32⟩ : BufTy).Contents (Elt F)),
    binary main_v129 main_v131 main_v132 (addf : (⟨S16384x4x256, .f32⟩ : BufTy).Contents (Elt F) → (⟨S16384x4x256, .f32⟩ : BufTy).Contents (Elt F) → (⟨S16384x4x256, .f32⟩ : BufTy).Contents (Elt F)) ]

abbrev W9 : List (Ref sig .tc) := [main_v129, main_v130, main_v131, main_v132]

theorem hW9 : (seg9 (F := F)).Forall fun op => op.writes ⊆ ((W9).map (Proc.devRef (τ := τ) .tc)).toFinset :=
  ⟨wsub (y := main_v129) (by decide), wsub (y := main_v130) (by decide), wsub (y := main_v131) (by decide), wsub (y := main_v132) (by decide)⟩

/-- A reference segment 9 does not write keeps its contents across it. -/
theorem keep9 (V : Valuation τ sig (Elt F)) (r : Ref sig .tc) (hr : r ∉ W9) :
    after (seg9 (F := F)) V (Proc.devRef .tc r) = V (Proc.devRef .tc r) :=
  after_of_writes_sub _ V hW9 hr

abbrev seg10 : List (HloOp τ sig (Elt F)) :=
  [ binary main_v128 main_arg20 main_v133 ((fun l r => Host.dotGeneral dot_S16384x4x512_S256x512_S16384x4x256_2_1_01_0_n_n none l r) : (⟨S16384x4x512, .f32⟩ : BufTy).Contents (Elt F) → (⟨S256x512, .f32⟩ : BufTy).Contents (Elt F) → (⟨S16384x4x256, .f32⟩ : BufTy).Contents (Elt F)),
    unary main_arg21 main_v134 (broadcastInDim S1x1x256 ![2] bcast_S256_S1x1x256_2 : (⟨S256, .f32⟩ : BufTy).Contents (Elt F) → (⟨S1x1x256, .f32⟩ : BufTy).Contents (Elt F)),
    unary main_v134 main_v135 (broadcastInDim S16384x4x256 ![0, 1, 2] bcast_S1x1x256_S16384x4x256_0_1_2 : (⟨S1x1x256, .f32⟩ : BufTy).Contents (Elt F) → (⟨S16384x4x256, .f32⟩ : BufTy).Contents (Elt F)),
    binary main_v133 main_v135 main_v136 (addf : (⟨S16384x4x256, .f32⟩ : BufTy).Contents (Elt F) → (⟨S16384x4x256, .f32⟩ : BufTy).Contents (Elt F) → (⟨S16384x4x256, .f32⟩ : BufTy).Contents (Elt F)) ]

abbrev W10 : List (Ref sig .tc) := [main_v133, main_v134, main_v135, main_v136]

theorem hW10 : (seg10 (F := F)).Forall fun op => op.writes ⊆ ((W10).map (Proc.devRef (τ := τ) .tc)).toFinset :=
  ⟨wsub (y := main_v133) (by decide), wsub (y := main_v134) (by decide), wsub (y := main_v135) (by decide), wsub (y := main_v136) (by decide)⟩

/-- A reference segment 10 does not write keeps its contents across it. -/
theorem keep10 (V : Valuation τ sig (Elt F)) (r : Ref sig .tc) (hr : r ∉ W10) :
    after (seg10 (F := F)) V (Proc.devRef .tc r) = V (Proc.devRef .tc r) :=
  after_of_writes_sub _ V hW10 hr

abbrev seg11 : List (HloOp τ sig (Elt F)) :=
  [ binary main_v132 main_v132 main_v137 ((fun l r => Host.dotGeneral dot_S16384x4x256_S16384x4x256_S16384x4x4_2_2_1_1_0_0 none l r) : (⟨S16384x4x256, .f32⟩ : BufTy).Contents (Elt F) → (⟨S16384x4x256, .f32⟩ : BufTy).Contents (Elt F) → (⟨S16384x4x4, .f32⟩ : BufTy).Contents (Elt F)),
    unary main_arg13 main_v138 (broadcastInDim S16384x1x4 ![0, 2] bcast_S16384x4_S16384x1x4_0_2 : (⟨S16384x4, .f32⟩ : BufTy).Contents (Elt F) → (⟨S16384x1x4, .f32⟩ : BufTy).Contents (Elt F)),
    unary main_arg13 main_v139 (broadcastInDim S16384x4x1 ![0, 1] bcast_S16384x4_S16384x4x1_0_1 : (⟨S16384x4, .f32⟩ : BufTy).Contents (Elt F) → (⟨S16384x4x1, .f32⟩ : BufTy).Contents (Elt F)),
    unary main_v138 main_v140 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    unary main_v139 main_v141 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    binary main_v140 main_v141 main_v142 (addf : (⟨S16384x4x4, .f32⟩ : BufTy).Contents (Elt F) → (⟨S16384x4x4, .f32⟩ : BufTy).Contents (Elt F) → (⟨S16384x4x4, .f32⟩ : BufTy).Contents (Elt F)),
    nullary main_cst_19 (constant S_ .f32 0x3DCCCCCD#32),
    unary main_cst_19 main_v143 (broadcastInDim S16384x4x4 ![] bcast_S_S16384x4x4 : (⟨S_, .f32⟩ : BufTy).Contents (Elt F) → (⟨S16384x4x4, .f32⟩ : BufTy).Contents (Elt F)),
    binary main_v143 main_v142 main_v144 (mulf : (⟨S16384x4x4, .f32⟩ : BufTy).Contents (Elt F) → (⟨S16384x4x4, .f32⟩ : BufTy).Contents (Elt F) → (⟨S16384x4x4, .f32⟩ : BufTy).Contents (Elt F)),
    binary main_v137 main_v144 main_v145 (subf : (⟨S16384x4x4, .f32⟩ : BufTy).Contents (Elt F) → (⟨S16384x4x4, .f32⟩ : BufTy).Contents (Elt F) → (⟨S16384x4x4, .f32⟩ : BufTy).Contents (Elt F)) ]

abbrev W11 : List (Ref sig .tc) := [main_v137, main_v138, main_v139, main_v140, main_v141, main_v142, main_cst_19, main_v143, main_v144, main_v145]

theorem hW11 : (seg11 (F := F)).Forall fun op => op.writes ⊆ ((W11).map (Proc.devRef (τ := τ) .tc)).toFinset :=
  ⟨wsub (y := main_v137) (by decide), wsub (y := main_v138) (by decide), wsub (y := main_v139) (by decide), wsub (y := main_v140) (by decide), wsub (y := main_v141) (by decide), wsub (y := main_v142) (by decide), wsub (y := main_cst_19) (by decide), wsub (y := main_v143) (by decide), wsub (y := main_v144) (by decide), wsub (y := main_v145) (by decide)⟩

/-- A reference segment 11 does not write keeps its contents across it. -/
theorem keep11 (V : Valuation τ sig (Elt F)) (r : Ref sig .tc) (hr : r ∉ W11) :
    after (seg11 (F := F)) V (Proc.devRef .tc r) = V (Proc.devRef .tc r) :=
  after_of_writes_sub _ V hW11 hr

abbrev seg12 : List (HloOp τ sig (Elt F)) :=
  [ nullary main_cst_20 (constant S_ .f32 0xFF800000#32),
    binary main_v145 main_cst_20 main_v146 ((fun x v => Host.reduce FloatOps.maximumf x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    nullary main_cst_21 (constant S_ .f32 0xFF800000#32),
    unary main_cst_21 main_v147 (broadcastInDim S16384x4 ![] bcast_S_S16384x4 : (⟨S_, .f32⟩ : BufTy).Contents (Elt F) → (⟨S16384x4, .f32⟩ : BufTy).Contents (Elt F)),
    binary main_v147 main_v146 main_v148 (maximumf : (⟨S16384x4, .f32⟩ : BufTy).Contents (Elt F) → (⟨S16384x4, .f32⟩ : BufTy).Contents (Elt F) → (⟨S16384x4, .f32⟩ : BufTy).Contents (Elt F)) ]

abbrev W12 : List (Ref sig .tc) := [main_cst_20, main_v146, main_cst_21, main_v147, main_v148]

theorem hW12 : (seg12 (F := F)).Forall fun op => op.writes ⊆ ((W12).map (Proc.devRef (τ := τ) .tc)).toFinset :=
  ⟨wsub (y := main_cst_20) (by decide), wsub (y := main_v146) (by decide), wsub (y := main_cst_21) (by decide), wsub (y := main_v147) (by decide), wsub (y := main_v148) (by decide)⟩

/-- A reference segment 12 does not write keeps its contents across it. -/
theorem keep12 (V : Valuation τ sig (Elt F)) (r : Ref sig .tc) (hr : r ∉ W12) :
    after (seg12 (F := F)) V (Proc.devRef .tc r) = V (Proc.devRef .tc r) :=
  after_of_writes_sub _ V hW12 hr

abbrev seg13 : List (HloOp τ sig (Elt F)) :=
  [ unary main_v148 main_v149 (broadcastInDim S16384x4x1 ![0, 1] bcast_S16384x4_S16384x4x1_0_1 : (⟨S16384x4, .f32⟩ : BufTy).Contents (Elt F) → (⟨S16384x4x1, .f32⟩ : BufTy).Contents (Elt F)),
    unary main_v149 main_v150 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    binary main_v145 main_v150 main_v151 (subf : (⟨S16384x4x4, .f32⟩ : BufTy).Contents (Elt F) → (⟨S16384x4x4, .f32⟩ : BufTy).Contents (Elt F) → (⟨S16384x4x4, .f32⟩ : BufTy).Contents (Elt F)),
    unary main_v151 main_v152 (Host.exp : (⟨S16384x4x4, .f32⟩ : BufTy).Contents (Elt F) → (⟨S16384x4x4, .f32⟩ : BufTy).Contents (Elt F)) ]

abbrev W13 : List (Ref sig .tc) := [main_v149, main_v150, main_v151, main_v152]

theorem hW13 : (seg13 (F := F)).Forall fun op => op.writes ⊆ ((W13).map (Proc.devRef (τ := τ) .tc)).toFinset :=
  ⟨wsub (y := main_v149) (by decide), wsub (y := main_v150) (by decide), wsub (y := main_v151) (by decide), wsub (y := main_v152) (by decide)⟩

/-- A reference segment 13 does not write keeps its contents across it. -/
theorem keep13 (V : Valuation τ sig (Elt F)) (r : Ref sig .tc) (hr : r ∉ W13) :
    after (seg13 (F := F)) V (Proc.devRef .tc r) = V (Proc.devRef .tc r) :=
  after_of_writes_sub _ V hW13 hr

abbrev seg14 : List (HloOp τ sig (Elt F)) :=
  [ nullary main_cst_22 (constant S_ .f32 0x00000000#32),
    binary main_v152 main_cst_22 main_v153 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    unary main_v153 main_v154 (broadcastInDim S16384x4x1 ![0, 1] bcast_S16384x4_S16384x4x1_0_1 : (⟨S16384x4, .f32⟩ : BufTy).Contents (Elt F) → (⟨S16384x4x1, .f32⟩ : BufTy).Contents (Elt F)),
    unary main_v154 main_v155 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    binary main_v152 main_v155 main_v156 (Host.divf : (⟨S16384x4x4, .f32⟩ : BufTy).Contents (Elt F) → (⟨S16384x4x4, .f32⟩ : BufTy).Contents (Elt F) → (⟨S16384x4x4, .f32⟩ : BufTy).Contents (Elt F)) ]

abbrev W14 : List (Ref sig .tc) := [main_cst_22, main_v153, main_v154, main_v155, main_v156]

theorem hW14 : (seg14 (F := F)).Forall fun op => op.writes ⊆ ((W14).map (Proc.devRef (τ := τ) .tc)).toFinset :=
  ⟨wsub (y := main_cst_22) (by decide), wsub (y := main_v153) (by decide), wsub (y := main_v154) (by decide), wsub (y := main_v155) (by decide), wsub (y := main_v156) (by decide)⟩

/-- A reference segment 14 does not write keeps its contents across it. -/
theorem keep14 (V : Valuation τ sig (Elt F)) (r : Ref sig .tc) (hr : r ∉ W14) :
    after (seg14 (F := F)) V (Proc.devRef .tc r) = V (Proc.devRef .tc r) :=
  after_of_writes_sub _ V hW14 hr

abbrev seg15 : List (HloOp τ sig (Elt F)) :=
  [ binary main_v156 main_v136 main_v157 ((fun l r => Host.dotGeneral dot_S16384x4x4_S16384x4x256_S16384x4x256_2_1_1_2_0_0 none l r) : (⟨S16384x4x4, .f32⟩ : BufTy).Contents (Elt F) → (⟨S16384x4x256, .f32⟩ : BufTy).Contents (Elt F) → (⟨S16384x4x256, .f32⟩ : BufTy).Contents (Elt F)) ]

abbrev W15 : List (Ref sig .tc) := [main_v157]

theorem hW15 : (seg15 (F := F)).Forall fun op => op.writes ⊆ ((W15).map (Proc.devRef (τ := τ) .tc)).toFinset :=
  wsub (y := main_v157) (by decide)

/-- A reference segment 15 does not write keeps its contents across it. -/
theorem keep15 (V : Valuation τ sig (Elt F)) (r : Ref sig .tc) (hr : r ∉ W15) :
    after (seg15 (F := F)) V (Proc.devRef .tc r) = V (Proc.devRef .tc r) :=
  after_of_writes_sub _ V hW15 hr

abbrev seg16 : List (HloOp τ sig (Elt F)) :=
  [ reshape main_v157 main_v158 rfl shapeCasts_S16384x4x256_S16384x1024,
    binary main_v158 main_arg12 main_v159 ((fun a b => concatenate S16384x1028 1 [⟨S16384x1024, a⟩, ⟨S16384x4, b⟩] concatenates_S16384x1024_S16384x4_S16384x1028_d1) : (⟨S16384x1024, .f32⟩ : BufTy).Contents (Elt F) → (⟨S16384x4, .f32⟩ : BufTy).Contents (Elt F) → (⟨S16384x1028, .f32⟩ : BufTy).Contents (Elt F)) ]

abbrev W16 : List (Ref sig .tc) := [main_v158, main_v159]

theorem hW16 : (seg16 (F := F)).Forall fun op => op.writes ⊆ ((W16).map (Proc.devRef (τ := τ) .tc)).toFinset :=
  ⟨wsub (y := main_v158) (by decide), wsub (y := main_v159) (by decide)⟩

/-- A reference segment 16 does not write keeps its contents across it. -/
theorem keep16 (V : Valuation τ sig (Elt F)) (r : Ref sig .tc) (hr : r ∉ W16) :
    after (seg16 (F := F)) V (Proc.devRef .tc r) = V (Proc.devRef .tc r) :=
  after_of_writes_sub _ V hW16 hr

abbrev seg17 : List (HloOp τ sig (Elt F)) :=
  [ unary main_arg22 main_v160 ((transpose S1028x256 [1, 0] · transposes_S256x1028_S1028x256_1_0) : (⟨S256x1028, .f32⟩ : BufTy).Contents (Elt F) → (⟨S1028x256, .f32⟩ : BufTy).Contents (Elt F)),
    binary main_v159 main_v160 main_v161 ((fun l r => Host.dotGeneral dot_S16384x1028_S1028x256_S16384x256_1_0_0_1_n_n none l r) : (⟨S16384x1028, .f32⟩ : BufTy).Contents (Elt F) → (⟨S1028x256, .f32⟩ : BufTy).Contents (Elt F) → (⟨S16384x256, .f32⟩ : BufTy).Contents (Elt F)),
    unary main_arg23 main_v162 (broadcastInDim S1x256 ![1] bcast_S256_S1x256_1 : (⟨S256, .f32⟩ : BufTy).Contents (Elt F) → (⟨S1x256, .f32⟩ : BufTy).Contents (Elt F)),
    unary main_v162 main_v163 (broadcastInDim S16384x256 ![0, 1] bcast_S1x256_S16384x256_0_1 : (⟨S1x256, .f32⟩ : BufTy).Contents (Elt F) → (⟨S16384x256, .f32⟩ : BufTy).Contents (Elt F)),
    binary main_v161 main_v163 main_v164 (addf : (⟨S16384x256, .f32⟩ : BufTy).Contents (Elt F) → (⟨S16384x256, .f32⟩ : BufTy).Contents (Elt F) → (⟨S16384x256, .f32⟩ : BufTy).Contents (Elt F)) ]

abbrev W17 : List (Ref sig .tc) := [main_v160, main_v161, main_v162, main_v163, main_v164]

theorem hW17 : (seg17 (F := F)).Forall fun op => op.writes ⊆ ((W17).map (Proc.devRef (τ := τ) .tc)).toFinset :=
  ⟨wsub (y := main_v160) (by decide), wsub (y := main_v161) (by decide), wsub (y := main_v162) (by decide), wsub (y := main_v163) (by decide), wsub (y := main_v164) (by decide)⟩

/-- A reference segment 17 does not write keeps its contents across it. -/
theorem keep17 (V : Valuation τ sig (Elt F)) (r : Ref sig .tc) (hr : r ∉ W17) :
    after (seg17 (F := F)) V (Proc.devRef .tc r) = V (Proc.devRef .tc r) :=
  after_of_writes_sub _ V hW17 hr

abbrev seg18 : List (HloOp τ sig (Elt F)) :=
  [ unary main_arg24 main_v165 ((transpose S256x1 [1, 0] · transposes_S1x256_S256x1_1_0) : (⟨S1x256, .f32⟩ : BufTy).Contents (Elt F) → (⟨S256x1, .f32⟩ : BufTy).Contents (Elt F)),
    binary main_v164 main_v165 main_v166 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg25 main_v167 (broadcastInDim S1x1 ![1] bcast_S1_S1x1_1 : (⟨S1, .f32⟩ : BufTy).Contents (Elt F) → (⟨S1x1, .f32⟩ : BufTy).Contents (Elt F)),
    unary main_v167 main_v168 (broadcastInDim S16384x1 ![0, 1] bcast_S1x1_S16384x1_0_1 : (⟨S1x1, .f32⟩ : BufTy).Contents (Elt F) → (⟨S16384x1, .f32⟩ : BufTy).Contents (Elt F)),
    binary main_v166 main_v168 main_v169 (addf : (⟨S16384x1, .f32⟩ : BufTy).Contents (Elt F) → (⟨S16384x1, .f32⟩ : BufTy).Contents (Elt F) → (⟨S16384x1, .f32⟩ : BufTy).Contents (Elt F)) ]

abbrev W18 : List (Ref sig .tc) := [main_v165, main_v166, main_v167, main_v168, main_v169]

theorem hW18 : (seg18 (F := F)).Forall fun op => op.writes ⊆ ((W18).map (Proc.devRef (τ := τ) .tc)).toFinset :=
  ⟨wsub (y := main_v165) (by decide), wsub (y := main_v166) (by decide), wsub (y := main_v167) (by decide), wsub (y := main_v168) (by decide), wsub (y := main_v169) (by decide)⟩

/-- A reference segment 18 does not write keeps its contents across it. -/
theorem keep18 (V : Valuation τ sig (Elt F)) (r : Ref sig .tc) (hr : r ∉ W18) :
    after (seg18 (F := F)) V (Proc.devRef .tc r) = V (Proc.devRef .tc r) :=
  after_of_writes_sub _ V hW18 hr

abbrev seg19 : List (HloOp τ sig (Elt F)) :=
  [ unary main_v169 main_v170 (Host.negf : (⟨S16384x1, .f32⟩ : BufTy).Contents (Elt F) → (⟨S16384x1, .f32⟩ : BufTy).Contents (Elt F)),
    unary main_v170 main_v171 (Host.exp : (⟨S16384x1, .f32⟩ : BufTy).Contents (Elt F) → (⟨S16384x1, .f32⟩ : BufTy).Contents (Elt F)),
    nullary main_cst_23 (constant S_ .f32 0x3F800000#32),
    unary main_cst_23 main_v172 (broadcastInDim S16384x1 ![] bcast_S_S16384x1 : (⟨S_, .f32⟩ : BufTy).Contents (Elt F) → (⟨S16384x1, .f32⟩ : BufTy).Contents (Elt F)),
    binary main_v172 main_v171 main_v173 (addf : (⟨S16384x1, .f32⟩ : BufTy).Contents (Elt F) → (⟨S16384x1, .f32⟩ : BufTy).Contents (Elt F) → (⟨S16384x1, .f32⟩ : BufTy).Contents (Elt F)),
    nullary main_cst_24 (constant S_ .f32 0x3F800000#32),
    unary main_cst_24 main_v174 (broadcastInDim S16384x1 ![] bcast_S_S16384x1 : (⟨S_, .f32⟩ : BufTy).Contents (Elt F) → (⟨S16384x1, .f32⟩ : BufTy).Contents (Elt F)),
    binary main_v174 main_v173 main_v175 (Host.divf : (⟨S16384x1, .f32⟩ : BufTy).Contents (Elt F) → (⟨S16384x1, .f32⟩ : BufTy).Contents (Elt F) → (⟨S16384x1, .f32⟩ : BufTy).Contents (Elt F)) ]

abbrev W19 : List (Ref sig .tc) := [main_v170, main_v171, main_cst_23, main_v172, main_v173, main_cst_24, main_v174, main_v175]

theorem hW19 : (seg19 (F := F)).Forall fun op => op.writes ⊆ ((W19).map (Proc.devRef (τ := τ) .tc)).toFinset :=
  ⟨wsub (y := main_v170) (by decide), wsub (y := main_v171) (by decide), wsub (y := main_cst_23) (by decide), wsub (y := main_v172) (by decide), wsub (y := main_v173) (by decide), wsub (y := main_cst_24) (by decide), wsub (y := main_v174) (by decide), wsub (y := main_v175) (by decide)⟩

/-- A reference segment 19 does not write keeps its contents across it. -/
theorem keep19 (V : Valuation τ sig (Elt F)) (r : Ref sig .tc) (hr : r ∉ W19) :
    after (seg19 (F := F)) V (Proc.devRef .tc r) = V (Proc.devRef .tc r) :=
  after_of_writes_sub _ V hW19 hr

/-- The operation list is the twenty segments one after the other. -/
theorem ops_eq : (ops (F := F)) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19))))))))))))))))))) := rfl

/-! ## The argument arrays at a valuation, and across a segment -/

/-- The valuation holds the argument arrays `x0 …` at their references. -/
structure ArgsAt (V : Valuation τ sig (Elt F)) (x0 : (⟨S16384x1024, .f32⟩ : BufTy).Contents (Elt F)) (x1 : (⟨S16384x768, .f32⟩ : BufTy).Contents (Elt F)) (x2 : (⟨S16384x512, .f32⟩ : BufTy).Contents (Elt F)) (x3 : (⟨S16384x640, .f32⟩ : BufTy).Contents (Elt F)) (x4 : (⟨S512x1024, .f32⟩ : BufTy).Contents (Elt F)) (x5 : (⟨S512, .f32⟩ : BufTy).Contents (Elt F)) (x6 : (⟨S512x768, .f32⟩ : BufTy).Contents (Elt F)) (x7 : (⟨S512, .f32⟩ : BufTy).Contents (Elt F)) (x8 : (⟨S512x512, .f32⟩ : BufTy).Contents (Elt F)) (x9 : (⟨S512, .f32⟩ : BufTy).Contents (Elt F)) (x10 : (⟨S512x640, .f32⟩ : BufTy).Contents (Elt F)) (x11 : (⟨S512, .f32⟩ : BufTy).Contents (Elt F)) (x12 : (⟨S16384x4, .f32⟩ : BufTy).Contents (Elt F)) (x13 : (⟨S16384x4, .f32⟩ : BufTy).Contents (Elt F)) (x14 : (⟨S512, .f32⟩ : BufTy).Contents (Elt F)) (x15 : (⟨S512, .f32⟩ : BufTy).Contents (Elt F)) (x16 : (⟨S256x512, .f32⟩ : BufTy).Contents (Elt F)) (x17 : (⟨S256, .f32⟩ : BufTy).Contents (Elt F)) (x18 : (⟨S256x512, .f32⟩ : BufTy).Contents (Elt F)) (x19 : (⟨S256, .f32⟩ : BufTy).Contents (Elt F)) (x20 : (⟨S256x512, .f32⟩ : BufTy).Contents (Elt F)) (x21 : (⟨S256, .f32⟩ : BufTy).Contents (Elt F)) (x22 : (⟨S256x1028, .f32⟩ : BufTy).Contents (Elt F)) (x23 : (⟨S256, .f32⟩ : BufTy).Contents (Elt F)) (x24 : (⟨S1x256, .f32⟩ : BufTy).Contents (Elt F)) (x25 : (⟨S1, .f32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10
  a11 : V (Proc.devRef .tc main_arg11) = x11
  a12 : V (Proc.devRef .tc main_arg12) = x12
  a13 : V (Proc.devRef .tc main_arg13) = x13
  a14 : V (Proc.devRef .tc main_arg14) = x14
  a15 : V (Proc.devRef .tc main_arg15) = x15
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25

theorem args0 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg0 (F := F)) V) x0 x1 x2 x3 x4 x5 x6 x7 x8 x9 x10 x11 x12 x13 x14 x15 x16 x17 x18 x19 x20 x21 x22 x23 x24 x25 :=
  ⟨(keep0 V main_arg0 (by decide)).trans h.a0, (keep0 V main_arg1 (by decide)).trans h.a1, (keep0 V main_arg2 (by decide)).trans h.a2, (keep0 V main_arg3 (by decide)).trans h.a3, (keep0 V main_arg4 (by decide)).trans h.a4, (keep0 V main_arg5 (by decide)).trans h.a5, (keep0 V main_arg6 (by decide)).trans h.a6, (keep0 V main_arg7 (by decide)).trans h.a7, (keep0 V main_arg8 (by decide)).trans h.a8, (keep0 V main_arg9 (by decide)).trans h.a9, (keep0 V main_arg10 (by decide)).trans h.a10, (keep0 V main_arg11 (by decide)).trans h.a11, (keep0 V main_arg12 (by decide)).trans h.a12, (keep0 V main_arg13 (by decide)).trans h.a13, (keep0 V main_arg14 (by decide)).trans h.a14, (keep0 V main_arg15 (by decide)).trans h.a15, (keep0 V main_arg16 (by decide)).trans h.a16, (keep0 V main_arg17 (by decide)).trans h.a17, (keep0 V main_arg18 (by decide)).trans h.a18, (keep0 V main_arg19 (by decide)).trans h.a19, (keep0 V main_arg20 (by decide)).trans h.a20, (keep0 V main_arg21 (by decide)).trans h.a21, (keep0 V main_arg22 (by decide)).trans h.a22, (keep0 V main_arg23 (by decide)).trans h.a23, (keep0 V main_arg24 (by decide)).trans h.a24, (keep0 V main_arg25 (by decide)).trans h.a25⟩

theorem args1 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg1 (F := F)) V) x0 x1 x2 x3 x4 x5 x6 x7 x8 x9 x10 x11 x12 x13 x14 x15 x16 x17 x18 x19 x20 x21 x22 x23 x24 x25 :=
  ⟨(keep1 V main_arg0 (by decide)).trans h.a0, (keep1 V main_arg1 (by decide)).trans h.a1, (keep1 V main_arg2 (by decide)).trans h.a2, (keep1 V main_arg3 (by decide)).trans h.a3, (keep1 V main_arg4 (by decide)).trans h.a4, (keep1 V main_arg5 (by decide)).trans h.a5, (keep1 V main_arg6 (by decide)).trans h.a6, (keep1 V main_arg7 (by decide)).trans h.a7, (keep1 V main_arg8 (by decide)).trans h.a8, (keep1 V main_arg9 (by decide)).trans h.a9, (keep1 V main_arg10 (by decide)).trans h.a10, (keep1 V main_arg11 (by decide)).trans h.a11, (keep1 V main_arg12 (by decide)).trans h.a12, (keep1 V main_arg13 (by decide)).trans h.a13, (keep1 V main_arg14 (by decide)).trans h.a14, (keep1 V main_arg15 (by decide)).trans h.a15, (keep1 V main_arg16 (by decide)).trans h.a16, (keep1 V main_arg17 (by decide)).trans h.a17, (keep1 V main_arg18 (by decide)).trans h.a18, (keep1 V main_arg19 (by decide)).trans h.a19, (keep1 V main_arg20 (by decide)).trans h.a20, (keep1 V main_arg21 (by decide)).trans h.a21, (keep1 V main_arg22 (by decide)).trans h.a22, (keep1 V main_arg23 (by decide)).trans h.a23, (keep1 V main_arg24 (by decide)).trans h.a24, (keep1 V main_arg25 (by decide)).trans h.a25⟩

theorem args2 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg2 (F := F)) V) x0 x1 x2 x3 x4 x5 x6 x7 x8 x9 x10 x11 x12 x13 x14 x15 x16 x17 x18 x19 x20 x21 x22 x23 x24 x25 :=
  ⟨(keep2 V main_arg0 (by decide)).trans h.a0, (keep2 V main_arg1 (by decide)).trans h.a1, (keep2 V main_arg2 (by decide)).trans h.a2, (keep2 V main_arg3 (by decide)).trans h.a3, (keep2 V main_arg4 (by decide)).trans h.a4, (keep2 V main_arg5 (by decide)).trans h.a5, (keep2 V main_arg6 (by decide)).trans h.a6, (keep2 V main_arg7 (by decide)).trans h.a7, (keep2 V main_arg8 (by decide)).trans h.a8, (keep2 V main_arg9 (by decide)).trans h.a9, (keep2 V main_arg10 (by decide)).trans h.a10, (keep2 V main_arg11 (by decide)).trans h.a11, (keep2 V main_arg12 (by decide)).trans h.a12, (keep2 V main_arg13 (by decide)).trans h.a13, (keep2 V main_arg14 (by decide)).trans h.a14, (keep2 V main_arg15 (by decide)).trans h.a15, (keep2 V main_arg16 (by decide)).trans h.a16, (keep2 V main_arg17 (by decide)).trans h.a17, (keep2 V main_arg18 (by decide)).trans h.a18, (keep2 V main_arg19 (by decide)).trans h.a19, (keep2 V main_arg20 (by decide)).trans h.a20, (keep2 V main_arg21 (by decide)).trans h.a21, (keep2 V main_arg22 (by decide)).trans h.a22, (keep2 V main_arg23 (by decide)).trans h.a23, (keep2 V main_arg24 (by decide)).trans h.a24, (keep2 V main_arg25 (by decide)).trans h.a25⟩

theorem args3 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg3 (F := F)) V) x0 x1 x2 x3 x4 x5 x6 x7 x8 x9 x10 x11 x12 x13 x14 x15 x16 x17 x18 x19 x20 x21 x22 x23 x24 x25 :=
  ⟨(keep3 V main_arg0 (by decide)).trans h.a0, (keep3 V main_arg1 (by decide)).trans h.a1, (keep3 V main_arg2 (by decide)).trans h.a2, (keep3 V main_arg3 (by decide)).trans h.a3, (keep3 V main_arg4 (by decide)).trans h.a4, (keep3 V main_arg5 (by decide)).trans h.a5, (keep3 V main_arg6 (by decide)).trans h.a6, (keep3 V main_arg7 (by decide)).trans h.a7, (keep3 V main_arg8 (by decide)).trans h.a8, (keep3 V main_arg9 (by decide)).trans h.a9, (keep3 V main_arg10 (by decide)).trans h.a10, (keep3 V main_arg11 (by decide)).trans h.a11, (keep3 V main_arg12 (by decide)).trans h.a12, (keep3 V main_arg13 (by decide)).trans h.a13, (keep3 V main_arg14 (by decide)).trans h.a14, (keep3 V main_arg15 (by decide)).trans h.a15, (keep3 V main_arg16 (by decide)).trans h.a16, (keep3 V main_arg17 (by decide)).trans h.a17, (keep3 V main_arg18 (by decide)).trans h.a18, (keep3 V main_arg19 (by decide)).trans h.a19, (keep3 V main_arg20 (by decide)).trans h.a20, (keep3 V main_arg21 (by decide)).trans h.a21, (keep3 V main_arg22 (by decide)).trans h.a22, (keep3 V main_arg23 (by decide)).trans h.a23, (keep3 V main_arg24 (by decide)).trans h.a24, (keep3 V main_arg25 (by decide)).trans h.a25⟩

theorem args4 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg4 (F := F)) V) x0 x1 x2 x3 x4 x5 x6 x7 x8 x9 x10 x11 x12 x13 x14 x15 x16 x17 x18 x19 x20 x21 x22 x23 x24 x25 :=
  ⟨(keep4 V main_arg0 (by decide)).trans h.a0, (keep4 V main_arg1 (by decide)).trans h.a1, (keep4 V main_arg2 (by decide)).trans h.a2, (keep4 V main_arg3 (by decide)).trans h.a3, (keep4 V main_arg4 (by decide)).trans h.a4, (keep4 V main_arg5 (by decide)).trans h.a5, (keep4 V main_arg6 (by decide)).trans h.a6, (keep4 V main_arg7 (by decide)).trans h.a7, (keep4 V main_arg8 (by decide)).trans h.a8, (keep4 V main_arg9 (by decide)).trans h.a9, (keep4 V main_arg10 (by decide)).trans h.a10, (keep4 V main_arg11 (by decide)).trans h.a11, (keep4 V main_arg12 (by decide)).trans h.a12, (keep4 V main_arg13 (by decide)).trans h.a13, (keep4 V main_arg14 (by decide)).trans h.a14, (keep4 V main_arg15 (by decide)).trans h.a15, (keep4 V main_arg16 (by decide)).trans h.a16, (keep4 V main_arg17 (by decide)).trans h.a17, (keep4 V main_arg18 (by decide)).trans h.a18, (keep4 V main_arg19 (by decide)).trans h.a19, (keep4 V main_arg20 (by decide)).trans h.a20, (keep4 V main_arg21 (by decide)).trans h.a21, (keep4 V main_arg22 (by decide)).trans h.a22, (keep4 V main_arg23 (by decide)).trans h.a23, (keep4 V main_arg24 (by decide)).trans h.a24, (keep4 V main_arg25 (by decide)).trans h.a25⟩

theorem args5 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg5 (F := F)) V) x0 x1 x2 x3 x4 x5 x6 x7 x8 x9 x10 x11 x12 x13 x14 x15 x16 x17 x18 x19 x20 x21 x22 x23 x24 x25 :=
  ⟨(keep5 V main_arg0 (by decide)).trans h.a0, (keep5 V main_arg1 (by decide)).trans h.a1, (keep5 V main_arg2 (by decide)).trans h.a2, (keep5 V main_arg3 (by decide)).trans h.a3, (keep5 V main_arg4 (by decide)).trans h.a4, (keep5 V main_arg5 (by decide)).trans h.a5, (keep5 V main_arg6 (by decide)).trans h.a6, (keep5 V main_arg7 (by decide)).trans h.a7, (keep5 V main_arg8 (by decide)).trans h.a8, (keep5 V main_arg9 (by decide)).trans h.a9, (keep5 V main_arg10 (by decide)).trans h.a10, (keep5 V main_arg11 (by decide)).trans h.a11, (keep5 V main_arg12 (by decide)).trans h.a12, (keep5 V main_arg13 (by decide)).trans h.a13, (keep5 V main_arg14 (by decide)).trans h.a14, (keep5 V main_arg15 (by decide)).trans h.a15, (keep5 V main_arg16 (by decide)).trans h.a16, (keep5 V main_arg17 (by decide)).trans h.a17, (keep5 V main_arg18 (by decide)).trans h.a18, (keep5 V main_arg19 (by decide)).trans h.a19, (keep5 V main_arg20 (by decide)).trans h.a20, (keep5 V main_arg21 (by decide)).trans h.a21, (keep5 V main_arg22 (by decide)).trans h.a22, (keep5 V main_arg23 (by decide)).trans h.a23, (keep5 V main_arg24 (by decide)).trans h.a24, (keep5 V main_arg25 (by decide)).trans h.a25⟩

theorem args6 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg6 (F := F)) V) x0 x1 x2 x3 x4 x5 x6 x7 x8 x9 x10 x11 x12 x13 x14 x15 x16 x17 x18 x19 x20 x21 x22 x23 x24 x25 :=
  ⟨(keep6 V main_arg0 (by decide)).trans h.a0, (keep6 V main_arg1 (by decide)).trans h.a1, (keep6 V main_arg2 (by decide)).trans h.a2, (keep6 V main_arg3 (by decide)).trans h.a3, (keep6 V main_arg4 (by decide)).trans h.a4, (keep6 V main_arg5 (by decide)).trans h.a5, (keep6 V main_arg6 (by decide)).trans h.a6, (keep6 V main_arg7 (by decide)).trans h.a7, (keep6 V main_arg8 (by decide)).trans h.a8, (keep6 V main_arg9 (by decide)).trans h.a9, (keep6 V main_arg10 (by decide)).trans h.a10, (keep6 V main_arg11 (by decide)).trans h.a11, (keep6 V main_arg12 (by decide)).trans h.a12, (keep6 V main_arg13 (by decide)).trans h.a13, (keep6 V main_arg14 (by decide)).trans h.a14, (keep6 V main_arg15 (by decide)).trans h.a15, (keep6 V main_arg16 (by decide)).trans h.a16, (keep6 V main_arg17 (by decide)).trans h.a17, (keep6 V main_arg18 (by decide)).trans h.a18, (keep6 V main_arg19 (by decide)).trans h.a19, (keep6 V main_arg20 (by decide)).trans h.a20, (keep6 V main_arg21 (by decide)).trans h.a21, (keep6 V main_arg22 (by decide)).trans h.a22, (keep6 V main_arg23 (by decide)).trans h.a23, (keep6 V main_arg24 (by decide)).trans h.a24, (keep6 V main_arg25 (by decide)).trans h.a25⟩

theorem args7 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg7 (F := F)) V) x0 x1 x2 x3 x4 x5 x6 x7 x8 x9 x10 x11 x12 x13 x14 x15 x16 x17 x18 x19 x20 x21 x22 x23 x24 x25 :=
  ⟨(keep7 V main_arg0 (by decide)).trans h.a0, (keep7 V main_arg1 (by decide)).trans h.a1, (keep7 V main_arg2 (by decide)).trans h.a2, (keep7 V main_arg3 (by decide)).trans h.a3, (keep7 V main_arg4 (by decide)).trans h.a4, (keep7 V main_arg5 (by decide)).trans h.a5, (keep7 V main_arg6 (by decide)).trans h.a6, (keep7 V main_arg7 (by decide)).trans h.a7, (keep7 V main_arg8 (by decide)).trans h.a8, (keep7 V main_arg9 (by decide)).trans h.a9, (keep7 V main_arg10 (by decide)).trans h.a10, (keep7 V main_arg11 (by decide)).trans h.a11, (keep7 V main_arg12 (by decide)).trans h.a12, (keep7 V main_arg13 (by decide)).trans h.a13, (keep7 V main_arg14 (by decide)).trans h.a14, (keep7 V main_arg15 (by decide)).trans h.a15, (keep7 V main_arg16 (by decide)).trans h.a16, (keep7 V main_arg17 (by decide)).trans h.a17, (keep7 V main_arg18 (by decide)).trans h.a18, (keep7 V main_arg19 (by decide)).trans h.a19, (keep7 V main_arg20 (by decide)).trans h.a20, (keep7 V main_arg21 (by decide)).trans h.a21, (keep7 V main_arg22 (by decide)).trans h.a22, (keep7 V main_arg23 (by decide)).trans h.a23, (keep7 V main_arg24 (by decide)).trans h.a24, (keep7 V main_arg25 (by decide)).trans h.a25⟩

theorem args8 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg8 (F := F)) V) x0 x1 x2 x3 x4 x5 x6 x7 x8 x9 x10 x11 x12 x13 x14 x15 x16 x17 x18 x19 x20 x21 x22 x23 x24 x25 :=
  ⟨(keep8 V main_arg0 (by decide)).trans h.a0, (keep8 V main_arg1 (by decide)).trans h.a1, (keep8 V main_arg2 (by decide)).trans h.a2, (keep8 V main_arg3 (by decide)).trans h.a3, (keep8 V main_arg4 (by decide)).trans h.a4, (keep8 V main_arg5 (by decide)).trans h.a5, (keep8 V main_arg6 (by decide)).trans h.a6, (keep8 V main_arg7 (by decide)).trans h.a7, (keep8 V main_arg8 (by decide)).trans h.a8, (keep8 V main_arg9 (by decide)).trans h.a9, (keep8 V main_arg10 (by decide)).trans h.a10, (keep8 V main_arg11 (by decide)).trans h.a11, (keep8 V main_arg12 (by decide)).trans h.a12, (keep8 V main_arg13 (by decide)).trans h.a13, (keep8 V main_arg14 (by decide)).trans h.a14, (keep8 V main_arg15 (by decide)).trans h.a15, (keep8 V main_arg16 (by decide)).trans h.a16, (keep8 V main_arg17 (by decide)).trans h.a17, (keep8 V main_arg18 (by decide)).trans h.a18, (keep8 V main_arg19 (by decide)).trans h.a19, (keep8 V main_arg20 (by decide)).trans h.a20, (keep8 V main_arg21 (by decide)).trans h.a21, (keep8 V main_arg22 (by decide)).trans h.a22, (keep8 V main_arg23 (by decide)).trans h.a23, (keep8 V main_arg24 (by decide)).trans h.a24, (keep8 V main_arg25 (by decide)).trans h.a25⟩

theorem args9 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg9 (F := F)) V) x0 x1 x2 x3 x4 x5 x6 x7 x8 x9 x10 x11 x12 x13 x14 x15 x16 x17 x18 x19 x20 x21 x22 x23 x24 x25 :=
  ⟨(keep9 V main_arg0 (by decide)).trans h.a0, (keep9 V main_arg1 (by decide)).trans h.a1, (keep9 V main_arg2 (by decide)).trans h.a2, (keep9 V main_arg3 (by decide)).trans h.a3, (keep9 V main_arg4 (by decide)).trans h.a4, (keep9 V main_arg5 (by decide)).trans h.a5, (keep9 V main_arg6 (by decide)).trans h.a6, (keep9 V main_arg7 (by decide)).trans h.a7, (keep9 V main_arg8 (by decide)).trans h.a8, (keep9 V main_arg9 (by decide)).trans h.a9, (keep9 V main_arg10 (by decide)).trans h.a10, (keep9 V main_arg11 (by decide)).trans h.a11, (keep9 V main_arg12 (by decide)).trans h.a12, (keep9 V main_arg13 (by decide)).trans h.a13, (keep9 V main_arg14 (by decide)).trans h.a14, (keep9 V main_arg15 (by decide)).trans h.a15, (keep9 V main_arg16 (by decide)).trans h.a16, (keep9 V main_arg17 (by decide)).trans h.a17, (keep9 V main_arg18 (by decide)).trans h.a18, (keep9 V main_arg19 (by decide)).trans h.a19, (keep9 V main_arg20 (by decide)).trans h.a20, (keep9 V main_arg21 (by decide)).trans h.a21, (keep9 V main_arg22 (by decide)).trans h.a22, (keep9 V main_arg23 (by decide)).trans h.a23, (keep9 V main_arg24 (by decide)).trans h.a24, (keep9 V main_arg25 (by decide)).trans h.a25⟩

theorem args10 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg10 (F := F)) V) x0 x1 x2 x3 x4 x5 x6 x7 x8 x9 x10 x11 x12 x13 x14 x15 x16 x17 x18 x19 x20 x21 x22 x23 x24 x25 :=
  ⟨(keep10 V main_arg0 (by decide)).trans h.a0, (keep10 V main_arg1 (by decide)).trans h.a1, (keep10 V main_arg2 (by decide)).trans h.a2, (keep10 V main_arg3 (by decide)).trans h.a3, (keep10 V main_arg4 (by decide)).trans h.a4, (keep10 V main_arg5 (by decide)).trans h.a5, (keep10 V main_arg6 (by decide)).trans h.a6, (keep10 V main_arg7 (by decide)).trans h.a7, (keep10 V main_arg8 (by decide)).trans h.a8, (keep10 V main_arg9 (by decide)).trans h.a9, (keep10 V main_arg10 (by decide)).trans h.a10, (keep10 V main_arg11 (by decide)).trans h.a11, (keep10 V main_arg12 (by decide)).trans h.a12, (keep10 V main_arg13 (by decide)).trans h.a13, (keep10 V main_arg14 (by decide)).trans h.a14, (keep10 V main_arg15 (by decide)).trans h.a15, (keep10 V main_arg16 (by decide)).trans h.a16, (keep10 V main_arg17 (by decide)).trans h.a17, (keep10 V main_arg18 (by decide)).trans h.a18, (keep10 V main_arg19 (by decide)).trans h.a19, (keep10 V main_arg20 (by decide)).trans h.a20, (keep10 V main_arg21 (by decide)).trans h.a21, (keep10 V main_arg22 (by decide)).trans h.a22, (keep10 V main_arg23 (by decide)).trans h.a23, (keep10 V main_arg24 (by decide)).trans h.a24, (keep10 V main_arg25 (by decide)).trans h.a25⟩

theorem args11 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg11 (F := F)) V) x0 x1 x2 x3 x4 x5 x6 x7 x8 x9 x10 x11 x12 x13 x14 x15 x16 x17 x18 x19 x20 x21 x22 x23 x24 x25 :=
  ⟨(keep11 V main_arg0 (by decide)).trans h.a0, (keep11 V main_arg1 (by decide)).trans h.a1, (keep11 V main_arg2 (by decide)).trans h.a2, (keep11 V main_arg3 (by decide)).trans h.a3, (keep11 V main_arg4 (by decide)).trans h.a4, (keep11 V main_arg5 (by decide)).trans h.a5, (keep11 V main_arg6 (by decide)).trans h.a6, (keep11 V main_arg7 (by decide)).trans h.a7, (keep11 V main_arg8 (by decide)).trans h.a8, (keep11 V main_arg9 (by decide)).trans h.a9, (keep11 V main_arg10 (by decide)).trans h.a10, (keep11 V main_arg11 (by decide)).trans h.a11, (keep11 V main_arg12 (by decide)).trans h.a12, (keep11 V main_arg13 (by decide)).trans h.a13, (keep11 V main_arg14 (by decide)).trans h.a14, (keep11 V main_arg15 (by decide)).trans h.a15, (keep11 V main_arg16 (by decide)).trans h.a16, (keep11 V main_arg17 (by decide)).trans h.a17, (keep11 V main_arg18 (by decide)).trans h.a18, (keep11 V main_arg19 (by decide)).trans h.a19, (keep11 V main_arg20 (by decide)).trans h.a20, (keep11 V main_arg21 (by decide)).trans h.a21, (keep11 V main_arg22 (by decide)).trans h.a22, (keep11 V main_arg23 (by decide)).trans h.a23, (keep11 V main_arg24 (by decide)).trans h.a24, (keep11 V main_arg25 (by decide)).trans h.a25⟩

theorem args12 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg12 (F := F)) V) x0 x1 x2 x3 x4 x5 x6 x7 x8 x9 x10 x11 x12 x13 x14 x15 x16 x17 x18 x19 x20 x21 x22 x23 x24 x25 :=
  ⟨(keep12 V main_arg0 (by decide)).trans h.a0, (keep12 V main_arg1 (by decide)).trans h.a1, (keep12 V main_arg2 (by decide)).trans h.a2, (keep12 V main_arg3 (by decide)).trans h.a3, (keep12 V main_arg4 (by decide)).trans h.a4, (keep12 V main_arg5 (by decide)).trans h.a5, (keep12 V main_arg6 (by decide)).trans h.a6, (keep12 V main_arg7 (by decide)).trans h.a7, (keep12 V main_arg8 (by decide)).trans h.a8, (keep12 V main_arg9 (by decide)).trans h.a9, (keep12 V main_arg10 (by decide)).trans h.a10, (keep12 V main_arg11 (by decide)).trans h.a11, (keep12 V main_arg12 (by decide)).trans h.a12, (keep12 V main_arg13 (by decide)).trans h.a13, (keep12 V main_arg14 (by decide)).trans h.a14, (keep12 V main_arg15 (by decide)).trans h.a15, (keep12 V main_arg16 (by decide)).trans h.a16, (keep12 V main_arg17 (by decide)).trans h.a17, (keep12 V main_arg18 (by decide)).trans h.a18, (keep12 V main_arg19 (by decide)).trans h.a19, (keep12 V main_arg20 (by decide)).trans h.a20, (keep12 V main_arg21 (by decide)).trans h.a21, (keep12 V main_arg22 (by decide)).trans h.a22, (keep12 V main_arg23 (by decide)).trans h.a23, (keep12 V main_arg24 (by decide)).trans h.a24, (keep12 V main_arg25 (by decide)).trans h.a25⟩

theorem args13 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg13 (F := F)) V) x0 x1 x2 x3 x4 x5 x6 x7 x8 x9 x10 x11 x12 x13 x14 x15 x16 x17 x18 x19 x20 x21 x22 x23 x24 x25 :=
  ⟨(keep13 V main_arg0 (by decide)).trans h.a0, (keep13 V main_arg1 (by decide)).trans h.a1, (keep13 V main_arg2 (by decide)).trans h.a2, (keep13 V main_arg3 (by decide)).trans h.a3, (keep13 V main_arg4 (by decide)).trans h.a4, (keep13 V main_arg5 (by decide)).trans h.a5, (keep13 V main_arg6 (by decide)).trans h.a6, (keep13 V main_arg7 (by decide)).trans h.a7, (keep13 V main_arg8 (by decide)).trans h.a8, (keep13 V main_arg9 (by decide)).trans h.a9, (keep13 V main_arg10 (by decide)).trans h.a10, (keep13 V main_arg11 (by decide)).trans h.a11, (keep13 V main_arg12 (by decide)).trans h.a12, (keep13 V main_arg13 (by decide)).trans h.a13, (keep13 V main_arg14 (by decide)).trans h.a14, (keep13 V main_arg15 (by decide)).trans h.a15, (keep13 V main_arg16 (by decide)).trans h.a16, (keep13 V main_arg17 (by decide)).trans h.a17, (keep13 V main_arg18 (by decide)).trans h.a18, (keep13 V main_arg19 (by decide)).trans h.a19, (keep13 V main_arg20 (by decide)).trans h.a20, (keep13 V main_arg21 (by decide)).trans h.a21, (keep13 V main_arg22 (by decide)).trans h.a22, (keep13 V main_arg23 (by decide)).trans h.a23, (keep13 V main_arg24 (by decide)).trans h.a24, (keep13 V main_arg25 (by decide)).trans h.a25⟩

theorem args14 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg14 (F := F)) V) x0 x1 x2 x3 x4 x5 x6 x7 x8 x9 x10 x11 x12 x13 x14 x15 x16 x17 x18 x19 x20 x21 x22 x23 x24 x25 :=
  ⟨(keep14 V main_arg0 (by decide)).trans h.a0, (keep14 V main_arg1 (by decide)).trans h.a1, (keep14 V main_arg2 (by decide)).trans h.a2, (keep14 V main_arg3 (by decide)).trans h.a3, (keep14 V main_arg4 (by decide)).trans h.a4, (keep14 V main_arg5 (by decide)).trans h.a5, (keep14 V main_arg6 (by decide)).trans h.a6, (keep14 V main_arg7 (by decide)).trans h.a7, (keep14 V main_arg8 (by decide)).trans h.a8, (keep14 V main_arg9 (by decide)).trans h.a9, (keep14 V main_arg10 (by decide)).trans h.a10, (keep14 V main_arg11 (by decide)).trans h.a11, (keep14 V main_arg12 (by decide)).trans h.a12, (keep14 V main_arg13 (by decide)).trans h.a13, (keep14 V main_arg14 (by decide)).trans h.a14, (keep14 V main_arg15 (by decide)).trans h.a15, (keep14 V main_arg16 (by decide)).trans h.a16, (keep14 V main_arg17 (by decide)).trans h.a17, (keep14 V main_arg18 (by decide)).trans h.a18, (keep14 V main_arg19 (by decide)).trans h.a19, (keep14 V main_arg20 (by decide)).trans h.a20, (keep14 V main_arg21 (by decide)).trans h.a21, (keep14 V main_arg22 (by decide)).trans h.a22, (keep14 V main_arg23 (by decide)).trans h.a23, (keep14 V main_arg24 (by decide)).trans h.a24, (keep14 V main_arg25 (by decide)).trans h.a25⟩

theorem args15 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg15 (F := F)) V) x0 x1 x2 x3 x4 x5 x6 x7 x8 x9 x10 x11 x12 x13 x14 x15 x16 x17 x18 x19 x20 x21 x22 x23 x24 x25 :=
  ⟨(keep15 V main_arg0 (by decide)).trans h.a0, (keep15 V main_arg1 (by decide)).trans h.a1, (keep15 V main_arg2 (by decide)).trans h.a2, (keep15 V main_arg3 (by decide)).trans h.a3, (keep15 V main_arg4 (by decide)).trans h.a4, (keep15 V main_arg5 (by decide)).trans h.a5, (keep15 V main_arg6 (by decide)).trans h.a6, (keep15 V main_arg7 (by decide)).trans h.a7, (keep15 V main_arg8 (by decide)).trans h.a8, (keep15 V main_arg9 (by decide)).trans h.a9, (keep15 V main_arg10 (by decide)).trans h.a10, (keep15 V main_arg11 (by decide)).trans h.a11, (keep15 V main_arg12 (by decide)).trans h.a12, (keep15 V main_arg13 (by decide)).trans h.a13, (keep15 V main_arg14 (by decide)).trans h.a14, (keep15 V main_arg15 (by decide)).trans h.a15, (keep15 V main_arg16 (by decide)).trans h.a16, (keep15 V main_arg17 (by decide)).trans h.a17, (keep15 V main_arg18 (by decide)).trans h.a18, (keep15 V main_arg19 (by decide)).trans h.a19, (keep15 V main_arg20 (by decide)).trans h.a20, (keep15 V main_arg21 (by decide)).trans h.a21, (keep15 V main_arg22 (by decide)).trans h.a22, (keep15 V main_arg23 (by decide)).trans h.a23, (keep15 V main_arg24 (by decide)).trans h.a24, (keep15 V main_arg25 (by decide)).trans h.a25⟩

theorem args16 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg16 (F := F)) V) x0 x1 x2 x3 x4 x5 x6 x7 x8 x9 x10 x11 x12 x13 x14 x15 x16 x17 x18 x19 x20 x21 x22 x23 x24 x25 :=
  ⟨(keep16 V main_arg0 (by decide)).trans h.a0, (keep16 V main_arg1 (by decide)).trans h.a1, (keep16 V main_arg2 (by decide)).trans h.a2, (keep16 V main_arg3 (by decide)).trans h.a3, (keep16 V main_arg4 (by decide)).trans h.a4, (keep16 V main_arg5 (by decide)).trans h.a5, (keep16 V main_arg6 (by decide)).trans h.a6, (keep16 V main_arg7 (by decide)).trans h.a7, (keep16 V main_arg8 (by decide)).trans h.a8, (keep16 V main_arg9 (by decide)).trans h.a9, (keep16 V main_arg10 (by decide)).trans h.a10, (keep16 V main_arg11 (by decide)).trans h.a11, (keep16 V main_arg12 (by decide)).trans h.a12, (keep16 V main_arg13 (by decide)).trans h.a13, (keep16 V main_arg14 (by decide)).trans h.a14, (keep16 V main_arg15 (by decide)).trans h.a15, (keep16 V main_arg16 (by decide)).trans h.a16, (keep16 V main_arg17 (by decide)).trans h.a17, (keep16 V main_arg18 (by decide)).trans h.a18, (keep16 V main_arg19 (by decide)).trans h.a19, (keep16 V main_arg20 (by decide)).trans h.a20, (keep16 V main_arg21 (by decide)).trans h.a21, (keep16 V main_arg22 (by decide)).trans h.a22, (keep16 V main_arg23 (by decide)).trans h.a23, (keep16 V main_arg24 (by decide)).trans h.a24, (keep16 V main_arg25 (by decide)).trans h.a25⟩

theorem args17 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg17 (F := F)) V) x0 x1 x2 x3 x4 x5 x6 x7 x8 x9 x10 x11 x12 x13 x14 x15 x16 x17 x18 x19 x20 x21 x22 x23 x24 x25 :=
  ⟨(keep17 V main_arg0 (by decide)).trans h.a0, (keep17 V main_arg1 (by decide)).trans h.a1, (keep17 V main_arg2 (by decide)).trans h.a2, (keep17 V main_arg3 (by decide)).trans h.a3, (keep17 V main_arg4 (by decide)).trans h.a4, (keep17 V main_arg5 (by decide)).trans h.a5, (keep17 V main_arg6 (by decide)).trans h.a6, (keep17 V main_arg7 (by decide)).trans h.a7, (keep17 V main_arg8 (by decide)).trans h.a8, (keep17 V main_arg9 (by decide)).trans h.a9, (keep17 V main_arg10 (by decide)).trans h.a10, (keep17 V main_arg11 (by decide)).trans h.a11, (keep17 V main_arg12 (by decide)).trans h.a12, (keep17 V main_arg13 (by decide)).trans h.a13, (keep17 V main_arg14 (by decide)).trans h.a14, (keep17 V main_arg15 (by decide)).trans h.a15, (keep17 V main_arg16 (by decide)).trans h.a16, (keep17 V main_arg17 (by decide)).trans h.a17, (keep17 V main_arg18 (by decide)).trans h.a18, (keep17 V main_arg19 (by decide)).trans h.a19, (keep17 V main_arg20 (by decide)).trans h.a20, (keep17 V main_arg21 (by decide)).trans h.a21, (keep17 V main_arg22 (by decide)).trans h.a22, (keep17 V main_arg23 (by decide)).trans h.a23, (keep17 V main_arg24 (by decide)).trans h.a24, (keep17 V main_arg25 (by decide)).trans h.a25⟩

theorem args18 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg18 (F := F)) V) x0 x1 x2 x3 x4 x5 x6 x7 x8 x9 x10 x11 x12 x13 x14 x15 x16 x17 x18 x19 x20 x21 x22 x23 x24 x25 :=
  ⟨(keep18 V main_arg0 (by decide)).trans h.a0, (keep18 V main_arg1 (by decide)).trans h.a1, (keep18 V main_arg2 (by decide)).trans h.a2, (keep18 V main_arg3 (by decide)).trans h.a3, (keep18 V main_arg4 (by decide)).trans h.a4, (keep18 V main_arg5 (by decide)).trans h.a5, (keep18 V main_arg6 (by decide)).trans h.a6, (keep18 V main_arg7 (by decide)).trans h.a7, (keep18 V main_arg8 (by decide)).trans h.a8, (keep18 V main_arg9 (by decide)).trans h.a9, (keep18 V main_arg10 (by decide)).trans h.a10, (keep18 V main_arg11 (by decide)).trans h.a11, (keep18 V main_arg12 (by decide)).trans h.a12, (keep18 V main_arg13 (by decide)).trans h.a13, (keep18 V main_arg14 (by decide)).trans h.a14, (keep18 V main_arg15 (by decide)).trans h.a15, (keep18 V main_arg16 (by decide)).trans h.a16, (keep18 V main_arg17 (by decide)).trans h.a17, (keep18 V main_arg18 (by decide)).trans h.a18, (keep18 V main_arg19 (by decide)).trans h.a19, (keep18 V main_arg20 (by decide)).trans h.a20, (keep18 V main_arg21 (by decide)).trans h.a21, (keep18 V main_arg22 (by decide)).trans h.a22, (keep18 V main_arg23 (by decide)).trans h.a23, (keep18 V main_arg24 (by decide)).trans h.a24, (keep18 V main_arg25 (by decide)).trans h.a25⟩

theorem args19 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) : ArgsAt (after (seg19 (F := F)) V) x0 x1 x2 x3 x4 x5 x6 x7 x8 x9 x10 x11 x12 x13 x14 x15 x16 x17 x18 x19 x20 x21 x22 x23 x24 x25 :=
  ⟨(keep19 V main_arg0 (by decide)).trans h.a0, (keep19 V main_arg1 (by decide)).trans h.a1, (keep19 V main_arg2 (by decide)).trans h.a2, (keep19 V main_arg3 (by decide)).trans h.a3, (keep19 V main_arg4 (by decide)).trans h.a4, (keep19 V main_arg5 (by decide)).trans h.a5, (keep19 V main_arg6 (by decide)).trans h.a6, (keep19 V main_arg7 (by decide)).trans h.a7, (keep19 V main_arg8 (by decide)).trans h.a8, (keep19 V main_arg9 (by decide)).trans h.a9, (keep19 V main_arg10 (by decide)).trans h.a10, (keep19 V main_arg11 (by decide)).trans h.a11, (keep19 V main_arg12 (by decide)).trans h.a12, (keep19 V main_arg13 (by decide)).trans h.a13, (keep19 V main_arg14 (by decide)).trans h.a14, (keep19 V main_arg15 (by decide)).trans h.a15, (keep19 V main_arg16 (by decide)).trans h.a16, (keep19 V main_arg17 (by decide)).trans h.a17, (keep19 V main_arg18 (by decide)).trans h.a18, (keep19 V main_arg19 (by decide)).trans h.a19, (keep19 V main_arg20 (by decide)).trans h.a20, (keep19 V main_arg21 (by decide)).trans h.a21, (keep19 V main_arg22 (by decide)).trans h.a22, (keep19 V main_arg23 (by decide)).trans h.a23, (keep19 V main_arg24 (by decide)).trans h.a24, (keep19 V main_arg25 (by decide)).trans h.a25⟩

/-! ## Each segment's final buffer is its stage function of the arguments -/

set_option maxRecDepth 16384 in
set_option maxHeartbeats 4000000 in
theorem out0 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25)  :
    after (seg0 (F := F)) V (Proc.devRef .tc main_v6) = val_main_v6 (F := F) x0 x4 x5 := by
  after_results_simp
  simp only [h.a4, h.a0, h.a5]
  rfl

set_option maxRecDepth 16384 in
set_option maxHeartbeats 4000000 in
theorem out1 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v6 : V (Proc.devRef .tc main_v6) = val_main_v6 (F := F) x0 x4 x5) :
    after (seg1 (F := F)) V (Proc.devRef .tc main_v30) = val_main_v30 (F := F) x0 x4 x5 x14 x15 := by
  after_results_simp
  simp only [h.a14, h.a15, h_v6]
  rfl

set_option maxRecDepth 16384 in
set_option maxHeartbeats 4000000 in
theorem out2 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25)  :
    after (seg2 (F := F)) V (Proc.devRef .tc main_v37) = val_main_v37 (F := F) x1 x6 x7 := by
  after_results_simp
  simp only [h.a6, h.a1, h.a7]
  rfl

set_option maxRecDepth 16384 in
set_option maxHeartbeats 4000000 in
theorem out3 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v37 : V (Proc.devRef .tc main_v37) = val_main_v37 (F := F) x1 x6 x7) :
    after (seg3 (F := F)) V (Proc.devRef .tc main_v61) = val_main_v61 (F := F) x1 x6 x7 x14 x15 := by
  after_results_simp
  simp only [h.a14, h.a15, h_v37]
  rfl

set_option maxRecDepth 16384 in
set_option maxHeartbeats 4000000 in
theorem out4 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25)  :
    after (seg4 (F := F)) V (Proc.devRef .tc main_v68) = val_main_v68 (F := F) x2 x8 x9 := by
  after_results_simp
  simp only [h.a8, h.a2, h.a9]
  rfl

set_option maxRecDepth 16384 in
set_option maxHeartbeats 4000000 in
theorem out5 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v68 : V (Proc.devRef .tc main_v68) = val_main_v68 (F := F) x2 x8 x9) :
    after (seg5 (F := F)) V (Proc.devRef .tc main_v92) = val_main_v92 (F := F) x2 x8 x9 x14 x15 := by
  after_results_simp
  simp only [h.a14, h.a15, h_v68]
  rfl

set_option maxRecDepth 16384 in
set_option maxHeartbeats 4000000 in
theorem out6 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25)  :
    after (seg6 (F := F)) V (Proc.devRef .tc main_v99) = val_main_v99 (F := F) x3 x10 x11 := by
  after_results_simp
  simp only [h.a10, h.a3, h.a11]
  rfl

set_option maxRecDepth 16384 in
set_option maxHeartbeats 4000000 in
theorem out7 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v99 : V (Proc.devRef .tc main_v99) = val_main_v99 (F := F) x3 x10 x11) :
    after (seg7 (F := F)) V (Proc.devRef .tc main_v123) = val_main_v123 (F := F) x3 x10 x11 x14 x15 := by
  after_results_simp
  simp only [h.a14, h.a15, h_v99]
  rfl

set_option maxRecDepth 16384 in
set_option maxHeartbeats 4000000 in
theorem out8 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v30 : V (Proc.devRef .tc main_v30) = val_main_v30 (F := F) x0 x4 x5 x14 x15) (h_v61 : V (Proc.devRef .tc main_v61) = val_main_v61 (F := F) x1 x6 x7 x14 x15) (h_v92 : V (Proc.devRef .tc main_v92) = val_main_v92 (F := F) x2 x8 x9 x14 x15) (h_v123 : V (Proc.devRef .tc main_v123) = val_main_v123 (F := F) x3 x10 x11 x14 x15) :
    after (seg8 (F := F)) V (Proc.devRef .tc main_v128) = val_main_v128 (F := F) x0 x1 x2 x3 x4 x5 x6 x7 x8 x9 x10 x11 x14 x15 := by
  simp only [after_cons, after_nil]
  rw [nary4_result]
  repeat (first | rw [unary_result] | (rw [unary_result_ne]; rotate_left; decide))
  unfold val_main_v128 val_main_v124 val_main_v125 val_main_v126 val_main_v127
  rw [← h_v30, ← h_v61, ← h_v92, ← h_v123]
  rfl

set_option maxRecDepth 16384 in
set_option maxHeartbeats 4000000 in
theorem out9 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v128 : V (Proc.devRef .tc main_v128) = val_main_v128 (F := F) x0 x1 x2 x3 x4 x5 x6 x7 x8 x9 x10 x11 x14 x15) :
    after (seg9 (F := F)) V (Proc.devRef .tc main_v132) = val_main_v132 (F := F) x0 x1 x2 x3 x4 x5 x6 x7 x8 x9 x10 x11 x14 x15 x16 x17 := by
  after_results_simp
  simp only [h.a16, h.a17, h_v128]
  rfl

set_option maxRecDepth 16384 in
set_option maxHeartbeats 4000000 in
theorem out10 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v128 : V (Proc.devRef .tc main_v128) = val_main_v128 (F := F) x0 x1 x2 x3 x4 x5 x6 x7 x8 x9 x10 x11 x14 x15) :
    after (seg10 (F := F)) V (Proc.devRef .tc main_v136) = val_main_v136 (F := F) x0 x1 x2 x3 x4 x5 x6 x7 x8 x9 x10 x11 x14 x15 x20 x21 := by
  after_results_simp
  simp only [h.a20, h.a21, h_v128]
  rfl

set_option maxRecDepth 16384 in
set_option maxHeartbeats 4000000 in
theorem out11 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v132 : V (Proc.devRef .tc main_v132) = val_main_v132 (F := F) x0 x1 x2 x3 x4 x5 x6 x7 x8 x9 x10 x11 x14 x15 x16 x17) :
    after (seg11 (F := F)) V (Proc.devRef .tc main_v145) = val_main_v145 (F := F) x0 x1 x2 x3 x4 x5 x6 x7 x8 x9 x10 x11 x13 x14 x15 x16 x17 := by
  after_results_simp
  simp only [h.a13, h_v132]
  rfl

set_option maxRecDepth 16384 in
set_option maxHeartbeats 4000000 in
theorem out12 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v145 : V (Proc.devRef .tc main_v145) = val_main_v145 (F := F) x0 x1 x2 x3 x4 x5 x6 x7 x8 x9 x10 x11 x13 x14 x15 x16 x17) :
    after (seg12 (F := F)) V (Proc.devRef .tc main_v148) = val_main_v148 (F := F) x0 x1 x2 x3 x4 x5 x6 x7 x8 x9 x10 x11 x13 x14 x15 x16 x17 := by
  after_results_simp
  simp only [h_v145]
  rfl

set_option maxRecDepth 16384 in
set_option maxHeartbeats 4000000 in
theorem out13 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v148 : V (Proc.devRef .tc main_v148) = val_main_v148 (F := F) x0 x1 x2 x3 x4 x5 x6 x7 x8 x9 x10 x11 x13 x14 x15 x16 x17) (h_v145 : V (Proc.devRef .tc main_v145) = val_main_v145 (F := F) x0 x1 x2 x3 x4 x5 x6 x7 x8 x9 x10 x11 x13 x14 x15 x16 x17) :
    after (seg13 (F := F)) V (Proc.devRef .tc main_v152) = val_main_v152 (F := F) x0 x1 x2 x3 x4 x5 x6 x7 x8 x9 x10 x11 x13 x14 x15 x16 x17 := by
  after_results_simp
  simp only [h_v148, h_v145]
  rfl

set_option maxRecDepth 16384 in
set_option maxHeartbeats 4000000 in
theorem out14 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v152 : V (Proc.devRef .tc main_v152) = val_main_v152 (F := F) x0 x1 x2 x3 x4 x5 x6 x7 x8 x9 x10 x11 x13 x14 x15 x16 x17) :
    after (seg14 (F := F)) V (Proc.devRef .tc main_v156) = val_main_v156 (F := F) x0 x1 x2 x3 x4 x5 x6 x7 x8 x9 x10 x11 x13 x14 x15 x16 x17 := by
  after_results_simp
  simp only [h_v152]
  rfl

set_option maxRecDepth 16384 in
set_option maxHeartbeats 4000000 in
theorem out15 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v156 : V (Proc.devRef .tc main_v156) = val_main_v156 (F := F) x0 x1 x2 x3 x4 x5 x6 x7 x8 x9 x10 x11 x13 x14 x15 x16 x17) (h_v136 : V (Proc.devRef .tc main_v136) = val_main_v136 (F := F) x0 x1 x2 x3 x4 x5 x6 x7 x8 x9 x10 x11 x14 x15 x20 x21) :
    after (seg15 (F := F)) V (Proc.devRef .tc main_v157) = val_main_v157 (F := F) x0 x1 x2 x3 x4 x5 x6 x7 x8 x9 x10 x11 x13 x14 x15 x16 x17 x20 x21 := by
  after_results_simp
  simp only [h_v156, h_v136]
  rfl

set_option maxRecDepth 16384 in
set_option maxHeartbeats 4000000 in
theorem out16 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v157 : V (Proc.devRef .tc main_v157) = val_main_v157 (F := F) x0 x1 x2 x3 x4 x5 x6 x7 x8 x9 x10 x11 x13 x14 x15 x16 x17 x20 x21) :
    after (seg16 (F := F)) V (Proc.devRef .tc main_v159) = val_main_v159 (F := F) x0 x1 x2 x3 x4 x5 x6 x7 x8 x9 x10 x11 x12 x13 x14 x15 x16 x17 x20 x21 := by
  after_results
  unfold val_main_v159 val_main_v158
  rw [← h_v157, ← h.a12]
  rfl

set_option maxRecDepth 16384 in
set_option maxHeartbeats 4000000 in
theorem out17 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v159 : V (Proc.devRef .tc main_v159) = val_main_v159 (F := F) x0 x1 x2 x3 x4 x5 x6 x7 x8 x9 x10 x11 x12 x13 x14 x15 x16 x17 x20 x21) :
    after (seg17 (F := F)) V (Proc.devRef .tc main_v164) = val_main_v164 (F := F) x0 x1 x2 x3 x4 x5 x6 x7 x8 x9 x10 x11 x12 x13 x14 x15 x16 x17 x20 x21 x22 x23 := by
  after_results_simp
  simp only [h.a22, h.a23, h_v159]
  rfl

set_option maxRecDepth 16384 in
set_option maxHeartbeats 4000000 in
theorem out18 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v164 : V (Proc.devRef .tc main_v164) = val_main_v164 (F := F) x0 x1 x2 x3 x4 x5 x6 x7 x8 x9 x10 x11 x12 x13 x14 x15 x16 x17 x20 x21 x22 x23) :
    after (seg18 (F := F)) V (Proc.devRef .tc main_v169) = val_main_v169 (F := F) x0 x1 x2 x3 x4 x5 x6 x7 x8 x9 x10 x11 x12 x13 x14 x15 x16 x17 x20 x21 x22 x23 x24 x25 := by
  after_results_simp
  simp only [h.a24, h.a25, h_v164]
  rfl

set_option maxRecDepth 16384 in
set_option maxHeartbeats 4000000 in
theorem out19 {V : Valuation τ sig (Elt F)} {x0 x1 x2 x3 x4 x5 x6 x7 x8 x9 x10 x11 x12 x13 x14 x15 x16 x17 x18 x19 x20 x21 x22 x23 x24 x25 : _} (h : ArgsAt V x0 x1 x2 x3 x4 x5 x6 x7 x8 x9 x10 x11 x12 x13 x14 x15 x16 x17 x18 x19 x20 x21 x22 x23 x24 x25) (h_v169 : V (Proc.devRef .tc main_v169) = val_main_v169 (F := F) x0 x1 x2 x3 x4 x5 x6 x7 x8 x9 x10 x11 x12 x13 x14 x15 x16 x17 x20 x21 x22 x23 x24 x25) :
    after (seg19 (F := F)) V (Proc.devRef .tc main_v175) = val_main_v175 (F := F) x0 x1 x2 x3 x4 x5 x6 x7 x8 x9 x10 x11 x12 x13 x14 x15 x16 x17 x20 x21 x22 x23 x24 x25 := by
  after_results_simp
  simp only [h_v169]
  rfl

/-! ## The chain -/

set_option maxRecDepth 16384 in
set_option maxHeartbeats 4000000 in
/-- The result buffer after the whole list is the last stage function of the argument arrays. -/
theorem result_of_args {V0 : Valuation τ sig (Elt F)} {x0 x1 x2 x3 x4 x5 x6 x7 x8 x9 x10 x11 x12 x13 x14 x15 x16 x17 x18 x19 x20 x21 x22 x23 x24 x25 : _} (A0 : ArgsAt V0 x0 x1 x2 x3 x4 x5 x6 x7 x8 x9 x10 x11 x12 x13 x14 x15 x16 x17 x18 x19 x20 x21 x22 x23 x24 x25) :
    after (ops (F := F)) V0 (Proc.devRef .tc main_v175) = val_main_v175 (F := F) x0 x1 x2 x3 x4 x5 x6 x7 x8 x9 x10 x11 x12 x13 x14 x15 x16 x17 x20 x21 x22 x23 x24 x25 := by
  rw [ops_eq]
  simp only [after_append]
  have O0 := out0 A0
  have A1 := args0 A0
  have O1 := out1 A1 O0
  have A2 := args1 A1
  have O2 := out2 A2
  have C2_v30 := (keep2 (F := F) _ main_v30 (by decide)).trans O1
  have A3 := args2 A2
  have O3 := out3 A3 O2
  have C3_v30 := (keep3 (F := F) _ main_v30 (by decide)).trans C2_v30
  have A4 := args3 A3
  have O4 := out4 A4
  have C4_v30 := (keep4 (F := F) _ main_v30 (by decide)).trans C3_v30
  have C4_v61 := (keep4 (F := F) _ main_v61 (by decide)).trans O3
  have A5 := args4 A4
  have O5 := out5 A5 O4
  have C5_v30 := (keep5 (F := F) _ main_v30 (by decide)).trans C4_v30
  have C5_v61 := (keep5 (F := F) _ main_v61 (by decide)).trans C4_v61
  have A6 := args5 A5
  have O6 := out6 A6
  have C6_v30 := (keep6 (F := F) _ main_v30 (by decide)).trans C5_v30
  have C6_v61 := (keep6 (F := F) _ main_v61 (by decide)).trans C5_v61
  have C6_v92 := (keep6 (F := F) _ main_v92 (by decide)).trans O5
  have A7 := args6 A6
  have O7 := out7 A7 O6
  have C7_v30 := (keep7 (F := F) _ main_v30 (by decide)).trans C6_v30
  have C7_v61 := (keep7 (F := F) _ main_v61 (by decide)).trans C6_v61
  have C7_v92 := (keep7 (F := F) _ main_v92 (by decide)).trans C6_v92
  have A8 := args7 A7
  have O8 := out8 A8 C7_v30 C7_v61 C7_v92 O7
  have A9 := args8 A8
  have O9 := out9 A9 O8
  have C9_v128 := (keep9 (F := F) _ main_v128 (by decide)).trans O8
  have A10 := args9 A9
  have O10 := out10 A10 C9_v128
  have C10_v132 := (keep10 (F := F) _ main_v132 (by decide)).trans O9
  have A11 := args10 A10
  have O11 := out11 A11 C10_v132
  have C11_v136 := (keep11 (F := F) _ main_v136 (by decide)).trans O10
  have A12 := args11 A11
  have O12 := out12 A12 O11
  have C12_v136 := (keep12 (F := F) _ main_v136 (by decide)).trans C11_v136
  have C12_v145 := (keep12 (F := F) _ main_v145 (by decide)).trans O11
  have A13 := args12 A12
  have O13 := out13 A13 O12 C12_v145
  have C13_v136 := (keep13 (F := F) _ main_v136 (by decide)).trans C12_v136
  have A14 := args13 A13
  have O14 := out14 A14 O13
  have C14_v136 := (keep14 (F := F) _ main_v136 (by decide)).trans C13_v136
  have A15 := args14 A14
  have O15 := out15 A15 O14 C14_v136
  have A16 := args15 A15
  have O16 := out16 A16 O15
  have A17 := args16 A16
  have O17 := out17 A17 O16
  have A18 := args17 A17
  have O18 := out18 A18 O17
  have A19 := args18 A18
  have O19 := out19 A19 O18
  have A20 := args19 A19
  exact O19

/-- The argument arrays are where they were after the whole list. -/
theorem args_of_args {V0 : Valuation τ sig (Elt F)} {x0 x1 x2 x3 x4 x5 x6 x7 x8 x9 x10 x11 x12 x13 x14 x15 x16 x17 x18 x19 x20 x21 x22 x23 x24 x25 : _} (A0 : ArgsAt V0 x0 x1 x2 x3 x4 x5 x6 x7 x8 x9 x10 x11 x12 x13 x14 x15 x16 x17 x18 x19 x20 x21 x22 x23 x24 x25) :
    ArgsAt (after (ops (F := F)) V0) x0 x1 x2 x3 x4 x5 x6 x7 x8 x9 x10 x11 x12 x13 x14 x15 x16 x17 x18 x19 x20 x21 x22 x23 x24 x25 := by
  rw [ops_eq]
  simp only [after_append]
  exact args19 (args18 (args17 (args16 (args15 (args14 (args13 (args12 (args11 (args10 (args9 (args8 (args7 (args6 (args5 (args4 (args3 (args2 (args1 (args0 (A0))))))))))))))))))))

/-! ## The run -/

/-- On every device, from any memory with zero counters: every weakly fair execution of the program terminates with
    the result at the last stage function of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175) = val_main_v175 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c =>
    have A0 : ArgsAt (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
      ⟨rfl, rfl, rfl, rfl, rfl, rfl, rfl, rfl, rfl, rfl, rfl, rfl, rfl, rfl, rfl, rfl, rfl, rfl, rfl, rfl, rfl, rfl, rfl, rfl, rfl, rfl⟩
    have AN := args_of_args A0
    ⟨(h c main_v175).trans (result_of_args A0),
      (h c main_arg0).trans AN.a0,
      (h c main_arg1).trans AN.a1,
      (h c main_arg2).trans AN.a2,
      (h c main_arg3).trans AN.a3,
      (h c main_arg4).trans AN.a4,
      (h c main_arg5).trans AN.a5,
      (h c main_arg6).trans AN.a6,
      (h c main_arg7).trans AN.a7,
      (h c main_arg8).trans AN.a8,
      (h c main_arg9).trans AN.a9,
      (h c main_arg10).trans AN.a10,
      (h c main_arg11).trans AN.a11,
      (h c main_arg12).trans AN.a12,
      (h c main_arg13).trans AN.a13,
      (h c main_arg14).trans AN.a14,
      (h c main_arg15).trans AN.a15,
      (h c main_arg16).trans AN.a16,
      (h c main_arg17).trans AN.a17,
      (h c main_arg18).trans AN.a18,
      (h c main_arg19).trans AN.a19,
      (h c main_arg20).trans AN.a20,
      (h c main_arg21).trans AN.a21,
      (h c main_arg22).trans AN.a22,
      (h c main_arg23).trans AN.a23,
      (h c main_arg24).trans AN.a24,
      (h c main_arg25).trans AN.a25⟩)
    (run_seq scopedRefs_eq scopedSems_eq defs main (fun _ => ops) main_eq (fun _ => ops_sub) m ρ)

end Cert.RefRun

end
-- ==== Proof.Spec.lean ====
/-
  The function both programs compute, one output row at a time, on the extended reals.

  A row of the network: four feature vectors go each through a dense layer, two rectifiers and a layer
  normalisation (mean and variance over the 512 hidden units, the variance shifted by a small constant, an affine
  map); the four normalised vectors are projected to queries and values; the four queries attend to one another
  (keys are the queries), each score lowered by a multiple of the two heads' predicted variances; a softmax over
  the four heads weights the values; the four attended vectors, joined with the four predicted scores, go through
  a dense layer of width 1028 and a last one of width one, and a logistic function.

  Everything is written over plain finite index types; the forms chosen are those of the blocked program (the
  row maximum as a nested maximum, the softmax weight as the exponential times the reciprocal of the sum, the wide
  contraction as four partial products and four scalar multiples); the laws that bring the other program's
  forms to these are in the companion module of laws.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The values of the float words the programs use. -/
abbrev cZero : EReal := Ideal.ofBits .f32 0x00000000#32
abbrev c512 : EReal := Ideal.ofBits .f32 0x44000000#32
abbrev cEps : EReal := Ideal.ofBits .f32 0x3727C5AC#32
abbrev cTenth : EReal := Ideal.ofBits .f32 0x3DCCCCCD#32
abbrev cOne : EReal := Ideal.ofBits .f32 0x3F800000#32
abbrev cNegInf : EReal := Ideal.ofBits .f32 0xFF800000#32

/-- A dense layer at output unit `o`: the row times column `o` of the weights, plus the bias. -/
def dense {K N : ℕ} (x : Fin K → EReal) (w : Fin K → Fin N → EReal) (b : Fin N → EReal) (o : Fin N) : EReal :=
  (∑ k : Fin K, x k * w k o) + b o

/-- Two rectifiers in a row. -/
def relu2 (h : EReal) : EReal := max (max h cZero) cZero

/-- The mean of 512 entries: their sum over the word of 512. -/
def mean512 (h : Fin 512 → EReal) : EReal := Ideal.div (∑ k : Fin 512, h k) c512

/-- The centred vector. -/
def centred (h : Fin 512 → EReal) (o : Fin 512) : EReal := h o - mean512 h

/-- The variance: the mean of the centred vector's squares. -/
def variance (h : Fin 512 → EReal) : EReal := mean512 fun k => centred h k * centred h k

/-- Layer normalisation with gain `g` and offset `be`. -/
def layerNorm (h g be : Fin 512 → EReal) (o : Fin 512) : EReal :=
  (centred h o * Ideal.rsqrt (variance h + cEps)) * g o + be o

/-- One branch: dense, two rectifiers, layer normalisation. -/
def branch {K : ℕ} (x : Fin K → EReal) (w : Fin K → Fin 512 → EReal) (bi g be : Fin 512 → EReal) : Fin 512 → EReal :=
  layerNorm (fun o => relu2 (dense x w bi o)) g be

/-- The score of head `i` against head `j`. -/
def score (q : Fin 4 → Fin 256 → EReal) (pv : Fin 4 → EReal) (i j : Fin 4) : EReal :=
  (∑ t : Fin 256, q i t * q j t) - cTenth * (pv j + pv i)

/-- The largest of four, as a nested maximum. -/
def max4 (s : Fin 4 → EReal) : EReal := max (max (max (s 0) (s 1)) (s 2)) (s 3)

/-- The shifted exponentials of a row of scores. -/
def expShift (s : Fin 4 → EReal) (j : Fin 4) : EReal := Ideal.exp (s j - max4 s)

/-- Their sum, left to right. -/
def sum4 (e : Fin 4 → EReal) : EReal := ((e 0 + e 1) + e 2) + e 3

/-- The softmax weight of head `j`: the exponential times the reciprocal of the sum. -/
def weight (s : Fin 4 → EReal) (j : Fin 4) : EReal := expShift s j * Ideal.div cOne (sum4 (expShift s))

/-- The attended vector of head `i`. -/
def attend (q v : Fin 4 → Fin 256 → EReal) (pv : Fin 4 → EReal) (i : Fin 4) (o : Fin 256) : EReal :=
  ((weight (score q pv i) 0 * v 0 o + weight (score q pv i) 1 * v 1 o) + weight (score q pv i) 2 * v 2 o)
    + weight (score q pv i) 3 * v 3 o

/-- The wide layer at output unit `o`: four partial products, the four scalar multiples of the predicted scores'
    rows of the weights, the bias. `wc i t o` is row `256 i + t` of the transposed weights, `wp j o` row `1024 + j`. -/
def wide (z : Fin 4 → Fin 256 → EReal) (ps : Fin 4 → EReal) (wc : Fin 4 → Fin 256 → Fin 256 → EReal)
    (wp : Fin 4 → Fin 256 → EReal) (b : Fin 256 → EReal) (o : Fin 256) : EReal :=
  (((((∑ t : Fin 256, z 0 t * wc 0 t o) + (∑ t : Fin 256, z 1 t * wc 1 t o)) + (∑ t : Fin 256, z 2 t * wc 2 t o))
      + (∑ t : Fin 256, z 3 t * wc 3 t o))
    + (((ps 0 * wp 0 o + ps 1 * wp 1 o) + ps 2 * wp 2 o) + ps 3 * wp 3 o)) + b o

/-- The weights of the network, as the programs index them (every matrix already transposed: input unit first). -/
structure Params where
  w0 : Fin 1024 → Fin 512 → EReal
  b0 : Fin 512 → EReal
  w1 : Fin 768 → Fin 512 → EReal
  b1 : Fin 512 → EReal
  w2 : Fin 512 → Fin 512 → EReal
  b2 : Fin 512 → EReal
  w3 : Fin 640 → Fin 512 → EReal
  b3 : Fin 512 → EReal
  g : Fin 512 → EReal
  be : Fin 512 → EReal
  wq : Fin 512 → Fin 256 → EReal
  bq : Fin 256 → EReal
  wv : Fin 512 → Fin 256 → EReal
  bv : Fin 256 → EReal
  wc : Fin 4 → Fin 256 → Fin 256 → EReal
  wp : Fin 4 → Fin 256 → EReal
  bw : Fin 256 → EReal
  wf : Fin 256 → EReal
  bf : EReal

/-- One row of the inputs. -/
structure Row where
  x0 : Fin 1024 → EReal
  x1 : Fin 768 → EReal
  x2 : Fin 512 → EReal
  x3 : Fin 640 → EReal
  ps : Fin 4 → EReal
  pv : Fin 4 → EReal

/-- The four normalised hidden vectors of a row. -/
def hidden (P : Params) (r : Row) : Fin 4 → Fin 512 → EReal :=
  ![branch r.x0 P.w0 P.b0 P.g P.be, branch r.x1 P.w1 P.b1 P.g P.be, branch r.x2 P.w2 P.b2 P.g P.be,
    branch r.x3 P.w3 P.b3 P.g P.be]

/-- The queries and the values. -/
def query (P : Params) (r : Row) (i : Fin 4) : Fin 256 → EReal := dense (hidden P r i) P.wq P.bq
def value (P : Params) (r : Row) (i : Fin 4) : Fin 256 → EReal := dense (hidden P r i) P.wv P.bv

/-- The attended vectors. -/
def attended (P : Params) (r : Row) : Fin 4 → Fin 256 → EReal := attend (query P r) (value P r) r.pv

/-- The row's result. -/
def rowOut (P : Params) (r : Row) : EReal :=
  Ideal.logistic ((∑ o : Fin 256, wide (attended P r) r.ps P.wc P.wp P.bw o * P.wf o) + P.bf)

/-! ## The specification over the argument arrays -/

/-- A `Fin 4` as a `Fin n` for `4 ≤ n`. -/
def fin4 {n : ℕ} (h : 4 ≤ n) (j : Fin 4) : Fin n := ⟨j.val, lt_of_lt_of_le j.isLt h⟩

/-- The weights read off the argument arrays (`a4 … a25` in the order of the programs' arguments; the two unused
    ones, the key projection, are left out). -/
def params (a4 : (⟨2, ![512, 1024]⟩ : Shape).Idx → EReal) (a5 : (⟨1, ![512]⟩ : Shape).Idx → EReal)
    (a6 : (⟨2, ![512, 768]⟩ : Shape).Idx → EReal) (a7 : (⟨1, ![512]⟩ : Shape).Idx → EReal)
    (a8 : (⟨2, ![512, 512]⟩ : Shape).Idx → EReal) (a9 : (⟨1, ![512]⟩ : Shape).Idx → EReal)
    (a10 : (⟨2, ![512, 640]⟩ : Shape).Idx → EReal) (a11 : (⟨1, ![512]⟩ : Shape).Idx → EReal)
    (a14 a15 : (⟨1, ![512]⟩ : Shape).Idx → EReal)
    (a16 : (⟨2, ![256, 512]⟩ : Shape).Idx → EReal) (a17 : (⟨1, ![256]⟩ : Shape).Idx → EReal)
    (a20 : (⟨2, ![256, 512]⟩ : Shape).Idx → EReal) (a21 : (⟨1, ![256]⟩ : Shape).Idx → EReal)
    (a22 : (⟨2, ![256, 1028]⟩ : Shape).Idx → EReal) (a23 : (⟨1, ![256]⟩ : Shape).Idx → EReal)
    (a24 : (⟨2, ![1, 256]⟩ : Shape).Idx → EReal) (a25 : (⟨1, ![1]⟩ : Shape).Idx → EReal) : Params where
  w0 := fun k o => a4 (ix2 o k)
  b0 := fun o => a5 (ix1 o)
  w1 := fun k o => a6 (ix2 o k)
  b1 := fun o => a7 (ix1 o)
  w2 := fun k o => a8 (ix2 o k)
  b2 := fun o => a9 (ix1 o)
  w3 := fun k o => a10 (ix2 o k)
  b3 := fun o => a11 (ix1 o)
  g := fun o => a14 (ix1 o)
  be := fun o => a15 (ix1 o)
  wq := fun k o => a16 (ix2 o k)
  bq := fun o => a17 (ix1 o)
  wv := fun k o => a20 (ix2 o k)
  bv := fun o => a21 (ix1 o)
  wc := fun i t o => a22 (ix2 o (⟨256 * i.val + t.val, by have := i.isLt; have := t.isLt; omega⟩ : Fin 1028))
  wp := fun j o => a22 (ix2 o (⟨1024 + j.val, by have := j.isLt; omega⟩ : Fin 1028))
  bw := fun o => a23 (ix1 o)
  wf := fun o => a24 (ix2 (0 : Fin 1) o)
  bf := a25 (ix1 (0 : Fin 1))

/-- Row `b` of the row-wise arguments. -/
def row (a0 : (⟨2, ![16384, 1024]⟩ : Shape).Idx → EReal) (a1 : (⟨2, ![16384, 768]⟩ : Shape).Idx → EReal)
    (a2 : (⟨2, ![16384, 512]⟩ : Shape).Idx → EReal) (a3 : (⟨2, ![16384, 640]⟩ : Shape).Idx → EReal)
    (a12 a13 : (⟨2, ![16384, 4]⟩ : Shape).Idx → EReal) (b : Fin 16384) : Row where
  x0 := fun k => a0 (ix2 b k)
  x1 := fun k => a1 (ix2 b k)
  x2 := fun k => a2 (ix2 b k)
  x3 := fun k => a3 (ix2 b k)
  ps := fun j => a12 (ix2 b j)
  pv := fun j => a13 (ix2 b j)

/-- The result array: entry (b, 0) is the row function of row `b` of the row-wise arguments and the weights. -/
def G (a0 : (⟨2, ![16384, 1024]⟩ : Shape).Idx → EReal) (a1 : (⟨2, ![16384, 768]⟩ : Shape).Idx → EReal)
    (a2 : (⟨2, ![16384, 512]⟩ : Shape).Idx → EReal) (a3 : (⟨2, ![16384, 640]⟩ : Shape).Idx → EReal)
    (a4 : (⟨2, ![512, 1024]⟩ : Shape).Idx → EReal) (a5 : (⟨1, ![512]⟩ : Shape).Idx → EReal)
    (a6 : (⟨2, ![512, 768]⟩ : Shape).Idx → EReal) (a7 : (⟨1, ![512]⟩ : Shape).Idx → EReal)
    (a8 : (⟨2, ![512, 512]⟩ : Shape).Idx → EReal) (a9 : (⟨1, ![512]⟩ : Shape).Idx → EReal)
    (a10 : (⟨2, ![512, 640]⟩ : Shape).Idx → EReal) (a11 : (⟨1, ![512]⟩ : Shape).Idx → EReal)
    (a12 a13 : (⟨2, ![16384, 4]⟩ : Shape).Idx → EReal)
    (a14 a15 : (⟨1, ![512]⟩ : Shape).Idx → EReal)
    (a16 : (⟨2, ![256, 512]⟩ : Shape).Idx → EReal) (a17 : (⟨1, ![256]⟩ : Shape).Idx → EReal)
    (a20 : (⟨2, ![256, 512]⟩ : Shape).Idx → EReal) (a21 : (⟨1, ![256]⟩ : Shape).Idx → EReal)
    (a22 : (⟨2, ![256, 1028]⟩ : Shape).Idx → EReal) (a23 : (⟨1, ![256]⟩ : Shape).Idx → EReal)
    (a24 : (⟨2, ![1, 256]⟩ : Shape).Idx → EReal) (a25 : (⟨1, ![1]⟩ : Shape).Idx → EReal) :
    (⟨2, ![16384, 1]⟩ : Shape).Idx → EReal :=
  fun i => rowOut (params a4 a5 a6 a7 a8 a9 a10 a11 a14 a15 a16 a17 a20 a21 a22 a23 a24 a25) (row a0 a1 a2 a3 a12 a13 (i 0))

end Cert.Spec

end
-- ==== Proof.Laws.lean ====
/-
  The laws that bring the other program's forms of the row function to the specification's: the values of the
  float words, that every intermediate value up to the scores is a real number when the inputs are, and on that
  ground the softmax weight as a quotient; the row maximum as a fold; the sums over the four heads; the wide
  contraction over the joined vector as four partial products and four scalar multiples; the logistic function
  spelled out.
-/
import proofs.«156941_j27530740367911_2_alg».proof.Proof.Spec

noncomputable section

namespace Cert.Laws

open Idealize.ShloMosaic Cert.Spec

/-- An extended real that is a real number. -/
def IsReal (x : EReal) : Prop := ∃ r : ℝ, x = (r : EReal)

/-- Every weight is a real number. -/
structure ParamsReal (P : Params) : Prop where
  w0 : ∀ k o, IsReal (P.w0 k o)
  b0 : ∀ o, IsReal (P.b0 o)
  w1 : ∀ k o, IsReal (P.w1 k o)
  b1 : ∀ o, IsReal (P.b1 o)
  w2 : ∀ k o, IsReal (P.w2 k o)
  b2 : ∀ o, IsReal (P.b2 o)
  w3 : ∀ k o, IsReal (P.w3 k o)
  b3 : ∀ o, IsReal (P.b3 o)
  g : ∀ o, IsReal (P.g o)
  be : ∀ o, IsReal (P.be o)
  wq : ∀ k o, IsReal (P.wq k o)
  bq : ∀ o, IsReal (P.bq o)
  wv : ∀ k o, IsReal (P.wv k o)
  bv : ∀ o, IsReal (P.bv o)

/-- Every entry of a row of inputs is a real number. -/
structure RowReal (r : Row) : Prop where
  x0 : ∀ k, IsReal (r.x0 k)
  x1 : ∀ k, IsReal (r.x1 k)
  x2 : ∀ k, IsReal (r.x2 k)
  x3 : ∀ k, IsReal (r.x3 k)
  pv : ∀ j, IsReal (r.pv j)

/-! ## The float words -/

theorem cZero_eq : cZero = 0 := Ideal.ofBits_zero_f32

theorem cOne_eq : cOne = 1 := by
  show Ideal.ofBits .f32 0x3F800000#32 = 1
  simp [Ideal.ofBits, Ideal.ieee, -EReal.coe_mul]; norm_num

theorem cNegInf_eq : cNegInf = ⊥ := by
  show Ideal.ofBits .f32 0xFF800000#32 = ⊥
  simp [Ideal.ofBits, Ideal.ieee]

/-- The word of 512 is the real number 512. -/
theorem c512_eq : c512 = ((512 : ℝ) : EReal) := by
  show Ideal.ofBits .f32 0x44000000#32 = ((512 : ℝ) : EReal)
  simp [Ideal.ofBits, Ideal.ieee, -EReal.coe_mul]; norm_num

/-- The small constant added to the variance is a positive real number. -/
theorem cEps_pos : ∃ e : ℝ, 0 < e ∧ cEps = (e : EReal) := by
  refine ⟨_, ?_, show Ideal.ofBits .f32 0x3727C5AC#32 = _ by
    simp [Ideal.ofBits, Ideal.ieee, -EReal.coe_mul]; rfl⟩
  positivity

/-- The multiple of the predicted variances is a real number. -/
theorem cTenth_real : IsReal cTenth := by
  refine ⟨_, show Ideal.ofBits .f32 0x3DCCCCCD#32 = _ by
    simp [Ideal.ofBits, Ideal.ieee, -EReal.coe_mul]; rfl⟩

/-! ## Real numbers among the extended reals are closed under the operations of the row function -/

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal.max {x y : EReal} (hx : IsReal x) (hy : IsReal y) : IsReal (max x y) := by
  obtain ⟨a, rfl⟩ := hx; obtain ⟨b, rfl⟩ := hy; exact ⟨_, coe_max a b⟩

theorem isReal_sum {ι : Type} (s : Finset ι) (f : ι → EReal) (h : ∀ i, IsReal (f i)) :
    IsReal (∑ i ∈ s, f i) :=
  Finset.sum_induction f IsReal (fun _ _ ha hb => ha.add hb) isReal_zero (fun i _ => h i)

/-- A nonnegative real number among the extended reals. -/
def IsNonneg (x : EReal) : Prop := ∃ r : ℝ, 0 ≤ r ∧ x = (r : EReal)

theorem IsNonneg.isReal {x : EReal} (h : IsNonneg x) : IsReal x := by
  obtain ⟨r, _, rfl⟩ := h; exact ⟨r, rfl⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem isNonneg_mul_self {x : EReal} (hx : IsReal x) : IsNonneg (x * x) := by
  obtain ⟨a, rfl⟩ := hx; exact ⟨a * a, mul_self_nonneg a, (EReal.coe_mul a a).symm⟩

theorem isNonneg_sum {ι : Type} (s : Finset ι) (f : ι → EReal) (h : ∀ i, IsNonneg (f i)) :
    IsNonneg (∑ i ∈ s, f i) :=
  Finset.sum_induction f IsNonneg (fun _ _ ha hb => ha.add hb) ⟨0, le_rfl, rfl⟩ (fun i _ => h i)

/-! ## Every intermediate value up to the scores is a real number -/

theorem dense_real {K N : ℕ} (x : Fin K → EReal) (w : Fin K → Fin N → EReal) (b : Fin N → EReal)
    (hx : ∀ k, IsReal (x k)) (hw : ∀ k o, IsReal (w k o)) (hb : ∀ o, IsReal (b o)) (o : Fin N) :
    IsReal (dense x w b o) :=
  (isReal_sum _ _ fun k => (hx k).mul (hw k o)).add (hb o)

theorem relu2_real {h : EReal} (hh : IsReal h) : IsReal (relu2 h) := by
  unfold relu2; rw [cZero_eq]; exact (hh.max isReal_zero).max isReal_zero

theorem mean512_real (h : Fin 512 → EReal) (hh : ∀ k, IsReal (h k)) : IsReal (mean512 h) := by
  unfold mean512
  rw [c512_eq, Ideal.div_coe (by norm_num : (512 : ℝ) ≠ 0)]
  exact (isReal_sum _ _ hh).mul (isReal_coe _)

theorem mean512_nonneg (h : Fin 512 → EReal) (hh : ∀ k, IsNonneg (h k)) : IsNonneg (mean512 h) := by
  unfold mean512
  rw [c512_eq, Ideal.div_coe (by norm_num : (512 : ℝ) ≠ 0)]
  obtain ⟨a, ha, hs⟩ := isNonneg_sum Finset.univ h hh
  rw [hs]
  exact ⟨a * (1 / 512), mul_nonneg ha (by norm_num), (EReal.coe_mul _ _).symm⟩

theorem centred_real (h : Fin 512 → EReal) (hh : ∀ k, IsReal (h k)) (o : Fin 512) : IsReal (centred h o) :=
  (hh o).sub (mean512_real h hh)

theorem variance_nonneg (h : Fin 512 → EReal) (hh : ∀ k, IsReal (h k)) : IsNonneg (variance h) :=
  mean512_nonneg _ fun k => isNonneg_mul_self (centred_real h hh k)

/-- The reciprocal square root of the shifted variance is a real number: the shifted variance is positive. -/
theorem rsqrt_var_real (h : Fin 512 → EReal) (hh : ∀ k, IsReal (h k)) :
    IsReal (Ideal.rsqrt (variance h + cEps)) := by
  obtain ⟨v, hv, hvar⟩ := variance_nonneg h hh
  obtain ⟨e, he, heps⟩ := cEps_pos
  have hpos : 0 < v + e := add_pos_of_nonneg_of_pos hv he
  rw [hvar, heps, ← EReal.coe_add, Ideal.rsqrt_coe, if_neg (not_lt.mpr hpos.le), if_neg hpos.ne']
  exact isReal_coe _

theorem layerNorm_real (h g be : Fin 512 → EReal) (hh : ∀ k, IsReal (h k)) (hg : ∀ o, IsReal (g o))
    (hbe : ∀ o, IsReal (be o)) (o : Fin 512) : IsReal (layerNorm h g be o) :=
  (((centred_real h hh o).mul (rsqrt_var_real h hh)).mul (hg o)).add (hbe o)

theorem branch_real {K : ℕ} (x : Fin K → EReal) (w : Fin K → Fin 512 → EReal) (bi g be : Fin 512 → EReal)
    (hx : ∀ k, IsReal (x k)) (hw : ∀ k o, IsReal (w k o)) (hbi : ∀ o, IsReal (bi o))
    (hg : ∀ o, IsReal (g o)) (hbe : ∀ o, IsReal (be o)) (o : Fin 512) : IsReal (branch x w bi g be o) :=
  layerNorm_real _ g be (fun k => relu2_real (dense_real x w bi hx hw hbi k)) hg hbe o

theorem hidden_real (P : Params) (r : Row) (hP : ParamsReal P) (hr : RowReal r) (i : Fin 4) (o : Fin 512) :
    IsReal (hidden P r i o) := by
  have h0 := branch_real r.x0 P.w0 P.b0 P.g P.be hr.x0 hP.w0 hP.b0 hP.g hP.be o
  have h1 := branch_real r.x1 P.w1 P.b1 P.g P.be hr.x1 hP.w1 hP.b1 hP.g hP.be o
  have h2 := branch_real r.x2 P.w2 P.b2 P.g P.be hr.x2 hP.w2 hP.b2 hP.g hP.be o
  have h3 := branch_real r.x3 P.w3 P.b3 P.g P.be hr.x3 hP.w3 hP.b3 hP.g hP.be o
  fin_cases i
  · exact h0
  · exact h1
  · exact h2
  · exact h3

theorem query_real (P : Params) (r : Row) (hP : ParamsReal P) (hr : RowReal r) (i : Fin 4) (t : Fin 256) :
    IsReal (query P r i t) :=
  dense_real _ _ _ (hidden_real P r hP hr i) hP.wq hP.bq t

/-! ## Folds and sums over the four heads -/

/-- The fold of `max` over four entries from minus infinity, joined once more with minus infinity, is the nested maximum. -/
theorem max4_eq_fold (s : Fin 4 → EReal) :
    max cNegInf ((Finset.univ : Finset (Fin 4)).fold max cNegInf s) = max4 s := by
  rw [cNegInf_eq]
  apply le_antisymm
  · refine max_le bot_le ((Finset.fold_max_le _).mpr ⟨bot_le, fun j _ => ?_⟩)
    unfold max4
    fin_cases j
    · exact le_max_of_le_left (le_max_of_le_left (le_max_left _ _))
    · exact le_max_of_le_left (le_max_of_le_left (le_max_right _ _))
    · exact le_max_of_le_left (le_max_right _ _)
    · exact le_max_right _ _
  · have hj : ∀ j : Fin 4, s j ≤ max ⊥ ((Finset.univ : Finset (Fin 4)).fold max ⊥ s) := fun j =>
      le_max_of_le_right ((Finset.le_fold_max _).mpr (Or.inr ⟨j, Finset.mem_univ j, le_rfl⟩))
    exact max_le (max_le (max_le (hj 0) (hj 1)) (hj 2)) (hj 3)

/-- Zero plus the sum over four entries is the left-to-right sum. -/
theorem sum4_eq_sum (e : Fin 4 → EReal) : cZero + ∑ j : Fin 4, e j = sum4 e := by
  rw [cZero_eq, zero_add, Fin.sum_univ_four]; rfl

/-- The weighted sum of the four values, left to right. -/
theorem attend_eq_sum (w : Fin 4 → EReal) (v : Fin 4 → Fin 256 → EReal) (o : Fin 256) :
    ∑ j : Fin 4, w j * v j o = ((w 0 * v 0 o + w 1 * v 1 o) + w 2 * v 2 o) + w 3 * v 3 o := by
  rw [Fin.sum_univ_four]

/-! ## The softmax weight as a quotient -/

/-- When the four scores are real numbers the sum of the shifted exponentials is not zero (the largest score
    contributes `exp 0 = 1`), and dividing by it is multiplying by its reciprocal. -/
theorem weight_eq_div (s : Fin 4 → EReal) (hs : ∀ j, IsReal (s j)) (j : Fin 4) :
    Ideal.div (expShift s j) (sum4 (expShift s)) = weight s j := by
  obtain ⟨M, hM⟩ : IsReal (max4 s) := (((hs 0).max (hs 1)).max (hs 2)).max (hs 3)
  choose r hr using hs
  have hE : ∀ k, expShift s k = ((Real.exp (r k - M) : ℝ) : EReal) := by
    intro k
    unfold expShift
    rw [hM, hr k, ← EReal.coe_sub, Ideal.exp_coe]
  have hS : sum4 (expShift s)
      = ((Real.exp (r 0 - M) + Real.exp (r 1 - M) + Real.exp (r 2 - M) + Real.exp (r 3 - M) : ℝ) : EReal) := by
    unfold sum4
    rw [hE 0, hE 1, hE 2, hE 3, ← EReal.coe_add, ← EReal.coe_add, ← EReal.coe_add]
  have hpos : 0 < Real.exp (r 0 - M) + Real.exp (r 1 - M) + Real.exp (r 2 - M) + Real.exp (r 3 - M) := by
    positivity
  unfold weight
  rw [hS, Ideal.div_coe hpos.ne', Ideal.div_coe hpos.ne', cOne_eq, one_mul]

/-- With real weights and a real row of inputs every score is a real number. -/
theorem score_real (P : Params) (r : Row) (hP : ParamsReal P) (hr : RowReal r) (i j : Fin 4) :
    IsReal (score (query P r) r.pv i j) := by
  exact (isReal_sum _ _ fun t => (query_real P r hP hr i t).mul (query_real P r hP hr j t)).sub
    (cTenth_real.mul ((hr.pv j).add (hr.pv i)))

/-! ## The wide contraction -/

/-- A sum over 1028 entries as four sums over 256 entries and four single entries. -/
theorem sum_1028 (f : Fin 1028 → EReal) :
    ∑ c : Fin 1028, f c
      = ((((∑ t : Fin 256, f ⟨256 * (0 : Fin 4).val + t.val, by have := t.isLt; simp; omega⟩)
            + (∑ t : Fin 256, f ⟨256 * (1 : Fin 4).val + t.val, by have := t.isLt; simp; omega⟩))
            + (∑ t : Fin 256, f ⟨256 * (2 : Fin 4).val + t.val, by have := t.isLt; simp; omega⟩))
            + (∑ t : Fin 256, f ⟨256 * (3 : Fin 4).val + t.val, by have := t.isLt; simp; omega⟩))
        + (((f ⟨1024 + (0 : Fin 4).val, by simp⟩ + f ⟨1024 + (1 : Fin 4).val, by simp⟩)
            + f ⟨1024 + (2 : Fin 4).val, by simp⟩) + f ⟨1024 + (3 : Fin 4).val, by simp⟩) := by
  have e : ∀ a b : Fin 1028, a.val = b.val → f a = f b := fun a b h => congrArg f (Fin.ext h)
  refine (Fin.sum_univ_add (a := 256 + 256 + 256 + 256) (b := 4) f).trans ?_
  rw [Fin.sum_univ_add, Fin.sum_univ_add, Fin.sum_univ_add, Fin.sum_univ_four]
  refine congrArg₂ (· + ·) (congrArg₂ (· + ·) (congrArg₂ (· + ·) (congrArg₂ (· + ·) ?_ ?_) ?_) ?_)
    (congrArg₂ (· + ·) (congrArg₂ (· + ·) (congrArg₂ (· + ·) ?_ ?_) ?_) ?_)
  · exact Finset.sum_congr rfl fun t _ => e _ _ (by simp <;> omega)
  · exact Finset.sum_congr rfl fun t _ => e _ _ (by simp <;> omega)
  · exact Finset.sum_congr rfl fun t _ => e _ _ (by simp <;> omega)
  · exact Finset.sum_congr rfl fun t _ => e _ _ (by simp <;> omega)
  · exact e _ _ (by simp <;> omega)
  · exact e _ _ (by simp <;> omega)
  · exact e _ _ (by simp <;> omega)
  · exact e _ _ (by simp <;> omega)

/-- The contraction of the joined vector (`cat`: the four attended vectors one after the other, then the four predicted
    scores) with the 1028 rows of the weights, split into its four partial products and four scalar multiples. -/
theorem wide_eq_sum (z : Fin 4 → Fin 256 → EReal) (ps : Fin 4 → EReal) (cat : Fin 1028 → EReal)
    (W : Fin 1028 → Fin 256 → EReal) (b : Fin 256 → EReal) (o : Fin 256)
    (hz : ∀ (i : Fin 4) (t : Fin 256), cat ⟨256 * i.val + t.val, by have := i.isLt; have := t.isLt; omega⟩ = z i t)
    (hp : ∀ j : Fin 4, cat ⟨1024 + j.val, by have := j.isLt; omega⟩ = ps j) :
    (∑ c : Fin 1028, cat c * W c o) + b o
      = wide z ps (fun i t o => W ⟨256 * i.val + t.val, by have := i.isLt; have := t.isLt; omega⟩ o)
          (fun j o => W ⟨1024 + j.val, by have := j.isLt; omega⟩ o) b o := by
  rw [sum_1028 fun c => cat c * W c o]
  simp only [hz, hp]
  rfl

/-! ## The logistic function spelled out -/

theorem logistic_eq (x : EReal) : Ideal.div cOne (cOne + Ideal.exp (-x)) = Ideal.logistic x := by
  rw [cOne_eq]; rfl

end Cert.Laws

end
-- ==== Proof.PreReal.lean ====
/-
  From the precondition to the reality of the inputs. The precondition says, of each argument array, that the
  conjunction over all its entries of "the absolute value lies below plus infinity" holds. An extended real whose
  absolute value lies below plus infinity is neither infinity, so it is a real number. Hence every entry of every
  argument array is a real number, and with them every weight and every entry of a row of inputs that the
  specification reads.
-/
import proofs.«156941_j27530740367911_2_alg».proof.Defs
import proofs.«156941_j27530740367911_2_alg».proof.Proof.Spec
import proofs.«156941_j27530740367911_2_alg».proof.Proof.Laws
import Idealize.ShloMosaic.Lib.ReduceAll

noncomputable section

namespace Cert.PreReal

open Idealize.ShloMosaic Idealize.SL.Sem Cert.Pre_finite_inputs Cert.Laws

/-- The shape of rank zero has one index. -/
instance subsingleton_idx : Subsingleton S_.Idx := ⟨fun a b => funext fun d => d.elim0⟩

/-- An extended real whose absolute value lies below plus infinity is a real number. -/
theorem isReal_of_abs_lt (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  induction x using EReal.rec with
  | bot =>
    exfalso
    have h' : Ideal.cmp .olt (max (⊥ : EReal) (-⊥)) (Ideal.ofBits .f32 0x7F800000#32) = 1#1 := h
    rw [htop] at h'
    simp [Ideal.cmp] at h'
  | coe r => exact ⟨r, rfl⟩
  | top =>
    exfalso
    have h' : Ideal.cmp .olt (max (⊤ : EReal) (-⊤)) (Ideal.ofBits .f32 0x7F800000#32) = 1#1 := h
    rw [htop] at h'
    simp [Ideal.cmp] at h'

/-- When the conjunction over a whole array of "the absolute value lies below plus infinity" holds, every entry of the
    array is a real number. -/
theorem entries_real {s : Shape} {axes : List (Fin s.rank)} (x : s.Idx → EReal)
    (hb : S_.BroadcastsInDim s (![] : Fin 0 → Fin s.rank)) (hr : s.ReducesTo axes S_) (hu : 0 < S_.numel) (j : S_.Idx)
    (e : Host.reduce IntOp.andi
          (cmpf (F := Ideal) (φ := .f32) .olt (Host.absf x) (broadcastInDim s ![] hb (constant S_ .f32 0x7F800000#32)))
          (constantI S_ 1 1#1) hr hu j = 1#1)
    (i : s.Idx) : IsReal (x i) :=
  isReal_of_abs_lt (x i) (Host.reduce_andi_all _ _ hr hu j e i)

section Decode

variable [hPre_finite_inputs : Cert.Pre_finite_inputs.Facts]
variable (m : (ℓ : Loc Cert.KernelIdeal.nD Cert.KernelIdeal.τ Cert.KernelIdeal.sig) → Buf (Elt Ideal) ℓ)

/-- Under the precondition every entry of every argument array is a real number. -/
theorem args_real (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg1)) i))
      ∧ (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i))
      ∧ (∀ i, IsReal ((m ((c.tc : Thread Cert.KernelIdeal.nD Cert.KernelIdeal.τ).loc Cert.KernelIdeal.main_arg18)) i))
      ∧ (∀ i, IsReal ((m ((c.tc : Thread Cert.KernelIdeal.nD Cert.KernelIdeal.τ).loc Cert.KernelIdeal.main_arg19)) i))
      ∧ (∀ i, IsReal ((m ((c.tc : Thread Cert.KernelIdeal.nD Cert.KernelIdeal.τ).loc Cert.KernelIdeal.main_arg20)) i))
      ∧ (∀ i, IsReal ((m ((c.tc : Thread Cert.KernelIdeal.nD Cert.KernelIdeal.τ).loc Cert.KernelIdeal.main_arg21)) i))
      ∧ (∀ i, IsReal ((m ((c.tc : Thread Cert.KernelIdeal.nD Cert.KernelIdeal.τ).loc Cert.KernelIdeal.main_arg22)) i))
      ∧ (∀ i, IsReal ((m ((c.tc : Thread Cert.KernelIdeal.nD Cert.KernelIdeal.τ).loc Cert.KernelIdeal.main_arg23)) i))
      ∧ (∀ i, IsReal ((m ((c.tc : Thread Cert.KernelIdeal.nD Cert.KernelIdeal.τ).loc Cert.KernelIdeal.main_arg24)) i))
      ∧ (∀ i, IsReal ((m ((c.tc : Thread Cert.KernelIdeal.nD Cert.KernelIdeal.τ).loc Cert.KernelIdeal.main_arg25)) i)) := by
  have e := congrFun (h c) (fun d => d.elim0)
  dsimp only [Cert.Pre_finite_inputs.fn, fn_part1, fn_part2, fn_part3, fn_part4, fn_part5, fn_part6, fn_part7] at e
  simp only [andi, IntOp.andi_eq_one] at e
  obtain ⟨⟨⟨⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩ := e
  exact ⟨entries_real _ _ _ _ _ e0,
    entries_real _ _ _ _ _ e1,
    entries_real _ _ _ _ _ e2,
    entries_real _ _ _ _ _ e3,
    entries_real _ _ _ _ _ e4,
    entries_real _ _ _ _ _ e5,
    entries_real _ _ _ _ _ e6,
    entries_real _ _ _ _ _ e7,
    entries_real _ _ _ _ _ e8,
    entries_real _ _ _ _ _ e9,
    entries_real _ _ _ _ _ e10,
    entries_real _ _ _ _ _ e11,
    entries_real _ _ _ _ _ e12,
    entries_real _ _ _ _ _ e13,
    entries_real _ _ _ _ _ e14,
    entries_real _ _ _ _ _ e15,
    entries_real _ _ _ _ _ e16,
    entries_real _ _ _ _ _ e17,
    entries_real _ _ _ _ _ e18,
    entries_real _ _ _ _ _ e19,
    entries_real _ _ _ _ _ e20,
    entries_real _ _ _ _ _ e21,
    entries_real _ _ _ _ _ e22,
    entries_real _ _ _ _ _ e23,
    entries_real _ _ _ _ _ e24,
    entries_real _ _ _ _ _ e25⟩

/-- Under the precondition every weight the specification reads is a real number. -/
theorem params_real (h : Cert.Pre_KernelIdeal m) (c : Dev Cert.KernelIdeal.nD) :
    Cert.Laws.ParamsReal (Cert.Spec.params
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))) := by
  obtain ⟨h0, h1, h2, h3, h4, h5, h6, h7, h8, h9, h10, h11, h12, h13, h14, h15, h16, h17, h18, h19, h20, h21, h22, h23, h24, h25⟩ := args_real m h c
  exact
    { w0 := fun _ _ => h4 _, b0 := fun _ => h5 _, w1 := fun _ _ => h6 _, b1 := fun _ => h7 _,
      w2 := fun _ _ => h8 _, b2 := fun _ => h9 _, w3 := fun _ _ => h10 _, b3 := fun _ => h11 _,
      g := fun _ => h14 _, be := fun _ => h15 _, wq := fun _ _ => h16 _, bq := fun _ => h17 _,
      wv := fun _ _ => h20 _, bv := fun _ => h21 _ }

/-- Under the precondition every entry of a row of the row-wise arguments is a real number. -/
theorem row_real (h : Cert.Pre_KernelIdeal m) (c : Dev Cert.KernelIdeal.nD) (b : Fin 16384) :
    Cert.Laws.RowReal (Cert.Spec.row
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) b) := by
  obtain ⟨h0, h1, h2, h3, h4, h5, h6, h7, h8, h9, h10, h11, h12, h13, h14, h15, h16, h17, h18, h19, h20, h21, h22, h23, h24, h25⟩ := args_real m h c
  exact { x0 := fun _ => h0 _, x1 := fun _ => h1 _, x2 := fun _ => h2 _, x3 := fun _ => h3 _, pv := fun _ => h13 _ }

end Decode

end Cert.PreReal

end
-- ==== Proof.RefBranch.lean ====
/-
  The reference program's four branches, read at an index: each of its four normalised hidden arrays at row `b`,
  unit `h`, is the specification's branch (a dense layer, two rectifiers, a layer normalisation) of row `b` of the
  matching feature array; their concatenation along a new axis of extent four is the specification's `hidden`.

  Everything is an unfolding: each operation's element is read from its operands' elements, the sums over the
  contraction index and over the 512 hidden units are the specification's sums term by term, and the initial value
  of each sum is the zero word, whose value is zero. No finiteness is used.
-/
import proofs.«156941_j27530740367911_2_alg».proof.Proof.RefReadP
import proofs.«156941_j27530740367911_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

namespace Cert.RefBranch

open Cert.ReferenceIdeal Cert.ReferenceIdeal.Gen Cert.ReferenceIdeal.Read Idealize.ShloMosaic Idealize.ShloMosaic.ValueIdx

/-! ## The first branch -/

/-- The pre-activation at row `b`, unit `h`: the dense layer of row `b` of the features. -/
theorem pre0 (x0 : (⟨S16384x1024, .f32⟩ : BufTy).Contents (Elt Ideal)) (x4 : (⟨S512x1024, .f32⟩ : BufTy).Contents (Elt Ideal)) (x5 : (⟨S512, .f32⟩ : BufTy).Contents (Elt Ideal)) (b : Fin 16384) (h : Fin 512) :
    val_main_v4 (F := Ideal) x0 x4 x5 (ix2 b h)
      = Cert.Spec.dense (fun k => x0 (ix2 b k)) (fun k o => x4 (ix2 o k)) (fun o => x5 (ix1 o)) h := by
  rw [val_main_v4_apply, val_main_v1_apply, val_main_v3_apply, val_main_v2_apply, Ideal.addf_def]
  unfold Cert.Spec.dense
  refine congrArg₂ (· + ·) (Finset.sum_congr rfl fun k _ => ?_) ?_
  · rw [val_main_v0_apply]
    refine congrArg₂ (· * ·) (congrArg x0 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- The rectified array is the pre-activation through two rectifiers. -/
theorem act0 (x0 : (⟨S16384x1024, .f32⟩ : BufTy).Contents (Elt Ideal)) (x4 : (⟨S512x1024, .f32⟩ : BufTy).Contents (Elt Ideal)) (x5 : (⟨S512, .f32⟩ : BufTy).Contents (Elt Ideal)) (i : S16384x512.Idx) :
    val_main_v6 (F := Ideal) x0 x4 x5 i = Cert.Spec.relu2 (val_main_v4 (F := Ideal) x0 x4 x5 i) := by
  rw [val_main_v6_apply, val_main_v5_apply, val_main_call1_v0_apply, val_main_call0_v0_apply, val_main_call1_cst_apply,
    val_main_call0_cst_apply, Ideal.maximumf_def, Ideal.maximumf_def, Ideal.ofBits_def]
  rfl

/-- Row `b` of the rectified array is the rectified dense layer of row `b`. -/
theorem actRow0 (x0 : (⟨S16384x1024, .f32⟩ : BufTy).Contents (Elt Ideal)) (x4 : (⟨S512x1024, .f32⟩ : BufTy).Contents (Elt Ideal)) (x5 : (⟨S512, .f32⟩ : BufTy).Contents (Elt Ideal)) (b : Fin 16384) :
    (fun k : Fin 512 => val_main_v6 (F := Ideal) x0 x4 x5 (ix2 b k))
      = fun o => Cert.Spec.relu2 (Cert.Spec.dense (fun k => x0 (ix2 b k)) (fun k o => x4 (ix2 o k)) (fun o => x5 (ix1 o)) o) :=
  funext fun k => by rw [act0, pre0]

/-- The mean of row `b`. -/
theorem mean0 (x0 : (⟨S16384x1024, .f32⟩ : BufTy).Contents (Elt Ideal)) (x4 : (⟨S512x1024, .f32⟩ : BufTy).Contents (Elt Ideal)) (x5 : (⟨S512, .f32⟩ : BufTy).Contents (Elt Ideal)) (b : Fin 16384) (z : Fin 1) :
    val_main_v10 (F := Ideal) x0 x4 x5 (ix2 b z) = Cert.Spec.mean512 (fun k : Fin 512 => val_main_v6 (F := Ideal) x0 x4 x5 (ix2 b k)) := by
  rw [val_main_v10_apply, val_main_v8_apply, val_main_v9_apply, val_main_cst_0_apply, val_main_v7_apply, val_main_cst_apply,
    Ideal.hostDivf_def, Ideal.ofBits_def, Ideal.ofBits_def, Ideal.ofBits_zero_f32, zero_add]
  unfold Cert.Spec.mean512
  refine congrArg (Ideal.div · _) (Finset.sum_congr rfl fun k _ => congrArg _ ?_)
  exact funext fun a => Fin.ext (by match a with | ⟨0, _⟩ => rfl | ⟨1, _⟩ => rfl)

/-- The centred array (the one that is squared). -/
theorem cenA0 (x0 : (⟨S16384x1024, .f32⟩ : BufTy).Contents (Elt Ideal)) (x4 : (⟨S512x1024, .f32⟩ : BufTy).Contents (Elt Ideal)) (x5 : (⟨S512, .f32⟩ : BufTy).Contents (Elt Ideal)) (b : Fin 16384) (h : Fin 512) :
    val_main_v12 (F := Ideal) x0 x4 x5 (ix2 b h) = Cert.Spec.centred (fun k : Fin 512 => val_main_v6 (F := Ideal) x0 x4 x5 (ix2 b k)) h := by
  rw [val_main_v12_apply, val_main_v11_apply, Ideal.subf_def]
  unfold Cert.Spec.centred
  rw [← mean0 x0 x4 x5 b 0]
  have e : idx_main_v11 (ix2 b h) = ix2 b (0 : Fin 1) :=
    funext fun a => Fin.ext (by match a with | ⟨0, _⟩ => rfl | ⟨1, _⟩ => rfl)
  rw [e]

/-- The centred array (the one that is scaled). -/
theorem cenB0 (x0 : (⟨S16384x1024, .f32⟩ : BufTy).Contents (Elt Ideal)) (x4 : (⟨S512x1024, .f32⟩ : BufTy).Contents (Elt Ideal)) (x5 : (⟨S512, .f32⟩ : BufTy).Contents (Elt Ideal)) (b : Fin 16384) (h : Fin 512) :
    val_main_v19 (F := Ideal) x0 x4 x5 (ix2 b h) = Cert.Spec.centred (fun k : Fin 512 => val_main_v6 (F := Ideal) x0 x4 x5 (ix2 b k)) h := by
  rw [val_main_v19_apply, val_main_v18_apply, Ideal.subf_def]
  unfold Cert.Spec.centred
  rw [← mean0 x0 x4 x5 b 0]
  have e : idx_main_v18 (ix2 b h) = ix2 b (0 : Fin 1) :=
    funext fun a => Fin.ext (by match a with | ⟨0, _⟩ => rfl | ⟨1, _⟩ => rfl)
  rw [e]

/-- The variance of row `b`. -/
theorem var0 (x0 : (⟨S16384x1024, .f32⟩ : BufTy).Contents (Elt Ideal)) (x4 : (⟨S512x1024, .f32⟩ : BufTy).Contents (Elt Ideal)) (x5 : (⟨S512, .f32⟩ : BufTy).Contents (Elt Ideal)) (b : Fin 16384) (z : Fin 1) :
    val_main_v17 (F := Ideal) x0 x4 x5 (ix2 b z) = Cert.Spec.variance (fun k : Fin 512 => val_main_v6 (F := Ideal) x0 x4 x5 (ix2 b k)) := by
  rw [val_main_v17_apply, val_main_v15_apply, val_main_v16_apply, val_main_cst_2_apply, val_main_v14_apply, val_main_cst_1_apply,
    Ideal.hostDivf_def, Ideal.ofBits_def, Ideal.ofBits_def, Ideal.ofBits_zero_f32, zero_add]
  unfold Cert.Spec.variance Cert.Spec.mean512
  refine congrArg (Ideal.div · _) (Finset.sum_congr rfl fun k _ => ?_)
  beta_reduce
  rw [← cenA0 x0 x4 x5 b k, val_main_v13_apply, Ideal.mulf_def]
  have e : idx_main_v14 (idx_main_v15 (ix2 b z)) k = ix2 b k :=
    funext fun a => Fin.ext (by match a with | ⟨0, _⟩ => rfl | ⟨1, _⟩ => rfl)
  rw [e]

/-- The normalised hidden array at row `b`, unit `h`: the branch of row `b`. -/
theorem branch0 (x0 : (⟨S16384x1024, .f32⟩ : BufTy).Contents (Elt Ideal)) (x4 : (⟨S512x1024, .f32⟩ : BufTy).Contents (Elt Ideal)) (x5 : (⟨S512, .f32⟩ : BufTy).Contents (Elt Ideal)) (x14 x15 : (⟨S512, .f32⟩ : BufTy).Contents (Elt Ideal)) (b : Fin 16384) (h : Fin 512) :
    val_main_v30 (F := Ideal) x0 x4 x5 x14 x15 (ix2 b h)
      = Cert.Spec.branch (fun k => x0 (ix2 b k)) (fun k o => x4 (ix2 o k)) (fun o => x5 (ix1 o))
          (fun o => x14 (ix1 o)) (fun o => x15 (ix1 o)) h := by
  rw [val_main_v30_apply, val_main_v27_apply, val_main_v24_apply, val_main_v23_apply, val_main_v22_apply, val_main_v21_apply, val_main_v20_apply,
    val_main_cst_3_apply, val_main_v29_apply, val_main_v28_apply, val_main_v26_apply, val_main_v25_apply, cenB0,
    Ideal.addf_def, Ideal.mulf_def, Ideal.mulf_def, Ideal.hostUnary_rsqrt_def, Ideal.addf_def, Ideal.ofBits_def]
  have e1 : idx_main_v23 (ix2 b h) = ix2 b (0 : Fin 1) :=
    funext fun a => Fin.ext (by match a with | ⟨0, _⟩ => rfl | ⟨1, _⟩ => rfl)
  have e2 : idx_main_v25 (idx_main_v26 (ix2 b h)) = ix1 h :=
    funext fun a => Fin.ext (by match a with | ⟨0, _⟩ => rfl)
  have e3 : idx_main_v28 (idx_main_v29 (ix2 b h)) = ix1 h :=
    funext fun a => Fin.ext (by match a with | ⟨0, _⟩ => rfl)
  rw [e1, e2, e3, var0]
  unfold Cert.Spec.branch Cert.Spec.layerNorm
  rw [actRow0]

/-! ## The second branch -/

/-- The pre-activation at row `b`, unit `h`: the dense layer of row `b` of the features. -/
theorem pre1 (x1 : (⟨S16384x768, .f32⟩ : BufTy).Contents (Elt Ideal)) (x6 : (⟨S512x768, .f32⟩ : BufTy).Contents (Elt Ideal)) (x7 : (⟨S512, .f32⟩ : BufTy).Contents (Elt Ideal)) (b : Fin 16384) (h : Fin 512) :
    val_main_v35 (F := Ideal) x1 x6 x7 (ix2 b h)
      = Cert.Spec.dense (fun k => x1 (ix2 b k)) (fun k o => x6 (ix2 o k)) (fun o => x7 (ix1 o)) h := by
  rw [val_main_v35_apply, val_main_v32_apply, val_main_v34_apply, val_main_v33_apply, Ideal.addf_def]
  unfold Cert.Spec.dense
  refine congrArg₂ (· + ·) (Finset.sum_congr rfl fun k _ => ?_) ?_
  · rw [val_main_v31_apply]
    refine congrArg₂ (· * ·) (congrArg x1 ?_) (congrArg x6 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x7 (funext fun a => Fin.ext (by match a with | ⟨0, _⟩ => rfl))

/-- The rectified array is the pre-activation through two rectifiers. -/
theorem act1 (x1 : (⟨S16384x768, .f32⟩ : BufTy).Contents (Elt Ideal)) (x6 : (⟨S512x768, .f32⟩ : BufTy).Contents (Elt Ideal)) (x7 : (⟨S512, .f32⟩ : BufTy).Contents (Elt Ideal)) (i : S16384x512.Idx) :
    val_main_v37 (F := Ideal) x1 x6 x7 i = Cert.Spec.relu2 (val_main_v35 (F := Ideal) x1 x6 x7 i) := by
  rw [val_main_v37_apply, val_main_v36_apply, val_main_call3_v0_apply, val_main_call2_v0_apply, val_main_call3_cst_apply,
    val_main_call2_cst_apply, Ideal.maximumf_def, Ideal.maximumf_def, Ideal.ofBits_def]
  rfl

/-- Row `b` of the rectified array is the rectified dense layer of row `b`. -/
theorem actRow1 (x1 : (⟨S16384x768, .f32⟩ : BufTy).Contents (Elt Ideal)) (x6 : (⟨S512x768, .f32⟩ : BufTy).Contents (Elt Ideal)) (x7 : (⟨S512, .f32⟩ : BufTy).Contents (Elt Ideal)) (b : Fin 16384) :
    (fun k : Fin 512 => val_main_v37 (F := Ideal) x1 x6 x7 (ix2 b k))
      = fun o => Cert.Spec.relu2 (Cert.Spec.dense (fun k => x1 (ix2 b k)) (fun k o => x6 (ix2 o k)) (fun o => x7 (ix1 o)) o) :=
  funext fun k => by rw [act1, pre1]

/-- The mean of row `b`. -/
theorem mean1 (x1 : (⟨S16384x768, .f32⟩ : BufTy).Contents (Elt Ideal)) (x6 : (⟨S512x768, .f32⟩ : BufTy).Contents (Elt Ideal)) (x7 : (⟨S512, .f32⟩ : BufTy).Contents (Elt Ideal)) (b : Fin 16384) (z : Fin 1) :
    val_main_v41 (F := Ideal) x1 x6 x7 (ix2 b z) = Cert.Spec.mean512 (fun k : Fin 512 => val_main_v37 (F := Ideal) x1 x6 x7 (ix2 b k)) := by
  rw [val_main_v41_apply, val_main_v39_apply, val_main_v40_apply, val_main_cst_5_apply, val_main_v38_apply, val_main_cst_4_apply,
    Ideal.hostDivf_def, Ideal.ofBits_def, Ideal.ofBits_def, Ideal.ofBits_zero_f32, zero_add]
  unfold Cert.Spec.mean512
  refine congrArg (Ideal.div · _) (Finset.sum_congr rfl fun k _ => congrArg _ ?_)
  exact funext fun a => Fin.ext (by match a with | ⟨0, _⟩ => rfl | ⟨1, _⟩ => rfl)

/-- The centred array (the one that is squared). -/
theorem cenA1 (x1 : (⟨S16384x768, .f32⟩ : BufTy).Contents (Elt Ideal)) (x6 : (⟨S512x768, .f32⟩ : BufTy).Contents (Elt Ideal)) (x7 : (⟨S512, .f32⟩ : BufTy).Contents (Elt Ideal)) (b : Fin 16384) (h : Fin 512) :
    val_main_v43 (F := Ideal) x1 x6 x7 (ix2 b h) = Cert.Spec.centred (fun k : Fin 512 => val_main_v37 (F := Ideal) x1 x6 x7 (ix2 b k)) h := by
  rw [val_main_v43_apply, val_main_v42_apply, Ideal.subf_def]
  unfold Cert.Spec.centred
  rw [← mean1 x1 x6 x7 b 0]
  have e : idx_main_v42 (ix2 b h) = ix2 b (0 : Fin 1) :=
    funext fun a => Fin.ext (by match a with | ⟨0, _⟩ => rfl | ⟨1, _⟩ => rfl)
  rw [e]

/-- The centred array (the one that is scaled). -/
theorem cenB1 (x1 : (⟨S16384x768, .f32⟩ : BufTy).Contents (Elt Ideal)) (x6 : (⟨S512x768, .f32⟩ : BufTy).Contents (Elt Ideal)) (x7 : (⟨S512, .f32⟩ : BufTy).Contents (Elt Ideal)) (b : Fin 16384) (h : Fin 512) :
    val_main_v50 (F := Ideal) x1 x6 x7 (ix2 b h) = Cert.Spec.centred (fun k : Fin 512 => val_main_v37 (F := Ideal) x1 x6 x7 (ix2 b k)) h := by
  rw [val_main_v50_apply, val_main_v49_apply, Ideal.subf_def]
  unfold Cert.Spec.centred
  rw [← mean1 x1 x6 x7 b 0]
  have e : idx_main_v49 (ix2 b h) = ix2 b (0 : Fin 1) :=
    funext fun a => Fin.ext (by match a with | ⟨0, _⟩ => rfl | ⟨1, _⟩ => rfl)
  rw [e]

/-- The variance of row `b`. -/
theorem var1 (x1 : (⟨S16384x768, .f32⟩ : BufTy).Contents (Elt Ideal)) (x6 : (⟨S512x768, .f32⟩ : BufTy).Contents (Elt Ideal)) (x7 : (⟨S512, .f32⟩ : BufTy).Contents (Elt Ideal)) (b : Fin 16384) (z : Fin 1) :
    val_main_v48 (F := Ideal) x1 x6 x7 (ix2 b z) = Cert.Spec.variance (fun k : Fin 512 => val_main_v37 (F := Ideal) x1 x6 x7 (ix2 b k)) := by
  rw [val_main_v48_apply, val_main_v46_apply, val_main_v47_apply, val_main_cst_7_apply, val_main_v45_apply, val_main_cst_6_apply,
    Ideal.hostDivf_def, Ideal.ofBits_def, Ideal.ofBits_def, Ideal.ofBits_zero_f32, zero_add]
  unfold Cert.Spec.variance Cert.Spec.mean512
  refine congrArg (Ideal.div · _) (Finset.sum_congr rfl fun k _ => ?_)
  beta_reduce
  rw [← cenA1 x1 x6 x7 b k, val_main_v44_apply, Ideal.mulf_def]
  have e : idx_main_v45 (idx_main_v46 (ix2 b z)) k = ix2 b k :=
    funext fun a => Fin.ext (by match a with | ⟨0, _⟩ => rfl | ⟨1, _⟩ => rfl)
  rw [e]

/-- The normalised hidden array at row `b`, unit `h`: the branch of row `b`. -/
theorem branch1 (x1 : (⟨S16384x768, .f32⟩ : BufTy).Contents (Elt Ideal)) (x6 : (⟨S512x768, .f32⟩ : BufTy).Contents (Elt Ideal)) (x7 : (⟨S512, .f32⟩ : BufTy).Contents (Elt Ideal)) (x14 x15 : (⟨S512, .f32⟩ : BufTy).Contents (Elt Ideal)) (b : Fin 16384) (h : Fin 512) :
    val_main_v61 (F := Ideal) x1 x6 x7 x14 x15 (ix2 b h)
      = Cert.Spec.branch (fun k => x1 (ix2 b k)) (fun k o => x6 (ix2 o k)) (fun o => x7 (ix1 o))
          (fun o => x14 (ix1 o)) (fun o => x15 (ix1 o)) h := by
  rw [val_main_v61_apply, val_main_v58_apply, val_main_v55_apply, val_main_v54_apply, val_main_v53_apply, val_main_v52_apply, val_main_v51_apply,
    val_main_cst_8_apply, val_main_v60_apply, val_main_v59_apply, val_main_v57_apply, val_main_v56_apply, cenB1,
    Ideal.addf_def, Ideal.mulf_def, Ideal.mulf_def, Ideal.hostUnary_rsqrt_def, Ideal.addf_def, Ideal.ofBits_def]
  have e1 : idx_main_v54 (ix2 b h) = ix2 b (0 : Fin 1) :=
    funext fun a => Fin.ext (by match a with | ⟨0, _⟩ => rfl | ⟨1, _⟩ => rfl)
  have e2 : idx_main_v56 (idx_main_v57 (ix2 b h)) = ix1 h :=
    funext fun a => Fin.ext (by match a with | ⟨0, _⟩ => rfl)
  have e3 : idx_main_v59 (idx_main_v60 (ix2 b h)) = ix1 h :=
    funext fun a => Fin.ext (by match a with | ⟨0, _⟩ => rfl)
  rw [e1, e2, e3, var1]
  unfold Cert.Spec.branch Cert.Spec.layerNorm
  rw [actRow1]

/-! ## The third branch -/

/-- The pre-activation at row `b`, unit `h`: the dense layer of row `b` of the features. -/
theorem pre2 (x2 : (⟨S16384x512, .f32⟩ : BufTy).Contents (Elt Ideal)) (x8 : (⟨S512x512, .f32⟩ : BufTy).Contents (Elt Ideal)) (x9 : (⟨S512, .f32⟩ : BufTy).Contents (Elt Ideal)) (b : Fin 16384) (h : Fin 512) :
    val_main_v66 (F := Ideal) x2 x8 x9 (ix2 b h)
      = Cert.Spec.dense (fun k => x2 (ix2 b k)) (fun k o => x8 (ix2 o k)) (fun o => x9 (ix1 o)) h := by
  rw [val_main_v66_apply, val_main_v63_apply, val_main_v65_apply, val_main_v64_apply, Ideal.addf_def]
  unfold Cert.Spec.dense
  refine congrArg₂ (· + ·) (Finset.sum_congr rfl fun k _ => ?_) ?_
  · rw [val_main_v62_apply]
    refine congrArg₂ (· * ·) (congrArg x2 ?_) (congrArg x8 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x9 (funext fun a => Fin.ext (by match a with | ⟨0, _⟩ => rfl))

/-- The rectified array is the pre-activation through two rectifiers. -/
theorem act2 (x2 : (⟨S16384x512, .f32⟩ : BufTy).Contents (Elt Ideal)) (x8 : (⟨S512x512, .f32⟩ : BufTy).Contents (Elt Ideal)) (x9 : (⟨S512, .f32⟩ : BufTy).Contents (Elt Ideal)) (i : S16384x512.Idx) :
    val_main_v68 (F := Ideal) x2 x8 x9 i = Cert.Spec.relu2 (val_main_v66 (F := Ideal) x2 x8 x9 i) := by
  rw [val_main_v68_apply, val_main_v67_apply, val_main_call5_v0_apply, val_main_call4_v0_apply, val_main_call5_cst_apply,
    val_main_call4_cst_apply, Ideal.maximumf_def, Ideal.maximumf_def, Ideal.ofBits_def]
  rfl

/-- Row `b` of the rectified array is the rectified dense layer of row `b`. -/
theorem actRow2 (x2 : (⟨S16384x512, .f32⟩ : BufTy).Contents (Elt Ideal)) (x8 : (⟨S512x512, .f32⟩ : BufTy).Contents (Elt Ideal)) (x9 : (⟨S512, .f32⟩ : BufTy).Contents (Elt Ideal)) (b : Fin 16384) :
    (fun k : Fin 512 => val_main_v68 (F := Ideal) x2 x8 x9 (ix2 b k))
      = fun o => Cert.Spec.relu2 (Cert.Spec.dense (fun k => x2 (ix2 b k)) (fun k o => x8 (ix2 o k)) (fun o => x9 (ix1 o)) o) :=
  funext fun k => by rw [act2, pre2]

/-- The mean of row `b`. -/
theorem mean2 (x2 : (⟨S16384x512, .f32⟩ : BufTy).Contents (Elt Ideal)) (x8 : (⟨S512x512, .f32⟩ : BufTy).Contents (Elt Ideal)) (x9 : (⟨S512, .f32⟩ : BufTy).Contents (Elt Ideal)) (b : Fin 16384) (z : Fin 1) :
    val_main_v72 (F := Ideal) x2 x8 x9 (ix2 b z) = Cert.Spec.mean512 (fun k : Fin 512 => val_main_v68 (F := Ideal) x2 x8 x9 (ix2 b k)) := by
  rw [val_main_v72_apply, val_main_v70_apply, val_main_v71_apply, val_main_cst_10_apply, val_main_v69_apply, val_main_cst_9_apply,
    Ideal.hostDivf_def, Ideal.ofBits_def, Ideal.ofBits_def, Ideal.ofBits_zero_f32, zero_add]
  unfold Cert.Spec.mean512
  refine congrArg (Ideal.div · _) (Finset.sum_congr rfl fun k _ => congrArg _ ?_)
  exact funext fun a => Fin.ext (by match a with | ⟨0, _⟩ => rfl | ⟨1, _⟩ => rfl)

/-- The centred array (the one that is squared). -/
theorem cenA2 (x2 : (⟨S16384x512, .f32⟩ : BufTy).Contents (Elt Ideal)) (x8 : (⟨S512x512, .f32⟩ : BufTy).Contents (Elt Ideal)) (x9 : (⟨S512, .f32⟩ : BufTy).Contents (Elt Ideal)) (b : Fin 16384) (h : Fin 512) :
    val_main_v74 (F := Ideal) x2 x8 x9 (ix2 b h) = Cert.Spec.centred (fun k : Fin 512 => val_main_v68 (F := Ideal) x2 x8 x9 (ix2 b k)) h := by
  rw [val_main_v74_apply, val_main_v73_apply, Ideal.subf_def]
  unfold Cert.Spec.centred
  rw [← mean2 x2 x8 x9 b 0]
  have e : idx_main_v73 (ix2 b h) = ix2 b (0 : Fin 1) :=
    funext fun a => Fin.ext (by match a with | ⟨0, _⟩ => rfl | ⟨1, _⟩ => rfl)
  rw [e]

/-- The centred array (the one that is scaled). -/
theorem cenB2 (x2 : (⟨S16384x512, .f32⟩ : BufTy).Contents (Elt Ideal)) (x8 : (⟨S512x512, .f32⟩ : BufTy).Contents (Elt Ideal)) (x9 : (⟨S512, .f32⟩ : BufTy).Contents (Elt Ideal)) (b : Fin 16384) (h : Fin 512) :
    val_main_v81 (F := Ideal) x2 x8 x9 (ix2 b h) = Cert.Spec.centred (fun k : Fin 512 => val_main_v68 (F := Ideal) x2 x8 x9 (ix2 b k)) h := by
  rw [val_main_v81_apply, val_main_v80_apply, Ideal.subf_def]
  unfold Cert.Spec.centred
  rw [← mean2 x2 x8 x9 b 0]
  have e : idx_main_v80 (ix2 b h) = ix2 b (0 : Fin 1) :=
    funext fun a => Fin.ext (by match a with | ⟨0, _⟩ => rfl | ⟨1, _⟩ => rfl)
  rw [e]

/-- The variance of row `b`. -/
theorem var2 (x2 : (⟨S16384x512, .f32⟩ : BufTy).Contents (Elt Ideal)) (x8 : (⟨S512x512, .f32⟩ : BufTy).Contents (Elt Ideal)) (x9 : (⟨S512, .f32⟩ : BufTy).Contents (Elt Ideal)) (b : Fin 16384) (z : Fin 1) :
    val_main_v79 (F := Ideal) x2 x8 x9 (ix2 b z) = Cert.Spec.variance (fun k : Fin 512 => val_main_v68 (F := Ideal) x2 x8 x9 (ix2 b k)) := by
  rw [val_main_v79_apply, val_main_v77_apply, val_main_v78_apply, val_main_cst_12_apply, val_main_v76_apply, val_main_cst_11_apply,
    Ideal.hostDivf_def, Ideal.ofBits_def, Ideal.ofBits_def, Ideal.ofBits_zero_f32, zero_add]
  unfold Cert.Spec.variance Cert.Spec.mean512
  refine congrArg (Ideal.div · _) (Finset.sum_congr rfl fun k _ => ?_)
  beta_reduce
  rw [← cenA2 x2 x8 x9 b k, val_main_v75_apply, Ideal.mulf_def]
  have e : idx_main_v76 (idx_main_v77 (ix2 b z)) k = ix2 b k :=
    funext fun a => Fin.ext (by match a with | ⟨0, _⟩ => rfl | ⟨1, _⟩ => rfl)
  rw [e]

/-- The normalised hidden array at row `b`, unit `h`: the branch of row `b`. -/
theorem branch2 (x2 : (⟨S16384x512, .f32⟩ : BufTy).Contents (Elt Ideal)) (x8 : (⟨S512x512, .f32⟩ : BufTy).Contents (Elt Ideal)) (x9 : (⟨S512, .f32⟩ : BufTy).Contents (Elt Ideal)) (x14 x15 : (⟨S512, .f32⟩ : BufTy).Contents (Elt Ideal)) (b : Fin 16384) (h : Fin 512) :
    val_main_v92 (F := Ideal) x2 x8 x9 x14 x15 (ix2 b h)
      = Cert.Spec.branch (fun k => x2 (ix2 b k)) (fun k o => x8 (ix2 o k)) (fun o => x9 (ix1 o))
          (fun o => x14 (ix1 o)) (fun o => x15 (ix1 o)) h := by
  rw [val_main_v92_apply, val_main_v89_apply, val_main_v86_apply, val_main_v85_apply, val_main_v84_apply, val_main_v83_apply, val_main_v82_apply,
    val_main_cst_13_apply, val_main_v91_apply, val_main_v90_apply, val_main_v88_apply, val_main_v87_apply, cenB2,
    Ideal.addf_def, Ideal.mulf_def, Ideal.mulf_def, Ideal.hostUnary_rsqrt_def, Ideal.addf_def, Ideal.ofBits_def]
  have e1 : idx_main_v85 (ix2 b h) = ix2 b (0 : Fin 1) :=
    funext fun a => Fin.ext (by match a with | ⟨0, _⟩ => rfl | ⟨1, _⟩ => rfl)
  have e2 : idx_main_v87 (idx_main_v88 (ix2 b h)) = ix1 h :=
    funext fun a => Fin.ext (by match a with | ⟨0, _⟩ => rfl)
  have e3 : idx_main_v90 (idx_main_v91 (ix2 b h)) = ix1 h :=
    funext fun a => Fin.ext (by match a with | ⟨0, _⟩ => rfl)
  rw [e1, e2, e3, var2]
  unfold Cert.Spec.branch Cert.Spec.layerNorm
  rw [actRow2]

/-! ## The fourth branch -/

/-- The pre-activation at row `b`, unit `h`: the dense layer of row `b` of the features. -/
theorem pre3 (x3 : (⟨S16384x640, .f32⟩ : BufTy).Contents (Elt Ideal)) (x10 : (⟨S512x640, .f32⟩ : BufTy).Contents (Elt Ideal)) (x11 : (⟨S512, .f32⟩ : BufTy).Contents (Elt Ideal)) (b : Fin 16384) (h : Fin 512) :
    val_main_v97 (F := Ideal) x3 x10 x11 (ix2 b h)
      = Cert.Spec.dense (fun k => x3 (ix2 b k)) (fun k o => x10 (ix2 o k)) (fun o => x11 (ix1 o)) h := by
  rw [val_main_v97_apply, val_main_v94_apply, val_main_v96_apply, val_main_v95_apply, Ideal.addf_def]
  unfold Cert.Spec.dense
  refine congrArg₂ (· + ·) (Finset.sum_congr rfl fun k _ => ?_) ?_
  · rw [val_main_v93_apply]
    refine congrArg₂ (· * ·) (congrArg x3 ?_) (congrArg x10 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x11 (funext fun a => Fin.ext (by match a with | ⟨0, _⟩ => rfl))

/-- The rectified array is the pre-activation through two rectifiers. -/
theorem act3 (x3 : (⟨S16384x640, .f32⟩ : BufTy).Contents (Elt Ideal)) (x10 : (⟨S512x640, .f32⟩ : BufTy).Contents (Elt Ideal)) (x11 : (⟨S512, .f32⟩ : BufTy).Contents (Elt Ideal)) (i : S16384x512.Idx) :
    val_main_v99 (F := Ideal) x3 x10 x11 i = Cert.Spec.relu2 (val_main_v97 (F := Ideal) x3 x10 x11 i) := by
  rw [val_main_v99_apply, val_main_v98_apply, val_main_call7_v0_apply, val_main_call6_v0_apply, val_main_call7_cst_apply,
    val_main_call6_cst_apply, Ideal.maximumf_def, Ideal.maximumf_def, Ideal.ofBits_def]
  rfl

/-- Row `b` of the rectified array is the rectified dense layer of row `b`. -/
theorem actRow3 (x3 : (⟨S16384x640, .f32⟩ : BufTy).Contents (Elt Ideal)) (x10 : (⟨S512x640, .f32⟩ : BufTy).Contents (Elt Ideal)) (x11 : (⟨S512, .f32⟩ : BufTy).Contents (Elt Ideal)) (b : Fin 16384) :
    (fun k : Fin 512 => val_main_v99 (F := Ideal) x3 x10 x11 (ix2 b k))
      = fun o => Cert.Spec.relu2 (Cert.Spec.dense (fun k => x3 (ix2 b k)) (fun k o => x10 (ix2 o k)) (fun o => x11 (ix1 o)) o) :=
  funext fun k => by rw [act3, pre3]

/-- The mean of row `b`. -/
theorem mean3 (x3 : (⟨S16384x640, .f32⟩ : BufTy).Contents (Elt Ideal)) (x10 : (⟨S512x640, .f32⟩ : BufTy).Contents (Elt Ideal)) (x11 : (⟨S512, .f32⟩ : BufTy).Contents (Elt Ideal)) (b : Fin 16384) (z : Fin 1) :
    val_main_v103 (F := Ideal) x3 x10 x11 (ix2 b z) = Cert.Spec.mean512 (fun k : Fin 512 => val_main_v99 (F := Ideal) x3 x10 x11 (ix2 b k)) := by
  rw [val_main_v103_apply, val_main_v101_apply, val_main_v102_apply, val_main_cst_15_apply, val_main_v100_apply, val_main_cst_14_apply,
    Ideal.hostDivf_def, Ideal.ofBits_def, Ideal.ofBits_def, Ideal.ofBits_zero_f32, zero_add]
  unfold Cert.Spec.mean512
  refine congrArg (Ideal.div · _) (Finset.sum_congr rfl fun k _ => congrArg _ ?_)
  exact funext fun a => Fin.ext (by match a with | ⟨0, _⟩ => rfl | ⟨1, _⟩ => rfl)

/-- The centred array (the one that is squared). -/
theorem cenA3 (x3 : (⟨S16384x640, .f32⟩ : BufTy).Contents (Elt Ideal)) (x10 : (⟨S512x640, .f32⟩ : BufTy).Contents (Elt Ideal)) (x11 : (⟨S512, .f32⟩ : BufTy).Contents (Elt Ideal)) (b : Fin 16384) (h : Fin 512) :
    val_main_v105 (F := Ideal) x3 x10 x11 (ix2 b h) = Cert.Spec.centred (fun k : Fin 512 => val_main_v99 (F := Ideal) x3 x10 x11 (ix2 b k)) h := by
  rw [val_main_v105_apply, val_main_v104_apply, Ideal.subf_def]
  unfold Cert.Spec.centred
  rw [← mean3 x3 x10 x11 b 0]
  have e : idx_main_v104 (ix2 b h) = ix2 b (0 : Fin 1) :=
    funext fun a => Fin.ext (by match a with | ⟨0, _⟩ => rfl | ⟨1, _⟩ => rfl)
  rw [e]

/-- The centred array (the one that is scaled). -/
theorem cenB3 (x3 : (⟨S16384x640, .f32⟩ : BufTy).Contents (Elt Ideal)) (x10 : (⟨S512x640, .f32⟩ : BufTy).Contents (Elt Ideal)) (x11 : (⟨S512, .f32⟩ : BufTy).Contents (Elt Ideal)) (b : Fin 16384) (h : Fin 512) :
    val_main_v112 (F := Ideal) x3 x10 x11 (ix2 b h) = Cert.Spec.centred (fun k : Fin 512 => val_main_v99 (F := Ideal) x3 x10 x11 (ix2 b k)) h := by
  rw [val_main_v112_apply, val_main_v111_apply, Ideal.subf_def]
  unfold Cert.Spec.centred
  rw [← mean3 x3 x10 x11 b 0]
  have e : idx_main_v111 (ix2 b h) = ix2 b (0 : Fin 1) :=
    funext fun a => Fin.ext (by match a with | ⟨0, _⟩ => rfl | ⟨1, _⟩ => rfl)
  rw [e]

/-- The variance of row `b`. -/
theorem var3 (x3 : (⟨S16384x640, .f32⟩ : BufTy).Contents (Elt Ideal)) (x10 : (⟨S512x640, .f32⟩ : BufTy).Contents (Elt Ideal)) (x11 : (⟨S512, .f32⟩ : BufTy).Contents (Elt Ideal)) (b : Fin 16384) (z : Fin 1) :
    val_main_v110 (F := Ideal) x3 x10 x11 (ix2 b z) = Cert.Spec.variance (fun k : Fin 512 => val_main_v99 (F := Ideal) x3 x10 x11 (ix2 b k)) := by
  rw [val_main_v110_apply, val_main_v108_apply, val_main_v109_apply, val_main_cst_17_apply, val_main_v107_apply, val_main_cst_16_apply,
    Ideal.hostDivf_def, Ideal.ofBits_def, Ideal.ofBits_def, Ideal.ofBits_zero_f32, zero_add]
  unfold Cert.Spec.variance Cert.Spec.mean512
  refine congrArg (Ideal.div · _) (Finset.sum_congr rfl fun k _ => ?_)
  beta_reduce
  rw [← cenA3 x3 x10 x11 b k, val_main_v106_apply, Ideal.mulf_def]
  have e : idx_main_v107 (idx_main_v108 (ix2 b z)) k = ix2 b k :=
    funext fun a => Fin.ext (by match a with | ⟨0, _⟩ => rfl | ⟨1, _⟩ => rfl)
  rw [e]

/-- The normalised hidden array at row `b`, unit `h`: the branch of row `b`. -/
theorem branch3 (x3 : (⟨S16384x640, .f32⟩ : BufTy).Contents (Elt Ideal)) (x10 : (⟨S512x640, .f32⟩ : BufTy).Contents (Elt Ideal)) (x11 : (⟨S512, .f32⟩ : BufTy).Contents (Elt Ideal)) (x14 x15 : (⟨S512, .f32⟩ : BufTy).Contents (Elt Ideal)) (b : Fin 16384) (h : Fin 512) :
    val_main_v123 (F := Ideal) x3 x10 x11 x14 x15 (ix2 b h)
      = Cert.Spec.branch (fun k => x3 (ix2 b k)) (fun k o => x10 (ix2 o k)) (fun o => x11 (ix1 o))
          (fun o => x14 (ix1 o)) (fun o => x15 (ix1 o)) h := by
  rw [val_main_v123_apply, val_main_v120_apply, val_main_v117_apply, val_main_v116_apply, val_main_v115_apply, val_main_v114_apply, val_main_v113_apply,
    val_main_cst_18_apply, val_main_v122_apply, val_main_v121_apply, val_main_v119_apply, val_main_v118_apply, cenB3,
    Ideal.addf_def, Ideal.mulf_def, Ideal.mulf_def, Ideal.hostUnary_rsqrt_def, Ideal.addf_def, Ideal.ofBits_def]
  have e1 : idx_main_v116 (ix2 b h) = ix2 b (0 : Fin 1) :=
    funext fun a => Fin.ext (by match a with | ⟨0, _⟩ => rfl | ⟨1, _⟩ => rfl)
  have e2 : idx_main_v118 (idx_main_v119 (ix2 b h)) = ix1 h :=
    funext fun a => Fin.ext (by match a with | ⟨0, _⟩ => rfl)
  have e3 : idx_main_v121 (idx_main_v122 (ix2 b h)) = ix1 h :=
    funext fun a => Fin.ext (by match a with | ⟨0, _⟩ => rfl)
  rw [e1, e2, e3, var3]
  unfold Cert.Spec.branch Cert.Spec.layerNorm
  rw [actRow3]

/-! ## The four branches joined -/

/-- The joined hidden array at row `b`, branch `i`, unit `h` is the specification's hidden vector `i` of row `b`. -/
theorem hidden_eq (x0 : (⟨S16384x1024, .f32⟩ : BufTy).Contents (Elt Ideal)) (x1 : (⟨S16384x768, .f32⟩ : BufTy).Contents (Elt Ideal))
    (x2 : (⟨S16384x512, .f32⟩ : BufTy).Contents (Elt Ideal)) (x3 : (⟨S16384x640, .f32⟩ : BufTy).Contents (Elt Ideal))
    (x4 : (⟨S512x1024, .f32⟩ : BufTy).Contents (Elt Ideal)) (x5 : (⟨S512, .f32⟩ : BufTy).Contents (Elt Ideal))
    (x6 : (⟨S512x768, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (x10 : (⟨S512x640, .f32⟩ : BufTy).Contents (Elt Ideal)) (x11 : (⟨S512, .f32⟩ : BufTy).Contents (Elt Ideal))
    (x12 x13 : (⟨S16384x4, .f32⟩ : BufTy).Contents (Elt Ideal)) (x14 x15 : (⟨S512, .f32⟩ : BufTy).Contents (Elt Ideal))
    (x16 : (⟨S256x512, .f32⟩ : BufTy).Contents (Elt Ideal)) (x17 : (⟨S256, .f32⟩ : BufTy).Contents (Elt Ideal))
    (x20 : (⟨S256x512, .f32⟩ : BufTy).Contents (Elt Ideal)) (x21 : (⟨S256, .f32⟩ : BufTy).Contents (Elt Ideal))
    (x22 : (⟨S256x1028, .f32⟩ : BufTy).Contents (Elt Ideal)) (x23 : (⟨S256, .f32⟩ : BufTy).Contents (Elt Ideal))
    (x24 : (⟨S1x256, .f32⟩ : BufTy).Contents (Elt Ideal)) (x25 : (⟨S1, .f32⟩ : BufTy).Contents (Elt Ideal))
    (b : Fin 16384) (i : Fin 4) (h : Fin 512) :
    val_main_v128 (F := Ideal) x0 x1 x2 x3 x4 x5 x6 x7 x8 x9 x10 x11 x14 x15 (ix3 b i h)
      = Cert.Spec.hidden (Cert.Spec.params x4 x5 x6 x7 x8 x9 x10 x11 x14 x15 x16 x17 x20 x21 x22 x23 x24 x25)
          (Cert.Spec.row x0 x1 x2 x3 x12 x13 b) i h := by
  unfold val_main_v128
  match i with
  | ⟨0, _⟩ =>
    rw [concatenate_apply_piece (1 : Fin 3) _ _ (ix3 b (⟨0, by decide⟩ : Fin 4) h) 0 (by show (0 : Nat) < 4; decide) S16384x1x512
      (val_main_v124 (F := Ideal) x0 x4 x5 x14 x15) rfl rfl 0 rfl (ix3 b (0 : Fin 1) h)
      (fun c hc => by
        match c with
        | ⟨0, _⟩ => rfl
        | ⟨1, _⟩ => exact absurd rfl hc
        | ⟨2, _⟩ => rfl) rfl,
      val_main_v124_apply]
    have e : idx_main_v124 (ix3 b (0 : Fin 1) h) = ix2 b h :=
      funext fun a => Fin.ext (by match a with | ⟨0, _⟩ => rfl | ⟨1, _⟩ => rfl)
    rw [e, branch0]
    rfl
  | ⟨1, _⟩ =>
    rw [concatenate_apply_piece (1 : Fin 3) _ _ (ix3 b (⟨1, by decide⟩ : Fin 4) h) 1 (by show (1 : Nat) < 4; decide) S16384x1x512
      (val_main_v125 (F := Ideal) x1 x6 x7 x14 x15) rfl rfl 1 rfl (ix3 b (0 : Fin 1) h)
      (fun c hc => by
        match c with
        | ⟨0, _⟩ => rfl
        | ⟨1, _⟩ => exact absurd rfl hc
        | ⟨2, _⟩ => rfl) rfl,
      val_main_v125_apply]
    have e : idx_main_v125 (ix3 b (0 : Fin 1) h) = ix2 b h :=
      funext fun a => Fin.ext (by match a with | ⟨0, _⟩ => rfl | ⟨1, _⟩ => rfl)
    rw [e, branch1]
    rfl
  | ⟨2, _⟩ =>
    rw [concatenate_apply_piece (1 : Fin 3) _ _ (ix3 b (⟨2, by decide⟩ : Fin 4) h) 2 (by show (2 : Nat) < 4; decide) S16384x1x512
      (val_main_v126 (F := Ideal) x2 x8 x9 x14 x15) rfl rfl 2 rfl (ix3 b (0 : Fin 1) h)
      (fun c hc => by
        match c with
        | ⟨0, _⟩ => rfl
        | ⟨1, _⟩ => exact absurd rfl hc
        | ⟨2, _⟩ => rfl) rfl,
      val_main_v126_apply]
    have e : idx_main_v126 (ix3 b (0 : Fin 1) h) = ix2 b h :=
      funext fun a => Fin.ext (by match a with | ⟨0, _⟩ => rfl | ⟨1, _⟩ => rfl)
    rw [e, branch2]
    rfl
  | ⟨3, _⟩ =>
    rw [concatenate_apply_piece (1 : Fin 3) _ _ (ix3 b (⟨3, by decide⟩ : Fin 4) h) 3 (by show (3 : Nat) < 4; decide) S16384x1x512
      (val_main_v127 (F := Ideal) x3 x10 x11 x14 x15) rfl rfl 3 rfl (ix3 b (0 : Fin 1) h)
      (fun c hc => by
        match c with
        | ⟨0, _⟩ => rfl
        | ⟨1, _⟩ => exact absurd rfl hc
        | ⟨2, _⟩ => rfl) rfl,
      val_main_v127_apply]
    have e : idx_main_v127 (ix3 b (0 : Fin 1) h) = ix2 b h :=
      funext fun a => Fin.ext (by match a with | ⟨0, _⟩ => rfl | ⟨1, _⟩ => rfl)
    rw [e, branch3]
    rfl

end Cert.RefBranch

end
-- ==== Proof.RefHead.lean ====
/-
  The reference program's attention and head, read stage by stage: from the stacked hidden vectors of a row, every
  later buffer at an index is the specification's function of that row — the queries and values, the scores, their
  row maximum, the shifted exponentials and their sum, the softmax weights, the attended vectors, the joined
  vector, the wide layer, the last layer and the logistic function.
-/
import proofs.«156941_j27530740367911_2_alg».proof.Proof.RefReadP
import proofs.«156941_j27530740367911_2_alg».proof.Proof.Spec
import proofs.«156941_j27530740367911_2_alg».proof.Proof.Laws
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.RefHead

open Cert.ReferenceIdeal Cert.ReferenceIdeal.Gen Cert.ReferenceIdeal.Read Idealize.ShloMosaic Idealize.ShloMosaic.ValueIdx

section Stages

variable (x0 : (⟨S16384x1024, .f32⟩ : BufTy).Contents (Elt Ideal)) (x1 : (⟨S16384x768, .f32⟩ : BufTy).Contents (Elt Ideal))
  (x2 : (⟨S16384x512, .f32⟩ : BufTy).Contents (Elt Ideal)) (x3 : (⟨S16384x640, .f32⟩ : BufTy).Contents (Elt Ideal))
  (x4 : (⟨S512x1024, .f32⟩ : BufTy).Contents (Elt Ideal)) (x5 : (⟨S512, .f32⟩ : BufTy).Contents (Elt Ideal))
  (x6 : (⟨S512x768, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S512x640, .f32⟩ : BufTy).Contents (Elt Ideal)) (x11 : (⟨S512, .f32⟩ : BufTy).Contents (Elt Ideal))
  (x12 x13 : (⟨S16384x4, .f32⟩ : BufTy).Contents (Elt Ideal)) (x14 x15 : (⟨S512, .f32⟩ : BufTy).Contents (Elt Ideal))
  (x16 : (⟨S256x512, .f32⟩ : BufTy).Contents (Elt Ideal)) (x17 : (⟨S256, .f32⟩ : BufTy).Contents (Elt Ideal))
  (x20 : (⟨S256x512, .f32⟩ : BufTy).Contents (Elt Ideal)) (x21 : (⟨S256, .f32⟩ : BufTy).Contents (Elt Ideal))
  (x22 : (⟨S256x1028, .f32⟩ : BufTy).Contents (Elt Ideal)) (x23 : (⟨S256, .f32⟩ : BufTy).Contents (Elt Ideal))
  (x24 : (⟨S1x256, .f32⟩ : BufTy).Contents (Elt Ideal)) (x25 : (⟨S1, .f32⟩ : BufTy).Contents (Elt Ideal))

set_option quotPrecheck false

-- The weights and a row of the inputs, read off the arguments; the program's buffers at those arguments.
local notation "PP" => Cert.Spec.params x4 x5 x6 x7 x8 x9 x10 x11 x14 x15 x16 x17 x20 x21 x22 x23 x24 x25
local notation "RR" => Cert.Spec.row x0 x1 x2 x3 x12 x13
local notation "V128" => val_main_v128 (F := Ideal) x0 x1 x2 x3 x4 x5 x6 x7 x8 x9 x10 x11 x14 x15
local notation "V132" => val_main_v132 (F := Ideal) x0 x1 x2 x3 x4 x5 x6 x7 x8 x9 x10 x11 x14 x15 x16 x17
local notation "V136" => val_main_v136 (F := Ideal) x0 x1 x2 x3 x4 x5 x6 x7 x8 x9 x10 x11 x14 x15 x20 x21
local notation "V145" => val_main_v145 (F := Ideal) x0 x1 x2 x3 x4 x5 x6 x7 x8 x9 x10 x11 x13 x14 x15 x16 x17
local notation "V148" => val_main_v148 (F := Ideal) x0 x1 x2 x3 x4 x5 x6 x7 x8 x9 x10 x11 x13 x14 x15 x16 x17
local notation "V152" => val_main_v152 (F := Ideal) x0 x1 x2 x3 x4 x5 x6 x7 x8 x9 x10 x11 x13 x14 x15 x16 x17
local notation "V153" => val_main_v153 (F := Ideal) x0 x1 x2 x3 x4 x5 x6 x7 x8 x9 x10 x11 x13 x14 x15 x16 x17
local notation "V156" => val_main_v156 (F := Ideal) x0 x1 x2 x3 x4 x5 x6 x7 x8 x9 x10 x11 x13 x14 x15 x16 x17
local notation "V157" => val_main_v157 (F := Ideal) x0 x1 x2 x3 x4 x5 x6 x7 x8 x9 x10 x11 x13 x14 x15 x16 x17 x20 x21
local notation "V158" => val_main_v158 (F := Ideal) x0 x1 x2 x3 x4 x5 x6 x7 x8 x9 x10 x11 x13 x14 x15 x16 x17 x20 x21
local notation "V159" => val_main_v159 (F := Ideal) x0 x1 x2 x3 x4 x5 x6 x7 x8 x9 x10 x11 x12 x13 x14 x15 x16 x17 x20 x21
local notation "V164" => val_main_v164 (F := Ideal) x0 x1 x2 x3 x4 x5 x6 x7 x8 x9 x10 x11 x12 x13 x14 x15 x16 x17 x20 x21 x22 x23
local notation "V169" => val_main_v169 (F := Ideal) x0 x1 x2 x3 x4 x5 x6 x7 x8 x9 x10 x11 x12 x13 x14 x15 x16 x17 x20 x21 x22 x23 x24 x25
local notation "V175" => val_main_v175 (F := Ideal) x0 x1 x2 x3 x4 x5 x6 x7 x8 x9 x10 x11 x12 x13 x14 x15 x16 x17 x20 x21 x22 x23 x24 x25
-- The hypothesis on the stacked hidden array: at (b, i, h) it is the row's normalised hidden vector i at unit h.
local notation "HH" => ∀ (b : Fin 16384) (i : Fin 4) (h : Fin 512), V128 (ix3 b i h) = Cert.Spec.hidden PP (RR b) i h

/-! ## The queries and the values -/

/-- The queries: the hidden vector of head `i` times the transposed query weights, plus the bias. -/
theorem query_eq (hH : HH) (b : Fin 16384) (i : Fin 4) (t : Fin 256) :
    V132 (ix3 b i t) = Cert.Spec.query PP (RR b) i t := by
  rw [val_main_v132_apply, val_main_v129_apply, val_main_v131_apply, val_main_v130_apply]
  have e1 : ∀ k : Fin 512, lidx_main_v129 (ix3 b i t) k = ix3 b i k := fun k =>
    funext fun a => Fin.ext (by match a with | ⟨0, _⟩ => rfl | ⟨1, _⟩ => rfl | ⟨2, _⟩ => rfl)
  have e2 : ∀ k : Fin 512, ridx_main_v129 (ix3 b i t) k = ix2 t k := fun k =>
    funext fun a => Fin.ext (by match a with | ⟨0, _⟩ => rfl | ⟨1, _⟩ => rfl)
  have e3 : idx_main_v130 (idx_main_v131 (ix3 b i t)) = ix1 t :=
    funext fun a => Fin.ext (by match a with | ⟨0, _⟩ => rfl)
  rw [e3]
  show (∑ k : Fin 512, V128 (lidx_main_v129 (ix3 b i t) k) * x16 (ridx_main_v129 (ix3 b i t) k)) + x17 (ix1 t)
    = (∑ k : Fin 512, Cert.Spec.hidden PP (RR b) i k * x16 (ix2 t k)) + x17 (ix1 t)
  refine congrArg (· + x17 (ix1 t)) (Finset.sum_congr rfl fun k _ => ?_)
  rw [e1 k, e2 k, hH]

/-- The values: the same with the value weights. -/
theorem value_eq (hH : HH) (b : Fin 16384) (i : Fin 4) (t : Fin 256) :
    V136 (ix3 b i t) = Cert.Spec.value PP (RR b) i t := by
  rw [val_main_v136_apply, val_main_v133_apply, val_main_v135_apply, val_main_v134_apply]
  have e1 : ∀ k : Fin 512, lidx_main_v133 (ix3 b i t) k = ix3 b i k := fun k =>
    funext fun a => Fin.ext (by match a with | ⟨0, _⟩ => rfl | ⟨1, _⟩ => rfl | ⟨2, _⟩ => rfl)
  have e2 : ∀ k : Fin 512, ridx_main_v133 (ix3 b i t) k = ix2 t k := fun k =>
    funext fun a => Fin.ext (by match a with | ⟨0, _⟩ => rfl | ⟨1, _⟩ => rfl)
  have e3 : idx_main_v134 (idx_main_v135 (ix3 b i t)) = ix1 t :=
    funext fun a => Fin.ext (by match a with | ⟨0, _⟩ => rfl)
  rw [e3]
  show (∑ k : Fin 512, V128 (lidx_main_v133 (ix3 b i t) k) * x20 (ridx_main_v133 (ix3 b i t) k)) + x21 (ix1 t)
    = (∑ k : Fin 512, Cert.Spec.hidden PP (RR b) i k * x20 (ix2 t k)) + x21 (ix1 t)
  refine congrArg (· + x21 (ix1 t)) (Finset.sum_congr rfl fun k _ => ?_)
  rw [e1 k, e2 k, hH]

/-! ## The scores -/

/-- The score of head `i` against head `j`: the two queries' product less a tenth of the two predicted variances. -/
theorem score_eq (hH : HH) (b : Fin 16384) (i j : Fin 4) :
    V145 (ix3 b i j) = Cert.Spec.score (Cert.Spec.query PP (RR b)) (RR b).pv i j := by
  rw [val_main_v145_apply, val_main_v137_apply, val_main_v144_apply, val_main_v143_apply, val_main_cst_19_apply,
    val_main_v142_apply, val_main_v140_apply, val_main_v138_apply, val_main_v141_apply, val_main_v139_apply]
  have e1 : ∀ k : Fin 256, lidx_main_v137 (ix3 b i j) k = ix3 b i k := fun k =>
    funext fun a => Fin.ext (by match a with | ⟨0, _⟩ => rfl | ⟨1, _⟩ => rfl | ⟨2, _⟩ => rfl)
  have e2 : ∀ k : Fin 256, ridx_main_v137 (ix3 b i j) k = ix3 b j k := fun k =>
    funext fun a => Fin.ext (by match a with | ⟨0, _⟩ => rfl | ⟨1, _⟩ => rfl | ⟨2, _⟩ => rfl)
  have e3 : idx_main_v138 (idx_main_v140 (ix3 b i j)) = ix2 b j :=
    funext fun a => Fin.ext (by match a with | ⟨0, _⟩ => rfl | ⟨1, _⟩ => rfl)
  have e4 : idx_main_v139 (idx_main_v141 (ix3 b i j)) = ix2 b i :=
    funext fun a => Fin.ext (by match a with | ⟨0, _⟩ => rfl | ⟨1, _⟩ => rfl)
  rw [e3, e4]
  show (∑ k : Fin 256, V132 (lidx_main_v137 (ix3 b i j) k) * V132 (ridx_main_v137 (ix3 b i j) k))
      - Cert.Spec.cTenth * (x13 (ix2 b j) + x13 (ix2 b i))
    = (∑ k : Fin 256, Cert.Spec.query PP (RR b) i k * Cert.Spec.query PP (RR b) j k)
      - Cert.Spec.cTenth * (x13 (ix2 b j) + x13 (ix2 b i))
  refine congrArg (· - Cert.Spec.cTenth * (x13 (ix2 b j) + x13 (ix2 b i))) (Finset.sum_congr rfl fun k _ => ?_)
  rw [e1 k, e2 k, query_eq x0 x1 x2 x3 x4 x5 x6 x7 x8 x9 x10 x11 x12 x13 x14 x15 x16 x17 x20 x21 x22 x23 x24 x25 hH,
    query_eq x0 x1 x2 x3 x4 x5 x6 x7 x8 x9 x10 x11 x12 x13 x14 x15 x16 x17 x20 x21 x22 x23 x24 x25 hH]

/-! ## The softmax over the four heads -/

-- The row of scores of head `i` of row `b`.
local notation "SC(" b ", " i ")" => Cert.Spec.score (Cert.Spec.query PP (RR b)) (RR b).pv i

/-- The row maximum: the fold of the maximum over the four scores from minus infinity, joined with minus infinity. -/
theorem max_eq (hH : HH) (b : Fin 16384) (i : Fin 4) :
    V148 (ix2 b i) = Cert.Spec.max4 SC(b, i) := by
  have h : S16384x4x4.Reduces [2] S16384x4 := by decide
  have key := Host.reduce_eq_fold_single (FloatOps.maximumf (F := Ideal) (φ := .f32)) V145 (val_main_cst_20 (F := Ideal))
    reducesTo_S16384x4x4_S16384x4_d2 h h_S_ (ix2 b i)
  have hs : (V145 ∘ h.lift (ix2 b i)) = fun j : Fin 4 => SC(b, i) j := funext fun j => by
    show V145 (h.lift (ix2 b i) j) = _
    rw [show h.lift (ix2 b i) j = ix3 b i j from
      funext fun a => Fin.ext (by match a with | ⟨0, _⟩ => rfl | ⟨1, _⟩ => rfl | ⟨2, _⟩ => rfl)]
    exact score_eq x0 x1 x2 x3 x4 x5 x6 x7 x8 x9 x10 x11 x12 x13 x14 x15 x16 x17 x20 x21 x22 x23 x24 x25 hH b i j
  rw [hs, val_main_cst_20_apply] at key
  rw [val_main_v148_apply, val_main_v147_apply, val_main_cst_21_apply]
  unfold val_main_v146
  rw [key]
  exact Cert.Laws.max4_eq_fold SC(b, i)

/-- The shifted exponentials. -/
theorem exp_eq (hH : HH) (b : Fin 16384) (i j : Fin 4) :
    V152 (ix3 b i j) = Cert.Spec.expShift SC(b, i) j := by
  rw [val_main_v152_apply, val_main_v151_apply, val_main_v150_apply, val_main_v149_apply]
  have e1 : idx_main_v149 (idx_main_v150 (ix3 b i j)) = ix2 b i :=
    funext fun a => Fin.ext (by match a with | ⟨0, _⟩ => rfl | ⟨1, _⟩ => rfl)
  rw [e1, score_eq x0 x1 x2 x3 x4 x5 x6 x7 x8 x9 x10 x11 x12 x13 x14 x15 x16 x17 x20 x21 x22 x23 x24 x25 hH, max_eq x0 x1 x2 x3 x4 x5 x6 x7 x8 x9 x10 x11 x12 x13 x14 x15 x16 x17 x20 x21 x22 x23 x24 x25 hH]
  rfl

/-- Their sum: zero plus the sum over the four heads. -/
theorem sum_eq (hH : HH) (b : Fin 16384) (i : Fin 4) :
    V153 (ix2 b i) = Cert.Spec.sum4 (Cert.Spec.expShift SC(b, i)) := by
  rw [val_main_v153_apply, val_main_cst_22_apply]
  have e1 : ∀ k : Fin 4, idx_main_v153 (ix2 b i) k = ix3 b i k := fun k =>
    funext fun a => Fin.ext (by match a with | ⟨0, _⟩ => rfl | ⟨1, _⟩ => rfl | ⟨2, _⟩ => rfl)
  have e2 : (∑ k : Fin 4, V152 (idx_main_v153 (ix2 b i) k)) = ∑ k : Fin 4, Cert.Spec.expShift SC(b, i) k :=
    Finset.sum_congr rfl fun k _ => by rw [e1 k, exp_eq x0 x1 x2 x3 x4 x5 x6 x7 x8 x9 x10 x11 x12 x13 x14 x15 x16 x17 x20 x21 x22 x23 x24 x25 hH]
  rw [e2]
  exact Cert.Laws.sum4_eq_sum (Cert.Spec.expShift SC(b, i))

/-- The softmax weight: the exponential over the sum, which with real scores is the exponential times the
    reciprocal of the sum. -/
theorem weight_eq (hH : HH) (hP : Cert.Laws.ParamsReal PP) (hr : ∀ b, Cert.Laws.RowReal (RR b))
    (b : Fin 16384) (i j : Fin 4) :
    V156 (ix3 b i j) = Cert.Spec.weight SC(b, i) j := by
  rw [val_main_v156_apply, val_main_v155_apply, val_main_v154_apply]
  have e1 : idx_main_v154 (idx_main_v155 (ix3 b i j)) = ix2 b i :=
    funext fun a => Fin.ext (by match a with | ⟨0, _⟩ => rfl | ⟨1, _⟩ => rfl)
  rw [e1, exp_eq x0 x1 x2 x3 x4 x5 x6 x7 x8 x9 x10 x11 x12 x13 x14 x15 x16 x17 x20 x21 x22 x23 x24 x25 hH, sum_eq x0 x1 x2 x3 x4 x5 x6 x7 x8 x9 x10 x11 x12 x13 x14 x15 x16 x17 x20 x21 x22 x23 x24 x25 hH]
  exact Cert.Laws.weight_eq_div SC(b, i) (Cert.Laws.score_real PP (RR b) hP (hr b) i) j

/-! ## The attended vectors -/

/-- The attended vector of head `i`: the four values weighted by the softmax weights. -/
theorem attended_eq (hH : HH) (hP : Cert.Laws.ParamsReal PP) (hr : ∀ b, Cert.Laws.RowReal (RR b))
    (b : Fin 16384) (i : Fin 4) (o : Fin 256) :
    V157 (ix3 b i o) = Cert.Spec.attended PP (RR b) i o := by
  rw [val_main_v157_apply]
  have e1 : ∀ k : Fin 4, lidx_main_v157 (ix3 b i o) k = ix3 b i k := fun k =>
    funext fun a => Fin.ext (by match a with | ⟨0, _⟩ => rfl | ⟨1, _⟩ => rfl | ⟨2, _⟩ => rfl)
  have e2 : ∀ k : Fin 4, ridx_main_v157 (ix3 b i o) k = ix3 b k o := fun k =>
    funext fun a => Fin.ext (by match a with | ⟨0, _⟩ => rfl | ⟨1, _⟩ => rfl | ⟨2, _⟩ => rfl)
  have e3 : (∑ k : Fin 4, V156 (lidx_main_v157 (ix3 b i o) k) * V136 (ridx_main_v157 (ix3 b i o) k))
      = ∑ k : Fin 4, Cert.Spec.weight SC(b, i) k * Cert.Spec.value PP (RR b) k o :=
    Finset.sum_congr rfl fun k _ => by
      rw [e1 k, e2 k, weight_eq x0 x1 x2 x3 x4 x5 x6 x7 x8 x9 x10 x11 x12 x13 x14 x15 x16 x17 x20 x21 x22 x23 x24 x25 hH hP hr, value_eq x0 x1 x2 x3 x4 x5 x6 x7 x8 x9 x10 x11 x12 x13 x14 x15 x16 x17 x20 x21 x22 x23 x24 x25 hH]
  rw [e3]
  exact Cert.Laws.attend_eq_sum (Cert.Spec.weight SC(b, i)) (Cert.Spec.value PP (RR b)) o

/-! ## The joined vector -/

/-- Position `256 i + t` of the joined vector of a row is the attended vector of head `i` at `t`. -/
theorem cat_left (hH : HH) (hP : Cert.Laws.ParamsReal PP) (hr : ∀ b, Cert.Laws.RowReal (RR b))
    (b : Fin 16384) (i : Fin 4) (t : Fin 256) :
    V159 (ix2 b (⟨256 * i.val + t.val, by have := i.isLt; have := t.isLt; omega⟩ : Fin 1028))
      = Cert.Spec.attended PP (RR b) i t := by
  have hi := i.isLt
  have ht := t.isLt
  unfold val_main_v159
  refine (concatenate_pair_apply_left (1 : Fin S16384x1028.rank) V158 x12
    concatenates_S16384x1024_S16384x4_S16384x1028_d1 (ix2 b (⟨256 * i.val + t.val, by omega⟩ : Fin 1028)) rfl
    (ix2 b (⟨256 * i.val + t.val, by omega⟩ : Fin 1024))
    (fun b' => by match b' with | ⟨0, _⟩ => rfl | ⟨1, _⟩ => rfl)).trans ?_
  rw [val_main_v158_apply]
  have e1 : idx_main_v158 (ix2 b (⟨256 * i.val + t.val, by omega⟩ : Fin 1024)) = ix3 b i t :=
    funext fun a => Fin.ext (by
      match a with
      | ⟨0, _⟩ => show (b.val * 1024 + (256 * i.val + t.val)) / 1024 = b.val; omega
      | ⟨1, _⟩ => show (b.val * 1024 + (256 * i.val + t.val)) / 256 % 4 = i.val; omega
      | ⟨2, _⟩ => show (b.val * 1024 + (256 * i.val + t.val)) % 256 = t.val; omega)
  rw [e1]
  exact attended_eq x0 x1 x2 x3 x4 x5 x6 x7 x8 x9 x10 x11 x12 x13 x14 x15 x16 x17 x20 x21 x22 x23 x24 x25 hH hP hr b i t

/-- Position `1024 + j` of the joined vector of a row is the predicted score `j`. -/
theorem cat_right (b : Fin 16384) (j : Fin 4) :
    V159 (ix2 b (⟨1024 + j.val, by have := j.isLt; omega⟩ : Fin 1028)) = (RR b).ps j := by
  unfold val_main_v159
  exact concatenate_pair_apply_right (1 : Fin S16384x1028.rank) V158 x12
    concatenates_S16384x1024_S16384x4_S16384x1028_d1 (ix2 b (⟨1024 + j.val, by have := j.isLt; omega⟩ : Fin 1028)) rfl rfl
    (ix2 b j)
    (fun b' hb => by match b', hb with | ⟨0, _⟩, _ => rfl | ⟨1, _⟩, hb => exact absurd rfl hb)
    (by show j.val + 1024 = 1024 + j.val; omega)

/-! ## The wide layer, the last layer and the logistic function -/

/-- The wide layer at output unit `o`. -/
theorem wide_eq (hH : HH) (hP : Cert.Laws.ParamsReal PP) (hr : ∀ b, Cert.Laws.RowReal (RR b))
    (b : Fin 16384) (o : Fin 256) :
    V164 (ix2 b o)
      = Cert.Spec.wide (Cert.Spec.attended PP (RR b)) (RR b).ps (PP).wc (PP).wp (PP).bw o := by
  rw [val_main_v164_apply, val_main_v161_apply, val_main_v163_apply, val_main_v162_apply]
  have e1 : ∀ k : Fin 1028, lidx_main_v161 (ix2 b o) k = ix2 b k := fun k =>
    funext fun a => Fin.ext (by match a with | ⟨0, _⟩ => rfl | ⟨1, _⟩ => rfl)
  have e2 : ∀ k : Fin 1028, idx_main_v160 (ridx_main_v161 (ix2 b o) k) = ix2 o k := fun k =>
    funext fun a => Fin.ext (by match a with | ⟨0, _⟩ => rfl | ⟨1, _⟩ => rfl)
  have e3 : idx_main_v162 (idx_main_v163 (ix2 b o)) = ix1 o :=
    funext fun a => Fin.ext (by match a with | ⟨0, _⟩ => rfl)
  have e4 : (∑ k : Fin 1028, V159 (lidx_main_v161 (ix2 b o) k)
        * val_main_v160 (F := Ideal) x22 (ridx_main_v161 (ix2 b o) k))
      = ∑ k : Fin 1028, V159 (ix2 b k) * x22 (ix2 o k) :=
    Finset.sum_congr rfl fun k _ => by rw [e1 k, val_main_v160_apply, e2 k]
  rw [e3, e4]
  exact Cert.Laws.wide_eq_sum (Cert.Spec.attended PP (RR b)) (RR b).ps (fun c : Fin 1028 => V159 (ix2 b c))
    (fun (c : Fin 1028) (o : Fin 256) => x22 (ix2 o c)) (fun o : Fin 256 => x23 (ix1 o)) o
    (fun i t => cat_left x0 x1 x2 x3 x4 x5 x6 x7 x8 x9 x10 x11 x12 x13 x14 x15 x16 x17 x20 x21 x22 x23 x24 x25 hH hP hr b i t)
    (fun j => cat_right x0 x1 x2 x3 x4 x5 x6 x7 x8 x9 x10 x11 x12 x13 x14 x15 x16 x17 x20 x21 b j)

/-- The last layer of a row. -/
theorem last_eq (hH : HH) (hP : Cert.Laws.ParamsReal PP) (hr : ∀ b, Cert.Laws.RowReal (RR b)) (b : Fin 16384) :
    V169 (ix2 b (0 : Fin 1))
      = (∑ o : Fin 256, Cert.Spec.wide (Cert.Spec.attended PP (RR b)) (RR b).ps (PP).wc (PP).wp (PP).bw o * (PP).wf o)
        + (PP).bf := by
  rw [val_main_v169_apply, val_main_v166_apply, val_main_v168_apply, val_main_v167_apply]
  have e1 : ∀ k : Fin 256, lidx_main_v166 (ix2 b (0 : Fin 1)) k = ix2 b k := fun k =>
    funext fun a => Fin.ext (by match a with | ⟨0, _⟩ => rfl | ⟨1, _⟩ => rfl)
  have e2 : ∀ k : Fin 256, idx_main_v165 (ridx_main_v166 (ix2 b (0 : Fin 1)) k) = ix2 (0 : Fin 1) k := fun k =>
    funext fun a => Fin.ext (by match a with | ⟨0, _⟩ => rfl | ⟨1, _⟩ => rfl)
  have e3 : idx_main_v167 (idx_main_v168 (ix2 b (0 : Fin 1))) = ix1 (0 : Fin 1) :=
    funext fun a => Fin.ext (by match a with | ⟨0, _⟩ => rfl)
  rw [e3]
  show (∑ k : Fin 256, V164 (lidx_main_v166 (ix2 b (0 : Fin 1)) k)
        * val_main_v165 (F := Ideal) x24 (ridx_main_v166 (ix2 b (0 : Fin 1)) k)) + x25 (ix1 (0 : Fin 1))
    = (∑ o : Fin 256, Cert.Spec.wide (Cert.Spec.attended PP (RR b)) (RR b).ps (PP).wc (PP).wp (PP).bw o
        * x24 (ix2 (0 : Fin 1) o)) + x25 (ix1 (0 : Fin 1))
  refine congrArg (· + x25 (ix1 (0 : Fin 1))) (Finset.sum_congr rfl fun k _ => ?_)
  rw [e1 k, val_main_v165_apply, e2 k, wide_eq x0 x1 x2 x3 x4 x5 x6 x7 x8 x9 x10 x11 x12 x13 x14 x15 x16 x17 x20 x21 x22 x23 x24 x25 hH hP hr]

/-- The result at an index: the logistic function of the last layer of its row. -/
theorem out_eq (hH : HH) (hP : Cert.Laws.ParamsReal PP) (hr : ∀ b, Cert.Laws.RowReal (RR b)) (i : S16384x1.Idx) :
    V175 i = Cert.Spec.G x0 x1 x2 x3 x4 x5 x6 x7 x8 x9 x10 x11 x12 x13 x14 x15 x16 x17 x20 x21 x22 x23 x24 x25 i := by
  obtain ⟨b, rfl⟩ : ∃ b : Fin 16384, i = ix2 b (0 : Fin 1) :=
    ⟨i 0, (eq_ix2 i).trans (congrArg (ix2 (i 0)) (show i 1 = (0 : Fin 1) from Subsingleton.elim (α := Fin 1) _ _))⟩
  rw [val_main_v175_apply, val_main_v174_apply, val_main_cst_24_apply, val_main_v173_apply, val_main_v172_apply,
    val_main_cst_23_apply, val_main_v171_apply, val_main_v170_apply, last_eq x0 x1 x2 x3 x4 x5 x6 x7 x8 x9 x10 x11 x12 x13 x14 x15 x16 x17 x20 x21 x22 x23 x24 x25 hH hP hr b]
  exact Cert.Laws.logistic_eq _

end Stages

/-- The reference program's result is the specification's, given that its stacked hidden array is the
    specification's hidden vectors, that the weights are real numbers and that every row of inputs is. -/
theorem result_eq
    (x0 : (⟨S16384x1024, .f32⟩ : BufTy).Contents (Elt Ideal)) (x1 : (⟨S16384x768, .f32⟩ : BufTy).Contents (Elt Ideal))
    (x2 : (⟨S16384x512, .f32⟩ : BufTy).Contents (Elt Ideal)) (x3 : (⟨S16384x640, .f32⟩ : BufTy).Contents (Elt Ideal))
    (x4 : (⟨S512x1024, .f32⟩ : BufTy).Contents (Elt Ideal)) (x5 : (⟨S512, .f32⟩ : BufTy).Contents (Elt Ideal))
    (x6 : (⟨S512x768, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (x10 : (⟨S512x640, .f32⟩ : BufTy).Contents (Elt Ideal)) (x11 : (⟨S512, .f32⟩ : BufTy).Contents (Elt Ideal))
    (x12 x13 : (⟨S16384x4, .f32⟩ : BufTy).Contents (Elt Ideal)) (x14 x15 : (⟨S512, .f32⟩ : BufTy).Contents (Elt Ideal))
    (x16 : (⟨S256x512, .f32⟩ : BufTy).Contents (Elt Ideal)) (x17 : (⟨S256, .f32⟩ : BufTy).Contents (Elt Ideal))
    (x20 : (⟨S256x512, .f32⟩ : BufTy).Contents (Elt Ideal)) (x21 : (⟨S256, .f32⟩ : BufTy).Contents (Elt Ideal))
    (x22 : (⟨S256x1028, .f32⟩ : BufTy).Contents (Elt Ideal)) (x23 : (⟨S256, .f32⟩ : BufTy).Contents (Elt Ideal))
    (x24 : (⟨S1x256, .f32⟩ : BufTy).Contents (Elt Ideal)) (x25 : (⟨S1, .f32⟩ : BufTy).Contents (Elt Ideal))
    (hH : ∀ (b : Fin 16384) (i : Fin 4) (h : Fin 512),
      Cert.ReferenceIdeal.Read.val_main_v128 (F := Ideal) x0 x1 x2 x3 x4 x5 x6 x7 x8 x9 x10 x11 x14 x15 (ValueIdx.ix3 b i h)
        = Cert.Spec.hidden (Cert.Spec.params x4 x5 x6 x7 x8 x9 x10 x11 x14 x15 x16 x17 x20 x21 x22 x23 x24 x25)
            (Cert.Spec.row x0 x1 x2 x3 x12 x13 b) i h)
    (hP : Cert.Laws.ParamsReal (Cert.Spec.params x4 x5 x6 x7 x8 x9 x10 x11 x14 x15 x16 x17 x20 x21 x22 x23 x24 x25))
    (hr : ∀ b, Cert.Laws.RowReal (Cert.Spec.row x0 x1 x2 x3 x12 x13 b))
    (i : S16384x1.Idx) :
    Cert.ReferenceIdeal.Read.val_main_v175 (F := Ideal) x0 x1 x2 x3 x4 x5 x6 x7 x8 x9 x10 x11 x12 x13 x14 x15 x16 x17 x20 x21
        x22 x23 x24 x25 i
      = Cert.Spec.G x0 x1 x2 x3 x4 x5 x6 x7 x8 x9 x10 x11 x12 x13 x14 x15 x16 x17 x20 x21 x22 x23 x24 x25 i :=
  out_eq x0 x1 x2 x3 x4 x5 x6 x7 x8 x9 x10 x11 x12 x13 x14 x15 x16 x17 x20 x21 x22 x23 x24 x25 hH hP hr i

end Cert.RefHead

end
-- ==== Proof.KDefs.lean ====
/-
  The blocked program's arithmetic as vector-level functions over a block of 512 rows, generic in the width of the
  feature block: a bias row and a lane sum kept as a column; a dense layer with two rectifiers; the mean, the centred
  array and the normalised array of a [512, 512] block; a projection; a score column; the softmax-weighted sum of four
  value blocks; the wide layer and the last layer. Each is the operations the program applies, in its order, so that
  the program's own terms are these functions by unfolding; their readings at an index are in the companion module.
-/
import Idealize.ShloMosaic.PureOps.Ideal
import Idealize.ShloMosaic.PureOps.Ideal.Laws
import Idealize.ShloMosaic.Lib.ValueIdx

noncomputable section

namespace Cert.KDefs

open Idealize.ShloMosaic Idealize.ShloMosaic.ValueIdx

abbrev Sh2 (n d : ℕ) : Shape := ⟨2, ![n, d]⟩
abbrev Sh1 (d : ℕ) : Shape := ⟨1, ![d]⟩

/-- A vector `b : [d]` as a row `[1, d]`, repeated down `n` rows. -/
def rowV {n d : ℕ} (b : FVec Ideal (Sh1 d) .f32) (h1 : (Sh1 d).ShapeCasts (Sh2 1 d)) (h2 : (Sh2 1 d).Broadcasts (Sh2 n d)) :
    FVec Ideal (Sh2 n d) .f32 :=
  broadcastTo (Sh2 n d) (shapeCast (Sh2 1 d) b h1) h2

/-- The sum along each row, kept as a column. -/
def colsumV {n d : ℕ} (v : FVec Ideal (Sh2 n d) .f32) (hr : (Sh2 n d).Reduces [1] (Sh1 n)) (hc : (Sh1 n).ShapeCasts (Sh2 n 1)) :
    FVec Ideal (Sh2 n 1) .f32 :=
  shapeCast (Sh2 n 1) (multiReduction .add [1] (Sh1 n) v 0x00000000#32 hr (.inl rfl) rfl) hc

/-- A dense layer of a [512, K] block with the bias row, then two rectifiers. -/
def hV {K : ℕ} (x : FVec Ideal (Sh2 512 K) .f32) (w : FVec Ideal (Sh2 K 512) .bf16) (bi : FVec Ideal (Sh1 512) .f32)
    (hlt : FTy.bf16.bits < FTy.f32.bits) (hw : (Sh2 K 512).ShapeCasts (Sh2 K 512))
    (h1 : (Sh1 512).ShapeCasts (Sh2 1 512)) (h2 : (Sh2 1 512).Broadcasts (Sh2 512 512)) : FVec Ideal (Sh2 512 512) .f32 :=
  maximumf (maximumf (addf (matmul (DotDims.plain 512 K 512) none (truncf .bf16 x hlt) (shapeCast (Sh2 K 512) w hw)
      (constant (Sh2 512 512) .f32 0x00000000#32)) (rowV bi h1 h2))
    (broadcast (Sh2 512 512) (Scalar.ofBits .f32 0x00000000#32))) (broadcast (Sh2 512 512) (Scalar.ofBits .f32 0x00000000#32))

/-- The mean of each row of a [512, 512] block, as a column. -/
def meanV (h : FVec Ideal (Sh2 512 512) .f32) (hr : (Sh2 512 512).Reduces [1] (Sh1 512)) (hc : (Sh1 512).ShapeCasts (Sh2 512 1)) :
    FVec Ideal (Sh2 512 1) .f32 :=
  divf (colsumV h hr hc) (broadcast (Sh2 512 1) (Scalar.ofBits .f32 0x44000000#32))

/-- Each row minus its mean. -/
def centV (h : FVec Ideal (Sh2 512 512) .f32) (hr : (Sh2 512 512).Reduces [1] (Sh1 512)) (hc : (Sh1 512).ShapeCasts (Sh2 512 1))
    (hb : (Sh2 512 1).Broadcasts (Sh2 512 512)) : FVec Ideal (Sh2 512 512) .f32 :=
  subf h (broadcastTo (Sh2 512 512) (meanV h hr hc) hb)

/-- Each centred row times the reciprocal square root of its shifted variance. -/
def normV (h : FVec Ideal (Sh2 512 512) .f32) (hr : (Sh2 512 512).Reduces [1] (Sh1 512)) (hc : (Sh1 512).ShapeCasts (Sh2 512 1))
    (hb : (Sh2 512 1).Broadcasts (Sh2 512 512)) : FVec Ideal (Sh2 512 512) .f32 :=
  mulf (centV h hr hc hb) (broadcastTo (Sh2 512 512)
    (rsqrt (addf (meanV (mulf (centV h hr hc hb) (centV h hr hc hb)) hr hc)
      (broadcast (Sh2 512 1) (Scalar.ofBits .f32 0x3727C5AC#32)))) hb)

/-- A projection of the normalised block to 256 units, with its bias row. -/
def projV (hn : FVec Ideal (Sh2 512 512) .bf16) (w : FVec Ideal (Sh2 512 256) .bf16) (b : FVec Ideal (Sh1 256) .f32)
    (h1 : (Sh1 256).ShapeCasts (Sh2 1 256)) (h2 : (Sh2 1 256).Broadcasts (Sh2 512 256)) : FVec Ideal (Sh2 512 256) .f32 :=
  addf (matmul (DotDims.plain 512 512 256) none hn w (constant (Sh2 512 256) .f32 0x00000000#32)) (rowV b h1 h2)

/-- The score column of two query blocks: the row-wise inner product minus a tenth of the sum of two variance columns. -/
def scoreV (qi qj : FVec Ideal (Sh2 512 256) .f32) (pvj pvi : FVec Ideal (Sh2 512 1) .f32)
    (hr : (Sh2 512 256).Reduces [1] (Sh1 512)) (hc : (Sh1 512).ShapeCasts (Sh2 512 1)) : FVec Ideal (Sh2 512 1) .f32 :=
  subf (colsumV (mulf qi qj) hr hc) (mulf (broadcast (Sh2 512 1) (Scalar.ofBits .f32 0x3DCCCCCD#32)) (addf pvj pvi))

/-- The largest of four score columns. -/
def max4V (s0 s1 s2 s3 : FVec Ideal (Sh2 512 1) .f32) : FVec Ideal (Sh2 512 1) .f32 :=
  maximumf (maximumf (maximumf s0 s1) s2) s3

/-- The softmax of four score columns applied to four value blocks. -/
def attnV (s0 s1 s2 s3 : FVec Ideal (Sh2 512 1) .f32) (v0 v1 v2 v3 : FVec Ideal (Sh2 512 256) .f32)
    (hb : (Sh2 512 1).Broadcasts (Sh2 512 256)) : FVec Ideal (Sh2 512 256) .f32 :=
  addf (addf (addf
    (mulf (broadcastTo (Sh2 512 256) (mulf (exp (subf s0 (max4V s0 s1 s2 s3)))
      (divf (broadcast (Sh2 512 1) (Scalar.ofBits .f32 0x3F800000#32))
        (addf (addf (addf (exp (subf s0 (max4V s0 s1 s2 s3))) (exp (subf s1 (max4V s0 s1 s2 s3)))) (exp (subf s2 (max4V s0 s1 s2 s3)))) (exp (subf s3 (max4V s0 s1 s2 s3)))))) hb) v0)
    (mulf (broadcastTo (Sh2 512 256) (mulf (exp (subf s1 (max4V s0 s1 s2 s3)))
      (divf (broadcast (Sh2 512 1) (Scalar.ofBits .f32 0x3F800000#32))
        (addf (addf (addf (exp (subf s0 (max4V s0 s1 s2 s3))) (exp (subf s1 (max4V s0 s1 s2 s3)))) (exp (subf s2 (max4V s0 s1 s2 s3)))) (exp (subf s3 (max4V s0 s1 s2 s3)))))) hb) v1))
    (mulf (broadcastTo (Sh2 512 256) (mulf (exp (subf s2 (max4V s0 s1 s2 s3)))
      (divf (broadcast (Sh2 512 1) (Scalar.ofBits .f32 0x3F800000#32))
        (addf (addf (addf (exp (subf s0 (max4V s0 s1 s2 s3))) (exp (subf s1 (max4V s0 s1 s2 s3)))) (exp (subf s2 (max4V s0 s1 s2 s3)))) (exp (subf s3 (max4V s0 s1 s2 s3)))))) hb) v2))
    (mulf (broadcastTo (Sh2 512 256) (mulf (exp (subf s3 (max4V s0 s1 s2 s3)))
      (divf (broadcast (Sh2 512 1) (Scalar.ofBits .f32 0x3F800000#32))
        (addf (addf (addf (exp (subf s0 (max4V s0 s1 s2 s3))) (exp (subf s1 (max4V s0 s1 s2 s3)))) (exp (subf s2 (max4V s0 s1 s2 s3)))) (exp (subf s3 (max4V s0 s1 s2 s3)))))) hb) v3)

end Cert.KDefs

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.KOps.lean ====
/-
  The vector-level functions of the blocked program read at an index: each entry of a bias row, a lane sum, a broadcast
  column, the dense layer with its two rectifiers, the mean, the centred and the normalised block, a projection, a score
  column and the softmax-weighted sum of four value blocks is the corresponding per-row function of the specification
  applied to that row of the operands; and three readings of cuts and broadcasts of small arrays.
-/
import proofs.«156941_j27530740367911_2_alg».proof.Proof.KDefs
import proofs.«156941_j27530740367911_2_alg».proof.Proof.Spec
import proofs.«156941_j27530740367911_2_alg».proof.Proof.LibDense
import proofs.«156941_j27530740367911_2_alg».proof.Proof.LibLogSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KOps

open Idealize.ShloMosaic Idealize.ShloMosaic.ValueIdx Cert.KDefs

/-! ## A bias row, a lane sum, a broadcast column -/

/-- A bias row at entry (p, o) is the vector's entry o. -/
theorem rowV_apply {n d : ℕ} (b : FVec Ideal (Sh1 d) .f32) (h1 : (Sh1 d).ShapeCasts (Sh2 1 d))
    (h2 : (Sh2 1 d).Broadcasts (Sh2 n d)) (p : Fin n) (o : Fin d) : rowV b h1 h2 (ix2 p o) = b (ix1 o) :=
  LibDense.bias_row b h1 h2 (ix2 p o)

/-- The index a reduction along the second axis inserts: row p, column k. -/
theorem lift_axis1 {n d : ℕ} (hr : (Sh2 n d).Reduces [1] (Sh1 n)) (p : Fin n) (k : Fin d) :
    hr.lift (ix1 p) k = ix2 p k := by
  funext a
  apply Fin.ext
  match a with
  | ⟨0, _⟩ => rfl
  | ⟨1, _⟩ => rfl

/-- The lane sum kept as a column, at row p, is the sum of row p. -/
theorem colsumV_apply {n d : ℕ} (v : FVec Ideal (Sh2 n d) .f32) (hr : (Sh2 n d).Reduces [1] (Sh1 n))
    (hc : (Sh1 n).ShapeCasts (Sh2 n 1)) (p : Fin n) (z : Fin 1) :
    colsumV v hr hc (ix2 p z) = ∑ k : Fin d, v (ix2 p k) :=
  (LibLogSoftmax.col_cast _ hc (ix2 p z)).trans
    ((Ideal.multiReduction_add_single v _ hr (.inl rfl) rfl (ix1 p)).trans
      (Finset.sum_congr rfl fun k _ => congrArg v (lift_axis1 hr p k)))

/-- A column broadcast along the rows, at entry (p, o), is the column's entry p. -/
theorem colB_apply {n d : ℕ} (u : FVec Ideal (Sh2 n 1) .f32) (h : (Sh2 n 1).Broadcasts (Sh2 n d))
    (p : Fin n) (o : Fin d) (z : Fin 1) : broadcastTo (Sh2 n d) u h (ix2 p o) = u (ix2 p z) := by
  rw [Subsingleton.elim z ⟨0, Nat.one_pos⟩]
  exact LibLogSoftmax.col_bcast u h (ix2 p o)

/-! ## The dense layer with two rectifiers, the mean, the centred and the normalised block, a projection -/

/-- The dense layer with its two rectifiers at entry (p, o): the per-row dense layer of row p, rectified twice. -/
theorem hV_apply {K : ℕ} (x : FVec Ideal (Sh2 512 K) .f32) (w : FVec Ideal (Sh2 K 512) .bf16) (bi : FVec Ideal (Sh1 512) .f32)
    (hlt : FTy.bf16.bits < FTy.f32.bits) (hw : (Sh2 K 512).ShapeCasts (Sh2 K 512))
    (h1 : (Sh1 512).ShapeCasts (Sh2 1 512)) (h2 : (Sh2 1 512).Broadcasts (Sh2 512 512)) (p o : Fin 512) :
    hV x w bi hlt hw h1 h2 (ix2 p o)
      = Spec.relu2 (Spec.dense (fun k => x (ix2 p k)) (fun k o => w (ix2 k o)) (fun o => bi (ix1 o)) o) := by
  unfold hV
  rw [shapeCast_self]
  show max (max (FloatOps.matmul (DotDims.plain 512 K 512) none (truncf .bf16 x hlt) w
      (constant (F := Ideal) (Sh2 512 512) .f32 0x00000000#32) (ix2 p o) + rowV bi h1 h2 (ix2 p o)) Spec.cZero) Spec.cZero = _
  rw [LibDense.matmul_plain, rowV_apply]
  rfl

/-- The mean column at row p is the mean of row p. -/
theorem meanV_apply (h : FVec Ideal (Sh2 512 512) .f32) (hr : (Sh2 512 512).Reduces [1] (Sh1 512))
    (hc : (Sh1 512).ShapeCasts (Sh2 512 1)) (p : Fin 512) (z : Fin 1) :
    meanV h hr hc (ix2 p z) = Spec.mean512 (fun k => h (ix2 p k)) := by
  show Ideal.div (colsumV h hr hc (ix2 p z)) Spec.c512 = _
  rw [colsumV_apply]
  rfl

/-- The centred block at entry (p, o) is the centred row p at o. -/
theorem centV_apply (h : FVec Ideal (Sh2 512 512) .f32) (hr : (Sh2 512 512).Reduces [1] (Sh1 512))
    (hc : (Sh1 512).ShapeCasts (Sh2 512 1)) (hb : (Sh2 512 1).Broadcasts (Sh2 512 512)) (p o : Fin 512) :
    centV h hr hc hb (ix2 p o) = Spec.centred (fun k => h (ix2 p k)) o := by
  show h (ix2 p o) - broadcastTo (Sh2 512 512) (meanV h hr hc) hb (ix2 p o) = _
  rw [colB_apply _ hb p o 0, meanV_apply]
  rfl

/-- The normalised block at entry (p, o): the centred row p at o times the reciprocal square root of the row's shifted
    variance. -/
theorem normV_apply (h : FVec Ideal (Sh2 512 512) .f32) (hr : (Sh2 512 512).Reduces [1] (Sh1 512))
    (hc : (Sh1 512).ShapeCasts (Sh2 512 1)) (hb : (Sh2 512 1).Broadcasts (Sh2 512 512)) (p o : Fin 512) :
    normV h hr hc hb (ix2 p o)
      = Spec.centred (fun k => h (ix2 p k)) o * Ideal.rsqrt (Spec.variance (fun k => h (ix2 p k)) + Spec.cEps) := by
  show centV h hr hc hb (ix2 p o) * broadcastTo (Sh2 512 512)
      (rsqrt (addf (meanV (mulf (centV h hr hc hb) (centV h hr hc hb)) hr hc)
        (broadcast (Sh2 512 1) (Scalar.ofBits .f32 0x3727C5AC#32)))) hb (ix2 p o) = _
  rw [colB_apply _ hb p o 0]
  show centV h hr hc hb (ix2 p o)
      * Ideal.rsqrt (meanV (mulf (centV h hr hc hb) (centV h hr hc hb)) hr hc (ix2 p 0) + Spec.cEps) = _
  rw [meanV_apply, centV_apply]
  have hsq : (fun k : Fin 512 => mulf (centV h hr hc hb) (centV h hr hc hb) (ix2 p k))
      = fun k => Spec.centred (fun k => h (ix2 p k)) k * Spec.centred (fun k => h (ix2 p k)) k :=
    funext fun k => by
      show centV h hr hc hb (ix2 p k) * centV h hr hc hb (ix2 p k) = _
      rw [centV_apply]
  rw [hsq]
  rfl

/-- A projection at entry (p, o): the per-row dense layer of row p. -/
theorem projV_apply (hn : FVec Ideal (Sh2 512 512) .bf16) (w : FVec Ideal (Sh2 512 256) .bf16) (b : FVec Ideal (Sh1 256) .f32)
    (h1 : (Sh1 256).ShapeCasts (Sh2 1 256)) (h2 : (Sh2 1 256).Broadcasts (Sh2 512 256)) (p : Fin 512) (o : Fin 256) :
    projV hn w b h1 h2 (ix2 p o)
      = Spec.dense (fun k => hn (ix2 p k)) (fun k o => w (ix2 k o)) (fun o => b (ix1 o)) o := by
  show FloatOps.matmul (DotDims.plain 512 512 256) none hn w
      (constant (F := Ideal) (Sh2 512 256) .f32 0x00000000#32) (ix2 p o) + rowV b h1 h2 (ix2 p o) = _
  rw [LibDense.matmul_plain, rowV_apply]
  rfl

/-! ## A score column and the softmax-weighted sum of four value blocks -/

/-- The score column at row p: the inner product of the two query rows minus the multiple of the two variances. -/
theorem scoreV_apply (qi qj : FVec Ideal (Sh2 512 256) .f32) (pvj pvi : FVec Ideal (Sh2 512 1) .f32)
    (hr : (Sh2 512 256).Reduces [1] (Sh1 512)) (hc : (Sh1 512).ShapeCasts (Sh2 512 1)) (p : Fin 512) (z : Fin 1) :
    scoreV qi qj pvj pvi hr hc (ix2 p z)
      = (∑ t : Fin 256, qi (ix2 p t) * qj (ix2 p t)) - Spec.cTenth * (pvj (ix2 p z) + pvi (ix2 p z)) := by
  show colsumV (mulf qi qj) hr hc (ix2 p z) - Spec.cTenth * (pvj (ix2 p z) + pvi (ix2 p z)) = _
  rw [colsumV_apply]
  rfl

/-- The softmax-weighted sum of four value blocks at entry (p, o), for any row of four scores that agrees with the four
    score columns at row p. -/
theorem attnV_apply_of (s0 s1 s2 s3 : FVec Ideal (Sh2 512 1) .f32) (v0 v1 v2 v3 : FVec Ideal (Sh2 512 256) .f32)
    (hb : (Sh2 512 1).Broadcasts (Sh2 512 256)) (p : Fin 512) (o : Fin 256) (z : Fin 1) (s : Fin 4 → EReal)
    (h0 : s 0 = s0 (ix2 p z)) (h1 : s 1 = s1 (ix2 p z)) (h2 : s 2 = s2 (ix2 p z)) (h3 : s 3 = s3 (ix2 p z)) :
    attnV s0 s1 s2 s3 v0 v1 v2 v3 hb (ix2 p o)
      = ((Spec.weight s 0 * v0 (ix2 p o) + Spec.weight s 1 * v1 (ix2 p o)) + Spec.weight s 2 * v2 (ix2 p o))
          + Spec.weight s 3 * v3 (ix2 p o) := by
  unfold attnV
  simp only [addf_apply, mulf_apply]
  rw [colB_apply _ hb p o z, colB_apply _ hb p o z, colB_apply _ hb p o z, colB_apply _ hb p o z]
  unfold Spec.weight Spec.expShift Spec.sum4 Spec.max4
  beta_reduce
  rw [h0, h1, h2, h3]
  rfl

/-- The same with the row of four scores spelled out. -/
theorem attnV_apply (s0 s1 s2 s3 : FVec Ideal (Sh2 512 1) .f32) (v0 v1 v2 v3 : FVec Ideal (Sh2 512 256) .f32)
    (hb : (Sh2 512 1).Broadcasts (Sh2 512 256)) (p : Fin 512) (o : Fin 256) (z : Fin 1) :
    attnV s0 s1 s2 s3 v0 v1 v2 v3 hb (ix2 p o)
      = ((Spec.weight ![s0 (ix2 p z), s1 (ix2 p z), s2 (ix2 p z), s3 (ix2 p z)] 0 * v0 (ix2 p o)
            + Spec.weight ![s0 (ix2 p z), s1 (ix2 p z), s2 (ix2 p z), s3 (ix2 p z)] 1 * v1 (ix2 p o))
          + Spec.weight ![s0 (ix2 p z), s1 (ix2 p z), s2 (ix2 p z), s3 (ix2 p z)] 2 * v2 (ix2 p o))
        + Spec.weight ![s0 (ix2 p z), s1 (ix2 p z), s2 (ix2 p z), s3 (ix2 p z)] 3 * v3 (ix2 p o) :=
  attnV_apply_of s0 s1 s2 s3 v0 v1 v2 v3 hb p o z _ rfl rfl rfl rfl

/-! ## Cuts of small arrays and a row broadcast over the block -/

/-- Column j of a [512, 4] array, cut out as a column, at row p. -/
theorem sliceCol_apply {α : Type} (j : ℕ) (hj : j < 4) (v : (Sh2 512 4).Idx → α)
    (h : (Sh2 512 4).Slices ![0, j] (Sh2 512 1)) (p : Fin 512) (z : Fin 1) :
    extractStridedSlice (Sh2 512 1) ![0, j] v h (ix2 p z) = v (ix2 p ⟨j, hj⟩) :=
  slice2_axis1_apply j v h p z ⟨j, hj⟩ (by have := z.isLt; show j = j + z.val; omega)

theorem sliceCol0_apply {α : Type} (v : (Sh2 512 4).Idx → α) (h : (Sh2 512 4).Slices ![0, 0] (Sh2 512 1))
    (p : Fin 512) (z : Fin 1) : extractStridedSlice (Sh2 512 1) ![0, 0] v h (ix2 p z) = v (ix2 p (0 : Fin 4)) :=
  sliceCol_apply 0 (by decide) v h p z

theorem sliceCol1_apply {α : Type} (v : (Sh2 512 4).Idx → α) (h : (Sh2 512 4).Slices ![0, 1] (Sh2 512 1))
    (p : Fin 512) (z : Fin 1) : extractStridedSlice (Sh2 512 1) ![0, 1] v h (ix2 p z) = v (ix2 p (1 : Fin 4)) :=
  sliceCol_apply 1 (by decide) v h p z

theorem sliceCol2_apply {α : Type} (v : (Sh2 512 4).Idx → α) (h : (Sh2 512 4).Slices ![0, 2] (Sh2 512 1))
    (p : Fin 512) (z : Fin 1) : extractStridedSlice (Sh2 512 1) ![0, 2] v h (ix2 p z) = v (ix2 p (2 : Fin 4)) :=
  sliceCol_apply 2 (by decide) v h p z

theorem sliceCol3_apply {α : Type} (v : (Sh2 512 4).Idx → α) (h : (Sh2 512 4).Slices ![0, 3] (Sh2 512 1))
    (p : Fin 512) (z : Fin 1) : extractStridedSlice (Sh2 512 1) ![0, 3] v h (ix2 p z) = v (ix2 p (3 : Fin 4)) :=
  sliceCol_apply 3 (by decide) v h p z

/-- Row j of a [4, 256] array, cut out as a row, at column o. -/
theorem sliceRow_apply {α : Type} (j : ℕ) (hj : j < 4) (w : (Sh2 4 256).Idx → α)
    (h : (Sh2 4 256).Slices ![j, 0] (Sh2 1 256)) (z : Fin 1) (o : Fin 256) :
    extractStridedSlice (Sh2 1 256) ![j, 0] w h (ix2 z o) = w (ix2 ⟨j, hj⟩ o) :=
  slice2_axis0_apply j w h z o ⟨j, hj⟩ (by have := z.isLt; show j = j + z.val; omega)

theorem sliceRow0_apply {α : Type} (w : (Sh2 4 256).Idx → α) (h : (Sh2 4 256).Slices ![0, 0] (Sh2 1 256))
    (z : Fin 1) (o : Fin 256) : extractStridedSlice (Sh2 1 256) ![0, 0] w h (ix2 z o) = w (ix2 (0 : Fin 4) o) :=
  sliceRow_apply 0 (by decide) w h z o

theorem sliceRow1_apply {α : Type} (w : (Sh2 4 256).Idx → α) (h : (Sh2 4 256).Slices ![1, 0] (Sh2 1 256))
    (z : Fin 1) (o : Fin 256) : extractStridedSlice (Sh2 1 256) ![1, 0] w h (ix2 z o) = w (ix2 (1 : Fin 4) o) :=
  sliceRow_apply 1 (by decide) w h z o

theorem sliceRow2_apply {α : Type} (w : (Sh2 4 256).Idx → α) (h : (Sh2 4 256).Slices ![2, 0] (Sh2 1 256))
    (z : Fin 1) (o : Fin 256) : extractStridedSlice (Sh2 1 256) ![2, 0] w h (ix2 z o) = w (ix2 (2 : Fin 4) o) :=
  sliceRow_apply 2 (by decide) w h z o

theorem sliceRow3_apply {α : Type} (w : (Sh2 4 256).Idx → α) (h : (Sh2 4 256).Slices ![3, 0] (Sh2 1 256))
    (z : Fin 1) (o : Fin 256) : extractStridedSlice (Sh2 1 256) ![3, 0] w h (ix2 z o) = w (ix2 (3 : Fin 4) o) :=
  sliceRow_apply 3 (by decide) w h z o

/-- A [1, 256] row broadcast down the 512 rows of the block, at entry (p, o), is the row's entry o. -/
theorem rowB_apply {α : Type} (u : (Sh2 1 256).Idx → α) (h : (Sh2 1 256).Broadcasts (Sh2 512 256)) (p : Fin 512) (o : Fin 256) :
    broadcastTo (Sh2 512 256) u h (ix2 p o) = u (ix2 (0 : Fin 1) o) :=
  broadcastTo_1b_ab_apply u h p o

end Cert.KOps

end
-- ==== Proof.KPay.lean ====
/-
  The blocked program's payload terms are the vector-level functions of the definitions module: each branch's
  normalised hidden block, the eight projections, and the four attended blocks (whose scores the program cuts
  differently from row to row) unfold to the same operations in the same order.
-/
import proofs.«156941_j27530740367911_2_alg».proof.Proof.Gen.KernelIdeal.Skeleton
import proofs.«156941_j27530740367911_2_alg».proof.Proof.KDefs

noncomputable section

namespace Cert.KPay

open Idealize.ShloMosaic Idealize.ShloMosaic.ValueIdx Cert.KernelIdeal Cert.KernelIdeal.Gen Cert.KDefs

variable [Cert.KernelIdeal.Facts]

/-- A branch's normalised hidden block: the normalised rectified dense layer, times the gain row, plus the offset row. -/
def hnV {K : ℕ} (x : FVec Ideal (Sh2 512 K) .f32) (w : FVec Ideal (Sh2 K 512) .bf16) (bi g be : FVec Ideal (Sh1 512) .f32)
    (hw : (Sh2 K 512).ShapeCasts (Sh2 K 512)) : FVec Ideal (Sh2 512 512) .bf16 :=
  fun i => normV (hV x w bi bitsLt_bf16_f32 hw shapeCasts_S512_S1x512 broadcasts_S1x512_S512x512)
        reduces_S512x512_S512 shapeCasts_S512_S512x1 broadcasts_S512x1_S512x512 i
      * rowV (n := 512) g shapeCasts_S512_S1x512 broadcasts_S1x512_S512x512 i
    + rowV (n := 512) be shapeCasts_S512_S1x512 broadcasts_S1x512_S512x512 i

/-- A projection of a hidden block through a weight block and a bias. -/
abbrev prV (hn : FVec Ideal (Sh2 512 512) .bf16) (w : FVec Ideal (Sh2 512 256) .bf16) (b : FVec Ideal (Sh1 256) .f32) :
    FVec Ideal (Sh2 512 256) .f32 :=
  projV hn w b shapeCasts_S256_S1x256 broadcasts_S1x256_S512x256

/-- A score column. -/
abbrev scV (qi qj : FVec Ideal (Sh2 512 256) .f32) (pvj pvi : FVec Ideal (Sh2 512 1) .f32) : FVec Ideal (Sh2 512 1) .f32 :=
  scoreV qi qj pvj pvi reduces_S512x256_S512 shapeCasts_S512_S512x1

/-! ## The projections of the four branches -/

section
variable (x0 : Vec Ideal S512x1024 .f32) (x1 : Vec Ideal S512x768 .f32) (x2 : Vec Ideal S512x512 .f32) (x3 : Vec Ideal S512x640 .f32)
  (w0 : Vec Ideal S1024x512 .bf16) (w1 : Vec Ideal S768x512 .bf16) (w2 : Vec Ideal S512x512 .bf16) (w3 : Vec Ideal S640x512 .bf16)
  (b0 b1 b2 b3 g be : Vec Ideal S512 .f32) (w : FVec Ideal S512x256 .bf16) (b : Vec Ideal S256 .f32)

theorem proj0_eq (k : (v1 : Vec Ideal S512 .f32) → (v3 : FVec Ideal S512x256 .bf16) → (v6 : Vec Ideal S256 .f32) →
      (v36 : FVec Ideal S512x512 .f32) → (v37 : FVec Ideal S1x512 .f32) → FVec Ideal S512x256 .f32)
    (hk : k = k0_pay7 (F := Ideal) ∨ k = k0_pay8 (F := Ideal)) :
    k be w b (k0_pay4 x0 w0 b0) (k0_pay5 g) = prV (hnV x0 w0 b0 g be shapeCasts_S1024x512_S1024x512) w b := by
  rcases hk with rfl | rfl <;> rfl

theorem proj1_eq (k : (v1 : Vec Ideal S512 .f32) → (v3 : FVec Ideal S512x256 .bf16) → (v6 : Vec Ideal S256 .f32) →
      (v80 : FVec Ideal S512x512 .f32) → (v82 : FVec Ideal S512x512 .f32) → FVec Ideal S512x256 .f32)
    (hk : k = k0_pay12 (F := Ideal) ∨ k = k0_pay13 (F := Ideal)) :
    k be w b (k0_pay9 x1 w1 b1) (k0_pay10 g) = prV (hnV x1 w1 b1 g be shapeCasts_S768x512_S768x512) w b := by
  rcases hk with rfl | rfl <;> rfl

theorem proj2_eq (k : (v1 : Vec Ideal S512 .f32) → (v3 : FVec Ideal S512x256 .bf16) → (v6 : Vec Ideal S256 .f32) →
      (v127 : FVec Ideal S512x512 .f32) → FVec Ideal S512x256 .f32)
    (hk : k = k0_pay16 (F := Ideal) ∨ k = k0_pay17 (F := Ideal)) :
    k be w b (k0_pay14 g x2 w2 b2) = prV (hnV x2 w2 b2 g be shapeCasts_S512x512_S512x512) w b := by
  rcases hk with rfl | rfl <;> rfl

theorem proj3_eq (k : (v3 : FVec Ideal S512x256 .bf16) → (v6 : Vec Ideal S256 .f32) →
      (v171 : FVec Ideal S512x512 .f32) → (v172 : FVec Ideal S1x512 .f32) → FVec Ideal S512x256 .f32)
    (hk : k = k0_pay21 (F := Ideal) ∨ k = k0_pay22 (F := Ideal)) :
    k w b (k0_pay18 g x3 w3 b3) (k0_pay19 be) = prV (hnV x3 w3 b3 g be shapeCasts_S640x512_S640x512) w b := by
  rcases hk with rfl | rfl <;> rfl
end

/-! ## The four attended blocks -/

section
variable (q0 q1 q2 v0 v1 v2 v3 : FVec Ideal S512x256 .f32) (pv : Vec Ideal S512x4 .f32)
  (wq : FVec Ideal S512x256 .bf16) (bq : Vec Ideal S256 .f32) (h3 : FVec Ideal S512x512 .f32) (be3 : FVec Ideal S1x512 .f32)
  (q3 : FVec Ideal S512x256 .f32) (p0 p1 p2 p3 : FVec Ideal S512x1 .f32)

theorem att0_eq :
    k0_pay33 (F := Ideal) v0 v1 v2 v3 (k0_pay28 q0 q1 pv) (k0_pay29 q0 q2 pv) (k0_pay30 wq bq q0 h3 be3 pv)
        (k0_pay31 wq bq q0 q1 q2 h3 be3 pv) (k0_pay32 wq bq q0 q1 q2 h3 be3 pv)
      = attnV (scV q0 q0 (k0_pay23 pv) (k0_pay23 pv)) (scV q0 q1 (k0_pay24 pv) (k0_pay23 pv))
          (scV q0 q2 (k0_pay25 pv) (k0_pay23 pv)) (scV q0 (k0_pay21 wq bq h3 be3) (k0_pay26 pv) (k0_pay23 pv))
          v0 v1 v2 v3 broadcasts_S512x1_S512x256 := rfl

theorem att1_eq :
    k0_pay39 (F := Ideal) v0 v1 v2 v3 (k0_pay34 q0 q1 p0 p1) (k0_pay35 q1 p1) (k0_pay36 q1 q2 p1 p2) (k0_pay37 q1 q3) (k0_pay38 p1 p3)
      = attnV (scV q1 q0 p0 p1) (scV q1 q1 p1 p1) (scV q1 q2 p2 p1) (scV q1 q3 p3 p1)
          v0 v1 v2 v3 broadcasts_S512x1_S512x256 := rfl

theorem att2_eq :
    k0_pay44 (F := Ideal) v0 v1 q2 v2 q3 v3 p2 p3 (k0_pay40 q0 q2 p0 p2) (k0_pay41 q1 q2 p1 p2) (k0_pay42 q2) (k0_pay43 p2)
        (Scalar.ofBits .f32 0x3DCCCCCD#32)
      = attnV (scV q2 q0 p0 p2) (scV q2 q1 p1 p2) (scV q2 q2 p2 p2) (scV q2 q3 p3 p2)
          v0 v1 v2 v3 broadcasts_S512x1_S512x256 := rfl

theorem att3_eq :
    k0_pay49 (F := Ideal) v0 v1 q2 v2 q3 v3 p2 p3 (k0_pay45 q0 q3 p0 p3) (k0_pay46 q1 q3) (k0_pay47 p1 p3) (k0_pay48 (F := Ideal))
      = attnV (scV q3 q0 p0 p3) (scV q3 q1 p1 p3) (scV q3 q2 p2 p3) (scV q3 q3 p3 p3)
          v0 v1 v2 v3 broadcasts_S512x1_S512x256 := rfl
end

end Cert.KPay

end
-- ==== Proof.KHead.lean ====
/-
  The two head payloads of the blocked program read at an index: the wide layer over the joined vector is the
  specification's four partial products plus four scalar multiples plus the bias, in the program's order of additions;
  the last layer is the logistic function of the last dense layer of the row.
-/
import proofs.«156941_j27530740367911_2_alg».proof.Proof.Gen.KernelIdeal.Skeleton
import proofs.«156941_j27530740367911_2_alg».proof.Proof.KDefs
import proofs.«156941_j27530740367911_2_alg».proof.Proof.KOps
import proofs.«156941_j27530740367911_2_alg».proof.Proof.Spec

noncomputable section

namespace Cert.KHead

open Idealize.ShloMosaic Idealize.ShloMosaic.ValueIdx Cert.KernelIdeal Cert.KernelIdeal.Gen Cert.KDefs Cert.KOps

variable [Cert.KernelIdeal.Facts]

/-- The wide layer at entry (p, o): the four partial products of row p of the four attended blocks with the four
    blocks of weights, the four scalar multiples of the predicted scores' rows of the weights, and the bias. -/
theorem wide_apply (z0 z1 z2 z3 : FVec Ideal S512x256 .f32) (ps : Vec Ideal S512x4 .f32) (wp : Vec Ideal S4x256 .f32)
    (c0 c1 c2 c3 : Vec Ideal S256x256 .bf16) (bw : Vec Ideal S256 .f32) (p : Fin 512) (o : Fin 256) :
    k0_pay52 (F := Ideal) z0 z1 z2 z3 ps (k0_pay50 wp) (k0_pay51 ps) c0 c1 c2 c3 bw (ix2 p o)
      = Cert.Spec.wide (fun i t => ![z0, z1, z2, z3] i (ix2 p t)) (fun j => ps (ix2 p j))
          (fun i t o => ![c0, c1, c2, c3] i (ix2 t o)) (fun j o => wp (ix2 j o)) (fun o => bw (ix1 o)) o := by
  show (((((FloatOps.matmul (DotDims.plain 512 256 256) none (truncf .bf16 z0 bitsLt_bf16_f32)
            (shapeCast S256x256 c0 shapeCasts_S256x256_S256x256) (constant (F := Ideal) S512x256 .f32 0x00000000#32) (ix2 p o)
          + FloatOps.matmul (DotDims.plain 512 256 256) none (truncf .bf16 z1 bitsLt_bf16_f32)
            (shapeCast S256x256 c1 shapeCasts_S256x256_S256x256) (constant (F := Ideal) S512x256 .f32 0x00000000#32) (ix2 p o))
          + FloatOps.matmul (DotDims.plain 512 256 256) none (truncf .bf16 z2 bitsLt_bf16_f32)
            (shapeCast S256x256 c2 shapeCasts_S256x256_S256x256) (constant (F := Ideal) S512x256 .f32 0x00000000#32) (ix2 p o))
          + FloatOps.matmul (DotDims.plain 512 256 256) none (truncf .bf16 z3 bitsLt_bf16_f32)
            (shapeCast S256x256 c3 shapeCasts_S256x256_S256x256) (constant (F := Ideal) S512x256 .f32 0x00000000#32) (ix2 p o))
        + (((broadcastTo S512x256 (extractStridedSlice S512x1 ![0, 0] ps slices_S512x4_o0_0_S512x1) broadcasts_S512x1_S512x256 (ix2 p o)
              * broadcastTo S512x256 (extractStridedSlice S1x256 ![0, 0] (shapeCast S4x256 wp shapeCasts_S4x256_S4x256)
              slices_S4x256_o0_0_S1x256) broadcasts_S1x256_S512x256 (ix2 p o)
            + broadcastTo S512x256 (extractStridedSlice S512x1 ![0, 1] ps slices_S512x4_o0_1_S512x1) broadcasts_S512x1_S512x256 (ix2 p o)
              * broadcastTo S512x256 (extractStridedSlice S1x256 ![1, 0] (shapeCast S4x256 wp shapeCasts_S4x256_S4x256)
              slices_S4x256_o1_0_S1x256) broadcasts_S1x256_S512x256 (ix2 p o))
            + broadcastTo S512x256 (extractStridedSlice S512x1 ![0, 2] ps slices_S512x4_o0_2_S512x1) broadcasts_S512x1_S512x256 (ix2 p o)
              * broadcastTo S512x256 (extractStridedSlice S1x256 ![2, 0] (shapeCast S4x256 wp shapeCasts_S4x256_S4x256)
              slices_S4x256_o2_0_S1x256) broadcasts_S1x256_S512x256 (ix2 p o))
            + broadcastTo S512x256 (extractStridedSlice S512x1 ![0, 3] ps slices_S512x4_o0_3_S512x1) broadcasts_S512x1_S512x256 (ix2 p o)
              * broadcastTo S512x256 (extractStridedSlice S1x256 ![3, 0] (shapeCast S4x256 wp shapeCasts_S4x256_S4x256)
              slices_S4x256_o3_0_S1x256) broadcasts_S1x256_S512x256 (ix2 p o)))
      + rowV bw shapeCasts_S256_S1x256 broadcasts_S1x256_S512x256 (ix2 p o)) = _
  rw [shapeCast_self c0, shapeCast_self c1, shapeCast_self c2, shapeCast_self c3, shapeCast_self wp]
  rw [LibDense.matmul_plain, LibDense.matmul_plain, LibDense.matmul_plain, LibDense.matmul_plain]
  rw [colB_apply _ _ p o 0, colB_apply _ _ p o 0, colB_apply _ _ p o 0, colB_apply _ _ p o 0]
  rw [sliceCol0_apply, sliceCol1_apply, sliceCol2_apply, sliceCol3_apply]
  rw [rowB_apply, rowB_apply, rowB_apply, rowB_apply]
  rw [sliceRow0_apply, sliceRow1_apply, sliceRow2_apply, sliceRow3_apply, rowV_apply]
  rfl

/-- The last layer at row p: the logistic function of the last dense layer of row p. -/
theorem last_apply (u : FVec Ideal S512x256 .f32) (wf : Vec Ideal S256x1 .bf16) (bf : Vec Ideal S1 .f32) (p : Fin 512) (z : Fin 1) :
    k0_pay1 (F := Ideal) u wf bf (ix2 p z)
      = Ideal.logistic ((∑ o : Fin 256, u (ix2 p o) * wf (ix2 o (0 : Fin 1))) + bf (ix1 (0 : Fin 1))) := by
  obtain rfl : z = 0 := Subsingleton.elim _ _
  show Ideal.logistic (FloatOps.matmul (DotDims.plain 512 256 1) none (truncf .bf16 u bitsLt_bf16_f32)
        (shapeCast S256x1 wf shapeCasts_S256x1_S256x1) (constant (F := Ideal) S512x1 .f32 0x00000000#32) (ix2 p 0)
      + rowV bf shapeCasts_S1_S1x1 broadcasts_S1x1_S512x1 (ix2 p 0)) = _
  rw [shapeCast_self wf, LibDense.matmul_plain, rowV_apply]
  rfl

end Cert.KHead

end
-- ==== Proof.KBody.lean ====
/-
  The blocked program's body at one row of its block: the tree of payloads is the last layer of the wide layer of
  the four attended blocks; read at row p it is the specification's row function of the block's row p and of the
  weights as the block finds them.
-/
import proofs.«156941_j27530740367911_2_alg».proof.Proof.Gen.KernelIdeal.Skeleton
import proofs.«156941_j27530740367911_2_alg».proof.Proof.KDefs
import proofs.«156941_j27530740367911_2_alg».proof.Proof.KOps
import proofs.«156941_j27530740367911_2_alg».proof.Proof.KPay
import proofs.«156941_j27530740367911_2_alg».proof.Proof.KHead
import proofs.«156941_j27530740367911_2_alg».proof.Proof.Spec
import Idealize.ShloMosaic.Lib.Pipeline.Value

noncomputable section

namespace Cert.KBody

open Idealize.ShloMosaic Idealize.ShloMosaic.ValueIdx Cert.KernelIdeal Cert.KernelIdeal.Gen Cert.KDefs Cert.KPay Cert.Spec

variable [Cert.KernelIdeal.Facts]

/-! ## Readings of the pieces -/

/-- A branch's normalised hidden block at (p, o) is the specification's branch of row p. -/
theorem hn_apply {K : ℕ} (x : FVec Ideal (Sh2 512 K) .f32) (w : FVec Ideal (Sh2 K 512) .bf16) (bi g be : FVec Ideal (Sh1 512) .f32)
    (hw : (Sh2 K 512).ShapeCasts (Sh2 K 512)) (p o : Fin 512) :
    hnV x w bi g be hw (ix2 p o)
      = branch (fun k => x (ix2 p k)) (fun k o => w (ix2 k o)) (fun o => bi (ix1 o)) (fun o => g (ix1 o)) (fun o => be (ix1 o)) o := by
  show normV (hV x w bi bitsLt_bf16_f32 hw shapeCasts_S512_S1x512 broadcasts_S1x512_S512x512)
        reduces_S512x512_S512 shapeCasts_S512_S512x1 broadcasts_S512x1_S512x512 (ix2 p o)
      * rowV (n := 512) g shapeCasts_S512_S1x512 broadcasts_S1x512_S512x512 (ix2 p o)
    + rowV (n := 512) be shapeCasts_S512_S1x512 broadcasts_S1x512_S512x512 (ix2 p o) = _
  rw [KOps.normV_apply, KOps.rowV_apply, KOps.rowV_apply]
  have hrow : (fun k : Fin 512 => hV x w bi bitsLt_bf16_f32 hw shapeCasts_S512_S1x512 broadcasts_S1x512_S512x512 (ix2 p k))
      = fun o => relu2 (dense (fun k => x (ix2 p k)) (fun k o => w (ix2 k o)) (fun o => bi (ix1 o)) o) :=
    funext fun k => KOps.hV_apply x w bi _ hw _ _ p k
  rw [hrow]
  rfl

/-- The same-shape cast of a projection's weights is the weights. -/
theorem pay2_self (w : Vec Ideal S512x256 .bf16) : k0_pay2 (F := Ideal) w = w := shapeCast_self w _
theorem pay3_self (w : Vec Ideal S512x256 .bf16) : k0_pay3 (F := Ideal) w = w := shapeCast_self w _

/-- A projection at (p, t). -/
theorem pr_apply (hn : FVec Ideal (Sh2 512 512) .bf16) (w : FVec Ideal (Sh2 512 256) .bf16) (b : FVec Ideal (Sh1 256) .f32)
    (p : Fin 512) (t : Fin 256) :
    prV hn w b (ix2 p t) = dense (fun k => hn (ix2 p k)) (fun k o => w (ix2 k o)) (fun o => b (ix1 o)) t :=
  KOps.projV_apply hn w b _ _ p t

section
variable (x0 : Vec Ideal S512x1024 .f32) (x1 : Vec Ideal S512x768 .f32) (x2 : Vec Ideal S512x512 .f32) (x3 : Vec Ideal S512x640 .f32)
  (x4 : Vec Ideal S1024x512 .bf16) (x5 : Vec Ideal S768x512 .bf16) (x6 : Vec Ideal S512x512 .bf16) (x7 : Vec Ideal S640x512 .bf16)
  (x8 x9 x10 x11 : Vec Ideal S512 .f32) (x12 x13 : Vec Ideal S512x4 .f32) (x14 x15 : Vec Ideal S512 .f32)
  (x16 : Vec Ideal S512x256 .bf16) (x17 : Vec Ideal S256 .f32) (x18 : Vec Ideal S512x256 .bf16) (x19 : Vec Ideal S256 .f32)
  (x20 x21 x22 x23 : Vec Ideal S256x256 .bf16) (x24 : Vec Ideal S4x256 .f32) (x25 : Vec Ideal S256 .f32)
  (x26 : Vec Ideal S256x1 .bf16) (x27 : Vec Ideal S1 .f32)

/-- The weights as the block finds them. -/
def blockParams : Params where
  w0 := fun k o => x4 (ix2 k o)
  b0 := fun o => x8 (ix1 o)
  w1 := fun k o => x5 (ix2 k o)
  b1 := fun o => x9 (ix1 o)
  w2 := fun k o => x6 (ix2 k o)
  b2 := fun o => x10 (ix1 o)
  w3 := fun k o => x7 (ix2 k o)
  b3 := fun o => x11 (ix1 o)
  g := fun o => x14 (ix1 o)
  be := fun o => x15 (ix1 o)
  wq := fun k o => x16 (ix2 k o)
  bq := fun o => x17 (ix1 o)
  wv := fun k o => x18 (ix2 k o)
  bv := fun o => x19 (ix1 o)
  wc := fun i t o => ![x20, x21, x22, x23] i (ix2 t o)
  wp := fun j o => x24 (ix2 j o)
  bw := fun o => x25 (ix1 o)
  wf := fun o => x26 (ix2 o (0 : Fin 1))
  bf := x27 (ix1 (0 : Fin 1))

/-- Row p of the block's row-wise inputs. -/
def blockRow (p : Fin 512) : Row where
  x0 := fun k => x0 (ix2 p k)
  x1 := fun k => x1 (ix2 p k)
  x2 := fun k => x2 (ix2 p k)
  x3 := fun k => x3 (ix2 p k)
  ps := fun j => x12 (ix2 p j)
  pv := fun j => x13 (ix2 p j)

/-- The four hidden blocks, the four query blocks, the four value blocks, the four variance columns. -/
def Hn : Fin 4 → FVec Ideal (Sh2 512 512) .bf16 :=
  ![hnV x0 x4 x8 x14 x15 shapeCasts_S1024x512_S1024x512, hnV x1 x5 x9 x14 x15 shapeCasts_S768x512_S768x512,
    hnV x2 x6 x10 x14 x15 shapeCasts_S512x512_S512x512, hnV x3 x7 x11 x14 x15 shapeCasts_S640x512_S640x512]
def Qs (i : Fin 4) : FVec Ideal (Sh2 512 256) .f32 := prV (Hn x0 x1 x2 x3 x4 x5 x6 x7 x8 x9 x10 x11 x14 x15 i) (k0_pay2 x16) x17
def Vs (i : Fin 4) : FVec Ideal (Sh2 512 256) .f32 := prV (Hn x0 x1 x2 x3 x4 x5 x6 x7 x8 x9 x10 x11 x14 x15 i) (k0_pay3 x18) x19
def Pc : Fin 4 → FVec Ideal (Sh2 512 1) .f32 := ![k0_pay23 x13, k0_pay24 x13, k0_pay25 x13, k0_pay26 x13]

local notation "HN" => Hn x0 x1 x2 x3 x4 x5 x6 x7 x8 x9 x10 x11 x14 x15
local notation "QS" => Qs x0 x1 x2 x3 x4 x5 x6 x7 x8 x9 x10 x11 x14 x15 x16 x17
local notation "VS" => Vs x0 x1 x2 x3 x4 x5 x6 x7 x8 x9 x10 x11 x14 x15 x18 x19
local notation "PC" => Pc x13
local notation "PK" => blockParams x4 x5 x6 x7 x8 x9 x10 x11 x14 x15 x16 x17 x18 x19 x20 x21 x22 x23 x24 x25 x26 x27
local notation "RK" => blockRow x0 x1 x2 x3 x12 x13

/-- The attended block of head i. -/
def Zs (i : Fin 4) : FVec Ideal (Sh2 512 256) .f32 :=
  attnV (scV (QS i) (QS 0) (PC 0) (PC i)) (scV (QS i) (QS 1) (PC 1) (PC i)) (scV (QS i) (QS 2) (PC 2) (PC i))
    (scV (QS i) (QS 3) (PC 3) (PC i)) (VS 0) (VS 1) (VS 2) (VS 3) broadcasts_S512x1_S512x256

local notation "ZS" => Zs x0 x1 x2 x3 x4 x5 x6 x7 x8 x9 x10 x11 x13 x14 x15 x16 x17 x18 x19

variable {x0 x1 x2 x3 x4 x5 x6 x7 x8 x9 x10 x11 x12 x13 x14 x15 x16 x17 x18 x19 x20 x21 x22 x23 x24 x25 x26 x27}

/-- The program's tree of payloads is the last layer of the wide layer of the four attended blocks. -/
theorem tree_eq :
    k0_pay1 (k0_pay52 (k0_pay33 (k0_pay8 x15 (k0_pay3 x18) x19 (k0_pay4 x0 x4 x8) (k0_pay5 x14)) (k0_pay13 x15 (k0_pay3 x18) x19 (k0_pay9 x1 x5 x9) (k0_pay10 x14)) (k0_pay17 x15 (k0_pay3 x18) x19 (k0_pay14 x14 x2 x6 x10)) (k0_pay22 (k0_pay3 x18) x19 (k0_pay18 x14 x3 x7 x11) (k0_pay19 x15)) (k0_pay28 (k0_pay7 x15 (k0_pay2 x16) x17 (k0_pay4 x0 x4 x8) (k0_pay5 x14)) (k0_pay12 x15 (k0_pay2 x16) x17 (k0_pay9 x1 x5 x9) (k0_pay10 x14)) x13) (k0_pay29 (k0_pay7 x15 (k0_pay2 x16) x17 (k0_pay4 x0 x4 x8) (k0_pay5 x14)) (k0_pay16 x15 (k0_pay2 x16) x17 (k0_pay14 x14 x2 x6 x10)) x13) (k0_pay30 (k0_pay2 x16) x17 (k0_pay7 x15 (k0_pay2 x16) x17 (k0_pay4 x0 x4 x8) (k0_pay5 x14)) (k0_pay18 x14 x3 x7 x11) (k0_pay19 x15) x13) (k0_pay31 (k0_pay2 x16) x17 (k0_pay7 x15 (k0_pay2 x16) x17 (k0_pay4 x0 x4 x8) (k0_pay5 x14)) (k0_pay12 x15 (k0_pay2 x16) x17 (k0_pay9 x1 x5 x9) (k0_pay10 x14)) (k0_pay16 x15 (k0_pay2 x16) x17 (k0_pay14 x14 x2 x6 x10)) (k0_pay18 x14 x3 x7 x11) (k0_pay19 x15) x13) (k0_pay32 (k0_pay2 x16) x17 (k0_pay7 x15 (k0_pay2 x16) x17 (k0_pay4 x0 x4 x8) (k0_pay5 x14)) (k0_pay12 x15 (k0_pay2 x16) x17 (k0_pay9 x1 x5 x9) (k0_pay10 x14)) (k0_pay16 x15 (k0_pay2 x16) x17 (k0_pay14 x14 x2 x6 x10)) (k0_pay18 x14 x3 x7 x11) (k0_pay19 x15) x13)) (k0_pay39 (k0_pay8 x15 (k0_pay3 x18) x19 (k0_pay4 x0 x4 x8) (k0_pay5 x14)) (k0_pay13 x15 (k0_pay3 x18) x19 (k0_pay9 x1 x5 x9) (k0_pay10 x14)) (k0_pay17 x15 (k0_pay3 x18) x19 (k0_pay14 x14 x2 x6 x10)) (k0_pay22 (k0_pay3 x18) x19 (k0_pay18 x14 x3 x7 x11) (k0_pay19 x15)) (k0_pay34 (k0_pay7 x15 (k0_pay2 x16) x17 (k0_pay4 x0 x4 x8) (k0_pay5 x14)) (k0_pay12 x15 (k0_pay2 x16) x17 (k0_pay9 x1 x5 x9) (k0_pay10 x14)) (k0_pay23 x13) (k0_pay24 x13)) (k0_pay35 (k0_pay12 x15 (k0_pay2 x16) x17 (k0_pay9 x1 x5 x9) (k0_pay10 x14)) (k0_pay24 x13)) (k0_pay36 (k0_pay12 x15 (k0_pay2 x16) x17 (k0_pay9 x1 x5 x9) (k0_pay10 x14)) (k0_pay16 x15 (k0_pay2 x16) x17 (k0_pay14 x14 x2 x6 x10)) (k0_pay24 x13) (k0_pay25 x13)) (k0_pay37 (k0_pay12 x15 (k0_pay2 x16) x17 (k0_pay9 x1 x5 x9) (k0_pay10 x14)) (k0_pay21 (k0_pay2 x16) x17 (k0_pay18 x14 x3 x7 x11) (k0_pay19 x15))) (k0_pay38 (k0_pay24 x13) (k0_pay26 x13))) (k0_pay44 (k0_pay8 x15 (k0_pay3 x18) x19 (k0_pay4 x0 x4 x8) (k0_pay5 x14)) (k0_pay13 x15 (k0_pay3 x18) x19 (k0_pay9 x1 x5 x9) (k0_pay10 x14)) (k0_pay16 x15 (k0_pay2 x16) x17 (k0_pay14 x14 x2 x6 x10)) (k0_pay17 x15 (k0_pay3 x18) x19 (k0_pay14 x14 x2 x6 x10)) (k0_pay21 (k0_pay2 x16) x17 (k0_pay18 x14 x3 x7 x11) (k0_pay19 x15)) (k0_pay22 (k0_pay3 x18) x19 (k0_pay18 x14 x3 x7 x11) (k0_pay19 x15)) (k0_pay25 x13) (k0_pay26 x13) (k0_pay40 (k0_pay7 x15 (k0_pay2 x16) x17 (k0_pay4 x0 x4 x8) (k0_pay5 x14)) (k0_pay16 x15 (k0_pay2 x16) x17 (k0_pay14 x14 x2 x6 x10)) (k0_pay23 x13) (k0_pay25 x13)) (k0_pay41 (k0_pay12 x15 (k0_pay2 x16) x17 (k0_pay9 x1 x5 x9) (k0_pay10 x14)) (k0_pay16 x15 (k0_pay2 x16) x17 (k0_pay14 x14 x2 x6 x10)) (k0_pay24 x13) (k0_pay25 x13)) (k0_pay42 (k0_pay16 x15 (k0_pay2 x16) x17 (k0_pay14 x14 x2 x6 x10))) (k0_pay43 (k0_pay25 x13)) (Scalar.ofBits .f32 0x3DCCCCCD#32)) (k0_pay49 (k0_pay8 x15 (k0_pay3 x18) x19 (k0_pay4 x0 x4 x8) (k0_pay5 x14)) (k0_pay13 x15 (k0_pay3 x18) x19 (k0_pay9 x1 x5 x9) (k0_pay10 x14)) (k0_pay16 x15 (k0_pay2 x16) x17 (k0_pay14 x14 x2 x6 x10)) (k0_pay17 x15 (k0_pay3 x18) x19 (k0_pay14 x14 x2 x6 x10)) (k0_pay21 (k0_pay2 x16) x17 (k0_pay18 x14 x3 x7 x11) (k0_pay19 x15)) (k0_pay22 (k0_pay3 x18) x19 (k0_pay18 x14 x3 x7 x11) (k0_pay19 x15)) (k0_pay25 x13) (k0_pay26 x13) (k0_pay45 (k0_pay7 x15 (k0_pay2 x16) x17 (k0_pay4 x0 x4 x8) (k0_pay5 x14)) (k0_pay21 (k0_pay2 x16) x17 (k0_pay18 x14 x3 x7 x11) (k0_pay19 x15)) (k0_pay23 x13) (k0_pay26 x13)) (k0_pay46 (k0_pay12 x15 (k0_pay2 x16) x17 (k0_pay9 x1 x5 x9) (k0_pay10 x14)) (k0_pay21 (k0_pay2 x16) x17 (k0_pay18 x14 x3 x7 x11) (k0_pay19 x15))) (k0_pay47 (k0_pay24 x13) (k0_pay26 x13)) (k0_pay48 (F := Ideal))) x12 (k0_pay50 x24) (k0_pay51 x12) x20 x21 x22 x23 x25) x26 x27
      = k0_pay1 (F := Ideal) (k0_pay52 (ZS 0) (ZS 1) (ZS 2) (ZS 3) x12 (k0_pay50 x24) (k0_pay51 x12) x20 x21 x22 x23 x25) x26 x27 := rfl

/-- The hidden blocks at row p. -/
theorem Hn_apply (p : Fin 512) (i : Fin 4) (o : Fin 512) : HN i (ix2 p o) = hidden PK (RK p) i o := by
  fin_cases i
  · exact hn_apply x0 x4 x8 x14 x15 _ p o
  · exact hn_apply x1 x5 x9 x14 x15 _ p o
  · exact hn_apply x2 x6 x10 x14 x15 _ p o
  · exact hn_apply x3 x7 x11 x14 x15 _ p o

/-- The query and value blocks at row p. -/
theorem Qs_apply (p : Fin 512) (i : Fin 4) (t : Fin 256) : QS i (ix2 p t) = query PK (RK p) i t := by
  unfold Qs
  rw [pr_apply, pay2_self, show (fun k : Fin 512 => HN i (ix2 p k)) = hidden PK (RK p) i from funext fun k => Hn_apply p i k]
  rfl

theorem Vs_apply (p : Fin 512) (i : Fin 4) (t : Fin 256) : VS i (ix2 p t) = value PK (RK p) i t := by
  unfold Vs
  rw [pr_apply, pay3_self, show (fun k : Fin 512 => HN i (ix2 p k)) = hidden PK (RK p) i from funext fun k => Hn_apply p i k]
  rfl

/-- The variance columns at row p. -/
theorem Pc_apply (p : Fin 512) (z : Fin 1) (j : Fin 4) : PC j (ix2 p z) = (RK p).pv j := by
  fin_cases j
  · exact KOps.sliceCol0_apply x13 slices_S512x4_o0_0_S512x1 p z
  · exact KOps.sliceCol1_apply x13 slices_S512x4_o0_1_S512x1 p z
  · exact KOps.sliceCol2_apply x13 slices_S512x4_o0_2_S512x1 p z
  · exact KOps.sliceCol3_apply x13 slices_S512x4_o0_3_S512x1 p z

/-- A score column at row p. -/
theorem sc_apply (p : Fin 512) (z : Fin 1) (i j : Fin 4) :
    scV (QS i) (QS j) (PC j) (PC i) (ix2 p z) = score (query PK (RK p)) (RK p).pv i j := by
  rw [show scV (QS i) (QS j) (PC j) (PC i) (ix2 p z)
      = (∑ t : Fin 256, QS i (ix2 p t) * QS j (ix2 p t)) - cTenth * (PC j (ix2 p z) + PC i (ix2 p z)) from
        KOps.scoreV_apply _ _ _ _ _ _ p z]
  rw [Pc_apply, Pc_apply]
  unfold score
  congr 1
  exact Finset.sum_congr rfl fun t _ => by rw [Qs_apply, Qs_apply]

/-- The attended blocks at row p. -/
theorem Zs_apply (p : Fin 512) (i : Fin 4) (o : Fin 256) : ZS i (ix2 p o) = attended PK (RK p) i o := by
  unfold Zs
  rw [KOps.attnV_apply_of _ _ _ _ _ _ _ _ _ p o (0 : Fin 1) (score (query PK (RK p)) (RK p).pv i)
    (sc_apply p 0 i 0).symm (sc_apply p 0 i 1).symm (sc_apply p 0 i 2).symm (sc_apply p 0 i 3).symm]
  rw [Vs_apply, Vs_apply, Vs_apply, Vs_apply]
  rfl

/-- THE BODY AT ROW p: the program's tree of payloads, read at (p, z), is the specification's row function. -/
theorem body_apply (p : Fin 512) (z : Fin 1) :
    k0_pay1 (F := Ideal) (k0_pay52 (ZS 0) (ZS 1) (ZS 2) (ZS 3) x12 (k0_pay50 x24) (k0_pay51 x12) x20 x21 x22 x23 x25) x26 x27 (ix2 p z)
      = rowOut PK (RK p) := by
  rw [KHead.last_apply]
  have hz : (fun (i : Fin 4) (t : Fin 256) => ![ZS 0, ZS 1, ZS 2, ZS 3] i (ix2 p t)) = attended PK (RK p) := by
    funext i t
    fin_cases i <;> exact Zs_apply p _ t
  have hsum : ∀ o : Fin 256,
      k0_pay52 (F := Ideal) (ZS 0) (ZS 1) (ZS 2) (ZS 3) x12 (k0_pay50 x24) (k0_pay51 x12) x20 x21 x22 x23 x25 (ix2 p o)
        = wide (attended PK (RK p)) (RK p).ps (PK).wc (PK).wp (PK).bw o := fun o => by
    rw [KHead.wide_apply, hz]
    rfl
  simp only [hsum]
  rfl
end

end Cert.KBody

end
-- ==== Proof.KHost.lean ====
/-
  How the weights are laid out before the blocked part, read at an index: a weight matrix transposed (and rounded,
  which on the extended reals is the identity) reads at (k, o) the matrix at (o, k); a block of rows cut from the
  transposed matrix reads the matrix at the column the cut starts from plus the row.
-/
import proofs.«156941_j27530740367911_2_alg».proof.Proof.KDefs
import Idealize.ShloMosaic.Lib.ValueLayout
import Idealize.ShloMosaic.Lib.Pipeline.Value
import Idealize.ShloMosaic.PureOps.Ideal

noncomputable section

namespace Cert.KHost

open Idealize.ShloMosaic Idealize.ShloMosaic.ValueIdx Cert.KDefs

/-- A transposed and rounded matrix at (k, o) is the matrix at (o, k). -/
theorem tr_apply {a b : ℕ} (W : FVec Ideal (Sh2 a b) .f32) (h : (Sh2 a b).Transposes [1, 0] (Sh2 b a))
    (hlt : FTy.bf16.bits < FTy.f32.bits) (k : Fin b) (o : Fin a) :
    truncf .bf16 (transpose (Sh2 b a) [1, 0] W h) hlt (ix2 k o) = W (ix2 o k) :=
  transpose_ix2_apply W h k o

/-- A block of 256 rows cut from row off of the transposed [256, 1028] matrix, rounded, at (t, o) is the matrix at
    (o, off + t). -/
theorem trSlice_apply (W : FVec Ideal (Sh2 256 1028) .f32) (h : (Sh2 256 1028).Transposes [1, 0] (Sh2 1028 256))
    (off : ℕ) (hs : (Sh2 1028 256).Slices ![off, 0] (Sh2 256 256)) (hlt : FTy.bf16.bits < FTy.f32.bits)
    (t o : Fin 256) (k : Fin 1028) (hk : k.val = off + t.val) :
    truncf .bf16 (extractStridedSlice (Sh2 256 256) ![off, 0] (transpose (Sh2 1028 256) [1, 0] W h) hs) hlt (ix2 t o)
      = W (ix2 o k) :=
  (slice2_axis0_apply off (transpose (Sh2 1028 256) [1, 0] W h) hs t o k hk).trans (transpose_ix2_apply W h k o)

/-- The last four rows of the transposed [256, 1028] matrix at (j, o) are the matrix at (o, 1024 + j). -/
theorem trSlice4_apply (W : FVec Ideal (Sh2 256 1028) .f32) (h : (Sh2 256 1028).Transposes [1, 0] (Sh2 1028 256))
    (hs : (Sh2 1028 256).Slices ![1024, 0] (Sh2 4 256)) (j : Fin 4) (o : Fin 256) (k : Fin 1028)
    (hk : k.val = 1024 + j.val) :
    extractStridedSlice (Sh2 4 256) ![1024, 0] (transpose (Sh2 1028 256) [1, 0] W h) hs (ix2 j o) = W (ix2 o k) :=
  (slice2_axis0_apply 1024 (transpose (Sh2 1028 256) [1, 0] W h) hs j o k hk).trans (transpose_ix2_apply W h k o)

end Cert.KHost

end
-- ==== Proof.KVal.lean ====
/-
  From the blocks to the array. Point t of the 32-point grid stages rows 512 t … 512 t + 511 of the row-wise
  arguments and the whole of every weight array (the matrices as the host side transposed and cut them), runs the
  body, and writes rows 512 t … 512 t + 511 of the one-column result. So what point t writes back is block t of the
  specification's array, the 32 blocks cover the result, and the run ends with the result at the specification.
-/
import proofs.«156941_j27530740367911_2_alg».proof.Proof.KernelIdealValueP
import proofs.«156941_j27530740367911_2_alg».proof.Proof.KBody
import proofs.«156941_j27530740367911_2_alg».proof.Proof.KHost
import proofs.«156941_j27530740367911_2_alg».proof.Proof.Spec
import Idealize.ShloMosaic.Lib.Pipeline.Value
import Idealize.ShloMosaic.Lib.StableHlo.Run

noncomputable section

namespace Cert.KVal

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The printed index maps, decided over the grid -/

/-- The row-wise windows move with the result's window; their second block index is zero. -/
theorem idx_rows : ∀ t : Fin cfg0.N, win0_0.index t (0 : Fin 2) = win0_28.index t (0 : Fin 2) ∧ win0_0.index t (1 : Fin 2) = 0
    ∧ win0_1.index t (0 : Fin 2) = win0_28.index t (0 : Fin 2) ∧ win0_1.index t (1 : Fin 2) = 0
    ∧ win0_2.index t (0 : Fin 2) = win0_28.index t (0 : Fin 2) ∧ win0_2.index t (1 : Fin 2) = 0
    ∧ win0_3.index t (0 : Fin 2) = win0_28.index t (0 : Fin 2) ∧ win0_3.index t (1 : Fin 2) = 0
    ∧ win0_12.index t (0 : Fin 2) = win0_28.index t (0 : Fin 2) ∧ win0_12.index t (1 : Fin 2) = 0
    ∧ win0_13.index t (0 : Fin 2) = win0_28.index t (0 : Fin 2) ∧ win0_13.index t (1 : Fin 2) = 0
    ∧ win0_28.index t (1 : Fin 2) = 0 ∧ win0_28.index t (0 : Fin 2) ≤ 31 :=
  (by decide +kernel : ∀ t : Fin grid0.N, _)

/-- The weight windows stay at block zero. -/
theorem idx_const2 : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_16.index t (0 : Fin 2) = 0 ∧ win0_16.index t (1 : Fin 2) = 0
    ∧ win0_18.index t (0 : Fin 2) = 0 ∧ win0_18.index t (1 : Fin 2) = 0
    ∧ win0_20.index t (0 : Fin 2) = 0 ∧ win0_20.index t (1 : Fin 2) = 0
    ∧ win0_21.index t (0 : Fin 2) = 0 ∧ win0_21.index t (1 : Fin 2) = 0
    ∧ win0_22.index t (0 : Fin 2) = 0 ∧ win0_22.index t (1 : Fin 2) = 0
    ∧ win0_23.index t (0 : Fin 2) = 0 ∧ win0_23.index t (1 : Fin 2) = 0
    ∧ win0_24.index t (0 : Fin 2) = 0 ∧ win0_24.index t (1 : Fin 2) = 0
    ∧ win0_26.index t (0 : Fin 2) = 0 ∧ win0_26.index t (1 : Fin 2) = 0 :=
  (by decide +kernel : ∀ t : Fin grid0.N, _)

theorem idx_const1 : ∀ t : Fin cfg0.N, win0_8.index t (0 : Fin 1) = 0
    ∧ win0_9.index t (0 : Fin 1) = 0
    ∧ win0_10.index t (0 : Fin 1) = 0
    ∧ win0_11.index t (0 : Fin 1) = 0
    ∧ win0_14.index t (0 : Fin 1) = 0
    ∧ win0_15.index t (0 : Fin 1) = 0
    ∧ win0_17.index t (0 : Fin 1) = 0
    ∧ win0_19.index t (0 : Fin 1) = 0
    ∧ win0_25.index t (0 : Fin 1) = 0
    ∧ win0_27.index t (0 : Fin 1) = 0 :=
  (by decide +kernel : ∀ t : Fin grid0.N, _)

/-- Every block of the result is some point's. -/
theorem idx_onto : ∀ q : Fin 32, ∃ t : Fin cfg0.N, win0_28.index t = ![q.val, 0] :=
  (by decide +kernel : ∀ q : Fin 32, ∃ t : Fin grid0.N, win0_28.index t = ![q.val, 0])

/-- The global row that row p of point t's block is. -/
def grow (t : Fin cfg0.N) (p : Fin 512) : Fin 16384 :=
  ⟨win0_28.index t (0 : Fin 2) * 512 + p.val, by have := (idx_rows t).2.2.2.2.2.2.2.2.2.2.2.2.2; have := p.isLt; omega⟩

/-! ## The blocks the body is run on -/

theorem blk0 (c : Dev nD) (t : Fin cfg0.N) (p : Fin 512) (k : Fin 1024) :
    iblk m c 0 t (ix2 p k) = (m ((c : Thread nD τ).loc main_arg0)) (ix2 (grow t p) k) := by
  rw [← V_main_arg0 m c]
  show V m c main_arg0 (((cfg0.win 0).blk t).view.emb (ix2 p k)) = V m c main_arg0 (ix2 (grow t p) k)
  refine congrArg _ (funext fun a => Fin.ext ?_)
  have e := idx_rows t
  match a with
  | ⟨0, _⟩ => show win0_0.index t (0 : Fin 2) * 512 + 1 * p.val = win0_28.index t (0 : Fin 2) * 512 + p.val; omega
  | ⟨1, _⟩ => show win0_0.index t (1 : Fin 2) * 1024 + 1 * k.val = k.val; omega

theorem blk1 (c : Dev nD) (t : Fin cfg0.N) (p : Fin 512) (k : Fin 768) :
    iblk m c 1 t (ix2 p k) = (m ((c : Thread nD τ).loc main_arg1)) (ix2 (grow t p) k) := by
  rw [← V_main_arg1 m c]
  show V m c main_arg1 (((cfg0.win 1).blk t).view.emb (ix2 p k)) = V m c main_arg1 (ix2 (grow t p) k)
  refine congrArg _ (funext fun a => Fin.ext ?_)
  have e := idx_rows t
  match a with
  | ⟨0, _⟩ => show win0_1.index t (0 : Fin 2) * 512 + 1 * p.val = win0_28.index t (0 : Fin 2) * 512 + p.val; omega
  | ⟨1, _⟩ => show win0_1.index t (1 : Fin 2) * 768 + 1 * k.val = k.val; omega

theorem blk2 (c : Dev nD) (t : Fin cfg0.N) (p : Fin 512) (k : Fin 512) :
    iblk m c 2 t (ix2 p k) = (m ((c : Thread nD τ).loc main_arg2)) (ix2 (grow t p) k) := by
  rw [← V_main_arg2 m c]
  show V m c main_arg2 (((cfg0.win 2).blk t).view.emb (ix2 p k)) = V m c main_arg2 (ix2 (grow t p) k)
  refine congrArg _ (funext fun a => Fin.ext ?_)
  have e := idx_rows t
  match a with
  | ⟨0, _⟩ => show win0_2.index t (0 : Fin 2) * 512 + 1 * p.val = win0_28.index t (0 : Fin 2) * 512 + p.val; omega
  | ⟨1, _⟩ => show win0_2.index t (1 : Fin 2) * 512 + 1 * k.val = k.val; omega

theorem blk3 (c : Dev nD) (t : Fin cfg0.N) (p : Fin 512) (k : Fin 640) :
    iblk m c 3 t (ix2 p k) = (m ((c : Thread nD τ).loc main_arg3)) (ix2 (grow t p) k) := by
  rw [← V_main_arg3 m c]
  show V m c main_arg3 (((cfg0.win 3).blk t).view.emb (ix2 p k)) = V m c main_arg3 (ix2 (grow t p) k)
  refine congrArg _ (funext fun a => Fin.ext ?_)
  have e := idx_rows t
  match a with
  | ⟨0, _⟩ => show win0_3.index t (0 : Fin 2) * 512 + 1 * p.val = win0_28.index t (0 : Fin 2) * 512 + p.val; omega
  | ⟨1, _⟩ => show win0_3.index t (1 : Fin 2) * 640 + 1 * k.val = k.val; omega

theorem blk12 (c : Dev nD) (t : Fin cfg0.N) (p : Fin 512) (k : Fin 4) :
    iblk m c 12 t (ix2 p k) = (m ((c : Thread nD τ).loc main_arg12)) (ix2 (grow t p) k) := by
  rw [← V_main_arg12 m c]
  show V m c main_arg12 (((cfg0.win 12).blk t).view.emb (ix2 p k)) = V m c main_arg12 (ix2 (grow t p) k)
  refine congrArg _ (funext fun a => Fin.ext ?_)
  have e := idx_rows t
  match a with
  | ⟨0, _⟩ => show win0_12.index t (0 : Fin 2) * 512 + 1 * p.val = win0_28.index t (0 : Fin 2) * 512 + p.val; omega
  | ⟨1, _⟩ => show win0_12.index t (1 : Fin 2) * 4 + 1 * k.val = k.val; omega

theorem blk13 (c : Dev nD) (t : Fin cfg0.N) (p : Fin 512) (k : Fin 4) :
    iblk m c 13 t (ix2 p k) = (m ((c : Thread nD τ).loc main_arg13)) (ix2 (grow t p) k) := by
  rw [← V_main_arg13 m c]
  show V m c main_arg13 (((cfg0.win 13).blk t).view.emb (ix2 p k)) = V m c main_arg13 (ix2 (grow t p) k)
  refine congrArg _ (funext fun a => Fin.ext ?_)
  have e := idx_rows t
  match a with
  | ⟨0, _⟩ => show win0_13.index t (0 : Fin 2) * 512 + 1 * p.val = win0_28.index t (0 : Fin 2) * 512 + p.val; omega
  | ⟨1, _⟩ => show win0_13.index t (1 : Fin 2) * 4 + 1 * k.val = k.val; omega

theorem blk4 (c : Dev nD) (t : Fin cfg0.N) (i : Fin 1024) (j : Fin 512) :
    iblk m c 4 t (ix2 i j) = V m c main_v1 (ix2 i j) := by
  show V m c main_v1 (((cfg0.win 4).blk t).view.emb (ix2 i j)) = V m c main_v1 (ix2 i j)
  refine congrArg _ (funext fun a => Fin.ext ?_)
  have e := idx_const2 t
  match a with
  | ⟨0, _⟩ => show win0_4.index t (0 : Fin 2) * 1024 + 1 * i.val = i.val; omega
  | ⟨1, _⟩ => show win0_4.index t (1 : Fin 2) * 512 + 1 * j.val = j.val; omega

theorem blk5 (c : Dev nD) (t : Fin cfg0.N) (i : Fin 768) (j : Fin 512) :
    iblk m c 5 t (ix2 i j) = V m c main_v3 (ix2 i j) := by
  show V m c main_v3 (((cfg0.win 5).blk t).view.emb (ix2 i j)) = V m c main_v3 (ix2 i j)
  refine congrArg _ (funext fun a => Fin.ext ?_)
  have e := idx_const2 t
  match a with
  | ⟨0, _⟩ => show win0_5.index t (0 : Fin 2) * 768 + 1 * i.val = i.val; omega
  | ⟨1, _⟩ => show win0_5.index t (1 : Fin 2) * 512 + 1 * j.val = j.val; omega

theorem blk6 (c : Dev nD) (t : Fin cfg0.N) (i : Fin 512) (j : Fin 512) :
    iblk m c 6 t (ix2 i j) = V m c main_v5 (ix2 i j) := by
  show V m c main_v5 (((cfg0.win 6).blk t).view.emb (ix2 i j)) = V m c main_v5 (ix2 i j)
  refine congrArg _ (funext fun a => Fin.ext ?_)
  have e := idx_const2 t
  match a with
  | ⟨0, _⟩ => show win0_6.index t (0 : Fin 2) * 512 + 1 * i.val = i.val; omega
  | ⟨1, _⟩ => show win0_6.index t (1 : Fin 2) * 512 + 1 * j.val = j.val; omega

theorem blk7 (c : Dev nD) (t : Fin cfg0.N) (i : Fin 640) (j : Fin 512) :
    iblk m c 7 t (ix2 i j) = V m c main_v7 (ix2 i j) := by
  show V m c main_v7 (((cfg0.win 7).blk t).view.emb (ix2 i j)) = V m c main_v7 (ix2 i j)
  refine congrArg _ (funext fun a => Fin.ext ?_)
  have e := idx_const2 t
  match a with
  | ⟨0, _⟩ => show win0_7.index t (0 : Fin 2) * 640 + 1 * i.val = i.val; omega
  | ⟨1, _⟩ => show win0_7.index t (1 : Fin 2) * 512 + 1 * j.val = j.val; omega

theorem blk16 (c : Dev nD) (t : Fin cfg0.N) (i : Fin 512) (j : Fin 256) :
    iblk m c 16 t (ix2 i j) = V m c main_v9 (ix2 i j) := by
  show V m c main_v9 (((cfg0.win 16).blk t).view.emb (ix2 i j)) = V m c main_v9 (ix2 i j)
  refine congrArg _ (funext fun a => Fin.ext ?_)
  have e := idx_const2 t
  match a with
  | ⟨0, _⟩ => show win0_16.index t (0 : Fin 2) * 512 + 1 * i.val = i.val; omega
  | ⟨1, _⟩ => show win0_16.index t (1 : Fin 2) * 256 + 1 * j.val = j.val; omega

theorem blk18 (c : Dev nD) (t : Fin cfg0.N) (i : Fin 512) (j : Fin 256) :
    iblk m c 18 t (ix2 i j) = V m c main_v11 (ix2 i j) := by
  show V m c main_v11 (((cfg0.win 18).blk t).view.emb (ix2 i j)) = V m c main_v11 (ix2 i j)
  refine congrArg _ (funext fun a => Fin.ext ?_)
  have e := idx_const2 t
  match a with
  | ⟨0, _⟩ => show win0_18.index t (0 : Fin 2) * 512 + 1 * i.val = i.val; omega
  | ⟨1, _⟩ => show win0_18.index t (1 : Fin 2) * 256 + 1 * j.val = j.val; omega

theorem blk20 (c : Dev nD) (t : Fin cfg0.N) (i : Fin 256) (j : Fin 256) :
    iblk m c 20 t (ix2 i j) = V m c main_v14 (ix2 i j) := by
  show V m c main_v14 (((cfg0.win 20).blk t).view.emb (ix2 i j)) = V m c main_v14 (ix2 i j)
  refine congrArg _ (funext fun a => Fin.ext ?_)
  have e := idx_const2 t
  match a with
  | ⟨0, _⟩ => show win0_20.index t (0 : Fin 2) * 256 + 1 * i.val = i.val; omega
  | ⟨1, _⟩ => show win0_20.index t (1 : Fin 2) * 256 + 1 * j.val = j.val; omega

theorem blk21 (c : Dev nD) (t : Fin cfg0.N) (i : Fin 256) (j : Fin 256) :
    iblk m c 21 t (ix2 i j) = V m c main_v16 (ix2 i j) := by
  show V m c main_v16 (((cfg0.win 21).blk t).view.emb (ix2 i j)) = V m c main_v16 (ix2 i j)
  refine congrArg _ (funext fun a => Fin.ext ?_)
  have e := idx_const2 t
  match a with
  | ⟨0, _⟩ => show win0_21.index t (0 : Fin 2) * 256 + 1 * i.val = i.val; omega
  | ⟨1, _⟩ => show win0_21.index t (1 : Fin 2) * 256 + 1 * j.val = j.val; omega

theorem blk22 (c : Dev nD) (t : Fin cfg0.N) (i : Fin 256) (j : Fin 256) :
    iblk m c 22 t (ix2 i j) = V m c main_v18 (ix2 i j) := by
  show V m c main_v18 (((cfg0.win 22).blk t).view.emb (ix2 i j)) = V m c main_v18 (ix2 i j)
  refine congrArg _ (funext fun a => Fin.ext ?_)
  have e := idx_const2 t
  match a with
  | ⟨0, _⟩ => show win0_22.index t (0 : Fin 2) * 256 + 1 * i.val = i.val; omega
  | ⟨1, _⟩ => show win0_22.index t (1 : Fin 2) * 256 + 1 * j.val = j.val; omega

theorem blk23 (c : Dev nD) (t : Fin cfg0.N) (i : Fin 256) (j : Fin 256) :
    iblk m c 23 t (ix2 i j) = V m c main_v20 (ix2 i j) := by
  show V m c main_v20 (((cfg0.win 23).blk t).view.emb (ix2 i j)) = V m c main_v20 (ix2 i j)
  refine congrArg _ (funext fun a => Fin.ext ?_)
  have e := idx_const2 t
  match a with
  | ⟨0, _⟩ => show win0_23.index t (0 : Fin 2) * 256 + 1 * i.val = i.val; omega
  | ⟨1, _⟩ => show win0_23.index t (1 : Fin 2) * 256 + 1 * j.val = j.val; omega

theorem blk24 (c : Dev nD) (t : Fin cfg0.N) (i : Fin 4) (j : Fin 256) :
    iblk m c 24 t (ix2 i j) = V m c main_v21 (ix2 i j) := by
  show V m c main_v21 (((cfg0.win 24).blk t).view.emb (ix2 i j)) = V m c main_v21 (ix2 i j)
  refine congrArg _ (funext fun a => Fin.ext ?_)
  have e := idx_const2 t
  match a with
  | ⟨0, _⟩ => show win0_24.index t (0 : Fin 2) * 4 + 1 * i.val = i.val; omega
  | ⟨1, _⟩ => show win0_24.index t (1 : Fin 2) * 256 + 1 * j.val = j.val; omega

theorem blk26 (c : Dev nD) (t : Fin cfg0.N) (i : Fin 256) (j : Fin 1) :
    iblk m c 26 t (ix2 i j) = V m c main_v23 (ix2 i j) := by
  show V m c main_v23 (((cfg0.win 26).blk t).view.emb (ix2 i j)) = V m c main_v23 (ix2 i j)
  refine congrArg _ (funext fun a => Fin.ext ?_)
  have e := idx_const2 t
  match a with
  | ⟨0, _⟩ => show win0_26.index t (0 : Fin 2) * 256 + 1 * i.val = i.val; omega
  | ⟨1, _⟩ => show win0_26.index t (1 : Fin 2) * 1 + 1 * j.val = j.val; omega

theorem blk8 (c : Dev nD) (t : Fin cfg0.N) (i : Fin 512) :
    iblk m c 8 t (ix1 i) = (m ((c : Thread nD τ).loc main_arg5)) (ix1 i) := by
  rw [← V_main_arg5 m c]
  show V m c main_arg5 (((cfg0.win 8).blk t).view.emb (ix1 i)) = V m c main_arg5 (ix1 i)
  refine congrArg _ (funext fun a => Fin.ext ?_)
  have e := idx_const1 t
  match a with
  | ⟨0, _⟩ => show win0_8.index t (0 : Fin 1) * 512 + 1 * i.val = i.val; omega

theorem blk9 (c : Dev nD) (t : Fin cfg0.N) (i : Fin 512) :
    iblk m c 9 t (ix1 i) = (m ((c : Thread nD τ).loc main_arg7)) (ix1 i) := by
  rw [← V_main_arg7 m c]
  show V m c main_arg7 (((cfg0.win 9).blk t).view.emb (ix1 i)) = V m c main_arg7 (ix1 i)
  refine congrArg _ (funext fun a => Fin.ext ?_)
  have e := idx_const1 t
  match a with
  | ⟨0, _⟩ => show win0_9.index t (0 : Fin 1) * 512 + 1 * i.val = i.val; omega

theorem blk10 (c : Dev nD) (t : Fin cfg0.N) (i : Fin 512) :
    iblk m c 10 t (ix1 i) = (m ((c : Thread nD τ).loc main_arg9)) (ix1 i) := by
  rw [← V_main_arg9 m c]
  show V m c main_arg9 (((cfg0.win 10).blk t).view.emb (ix1 i)) = V m c main_arg9 (ix1 i)
  refine congrArg _ (funext fun a => Fin.ext ?_)
  have e := idx_const1 t
  match a with
  | ⟨0, _⟩ => show win0_10.index t (0 : Fin 1) * 512 + 1 * i.val = i.val; omega

theorem blk11 (c : Dev nD) (t : Fin cfg0.N) (i : Fin 512) :
    iblk m c 11 t (ix1 i) = (m ((c : Thread nD τ).loc main_arg11)) (ix1 i) := by
  rw [← V_main_arg11 m c]
  show V m c main_arg11 (((cfg0.win 11).blk t).view.emb (ix1 i)) = V m c main_arg11 (ix1 i)
  refine congrArg _ (funext fun a => Fin.ext ?_)
  have e := idx_const1 t
  match a with
  | ⟨0, _⟩ => show win0_11.index t (0 : Fin 1) * 512 + 1 * i.val = i.val; omega

theorem blk14 (c : Dev nD) (t : Fin cfg0.N) (i : Fin 512) :
    iblk m c 14 t (ix1 i) = (m ((c : Thread nD τ).loc main_arg14)) (ix1 i) := by
  rw [← V_main_arg14 m c]
  show V m c main_arg14 (((cfg0.win 14).blk t).view.emb (ix1 i)) = V m c main_arg14 (ix1 i)
  refine congrArg _ (funext fun a => Fin.ext ?_)
  have e := idx_const1 t
  match a with
  | ⟨0, _⟩ => show win0_14.index t (0 : Fin 1) * 512 + 1 * i.val = i.val; omega

theorem blk15 (c : Dev nD) (t : Fin cfg0.N) (i : Fin 512) :
    iblk m c 15 t (ix1 i) = (m ((c : Thread nD τ).loc main_arg15)) (ix1 i) := by
  rw [← V_main_arg15 m c]
  show V m c main_arg15 (((cfg0.win 15).blk t).view.emb (ix1 i)) = V m c main_arg15 (ix1 i)
  refine congrArg _ (funext fun a => Fin.ext ?_)
  have e := idx_const1 t
  match a with
  | ⟨0, _⟩ => show win0_15.index t (0 : Fin 1) * 512 + 1 * i.val = i.val; omega

theorem blk17 (c : Dev nD) (t : Fin cfg0.N) (i : Fin 256) :
    iblk m c 17 t (ix1 i) = (m ((c : Thread nD τ).loc main_arg17)) (ix1 i) := by
  rw [← V_main_arg17 m c]
  show V m c main_arg17 (((cfg0.win 17).blk t).view.emb (ix1 i)) = V m c main_arg17 (ix1 i)
  refine congrArg _ (funext fun a => Fin.ext ?_)
  have e := idx_const1 t
  match a with
  | ⟨0, _⟩ => show win0_17.index t (0 : Fin 1) * 256 + 1 * i.val = i.val; omega

theorem blk19 (c : Dev nD) (t : Fin cfg0.N) (i : Fin 256) :
    iblk m c 19 t (ix1 i) = (m ((c : Thread nD τ).loc main_arg21)) (ix1 i) := by
  rw [← V_main_arg21 m c]
  show V m c main_arg21 (((cfg0.win 19).blk t).view.emb (ix1 i)) = V m c main_arg21 (ix1 i)
  refine congrArg _ (funext fun a => Fin.ext ?_)
  have e := idx_const1 t
  match a with
  | ⟨0, _⟩ => show win0_19.index t (0 : Fin 1) * 256 + 1 * i.val = i.val; omega

theorem blk25 (c : Dev nD) (t : Fin cfg0.N) (i : Fin 256) :
    iblk m c 25 t (ix1 i) = (m ((c : Thread nD τ).loc main_arg23)) (ix1 i) := by
  rw [← V_main_arg23 m c]
  show V m c main_arg23 (((cfg0.win 25).blk t).view.emb (ix1 i)) = V m c main_arg23 (ix1 i)
  refine congrArg _ (funext fun a => Fin.ext ?_)
  have e := idx_const1 t
  match a with
  | ⟨0, _⟩ => show win0_25.index t (0 : Fin 1) * 256 + 1 * i.val = i.val; omega

theorem blk27 (c : Dev nD) (t : Fin cfg0.N) (i : Fin 1) :
    iblk m c 27 t (ix1 i) = (m ((c : Thread nD τ).loc main_arg25)) (ix1 i) := by
  rw [← V_main_arg25 m c]
  show V m c main_arg25 (((cfg0.win 27).blk t).view.emb (ix1 i)) = V m c main_arg25 (ix1 i)
  refine congrArg _ (funext fun a => Fin.ext ?_)
  have e := idx_const1 t
  match a with
  | ⟨0, _⟩ => show win0_27.index t (0 : Fin 1) * 1 + 1 * i.val = i.val; omega

/-! ## The weight arrays as the host side leaves them before the blocked part -/

theorem h_main_v1 (c : Dev nD) : @Eq (FVec Ideal S1024x512 .bf16) (V m c main_v1)
    (truncf (F := Ideal) .bf16 (transpose S1024x512 [1, 0] (m ((c : Thread nD τ).loc main_arg4)) transposes_S512x1024_S1024x512_1_0) bitsLt_bf16_f32) := by
  dsimp only [V, hostOps0]; after_results <;> rfl

theorem h_main_v3 (c : Dev nD) : @Eq (FVec Ideal S768x512 .bf16) (V m c main_v3)
    (truncf (F := Ideal) .bf16 (transpose S768x512 [1, 0] (m ((c : Thread nD τ).loc main_arg6)) transposes_S512x768_S768x512_1_0) bitsLt_bf16_f32) := by
  dsimp only [V, hostOps0]; after_results <;> rfl

theorem h_main_v5 (c : Dev nD) : @Eq (FVec Ideal S512x512 .bf16) (V m c main_v5)
    (truncf (F := Ideal) .bf16 (transpose S512x512 [1, 0] (m ((c : Thread nD τ).loc main_arg8)) transposes_S512x512_S512x512_1_0) bitsLt_bf16_f32) := by
  dsimp only [V, hostOps0]; after_results <;> rfl

theorem h_main_v7 (c : Dev nD) : @Eq (FVec Ideal S640x512 .bf16) (V m c main_v7)
    (truncf (F := Ideal) .bf16 (transpose S640x512 [1, 0] (m ((c : Thread nD τ).loc main_arg10)) transposes_S512x640_S640x512_1_0) bitsLt_bf16_f32) := by
  dsimp only [V, hostOps0]; after_results <;> rfl

theorem h_main_v9 (c : Dev nD) : @Eq (FVec Ideal S512x256 .bf16) (V m c main_v9)
    (truncf (F := Ideal) .bf16 (transpose S512x256 [1, 0] (m ((c : Thread nD τ).loc main_arg16)) transposes_S256x512_S512x256_1_0) bitsLt_bf16_f32) := by
  dsimp only [V, hostOps0]; after_results <;> rfl

theorem h_main_v11 (c : Dev nD) : @Eq (FVec Ideal S512x256 .bf16) (V m c main_v11)
    (truncf (F := Ideal) .bf16 (transpose S512x256 [1, 0] (m ((c : Thread nD τ).loc main_arg20)) transposes_S256x512_S512x256_1_0) bitsLt_bf16_f32) := by
  dsimp only [V, hostOps0]; after_results <;> rfl

theorem h_main_v23 (c : Dev nD) : @Eq (FVec Ideal S256x1 .bf16) (V m c main_v23)
    (truncf (F := Ideal) .bf16 (transpose S256x1 [1, 0] (m ((c : Thread nD τ).loc main_arg24)) transposes_S1x256_S256x1_1_0) bitsLt_bf16_f32) := by
  dsimp only [V, hostOps0]; after_results <;> rfl

theorem h_main_v14 (c : Dev nD) : @Eq (FVec Ideal S256x256 .bf16) (V m c main_v14)
    (truncf (F := Ideal) .bf16 (extractStridedSlice S256x256 ![0, 0] (transpose S1028x256 [1, 0] (m ((c : Thread nD τ).loc main_arg22)) transposes_S256x1028_S1028x256_1_0) slices_S1028x256_S256x256_0_0) bitsLt_bf16_f32) := by
  dsimp only [V, hostOps0]; after_results <;> rfl

theorem h_main_v16 (c : Dev nD) : @Eq (FVec Ideal S256x256 .bf16) (V m c main_v16)
    (truncf (F := Ideal) .bf16 (extractStridedSlice S256x256 ![256, 0] (transpose S1028x256 [1, 0] (m ((c : Thread nD τ).loc main_arg22)) transposes_S256x1028_S1028x256_1_0) slices_S1028x256_S256x256_256_0) bitsLt_bf16_f32) := by
  dsimp only [V, hostOps0]; after_results <;> rfl

theorem h_main_v18 (c : Dev nD) : @Eq (FVec Ideal S256x256 .bf16) (V m c main_v18)
    (truncf (F := Ideal) .bf16 (extractStridedSlice S256x256 ![512, 0] (transpose S1028x256 [1, 0] (m ((c : Thread nD τ).loc main_arg22)) transposes_S256x1028_S1028x256_1_0) slices_S1028x256_S256x256_512_0) bitsLt_bf16_f32) := by
  dsimp only [V, hostOps0]; after_results <;> rfl

theorem h_main_v20 (c : Dev nD) : @Eq (FVec Ideal S256x256 .bf16) (V m c main_v20)
    (truncf (F := Ideal) .bf16 (extractStridedSlice S256x256 ![768, 0] (transpose S1028x256 [1, 0] (m ((c : Thread nD τ).loc main_arg22)) transposes_S256x1028_S1028x256_1_0) slices_S1028x256_S256x256_768_0) bitsLt_bf16_f32) := by
  dsimp only [V, hostOps0]; after_results <;> rfl

theorem h_main_v21 (c : Dev nD) : @Eq (FVec Ideal S4x256 .f32) (V m c main_v21)
    (extractStridedSlice (α := EReal) S4x256 ![1024, 0] (transpose S1028x256 [1, 0] (m ((c : Thread nD τ).loc main_arg22)) transposes_S256x1028_S1028x256_1_0) slices_S1028x256_S4x256_1024_0) := by
  dsimp only [V, hostOps0]; after_results <;> rfl

/-! ## The weights and the rows the body sees are the arguments' -/

/-- Block 20 at (s, o) is row `0 + s` of the transposed wide weights. -/
theorem wc20 (c : Dev nD) (t : Fin cfg0.N) (s o : Fin 256) :
    iblk m c 20 t (ix2 s o) = (m ((c : Thread nD τ).loc main_arg22)) (ix2 o (⟨256 * 0 + s.val, by have := s.isLt; omega⟩ : Fin 1028)) := by
  rw [blk20, h_main_v14]
  exact Cert.KHost.trSlice_apply _ _ 0 _ _ s o _ (by show 256 * 0 + s.val = 0 + s.val; omega)

/-- Block 21 at (s, o) is row `256 + s` of the transposed wide weights. -/
theorem wc21 (c : Dev nD) (t : Fin cfg0.N) (s o : Fin 256) :
    iblk m c 21 t (ix2 s o) = (m ((c : Thread nD τ).loc main_arg22)) (ix2 o (⟨256 * 1 + s.val, by have := s.isLt; omega⟩ : Fin 1028)) := by
  rw [blk21, h_main_v16]
  exact Cert.KHost.trSlice_apply _ _ 256 _ _ s o _ (by show 256 * 1 + s.val = 256 + s.val; omega)

/-- Block 22 at (s, o) is row `512 + s` of the transposed wide weights. -/
theorem wc22 (c : Dev nD) (t : Fin cfg0.N) (s o : Fin 256) :
    iblk m c 22 t (ix2 s o) = (m ((c : Thread nD τ).loc main_arg22)) (ix2 o (⟨256 * 2 + s.val, by have := s.isLt; omega⟩ : Fin 1028)) := by
  rw [blk22, h_main_v18]
  exact Cert.KHost.trSlice_apply _ _ 512 _ _ s o _ (by show 256 * 2 + s.val = 512 + s.val; omega)

/-- Block 23 at (s, o) is row `768 + s` of the transposed wide weights. -/
theorem wc23 (c : Dev nD) (t : Fin cfg0.N) (s o : Fin 256) :
    iblk m c 23 t (ix2 s o) = (m ((c : Thread nD τ).loc main_arg22)) (ix2 o (⟨256 * 3 + s.val, by have := s.isLt; omega⟩ : Fin 1028)) := by
  rw [blk23, h_main_v20]
  exact Cert.KHost.trSlice_apply _ _ 768 _ _ s o _ (by show 256 * 3 + s.val = 768 + s.val; omega)

theorem wp24 (c : Dev nD) (t : Fin cfg0.N) (j : Fin 4) (o : Fin 256) :
    iblk m c 24 t (ix2 j o) = (m ((c : Thread nD τ).loc main_arg22)) (ix2 o (⟨1024 + j.val, by have := j.isLt; omega⟩ : Fin 1028)) := by
  rw [blk24, h_main_v21]
  exact Cert.KHost.trSlice4_apply _ _ _ j o _ rfl

theorem wf26 (c : Dev nD) (t : Fin cfg0.N) (o : Fin 256) :
    iblk m c 26 t (ix2 o (0 : Fin 1)) = (m ((c : Thread nD τ).loc main_arg24)) (ix2 (0 : Fin 1) o) := by
  rw [blk26, h_main_v23]
  exact Cert.KHost.tr_apply _ _ _ o (0 : Fin 1)

set_option maxHeartbeats 2000000 in
/-- The weights as every block finds them are the specification's weights of the argument arrays. -/
theorem params_eq (c : Dev nD) (t : Fin cfg0.N) :
    Cert.KBody.blockParams (iblk m c 4 t) (iblk m c 5 t) (iblk m c 6 t) (iblk m c 7 t) (iblk m c 8 t) (iblk m c 9 t) (iblk m c 10 t) (iblk m c 11 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
      = Cert.Spec.params (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  unfold Cert.KBody.blockParams Cert.Spec.params
  congr 1
  · funext k o; rw [blk4, h_main_v1]; exact Cert.KHost.tr_apply _ _ _ k o
  · funext o; exact blk8 m c t o
  · funext k o; rw [blk5, h_main_v3]; exact Cert.KHost.tr_apply _ _ _ k o
  · funext o; exact blk9 m c t o
  · funext k o; rw [blk6, h_main_v5]; exact Cert.KHost.tr_apply _ _ _ k o
  · funext o; exact blk10 m c t o
  · funext k o; rw [blk7, h_main_v7]; exact Cert.KHost.tr_apply _ _ _ k o
  · funext o; exact blk11 m c t o
  · funext o; exact blk14 m c t o
  · funext o; exact blk15 m c t o
  · funext k o; rw [blk16, h_main_v9]; exact Cert.KHost.tr_apply _ _ _ k o
  · funext o; exact blk17 m c t o
  · funext k o; rw [blk18, h_main_v11]; exact Cert.KHost.tr_apply _ _ _ k o
  · funext o; exact blk19 m c t o
  · funext i s o
    fin_cases i
    · exact wc20 m c t s o
    · exact wc21 m c t s o
    · exact wc22 m c t s o
    · exact wc23 m c t s o
  · funext j o; exact wp24 m c t j o
  · funext o; exact blk25 m c t o
  · funext o; exact wf26 m c t o
  · exact blk27 m c t (0 : Fin 1)

/-- Row p of point t's block is row `grow t p` of the row-wise arguments. -/
theorem row_eq (c : Dev nD) (t : Fin cfg0.N) (p : Fin 512) :
    Cert.KBody.blockRow (iblk m c 0 t) (iblk m c 1 t) (iblk m c 2 t) (iblk m c 3 t) (iblk m c 12 t) (iblk m c 13 t) p = Cert.Spec.row (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (grow t p) := by
  unfold Cert.KBody.blockRow Cert.Spec.row
  congr 1
  · funext k; exact blk0 m c t p k
  · funext k; exact blk1 m c t p k
  · funext k; exact blk2 m c t p k
  · funext k; exact blk3 m c t p k
  · funext k; exact blk12 m c t p k
  · funext k; exact blk13 m c t p k

/-! ## What a point writes back, the cover, the array after the run -/

/-- The specification's array of the argument arrays as launched. -/
abbrev Gm (c : Dev nD) : S16384x1.Idx → EReal := Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- WHAT POINT t WRITES BACK is block t of the specification's array. -/
theorem flushed_eq (c : Dev nD) (t : Fin cfg0.N) :
    (dats m 0 c).flushed 28 t = ((cfg0.win 28).blk t).view.read (Elt Ideal) (Gm m c) := by
  rw [Cert.KernelIdeal.Value.flushed28]
  funext y
  obtain ⟨p, z, rfl⟩ : ∃ (p : Fin 512) (z : Fin 1), y = ix2 p z := ⟨y 0, y 1, eq_ix2 y⟩
  show out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (ix2 p z)
      = Gm m c (((cfg0.win 28).blk t).view.emb (ix2 p z))
  unfold out0_28
  rw [View.canon_unit_zero hz2]
  simp only [View.ld_unit_zero (S := S512) hz1, View.ld_unit_zero (S := S256) hz1, View.ld_unit_zero (S := S1) hz1,
    View.ld_unit_zero (S := S512x256) hz2, View.ld_unit_zero (S := S512x1024) hz2, View.ld_unit_zero (S := S1024x512) hz2,
    View.ld_unit_zero (S := S512x768) hz2, View.ld_unit_zero (S := S768x512) hz2, View.ld_unit_zero (S := S512x512) hz2,
    View.ld_unit_zero (S := S512x640) hz2, View.ld_unit_zero (S := S640x512) hz2, View.ld_unit_zero (S := S512x4) hz2,
    View.ld_unit_zero (S := S4x256) hz2, View.ld_unit_zero (S := S256x256) hz2, View.ld_unit_zero (S := S256x1) hz2]
  rw [Cert.KBody.tree_eq, Cert.KBody.body_apply, params_eq m c t, row_eq m c t p]
  show _ = Cert.Spec.rowOut _ (Cert.Spec.row _ _ _ _ _ _ ((((cfg0.win 28).blk t).view.emb (ix2 p z)) 0))
  have hg : grow t p = (((cfg0.win 28).blk t).view.emb (ix2 p z)) 0 :=
    Fin.ext (by show win0_28.index t (0 : Fin 2) * 512 + p.val = win0_28.index t (0 : Fin 2) * 512 + 1 * p.val; omega)
  rw [hg]

/-- An index of the result is in point t's block iff each coordinate is in the block's range on its axis. -/
theorem mem_blk (t : Fin cfg0.N) (i : S16384x1.Idx) :
    i ∈ ((cfg0.win 28).blk t).view.set ↔ ∀ a : Fin 2, win0_28.index t a * S512x1.size a ≤ (i a).val
      ∧ (i a).val < win0_28.index t a * S512x1.size a + S512x1.size a := by
  show i ∈ ((View.whole main_v24).slice (win0_28.rect t)).set ↔ _
  rw [View.set_slice_whole, Rect.mem_set_unit]
  exact Iff.rfl

/-- THE COVER: every index of the result is in the block of the point whose number is its row divided by 512. -/
theorem cover (i : S16384x1.Idx) :
    ∃ t : Fin cfg0.N, (cfg0.win 28).flush t = true ∧ i ∈ ((cfg0.win 28).blk t).view.set := by
  have hi0 : (i 0).val < 16384 := (i 0).isLt
  have hi1 : (i 1).val < 1 := (i 1).isLt
  obtain ⟨t, ht⟩ := idx_onto ⟨(i 0).val / 512, by omega⟩
  have q0 : win0_28.index t (0 : Fin 2) = (i 0).val / 512 := congrFun ht 0
  have q1 : win0_28.index t (1 : Fin 2) = 0 := congrFun ht 1
  refine ⟨t, flush0_28 t, ?_⟩
  rw [mem_blk]
  intro a
  match a with
  | ⟨0, _⟩ => show win0_28.index t (0 : Fin 2) * 512 ≤ (i 0).val ∧ (i 0).val < win0_28.index t (0 : Fin 2) * 512 + 512; omega
  | ⟨1, _⟩ => show win0_28.index t (1 : Fin 2) * 1 ≤ (i 1).val ∧ (i 1).val < win0_28.index t (1 : Fin 2) * 1 + 1; omega

/-- THE ARRAY after the run is the specification's. -/
theorem final (c : Dev nD) : (dats m 0 c).arrAt 28 cfg0.N = Gm m c :=
  (dats m 0 c).arrAt_eq_of_cover 28 (Gm m c) (fun t _ => flushed_eq m c t) cover

/-- The blocked program's run: it ends with the result at the specification's array of the arguments, the arguments unchanged. -/
theorem run : θ_run defs (onTc (τ := τ) (main (F := Ideal))) ⟨m, fun _ => 0, ρ⟩ fun r => ∀ c : Dev nD,
      r.2.mem ((c : Thread nD τ).loc main_v24) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (final m c), (h c).2⟩) (Cert.KernelIdeal.Value.run_blocks m ρ)

end Cert.KVal

end
-- ==== Proof.lean ====
/-
  Both programs compute, for every row of the inputs, one function on the extended reals: four feature vectors go each
  through a dense layer, two rectifiers and a layer normalisation; the normalised vectors are projected to queries and
  values; the four queries attend to one another through a softmax over four scores; the attended vectors, joined with
  the four predicted scores, go through a wide dense layer, a last dense layer and the logistic function. The blocked
  program computes it block of rows by block of rows in the specification's own forms; the other program's forms are
  brought to them by regrouping finite sums (the wide contraction split into four partial products and four scalar
  multiples, the sums and the maximum over the four heads unfolded) and by one law that needs more: its softmax weight is
  a quotient by the sum of the shifted exponentials, which is the product with the reciprocal because that sum is a
  positive real number, the scores being real numbers when every input is, as the precondition says.
-/
import proofs.«156941_j27530740367911_2_alg».proof.Defs
import proofs.«156941_j27530740367911_2_alg».proof.Proof.Gen.Kernel
import proofs.«156941_j27530740367911_2_alg».proof.Proof.Gen.KernelIdeal
import proofs.«156941_j27530740367911_2_alg».proof.Proof.Gen.ReferenceIdeal
import proofs.«156941_j27530740367911_2_alg».proof.Proof.Gen.Pre_finite_inputs
import proofs.«156941_j27530740367911_2_alg».proof.Proof.KernelFrameP
import proofs.«156941_j27530740367911_2_alg».proof.Proof.KernelIdealFrameP
import proofs.«156941_j27530740367911_2_alg».proof.Proof.RefRun
import proofs.«156941_j27530740367911_2_alg».proof.Proof.Spec
import proofs.«156941_j27530740367911_2_alg».proof.Proof.Laws
import proofs.«156941_j27530740367911_2_alg».proof.Proof.PreReal
import proofs.«156941_j27530740367911_2_alg».proof.Proof.RefBranch
import proofs.«156941_j27530740367911_2_alg».proof.Proof.RefHead
import proofs.«156941_j27530740367911_2_alg».proof.Proof.KVal

noncomputable section

namespace Cert.Proof

open Idealize.ShloMosaic Idealize.SL.Sem

/-- The three programs run and leave their arguments unchanged. -/
theorem frame_k : Cert.frame_Kernel := fun m ρ _ => Cert.Kernel.GenP.frame m ρ

theorem frame_ki : Cert.frame_KernelIdeal := fun m ρ _ => Cert.KernelIdeal.GenP.frame m ρ

theorem frame_r : Cert.frame_ReferenceIdeal := fun m ρ _ =>
  (θ_run Cert.ReferenceIdeal.defs _ _).mono (fun _ h c => (h c).2) (Cert.RefRun.run (F := Ideal) m ρ)

/-- On the extended reals both programs end at the specification's result array of their (equal) arguments: the
    blocked program by its own run, the other program because its result is the specification's whenever the weights
    and every row of inputs are real numbers, which the precondition gives. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    Cert.KVal.run m ρ, ?_⟩
  refine (θ_run Cert.ReferenceIdeal.defs _ _).mono (fun _ h c => ⟨(h c).1.trans ?_, (h c).2⟩)
    (Cert.RefRun.run (F := Ideal) m' ρ')
  obtain ⟨a0, a1, a2, a3, a4, a5, a6, a7, a8, a9, a10, a11, a12, a13, a14, a15, a16, a17, a18, a19, a20, a21, a22, a23, a24, a25⟩ := hagree c
  simp only [a0, a1, a2, a3, a4, a5, a6, a7, a8, a9, a10, a11, a12, a13, a14, a15, a16, a17, a20, a21, a22, a23, a24, a25]
  refine funext fun i => ?_
  exact Cert.RefHead.result_eq
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    (m ((c.tc : Thread Cert.KernelIdeal.nD Cert.KernelIdeal.τ).loc Cert.KernelIdeal.main_arg16)) (m ((c.tc : Thread Cert.KernelIdeal.nD Cert.KernelIdeal.τ).loc Cert.KernelIdeal.main_arg17))
    (m ((c.tc : Thread Cert.KernelIdeal.nD Cert.KernelIdeal.τ).loc Cert.KernelIdeal.main_arg20)) (m ((c.tc : Thread Cert.KernelIdeal.nD Cert.KernelIdeal.τ).loc Cert.KernelIdeal.main_arg21))
    (m ((c.tc : Thread Cert.KernelIdeal.nD Cert.KernelIdeal.τ).loc Cert.KernelIdeal.main_arg22)) (m ((c.tc : Thread Cert.KernelIdeal.nD Cert.KernelIdeal.τ).loc Cert.KernelIdeal.main_arg23))
    (m ((c.tc : Thread Cert.KernelIdeal.nD Cert.KernelIdeal.τ).loc Cert.KernelIdeal.main_arg24)) (m ((c.tc : Thread Cert.KernelIdeal.nD Cert.KernelIdeal.τ).loc Cert.KernelIdeal.main_arg25))
    (fun b j h => Cert.RefBranch.hidden_eq
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      (m ((c.tc : Thread Cert.KernelIdeal.nD Cert.KernelIdeal.τ).loc Cert.KernelIdeal.main_arg24)) (m ((c.tc : Thread Cert.KernelIdeal.nD Cert.KernelIdeal.τ).loc Cert.KernelIdeal.main_arg25)) b j h)
    (Cert.PreReal.params_real m hpre c) (fun b => Cert.PreReal.row_real m hpre c b) i

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
